-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S1x256x1024 : Shape := ⟨3, ![1, 256, 1024]⟩
abbrev S1x512x1024 : Shape := ⟨3, ![1, 512, 1024]⟩
abbrev S256x16 : Shape := ⟨2, ![256, 16]⟩
abbrev S256x1024 : Shape := ⟨2, ![256, 1024]⟩
abbrev S256x64 : Shape := ⟨2, ![256, 64]⟩
abbrev S512x64 : Shape := ⟨2, ![512, 64]⟩
abbrev S256x512 : Shape := ⟨2, ![256, 512]⟩
abbrev S256x1 : Shape := ⟨2, ![256, 1]⟩
abbrev S256 : Shape := ⟨1, ![256]⟩

abbrev nBuf : Space → Nat
  | .hbm => 30
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S2x2048x1024, .f32⟩
  | .hbm, ⟨25, _⟩ => ⟨S4096x1024, .f32⟩
  | .hbm, ⟨26, _⟩ => ⟨S2x2048x1024, .f32⟩
  | .hbm, ⟨27, _⟩ => ⟨S4096x1024, .f32⟩
  | .hbm, ⟨28, _⟩ => ⟨S2x2048x1024, .f32⟩
  | .hbm, ⟨29, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1024x1024, .bf16⟩
  | .local _ .vmem, ⟨25, _⟩ => ⟨S1x1024, .f32⟩
  | .local _ .vmem, ⟨26, _⟩ => ⟨S1x256x1024, .f32⟩
  | .local _ .vmem, ⟨27, _⟩ => ⟨S1x256x1024, .f32⟩
  | .local _ .vmem, ⟨28, _⟩ => ⟨S256x16, .f32⟩
  | .local _ .vmem, ⟨29, _⟩ => ⟨S256x16, .f32⟩
  | .local _ .vmem, ⟨30, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc3_scratch0 : Ref sig .tc := ⟨.vmem, 28, rfl⟩
abbrev cc3_scratch1 : Ref sig .tc := ⟨.vmem, 29, rfl⟩
abbrev cc3_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 8, 4], ![false, false, false]⟩

def k3_cond2 (i : grid3.Coords) : BitVec 1 :=
  let arg2 : BitVec 32 := BitVec.ofNat 32 (i 2).val
  let c3_i32 : BitVec 32 := 3#32
  let v572 : BitVec 1 := Scalar.cmpi .eq arg2 c3_i32
  let v573 : BitVec 32 := Scalar.extui v572
  let c0_i32_250 : BitVec 32 := 0#32
  let v574 : BitVec 1 := Scalar.cmpi .ne v573 c0_i32_250
  v574

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  slices_S256x1024_o0_0_S256x64 : S256x1024.Slices ![0, 0] S256x64
  slices_S512x1024_o0_0_S512x64 : S512x1024.Slices ![0, 0] S512x64
  inb_S256x16_S256x1_0_0 : ∀ a, (![0, 0] : Fin 2 → Nat) a + S256x1.size a ≤ S256x16.size a
  h_S256x1 : 0 < S256x1.numel
  reduces_S256x512_S256 : S256x512.Reduces [1] S256
  shapeCasts_S256_S256x1 : S256.ShapeCasts S256x1
  broadcasts_S256x1_S256x512 : S256x1.Broadcasts S256x512
  shapeCasts_S256x1_S256x1 : S256x1.ShapeCasts S256x1
  inb_S256x1024_S256x64_0_0 : ∀ a, (![0, 0] : Fin 2 → Nat) a + S256x64.size a ≤ S256x1024.size a
  h_S256x64 : 0 < S256x64.numel
  broadcasts_S256x1_S256x64 : S256x1.Broadcasts S256x64
  shapeCasts_S256x64_S256x64 : S256x64.ShapeCasts S256x64
  slices_S256x1024_o0_64_S256x64 : S256x1024.Slices ![0, 64] S256x64
  slices_S512x1024_o0_64_S512x64 : S512x1024.Slices ![0, 64] S512x64
  inb_S256x16_S256x1_0_1 : ∀ a, (![0, 1] : Fin 2 → Nat) a + S256x1.size a ≤ S256x16.size a
  inb_S256x1024_S256x64_0_64 : ∀ a, (![0, 64] : Fin 2 → Nat) a + S256x64.size a ≤ S256x1024.size a
  slices_S256x1024_o0_128_S256x64 : S256x1024.Slices ![0, 128] S256x64
  slices_S512x1024_o0_128_S512x64 : S512x1024.Slices ![0, 128] S512x64
  inb_S256x16_S256x1_0_2 : ∀ a, (![0, 2] : Fin 2 → Nat) a + S256x1.size a ≤ S256x16.size a
  inb_S256x1024_S256x64_0_128 : ∀ a, (![0, 128] : Fin 2 → Nat) a + S256x64.size a ≤ S256x1024.size a
  slices_S256x1024_o0_192_S256x64 : S256x1024.Slices ![0, 192] S256x64
  slices_S512x1024_o0_192_S512x64 : S512x1024.Slices ![0, 192] S512x64
  inb_S256x16_S256x1_0_3 : ∀ a, (![0, 3] : Fin 2 → Nat) a + S256x1.size a ≤ S256x16.size a
  inb_S256x1024_S256x64_0_192 : ∀ a, (![0, 192] : Fin 2 → Nat) a + S256x64.size a ≤ S256x1024.size a
  slices_S256x1024_o0_256_S256x64 : S256x1024.Slices ![0, 256] S256x64
  slices_S512x1024_o0_256_S512x64 : S512x1024.Slices ![0, 256] S512x64
  inb_S256x16_S256x1_0_4 : ∀ a, (![0, 4] : Fin 2 → Nat) a + S256x1.size a ≤ S256x16.size a
  inb_S256x1024_S256x64_0_256 : ∀ a, (![0, 256] : Fin 2 → Nat) a + S256x64.size a ≤ S256x1024.size a
  slices_S256x1024_o0_320_S256x64 : S256x1024.Slices ![0, 320] S256x64
  slices_S512x1024_o0_320_S512x64 : S512x1024.Slices ![0, 320] S512x64
  inb_S256x16_S256x1_0_5 : ∀ a, (![0, 5] : Fin 2 → Nat) a + S256x1.size a ≤ S256x16.size a
  inb_S256x1024_S256x64_0_320 : ∀ a, (![0, 320] : Fin 2 → Nat) a + S256x64.size a ≤ S256x1024.size a
  slices_S256x1024_o0_384_S256x64 : S256x1024.Slices ![0, 384] S256x64
  slices_S512x1024_o0_384_S512x64 : S512x1024.Slices ![0, 384] S512x64
  inb_S256x16_S256x1_0_6 : ∀ a, (![0, 6] : Fin 2 → Nat) a + S256x1.size a ≤ S256x16.size a
  inb_S256x1024_S256x64_0_384 : ∀ a, (![0, 384] : Fin 2 → Nat) a + S256x64.size a ≤ S256x1024.size a
  slices_S256x1024_o0_448_S256x64 : S256x1024.Slices ![0, 448] S256x64
  slices_S512x1024_o0_448_S512x64 : S512x1024.Slices ![0, 448] S512x64
  inb_S256x16_S256x1_0_7 : ∀ a, (![0, 7] : Fin 2 → Nat) a + S256x1.size a ≤ S256x16.size a
  inb_S256x1024_S256x64_0_448 : ∀ a, (![0, 448] : Fin 2 → Nat) a + S256x64.size a ≤ S256x1024.size a
  slices_S256x1024_o0_512_S256x64 : S256x1024.Slices ![0, 512] S256x64
  slices_S512x1024_o0_512_S512x64 : S512x1024.Slices ![0, 512] S512x64
  inb_S256x16_S256x1_0_8 : ∀ a, (![0, 8] : Fin 2 → Nat) a + S256x1.size a ≤ S256x16.size a
  inb_S256x1024_S256x64_0_512 : ∀ a, (![0, 512] : Fin 2 → Nat) a + S256x64.size a ≤ S256x1024.size a
  slices_S256x1024_o0_576_S256x64 : S256x1024.Slices ![0, 576] S256x64
  slices_S512x1024_o0_576_S512x64 : S512x1024.Slices ![0, 576] S512x64
  inb_S256x16_S256x1_0_9 : ∀ a, (![0, 9] : Fin 2 → Nat) a + S256x1.size a ≤ S256x16.size a
  inb_S256x1024_S256x64_0_576 : ∀ a, (![0, 576] : Fin 2 → Nat) a + S256x64.size a ≤ S256x1024.size a
  slices_S256x1024_o0_640_S256x64 : S256x1024.Slices ![0, 640] S256x64
  slices_S512x1024_o0_640_S512x64 : S512x1024.Slices ![0, 640] S512x64
  inb_S256x16_S256x1_0_10 : ∀ a, (![0, 10] : Fin 2 → Nat) a + S256x1.size a ≤ S256x16.size a
  inb_S256x1024_S256x64_0_640 : ∀ a, (![0, 640] : Fin 2 → Nat) a + S256x64.size a ≤ S256x1024.size a
  slices_S256x1024_o0_704_S256x64 : S256x1024.Slices ![0, 704] S256x64
  slices_S512x1024_o0_704_S512x64 : S512x1024.Slices ![0, 704] S512x64
  inb_S256x16_S256x1_0_11 : ∀ a, (![0, 11] : Fin 2 → Nat) a + S256x1.size a ≤ S256x16.size a
  inb_S256x1024_S256x64_0_704 : ∀ a, (![0, 704] : Fin 2 → Nat) a + S256x64.size a ≤ S256x1024.size a
  slices_S256x1024_o0_768_S256x64 : S256x1024.Slices ![0, 768] S256x64
  slices_S512x1024_o0_768_S512x64 : S512x1024.Slices ![0, 768] S512x64
  inb_S256x16_S256x1_0_12 : ∀ a, (![0, 12] : Fin 2 → Nat) a + S256x1.size a ≤ S256x16.size a
  inb_S256x1024_S256x64_0_768 : ∀ a, (![0, 768] : Fin 2 → Nat) a + S256x64.size a ≤ S256x1024.size a
  slices_S256x1024_o0_832_S256x64 : S256x1024.Slices ![0, 832] S256x64
  slices_S512x1024_o0_832_S512x64 : S512x1024.Slices ![0, 832] S512x64
  inb_S256x16_S256x1_0_13 : ∀ a, (![0, 13] : Fin 2 → Nat) a + S256x1.size a ≤ S256x16.size a
  inb_S256x1024_S256x64_0_832 : ∀ a, (![0, 832] : Fin 2 → Nat) a + S256x64.size a ≤ S256x1024.size a
  slices_S256x1024_o0_896_S256x64 : S256x1024.Slices ![0, 896] S256x64
  slices_S512x1024_o0_896_S512x64 : S512x1024.Slices ![0, 896] S512x64
  inb_S256x16_S256x1_0_14 : ∀ a, (![0, 14] : Fin 2 → Nat) a + S256x1.size a ≤ S256x16.size a
  inb_S256x1024_S256x64_0_896 : ∀ a, (![0, 896] : Fin 2 → Nat) a + S256x64.size a ≤ S256x1024.size a
  slices_S256x1024_o0_960_S256x64 : S256x1024.Slices ![0, 960] S256x64
  slices_S512x1024_o0_960_S512x64 : S512x1024.Slices ![0, 960] S512x64
  inb_S256x16_S256x1_0_15 : ∀ a, (![0, 15] : Fin 2 → Nat) a + S256x1.size a ≤ S256x16.size a
  inb_S256x1024_S256x64_0_960 : ∀ a, (![0, 960] : Fin 2 → Nat) a + S256x64.size a ≤ S256x1024.size a
  slices_S256x16_o0_0_S256x1 : S256x16.Slices ![0, 0] S256x1
  slices_S256x16_o0_1_S256x1 : S256x16.Slices ![0, 1] S256x1
  slices_S256x16_o0_2_S256x1 : S256x16.Slices ![0, 2] S256x1
  slices_S256x16_o0_3_S256x1 : S256x16.Slices ![0, 3] S256x1
  slices_S256x16_o0_4_S256x1 : S256x16.Slices ![0, 4] S256x1
  slices_S256x16_o0_5_S256x1 : S256x16.Slices ![0, 5] S256x1
  slices_S256x16_o0_6_S256x1 : S256x16.Slices ![0, 6] S256x1
  slices_S256x16_o0_7_S256x1 : S256x16.Slices ![0, 7] S256x1
  slices_S256x16_o0_8_S256x1 : S256x16.Slices ![0, 8] S256x1
  slices_S256x16_o0_9_S256x1 : S256x16.Slices ![0, 9] S256x1
  slices_S256x16_o0_10_S256x1 : S256x16.Slices ![0, 10] S256x1
  slices_S256x16_o0_11_S256x1 : S256x16.Slices ![0, 11] S256x1
  slices_S256x16_o0_12_S256x1 : S256x16.Slices ![0, 12] S256x1
  slices_S256x16_o0_13_S256x1 : S256x16.Slices ![0, 13] S256x1
  slices_S256x16_o0_14_S256x1 : S256x16.Slices ![0, 14] S256x1
  slices_S256x16_o0_15_S256x1 : S256x16.Slices ![0, 15] S256x1
  broadcasts_S1x1024_S256x1024 : S1x1024.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x64_S512x64_S256x512_1_1_0_0_n_n_wf : DotDims.WF S256x64 S512x64 S256x512 [1] [1] [0] [0] [] []
  dot_S256x512_S512x64_S256x64_1_0_0_1_n_n_wf : DotDims.WF S256x512 S512x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S2x2048x1024.size a
  hwx3_0 : ∀ i : grid3.Coords, EltTy.bits .f32 = 32 ∨ (Rect.block (s := S2x2048x1024) S1x256x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x1024.size a ≤ S2x2048x1024.size a
  hwx3_1 : ∀ i : grid3.Coords, EltTy.bits .f32 = 32 ∨ (Rect.block (s := S2x2048x1024) S1x512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S2x2048x1024.size a
  hwx3_2 : ∀ i : grid3.Coords, EltTy.bits .f32 = 32 ∨ (Rect.block (s := S2x2048x1024) S1x512x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x1024.size a ≤ S2x2048x1024.size a
  hwx3_5 : ∀ i : grid3.Coords, EltTy.bits .f32 = 32 ∨ (Rect.block (s := S2x2048x1024) S1x256x1024.size (cc3_transform_5 i) (hinb3_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v18) S1x256x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsLinFrame.lean ====
/-
  The three linear-projection kernels (custom_calls 0, 1, 2) as pipelines, by hand and at any float instance:
  for each of them the block of a window at a grid point, what the body leaves in the output window's staging
  buffer (one store of the whole block: the payload of the three input blocks), the body's triple, the proof
  data of the pipeline at the contents `V` the region finds, and the body obligation at every point.
-/
import proofs.«161242_j13649406066792_2_alg».proof.Proof.Gen.Kernel.Launch
import proofs.«161242_j13649406066792_2_alg».proof.Proof.Gen.Kernel.Skeleton
import proofs.«161242_j13649406066792_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # The whole-buffer rectangles the bodies load and store -/

/-- The whole 512 × 1024 block of rows, the whole 1024 × 1024 weights, the whole 1 × 1024 bias row. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- One store of the whole block covers the block (its one piece tiles it, checked by evaluation). -/
theorem coverX (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! # REGION 0: custom_call 0, `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved), for any proof data whose array is `V`'s and whose body leaves the block in
    place; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- Window 3's staging buffer after the body, from the three input windows' blocks: its one store, of the
    payload of the three whole loads, into the whole block. -/
def out0_3 (x0 : Vec F S512x1024 .f32) (x1 : Vec F S1024x1024 .f32) (x2 : Vec F S1x1024 .f32) : Vec F S512x1024 .f32 :=
  View.canon [⟨rX, k0_pay1 (View.ld x0 rX) (View.ld x1 rW) (View.ld x2 rB)⟩]

/-! ## The body's triple -/

set_option maxHeartbeats 1000000 in
/-- The kernel body on whole staging memrefs, the inputs' at contents `x0`, `x1`, `x2` and the output's at
    anything, runs to the continuation holding the inputs' as they were and the output's at `out0_3` of them. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: custom_call 1, `cc1__linear_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched,
    the block index has not moved), for any proof data whose array is `V`'s and whose body leaves the block in
    place; the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Window 3's staging buffer after the body, from the three input windows' blocks: its one store, of the
    payload of the three whole loads, into the whole block. -/
def out1_3 (x0 : Vec F S512x1024 .f32) (x1 : Vec F S1024x1024 .f32) (x2 : Vec F S1x1024 .f32) : Vec F S512x1024 .f32 :=
  View.canon [⟨rX, k1_pay1 (View.ld x0 rX) (View.ld x1 rW) (View.ld x2 rB)⟩]

/-! ## The body's triple -/

set_option maxHeartbeats 1000000 in
/-- The kernel body on whole staging memrefs, the inputs' at contents `x0`, `x1`, `x2` and the output's at
    anything, runs to the continuation holding the inputs' as they were and the output's at `out1_3` of them. -/
theorem sound_kernel1 (c : Dev nD) (E : Set ℕ) (i : grid1.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # REGION 2: custom_call 2, `cc2__linear_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched,
    the block index has not moved), for any proof data whose array is `V`'s and whose body leaves the block in
    place; the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- Window 3's staging buffer after the body, from the three input windows' blocks: its one store, of the
    payload of the three whole loads, into the whole block. -/
def out2_3 (x0 : Vec F S512x1024 .f32) (x1 : Vec F S1024x1024 .f32) (x2 : Vec F S1x1024 .f32) : Vec F S512x1024 .f32 :=
  View.canon [⟨rX, k2_pay1 (View.ld x0 rX) (View.ld x1 rW) (View.ld x2 rB)⟩]

/-! ## The body's triple -/

set_option maxHeartbeats 1000000 in
/-- The kernel body on whole staging memrefs, the inputs' at contents `x0`, `x1`, `x2` and the output's at
    anything, runs to the continuation holding the inputs' as they were and the output's at `out2_3` of them. -/
theorem sound_kernel2 (c : Dev nD) (E : Set ℕ) (i : grid2.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsAttnFrame.Base.lean ====
/-
  The attention call's grid points, case by case: the two conditions of the body (first key tile, last key tile) in
  closed form over the 64 points, where the output window is idle, the staging and scratch memrefs the body is
  called with, and the region invariant with the three carried scratch buffers split out of the scoped rest.
-/
import proofs.«161242_j13649406066792_2_alg».proof.Proof.Gen.Kernel.Launch
import proofs.«161242_j13649406066792_2_alg».proof.Proof.Gen.Kernel.Skeleton
import proofs.«161242_j13649406066792_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The body's first condition: the key-tile coordinate is 0 (the point is a first tile: the state is reset). -/
abbrev cond3_0 (i : grid3.Coords) : Prop := (Scalar.cmpi .ne (Scalar.extui (Scalar.cmpi .eq (BitVec.ofNat 32 (i 2).val) 0#32)) 0#32) = 1#1
/-- It holds at the points ≡ 0 (mod 4): the key-tile axis is innermost, of extent 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The body's second condition: the key-tile coordinate is 3 (the point is a last tile: the block is written out). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last tile the output window is idle and its block is not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- At a last tile it is live. -/
theorem liveAt3_5 : ∀ t : Fin cfg3.N, cond3_1 (grid3.coords t) → cfg3.idle 5 (grid3.coords t) = false := by decide +kernel

/-! ## The memrefs the body is called with -/

abbrev ms3_0 (t : Fin cfg3.N) : Memref sig .tc .vmem S1x256x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x256x1024 .f32 := win3_5.stage (cfg3.slots t 5)
abbrev hs3_5 (t : Fin cfg3.N) : (ms3_5 t).IsWhole := hstage3_5 ((cfg3.slots t 5).cast nbuf3_5)
/-- The three scratch operands: the running maxima, the partition sums, the weighted sums. -/
abbrev scM3_0 : Memref sig .tc .vmem S256x16 .f32 := Memref.whole cc3_scratch0
abbrev scM3_1 : Memref sig .tc .vmem S256x16 .f32 := Memref.whole cc3_scratch1
abbrev scM3_2 : Memref sig .tc .vmem S256x1024 .f32 := Memref.whole cc3_scratch2
abbrev VS3_0 : View sig .tc .vmem S256x16 .f32 := scM3_0.view
abbrev VS3_1 : View sig .tc .vmem S256x16 .f32 := scM3_1.view
abbrev VS3_2 : View sig .tc .vmem S256x1024 .f32 := scM3_2.view
/-- One staging buffer of the output window, through which its contents are stated. -/
abbrev VO3_5 : View sig .tc .vmem S1x256x1024 .f32 := (win3_5.stage ⟨0, by decide⟩).view

/-- The scratch buffers' references. -/
abbrev scR3 : List (Ref sig .tc) := [cc3_scratch0, cc3_scratch1, cc3_scratch2]

/-- The scoped buffers that are neither a staging buffer of this call nor one of its three scratch buffers. -/
abbrev restBut3 (c : Dev nD) : sProp 𝕄 :=
  Pipeline.scopedRestBut (Ix := Unit) (Name := ℕ) (U := UR sig nD τ) (Lvl := ℕ) (Val := Elt F) spec3 c scR3

/-- The scoped rest with the three scratch buffers split out, each a whole memref owned at some contents. -/
theorem scopedRest3_split (c : Dev nD) :
    (Pipeline.scopedRest (Ix := Unit) (Name := ℕ) (U := UR sig nD τ) (Lvl := ℕ) (Val := Elt F) spec3 c : sProp 𝕄)
      = iprop(((∃ d, owns (c : Thread nD τ) scM3_0 fullShare d) ∗ (∃ d, owns (c : Thread nD τ) scM3_1 fullShare d)
          ∗ (∃ d, owns (c : Thread nD τ) scM3_2 fullShare d)) ∗ restBut3 (F := F) c) := by
  rw [Pipeline.scopedRest_split_of_list spec3 c scR3 (by decide) (by decide)]
  simp only [scM3_0, scM3_1, scM3_2, owns_whole, bigSepL_cons_cons, bigSepL_singleton]; try rfl

end Cert.Kernel.Hand

end
-- ==== Proof.BitsAttnFrame.RunA.lean ====
/-
  The attention body at a FIRST key tile (the state is reset, then updated; nothing is written out): on whole memrefs, the five inputs at their blocks, the scratch at anything,
  the body runs to a state where each scratch buffer (and at a last tile the output block) holds a list of stored pieces,
  last first; the lists are what the run finds.
-/
import proofs.«161242_j13649406066792_2_alg».proof.Proof.BitsAttnFrame.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun3_A (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) :
    Σ' (L5 : List (View.Piece (Elt F) S1x256x1024 .f32)) (LS0 : List (View.Piece (Elt F) S256x16 .f32)) (LS1 : List (View.Piece (Elt F) S256x16 .f32)), { LS2 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.BitsAttnFrame.RunB.lean ====
/-
  The attention body at a MIDDLE key tile (the state is updated; nothing is written out): on whole memrefs, the five inputs at their blocks, the scratch at the state before the point,
  the body runs to a state where each scratch buffer (and at a last tile the output block) holds a list of stored pieces,
  last first; the lists are what the run finds.
-/
import proofs.«161242_j13649406066792_2_alg».proof.Proof.BitsAttnFrame.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun3_B (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) :
    Σ' (L5 : List (View.Piece (Elt F) S1x256x1024 .f32)) (LS0 : List (View.Piece (Elt F) S256x16 .f32)) (LS1 : List (View.Piece (Elt F) S256x16 .f32)), { LS2 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.BitsAttnFrame.RunC.lean ====
/-
  The attention body at a LAST key tile (the state is updated, the weighted sums are divided by the partition sums and the block is written out): on whole memrefs, the five inputs at their blocks, the scratch at the state before the point,
  the body runs to a state where each scratch buffer (and at a last tile the output block) holds a list of stored pieces,
  last first; the lists are what the run finds.
-/
import proofs.«161242_j13649406066792_2_alg».proof.Proof.BitsAttnFrame.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun3_C (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) :
    Σ' (L5 : List (View.Piece (Elt F) S1x256x1024 .f32)) (LS0 : List (View.Piece (Elt F) S256x16 .f32)) (LS1 : List (View.Piece (Elt F) S256x16 .f32)), { LS2 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.BitsAttnFrame.State.lean ====
/-
  What one grid point of the attention call leaves behind, and the carried state point by point.

  For each of the three cases of a point (first, middle, last key tile) the body's run (AttnFrame/Run·) finds, for each
  scratch buffer, the list of pieces it stored; those lists cover the buffer (columns per head: 16 of [256, 1] for the
  maxima and the partition sums, 16 of [256, 64] for the weighted sums), so what the buffer holds afterwards is the
  pieces read back, whatever it held before: `sout3_κ_j`. At a last tile the output block is one whole piece: `out3_C_5`.
  The state after point `n` (`stAfter3`) is then a recursion over the points: a first tile starts afresh from the
  point's blocks, a middle or last tile continues from the state after the point before.
-/
import proofs.«161242_j13649406066792_2_alg».proof.Proof.BitsAttnFrame.RunA
import proofs.«161242_j13649406066792_2_alg».proof.Proof.BitsAttnFrame.RunB
import proofs.«161242_j13649406066792_2_alg».proof.Proof.BitsAttnFrame.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The carried state: the running maxima and the partition sums, per row and head, and the weighted sums, per row and
    model column. -/
abbrev St3 : Type := Vec F S256x16 .f32 × Vec F S256x16 .f32 × Vec F S256x1024 .f32

/-! ## What each case leaves in the scratch buffers and in the output block -/

/-- Case A's pieces for scratch buffer 0 cover it: they tile it in blocks of `S256x1`. -/
theorem scover3_A_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) (y : S256x16.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.1 S256x1.size (by sl_kernel_rfl) y

/-- What case A leaves in scratch buffer 0: its pieces read back. -/
def sout3_A_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) : Vec F S256x16 .f32 :=
  VS3_0.read (Elt F) (VS3_0.writes (Elt F) VS3_0.junk (kernelRun3_A c i arg3 harg3 arg4 harg4 arg5 harg5 arg6 harg6 arg7 harg7 arg8 harg8 arg9 harg9 arg10 harg10 arg11 harg11 hc0 hc1 x0 x1 x2 x3 x4).2.1)

/-- Case A's pieces for scratch buffer 1 cover it: they tile it in blocks of `S256x1`. -/
theorem scover3_A_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) (y : S256x16.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.1 S256x1.size (by sl_kernel_rfl) y

/-- What case A leaves in scratch buffer 1: its pieces read back. -/
def sout3_A_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) : Vec F S256x16 .f32 :=
  VS3_1.read (Elt F) (VS3_1.writes (Elt F) VS3_1.junk (kernelRun3_A c i arg3 harg3 arg4 harg4 arg5 harg5 arg6 harg6 arg7 harg7 arg8 harg8 arg9 harg9 arg10 harg10 arg11 harg11 hc0 hc1 x0 x1 x2 x3 x4).2.2.1)

/-- Case A's pieces for scratch buffer 2 cover it: they tile it in blocks of `S256x64`. -/
theorem scover3_A_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) (y : S256x1024.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.2.1 S256x64.size (by sl_kernel_rfl) y

/-- What case A leaves in scratch buffer 2: its pieces read back. -/
def sout3_A_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) : Vec F S256x1024 .f32 :=
  VS3_2.read (Elt F) (VS3_2.writes (Elt F) VS3_2.junk (kernelRun3_A c i arg3 harg3 arg4 harg4 arg5 harg5 arg6 harg6 arg7 harg7 arg8 harg8 arg9 harg9 arg10 harg10 arg11 harg11 hc0 hc1 x0 x1 x2 x3 x4).2.2.2.1)

/-- Case B's pieces for scratch buffer 0 cover it: they tile it in blocks of `S256x1`. -/
theorem scover3_B_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.1 S256x1.size (by sl_kernel_rfl) y

/-- What case B leaves in scratch buffer 0: its pieces read back. -/
def sout3_B_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_0.read (Elt F) (VS3_0.writes (Elt F) VS3_0.junk (kernelRun3_B c i arg3 harg3 arg4 harg4 arg5 harg5 arg6 harg6 arg7 harg7 arg8 harg8 arg9 harg9 arg10 harg10 arg11 harg11 hc0 hc1 x0 x1 x2 x3 x4 xs0 xs1 xs2).2.1)

/-- Case B's pieces for scratch buffer 1 cover it: they tile it in blocks of `S256x1`. -/
theorem scover3_B_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.1 S256x1.size (by sl_kernel_rfl) y

/-- What case B leaves in scratch buffer 1: its pieces read back. -/
def sout3_B_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_1.read (Elt F) (VS3_1.writes (Elt F) VS3_1.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.1)

/-- Case B's pieces for scratch buffer 2 cover it: they tile it in blocks of `S256x64`. -/
theorem scover3_B_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x1024.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1 S256x64.size (by sl_kernel_rfl) y

/-- What case B leaves in scratch buffer 2: its pieces read back. -/
def sout3_B_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x1024 .f32 :=
  VS3_2.read (Elt F) (VS3_2.writes (Elt F) VS3_2.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1)

/-- Case C's pieces for scratch buffer 0 cover it: they tile it in blocks of `S256x1`. -/
theorem scover3_C_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.1 S256x1.size (by sl_kernel_rfl) y

/-- What case C leaves in scratch buffer 0: its pieces read back. -/
def sout3_C_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_0.read (Elt F) (VS3_0.writes (Elt F) VS3_0.junk (kernelRun3_C c i arg3 harg3 arg4 harg4 arg5 harg5 arg6 harg6 arg7 harg7 arg8 harg8 arg9 harg9 arg10 harg10 arg11 harg11 hc0 hc1 x0 x1 x2 x3 x4 xs0 xs1 xs2).2.1)

/-- Case C's pieces for scratch buffer 1 cover it: they tile it in blocks of `S256x1`. -/
theorem scover3_C_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.1 S256x1.size (by sl_kernel_rfl) y

/-- What case C leaves in scratch buffer 1: its pieces read back. -/
def sout3_C_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_1.read (Elt F) (VS3_1.writes (Elt F) VS3_1.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.1)

/-- Case C's pieces for scratch buffer 2 cover it: they tile it in blocks of `S256x64`. -/
theorem scover3_C_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1 S256x64.size (by sl_kernel_rfl) y

/-- What case C leaves in scratch buffer 2: its pieces read back. -/
def sout3_C_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x1024 .f32 :=
  VS3_2.read (Elt F) (VS3_2.writes (Elt F) VS3_2.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1)

/-- The last tile's one piece for the output block covers it. -/
theorem cover3_C_5 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S1x256x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).1 S1x256x1024.size (by sl_kernel_rfl) y

/-- What a last tile leaves in the output block's staging buffer: its piece read back. -/
def out3_C_5 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S1x256x1024 .f32 :=
  VO3_5.read (Elt F) (VO3_5.writes (Elt F) VO3_5.junk (kernelRun3_C c i arg3 harg3 arg4 harg4 arg5 harg5 arg6 harg6 arg7 harg7 arg8 harg8 arg9 harg9 arg10 harg10 arg11 harg11 hc0 hc1 x0 x1 x2 x3 x4 xs0 xs1 xs2).1)

/-- At a point that is no last tile the output window is idle: nothing consults this value. -/
def idle3_5 : Vec F S1x256x1024 .f32 := VO3_5.read (Elt F) VO3_5.junk

/-! ## The point's blocks and the state point by point -/

section Region
-- the buffers' contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The state after a first key tile at point `t`: reset, then updated with the point's query, key and value blocks. -/
def stA (c : Dev nD) (t : Fin cfg3.N) (h0 : t.val % 4 = 0) (h1 : ¬t.val % 4 = 3) : St3 (F := F) :=
  (sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t))

/-- The state after a middle key tile at point `t`, from the state `s` before it. -/
def stB (c : Dev nD) (t : Fin cfg3.N) (h0 : ¬t.val % 4 = 0) (h1 : ¬t.val % 4 = 3) (s : St3 (F := F)) : St3 (F := F) :=
  (sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2,
   sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2)

/-- The state after a last key tile at point `t`, from the state `s` before it (the weighted sums there already divided
    by the partition sums: the next point, a first tile, resets them). -/
def stC (c : Dev nD) (t : Fin cfg3.N) (h0 : ¬t.val % 4 = 0) (h1 : t.val % 4 = 3) (s : St3 (F := F)) : St3 (F := F) :=
  (sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2,
   sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2)

/-- What a last key tile at point `t` writes out, from the state `s` before it. -/
def outC (c : Dev nD) (t : Fin cfg3.N) (h0 : ¬t.val % 4 = 0) (h1 : t.val % 4 = 3) (s : St3 (F := F)) : Vec F S1x256x1024 .f32 :=
  out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2

/-- THE CARRIED STATE after the body at position `n`: a first tile (`n ≡ 0 mod 4`) starts afresh, the others continue from
    the state after position `n - 1`. -/
def stAfter3 (c : Dev nD) : (n : ℕ) → n < cfg3.N → St3 (F := F)
  | 0, hn => stA V c ⟨0, hn⟩ (Nat.zero_mod _) (by show ¬(0 % 4 = 3); decide)
  | n + 1, hn =>
    if h0 : (n + 1) % 4 = 0 then
      if h1 : (n + 1) % 4 = 3 then False.elim (by omega)
      else stA V c ⟨n + 1, hn⟩ h0 h1
    else
      if h1 : (n + 1) % 4 = 3 then stC V c ⟨n + 1, hn⟩ h0 h1 (stAfter3 c n (Nat.lt_of_succ_lt hn))
      else stB V c ⟨n + 1, hn⟩ h0 h1 (stAfter3 c n (Nat.lt_of_succ_lt hn))

/-- The state before position `n`: what the point before left; before the first point nothing is known (and nothing is
    read: the first point is a first tile). -/
def stBefore3 (c : Dev nD) : (n : ℕ) → n ≤ cfg3.N → St3 (F := F)
  | 0, _ => (VS3_0.read (Elt F) VS3_0.junk, VS3_1.read (Elt F) VS3_1.junk, VS3_2.read (Elt F) VS3_2.junk)
  | n + 1, hn => stAfter3 V c n hn

theorem stBefore3_succ (c : Dev nD) (n : ℕ) (hn : n < cfg3.N) : stBefore3 V c (n + 1) hn = stAfter3 V c n hn := rfl

theorem stBefore3_pos (c : Dev nD) (n : ℕ) (h : n ≤ cfg3.N) (hz : n ≠ 0) :
    stBefore3 V c n h = stAfter3 V c (n - 1) (by omega) := by
  cases n with
  | zero => exact absurd rfl hz
  | succ n => rfl

/-- At a first tile: afresh. -/
theorem stAfter3_A (c : Dev nD) (t : Fin cfg3.N) (h0 : t.val % 4 = 0) (h1 : ¬t.val % 4 = 3) :
    stAfter3 V c t.val t.isLt = stA V c t h0 h1 := by
  obtain ⟨n, hn⟩ := t
  cases n with
  | zero => exact rfl
  | succ n => exact (dif_pos h0).trans ((dif_neg h1).trans rfl)

/-- At a middle tile: one step from the state after the point before. -/
theorem stAfter3_B (c : Dev nD) (t : Fin cfg3.N) (h0 : ¬t.val % 4 = 0) (h1 : ¬t.val % 4 = 3) :
    stAfter3 V c t.val t.isLt = stB V c t h0 h1 (stAfter3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last tile: the closing step from the state after the point before. -/
theorem stAfter3_C (c : Dev nD) (t : Fin cfg3.N) (h0 : ¬t.val % 4 = 0) (h1 : t.val % 4 = 3) :
    stAfter3 V c t.val t.isLt = stC V c t h0 h1 (stAfter3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last tile what the closing step
    writes out of the state after the point before; elsewhere the window is idle. -/
def out5At (c : Dev nD) (t : Fin cfg3.N) : Vec F S1x256x1024 .f32 :=
  if h1 : t.val % 4 = 3 then
    outC V c t (by omega) h1 (stAfter3 V c (t.val - 1) (Nat.lt_of_le_of_lt (Nat.sub_le _ _) t.isLt))
  else idle3_5

theorem out5At_C (c : Dev nD) (t : Fin cfg3.N) (h0 : ¬t.val % 4 = 0) (h1 : t.val % 4 = 3) :
    out5At V c t = outC V c t h0 h1 (stAfter3 V c (t.val - 1) (Nat.lt_of_le_of_lt (Nat.sub_le _ _) t.isLt)) :=
  dif_pos h1

end Region

end Cert.Kernel.Hand

end
-- ==== Proof.BitsAttnFrame.lean ====
/-
  The attention call's proof data and body obligation.

  After the body at point `t` each input window's staging buffer holds its block; the output window's holds, at a last
  key tile, what the closing step writes out of the state after the point before (`out5At`), and is idle elsewhere. The
  region invariant before position `n` holds the three scratch buffers whole at the state after position `n - 1`
  (`stAfter3`) beside the other scoped buffers and the generator register; before the first point the scratch buffers
  hold anything, which suffices because the first point is a first key tile and resets them.
-/
import proofs.«161242_j13649406066792_2_alg».proof.Proof.BitsAttnFrame.State

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Input window 0's current staging buffer holds its block at every point, fetched there or not: unfetched, the block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: unfetched, the block
    index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: unfetched, the block
    index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: unfetched, the block
    index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: unfetched, the block
    index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The region invariant -/

/-- The class's invariant with the three scratch buffers as whole memrefs at some contents. -/
theorem PhiA3_eq (c : Dev nD) :
    (Pipeline.ΦA spec3 c : sProp 𝕄)
      = iprop((((∃ d, owns (c : Thread nD τ) scM3_0 fullShare d) ∗ (∃ d, owns (c : Thread nD τ) scM3_1 fullShare d)
          ∗ (∃ d, owns (c : Thread nD τ) scM3_2 fullShare d)) ∗ restBut3 (F := F) c) ∗ (∃ r, prngReg c r)) := by
  unfold Pipeline.ΦA; rw [scopedRest3_split]

/-- The invariant before position `n`: before the first point the class's (every scratch buffer at anything);
    afterwards the scratch buffers at the state the point before left, the other scoped buffers at anything, the
    generator register at some state. -/
def PhiS3 (c : Dev nD) : (n : ℕ) → n ≤ cfg3.N → sProp 𝕄
  | 0, _ => Pipeline.ΦA spec3 c
  | n + 1, hn => iprop(((owns (c : Thread nD τ) scM3_0 fullShare (stAfter3 V c n hn).1 ∗ owns (c : Thread nD τ) scM3_1 fullShare (stAfter3 V c n hn).2.1 ∗ owns (c : Thread nD τ) scM3_2 fullShare (stAfter3 V c n hn).2.2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(((owns (c : Thread nD τ) scM3_0 fullShare (stAfter3 V c n hn).1 ∗ owns (c : Thread nD τ) scM3_1 fullShare (stAfter3 V c n hn).2.1 ∗ owns (c : Thread nD τ) scM3_2 fullShare (stAfter3 V c n hn).2.2) ∗ restBut3 (F := F) c) ∗ (∃ r, prngReg c r)) := rfl

theorem PhiS3_pos (c : Dev nD) (n : ℕ) (h : n ≤ cfg3.N) (hz : n ≠ 0) :
    PhiS3 V c n h = iprop(((owns (c : Thread nD τ) scM3_0 fullShare (stAfter3 V c (n - 1) (by omega)).1 ∗ owns (c : Thread nD τ) scM3_1 fullShare (stAfter3 V c (n - 1) (by omega)).2.1 ∗ owns (c : Thread nD τ) scM3_2 fullShare (stAfter3 V c (n - 1) (by omega)).2.2) ∗ restBut3 (F := F) c) ∗ (∃ r, prngReg c r)) := by
  cases n with
  | zero => exact absurd rfl hz
  | succ n => rfl

/-! ## The proof data -/

/-- The proof data of the attention call on core `c`: the arrays as the region finds them; after the body at point `t`
    each input's buffer at its block, the output's at `out5At`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out5At V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out5At V c t := by dsimp only [dat3]

/-- At a last key tile the output window's buffer holds what the closing step writes out of the state after the point before. -/
theorem after3_5_C (c : Dev nD) (t : Fin cfg3.N) (h0 : ¬t.val % 4 = 0) (h1 : t.val % 4 = 3) :
    (dat3 V c).after 5 t = outC V c t h0 h1 (stAfter3 V c (t.val - 1) (Nat.lt_of_le_of_lt (Nat.sub_le _ _) t.isLt)) :=
  (after3_5 V c t).trans (out5At_C V c t h0 h1)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t)

set_option maxHeartbeats 8000000 in
/-- The body at any point, by the three cases of the key-tile coordinate: the inputs' memrefs hold their blocks; the
    invariant hands the body the scratch buffers at the state the point before left (at anything before the first
    point, a first tile) and takes them back at this point's state; the output window is handed back untouched where
    it is idle and holds the written block at a last tile; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 4 = 0
  · by_cases h1 : t.val % 4 = 3
    · exfalso; omega
    · -- a first key tile
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5 t (fun h => h1 ((hcond3_1 t).mp h))) (noFlush3_5 t (fun h => h1 ((hcond3_1 t).mp h)))]
      rw [stAfter3_A V c t h0 h1]
      unfold stA sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS3_castSucc V c t, PhiS3_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · -- a last key tile
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t ((hcond3_1 t).mpr h1)], after3_5]
      rw [out5At_C V c t h0 h1, stAfter3_C V c t h0 h1]
      unfold stC outC sout3_C_0 sout3_C_1 sout3_C_2 out3_C_5; (try dsimp only)
      · rw [PhiS3_castSucc V c t, PhiS3_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_C_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_C_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_C_2 c _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover3_C_5 c _ _ _ _ _ _ _ _ _ _ _ _ _ _ _ _ _ _ _ _ _ _ _ _ _ _ _ _ _)
    · -- a middle key tile
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5 t (fun h => h1 ((hcond3_1 t).mp h))) (noFlush3_5 t (fun h => h1 ((hcond3_1 t).mp h)))]
      rw [stAfter3_B V c t h0 h1]
      unfold stB sout3_B_0 sout3_B_1 sout3_B_2; (try dsimp only)
      · rw [PhiS3_castSucc V c t, PhiS3_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_B_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_B_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_B_2 c _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- What the region hands the pipeline — the generator register, no tables, the scoped buffers no window stages — is
    the invariant before the first point. -/
theorem hin3 (c : Dev nD) :
    iprop((∃ r, prngReg c r) ∗ Pipeline.prefHeld (pcfgs (F := F) 3).pre c (fun _ => fullShare) ((cfgs 3).toPCfg_adm).1
        ∗ Pipeline.scopedRest (Ix := Unit) (Name := ℕ) (U := UR sig nD τ) (Lvl := ℕ) (Val := Elt F) spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- After the last point the invariant gives them back: the scratch buffers' named contents are forgotten. -/
theorem hout3 (c : Dev nD) :
    (dat3 V c).Φ (Fin.last cfg3.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec3 c) := by
  rw [Pipeline.ownSems0_none, show (dat3 V c).Φ (Fin.last cfg3.N) = PhiS3 V c cfg3.N (le_refl _) from rfl,
    PhiS3_pos V c _ _ (by have : cfg3.N = 64 := N_3; omega), scopedRest3_split]
  iintro ⟨⟨⟨HS0, HS1, HS2⟩, Hrest⟩, Hg⟩
  isplitl [Hg]; · iexact Hg
  isplitr; · iempintro
  isplitl [HS0 HS1 HS2]
  · isplitl [HS0]; · iexists _; iexact HS0
    isplitl [HS1]; · iexists _; iexact HS1
    iexists _; iexact HS2
  iexact Hrest

end Region

end Cert.Kernel.Hand

end
-- ==== Proof.BitsRunAll.lean ====
/-
  The kernel program's run, for any float instance: @main is four stretches of host operations, each followed by one
  kernel region.  The contents of the core's unscoped buffers are followed from the launch through the eight items
  (`W0` … `W8`): a stretch of host operations applies them, a region replaces its windows' arrays by what its
  pipeline leaves in them.  Every weakly fair execution terminates, faults nowhere, and ends with every unscoped
  buffer at `W8`.
-/
import proofs.«161242_j13649406066792_2_alg».proof.Proof.BitsLinFrame
import proofs.«161242_j13649406066792_2_alg».proof.Proof.BitsAttnFrame
import proofs.«161242_j13649406066792_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s unscoped buffers at launch. -/
abbrev W0 : Dev nD → Valuation τ sig (Elt F) := fun c b => m (c, b)

/-- Before region 0: the host operations of stretch 0 have run. -/
abbrev W1 : Dev nD → Valuation τ sig (Elt F) := fun c => StableHlo.after hostOps0 (W0 m c)
/-- The same read at the TensorCore's references: what region 0's proof data are stated at. -/
abbrev V1 : (c : Dev nD) → (b : Ref sig .tc) → Buf (Elt F) ((c : Thread nD τ).loc b) := fun c b => W1 m c b
/-- After region 0: its windows' arrays at what the pipeline leaves in them, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- Before region 1: the host operations of stretch 1 have run. -/
abbrev W3 : Dev nD → Valuation τ sig (Elt F) := fun c => StableHlo.after hostOps1 (W2 m c)
/-- The same read at the TensorCore's references: what region 1's proof data are stated at. -/
abbrev V3 : (c : Dev nD) → (b : Ref sig .tc) → Buf (Elt F) ((c : Thread nD τ).loc b) := fun c b => W3 m c b
/-- After region 1: its windows' arrays at what the pipeline leaves in them, every other buffer as before. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- Before region 2: the host operations of stretch 2 have run. -/
abbrev W5 : Dev nD → Valuation τ sig (Elt F) := fun c => StableHlo.after hostOps2 (W4 m c)
/-- The same read at the TensorCore's references: what region 2's proof data are stated at. -/
abbrev V5 : (c : Dev nD) → (b : Ref sig .tc) → Buf (Elt F) ((c : Thread nD τ).loc b) := fun c b => W5 m c b
/-- After region 2: its windows' arrays at what the pipeline leaves in them, every other buffer as before. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- Before region 3: the host operations of stretch 3 have run. -/
abbrev W7 : Dev nD → Valuation τ sig (Elt F) := fun c => StableHlo.after hostOps3 (W6 m c)
/-- The same read at the TensorCore's references: what region 3's proof data are stated at. -/
abbrev V7 : (c : Dev nD) → (b : Ref sig .tc) → Buf (Elt F) ((c : Thread nD τ).loc b) := fun c b => W7 m c b
/-- After region 3: its windows' arrays at what the pipeline leaves in them, every other buffer as before. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data family and what rides beside the buffers -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev Lz : GSem nD τ sig → Finset Unit := fun _ => ∅
abbrev lvz : GSem nD τ sig → Unit → ℕ := fun _ _ => 0
/-- Beside the buffers through every item: the generator register at some state, and the core owing nothing. -/
abbrev Rst (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state beside the core owing nothing. -/
abbrev Tlast (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 as a segment: entered with every unscoped buffer at `W1`, left with them at `W2`; its windows'
    arrays are taken out of the unscoped buffers at entry and put back at their final contents at exit; the generator
    register goes into the region's invariant and comes back; the core owes nothing; the kernel has no semaphore of its own. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lz lvz 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`; its windows'
    arrays are taken out of the unscoped buffers at entry and put back at their final contents at exit; the generator
    register goes into the region's invariant and comes back; the core owes nothing; the kernel has no semaphore of its own. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ Lz lvz 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`; its windows'
    arrays are taken out of the unscoped buffers at entry and put back at their final contents at exit; the generator
    register goes into the region's invariant and comes back; the core owes nothing; the kernel has no semaphore of its own. -/
def reg2 : Pipeline.RegionSeg (pcfgs (F := F)) adm (pdats m) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ Lz lvz 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`; its windows'
    arrays are taken out of the unscoped buffers at entry and put back at their final contents at exit; the generator
    register goes into the region's invariant and comes back; the core owes nothing; the kernel has no semaphore of its own. -/
def reg3 : Pipeline.RegionSeg (pcfgs (F := F)) adm (pdats m) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ Lz lvz 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V7 m) c
  hout c := hout3 (V7 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

theorem main_run (c : Dev nD) : main (F := F) c = Pipeline.Seg.run (segs m) := (main_chain c).trans (by chain_rfl)

set_option backward.isDefEq.respectTransparency.types false in
/-- THE RUN: every weakly fair execution of @main from memory `m` with zero counters terminates, nothing faulting, and
    every final memory holds each unscoped buffer of every core at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ Rst c) ⊢ _
        iintro ⟨Hh, Hp, HO⟩
        isplitl [Hh Hp]
        · isplitl [Hh]; · iexact Hh
          iexact Hp
        iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Run

end
-- ==== Proof.BitsRunFrame.lean ====
/-
  The arguments survive the run, for any float instance.

  @main is four stretches of host operations, each followed by one kernel region.  A stretch of host operations
  changes only the buffers its operations write; a region changes only its windows' arrays.  None of the eleven
  argument buffers is written by a host operation, and none is a window's array of a region whose pipeline writes
  it back changed: followed through the eight items, each argument holds at the end what it held at the launch.
  With the run's final memory known at every unscoped buffer, the frame claim — every argument array ends at its
  launch contents, on every core — is read off it.
-/
import proofs.«161242_j13649406066792_2_alg».proof.Proof.BitsRunAll

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- A buffer that is no window's array of any of the four regions and that no stretch of host operations writes
    holds after the eighth item what it held at the launch: each item in turn leaves it alone. -/
theorem W8_of_untouched (c : Dev nD) (r : Ref sig .tc)
    (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r)
    (g0 : r ∉ hostOps0_W) (g1 : r ∉ hostOps1_W) (g2 : r ∉ hostOps2_W) (g3 : r ∉ hostOps3_W) :
    W8 m c (Proc.devRef .tc r) = m ((c : Thread nD τ).loc r) :=
  (W8_of_ne m c r h3).trans <|
  (StableHlo.after_of_writes_sub hostOps3 (W6 m c) hostOps3_writes g3).trans <|
  (W6_of_ne m c r h2).trans <|
  (StableHlo.after_of_writes_sub hostOps2 (W4 m c) hostOps2_writes g2).trans <|
  (W4_of_ne m c r h1).trans <|
  (StableHlo.after_of_writes_sub hostOps1 (W2 m c) hostOps1_writes g1).trans <|
  (W2_of_ne m c r h0).trans <|
  (StableHlo.after_of_writes_sub hostOps0 (W0 m c) hostOps0_writes g0).trans rfl

/-- The eleven arguments. -/
abbrev args : List (Ref sig .tc) :=
  [main_arg0, main_arg1, main_arg2, main_arg3, main_arg4, main_arg5, main_arg6, main_arg7, main_arg8, main_arg9, main_arg10]

/-- No argument is a window's array of a region, and no stretch of host operations writes one: decided over the
    finitely many references and windows. -/
theorem args_untouched : ∀ r ∈ args,
    (∀ w, Pipeline.arrRef spec0 w ≠ r) ∧ (∀ w, Pipeline.arrRef spec1 w ≠ r) ∧
    (∀ w, Pipeline.arrRef spec2 w ≠ r) ∧ (∀ w, Pipeline.arrRef spec3 w ≠ r) ∧
    r ∉ hostOps0_W ∧ r ∉ hostOps1_W ∧ r ∉ hostOps2_W ∧ r ∉ hostOps3_W := by
  decide

/-- No item of @main writes an argument. -/
theorem W8_arg (c : Dev nD) (r : Ref sig .tc)
    (h : r ∈ ([main_arg0, main_arg1, main_arg2, main_arg3, main_arg4, main_arg5, main_arg6, main_arg7, main_arg8, main_arg9, main_arg10] : List (Ref sig .tc))) :
    W8 m c (Proc.devRef .tc r) = m ((c : Thread nD τ).loc r) := by
  obtain ⟨h0, h1, h2, h3, g0, g1, g2, g3⟩ := args_untouched r h
  exact W8_of_untouched m c r h0 h1 h2 h3 g0 g1 g2 g3

/-- THE FRAME: every weakly fair execution of @main terminates, nothing faulting, and on every core each argument
    array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c (Proc.devRef .tc main_arg0) (Finset.mem_filter.mpr ⟨StableHlo.devRef_mem_tcRefs main_arg0, by decide⟩)).trans (W8_arg m c main_arg0 (by decide)),
      (h c (Proc.devRef .tc main_arg1) (Finset.mem_filter.mpr ⟨StableHlo.devRef_mem_tcRefs main_arg1, by decide⟩)).trans (W8_arg m c main_arg1 (by decide)),
      (h c (Proc.devRef .tc main_arg2) (Finset.mem_filter.mpr ⟨StableHlo.devRef_mem_tcRefs main_arg2, by decide⟩)).trans (W8_arg m c main_arg2 (by decide)),
      (h c (Proc.devRef .tc main_arg3) (Finset.mem_filter.mpr ⟨StableHlo.devRef_mem_tcRefs main_arg3, by decide⟩)).trans (W8_arg m c main_arg3 (by decide)),
      (h c (Proc.devRef .tc main_arg4) (Finset.mem_filter.mpr ⟨StableHlo.devRef_mem_tcRefs main_arg4, by decide⟩)).trans (W8_arg m c main_arg4 (by decide)),
      (h c (Proc.devRef .tc main_arg5) (Finset.mem_filter.mpr ⟨StableHlo.devRef_mem_tcRefs main_arg5, by decide⟩)).trans (W8_arg m c main_arg5 (by decide)),
      (h c (Proc.devRef .tc main_arg6) (Finset.mem_filter.mpr ⟨StableHlo.devRef_mem_tcRefs main_arg6, by decide⟩)).trans (W8_arg m c main_arg6 (by decide)),
      (h c (Proc.devRef .tc main_arg7) (Finset.mem_filter.mpr ⟨StableHlo.devRef_mem_tcRefs main_arg7, by decide⟩)).trans (W8_arg m c main_arg7 (by decide)),
      (h c (Proc.devRef .tc main_arg8) (Finset.mem_filter.mpr ⟨StableHlo.devRef_mem_tcRefs main_arg8, by decide⟩)).trans (W8_arg m c main_arg8 (by decide)),
      (h c (Proc.devRef .tc main_arg9) (Finset.mem_filter.mpr ⟨StableHlo.devRef_mem_tcRefs main_arg9, by decide⟩)).trans (W8_arg m c main_arg9 (by decide)),
      (h c (Proc.devRef .tc main_arg10) (Finset.mem_filter.mpr ⟨StableHlo.devRef_mem_tcRefs main_arg10, by decide⟩)).trans (W8_arg m c main_arg10 (by decide))⟩)
    (run_all m ρ)

end Cert.Kernel.Run

end
-- ==== Proof.LinFrame.lean ====
/-
  The three linear-projection kernels (custom_calls 0, 1, 2) as pipelines, by hand and at any float instance:
  for each of them the block of a window at a grid point, what the body leaves in the output window's staging
  buffer (one store of the whole block: the payload of the three input blocks), the body's triple, the proof
  data of the pipeline at the contents `V` the region finds, and the body obligation at every point.
-/
import proofs.«161242_j13649406066792_2_alg».proof.Proof.Gen.KernelIdeal.Launch
import proofs.«161242_j13649406066792_2_alg».proof.Proof.Gen.KernelIdeal.Skeleton
import proofs.«161242_j13649406066792_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # The whole-buffer rectangles the bodies load and store -/

/-- The whole 512 × 1024 block of rows, the whole 1024 × 1024 weights, the whole 1 × 1024 bias row. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- One store of the whole block covers the block (its one piece tiles it, checked by evaluation). -/
theorem coverX (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! # REGION 0: custom_call 0, `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved), for any proof data whose array is `V`'s and whose body leaves the block in
    place; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- Window 3's staging buffer after the body, from the three input windows' blocks: its one store, of the
    payload of the three whole loads, into the whole block. -/
def out0_3 (x0 : Vec F S512x1024 .f32) (x1 : Vec F S1024x1024 .f32) (x2 : Vec F S1x1024 .f32) : Vec F S512x1024 .f32 :=
  View.canon [⟨rX, k0_pay1 (View.ld x0 rX) (View.ld x1 rW) (View.ld x2 rB)⟩]

/-! ## The body's triple -/

set_option maxHeartbeats 1000000 in
/-- The kernel body on whole staging memrefs, the inputs' at contents `x0`, `x1`, `x2` and the output's at
    anything, runs to the continuation holding the inputs' as they were and the output's at `out0_3` of them. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: custom_call 1, `cc1__linear_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched,
    the block index has not moved), for any proof data whose array is `V`'s and whose body leaves the block in
    place; the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Window 3's staging buffer after the body, from the three input windows' blocks: its one store, of the
    payload of the three whole loads, into the whole block. -/
def out1_3 (x0 : Vec F S512x1024 .f32) (x1 : Vec F S1024x1024 .f32) (x2 : Vec F S1x1024 .f32) : Vec F S512x1024 .f32 :=
  View.canon [⟨rX, k1_pay1 (View.ld x0 rX) (View.ld x1 rW) (View.ld x2 rB)⟩]

/-! ## The body's triple -/

set_option maxHeartbeats 1000000 in
/-- The kernel body on whole staging memrefs, the inputs' at contents `x0`, `x1`, `x2` and the output's at
    anything, runs to the continuation holding the inputs' as they were and the output's at `out1_3` of them. -/
theorem sound_kernel1 (c : Dev nD) (E : Set ℕ) (i : grid1.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # REGION 2: custom_call 2, `cc2__linear_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched,
    the block index has not moved), for any proof data whose array is `V`'s and whose body leaves the block in
    place; the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- Window 3's staging buffer after the body, from the three input windows' blocks: its one store, of the
    payload of the three whole loads, into the whole block. -/
def out2_3 (x0 : Vec F S512x1024 .f32) (x1 : Vec F S1024x1024 .f32) (x2 : Vec F S1x1024 .f32) : Vec F S512x1024 .f32 :=
  View.canon [⟨rX, k2_pay1 (View.ld x0 rX) (View.ld x1 rW) (View.ld x2 rB)⟩]

/-! ## The body's triple -/

set_option maxHeartbeats 1000000 in
/-- The kernel body on whole staging memrefs, the inputs' at contents `x0`, `x1`, `x2` and the output's at
    anything, runs to the continuation holding the inputs' as they were and the output's at `out2_3` of them. -/
theorem sound_kernel2 (c : Dev nD) (E : Set ℕ) (i : grid2.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.AttnFrame.Base.lean ====
/-
  The attention call's grid points, case by case: the two conditions of the body (first key tile, last key tile) in
  closed form over the 64 points, where the output window is idle, the staging and scratch memrefs the body is
  called with, and the region invariant with the three carried scratch buffers split out of the scoped rest.
-/
import proofs.«161242_j13649406066792_2_alg».proof.Proof.Gen.KernelIdeal.Launch
import proofs.«161242_j13649406066792_2_alg».proof.Proof.Gen.KernelIdeal.Skeleton
import proofs.«161242_j13649406066792_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The body's first condition: the key-tile coordinate is 0 (the point is a first tile: the state is reset). -/
abbrev cond3_0 (i : grid3.Coords) : Prop := (Scalar.cmpi .ne (Scalar.extui (Scalar.cmpi .eq (BitVec.ofNat 32 (i 2).val) 0#32)) 0#32) = 1#1
/-- It holds at the points ≡ 0 (mod 4): the key-tile axis is innermost, of extent 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The body's second condition: the key-tile coordinate is 3 (the point is a last tile: the block is written out). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last tile the output window is idle and its block is not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- At a last tile it is live. -/
theorem liveAt3_5 : ∀ t : Fin cfg3.N, cond3_1 (grid3.coords t) → cfg3.idle 5 (grid3.coords t) = false := by decide +kernel

/-! ## The memrefs the body is called with -/

abbrev ms3_0 (t : Fin cfg3.N) : Memref sig .tc .vmem S1x256x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x256x1024 .f32 := win3_5.stage (cfg3.slots t 5)
abbrev hs3_5 (t : Fin cfg3.N) : (ms3_5 t).IsWhole := hstage3_5 ((cfg3.slots t 5).cast nbuf3_5)
/-- The three scratch operands: the running maxima, the partition sums, the weighted sums. -/
abbrev scM3_0 : Memref sig .tc .vmem S256x16 .f32 := Memref.whole cc3_scratch0
abbrev scM3_1 : Memref sig .tc .vmem S256x16 .f32 := Memref.whole cc3_scratch1
abbrev scM3_2 : Memref sig .tc .vmem S256x1024 .f32 := Memref.whole cc3_scratch2
abbrev VS3_0 : View sig .tc .vmem S256x16 .f32 := scM3_0.view
abbrev VS3_1 : View sig .tc .vmem S256x16 .f32 := scM3_1.view
abbrev VS3_2 : View sig .tc .vmem S256x1024 .f32 := scM3_2.view
/-- One staging buffer of the output window, through which its contents are stated. -/
abbrev VO3_5 : View sig .tc .vmem S1x256x1024 .f32 := (win3_5.stage ⟨0, by decide⟩).view

/-- The scratch buffers' references. -/
abbrev scR3 : List (Ref sig .tc) := [cc3_scratch0, cc3_scratch1, cc3_scratch2]

/-- The scoped buffers that are neither a staging buffer of this call nor one of its three scratch buffers. -/
abbrev restBut3 (c : Dev nD) : sProp 𝕄 :=
  Pipeline.scopedRestBut (Ix := Unit) (Name := ℕ) (U := UR sig nD τ) (Lvl := ℕ) (Val := Elt F) spec3 c scR3

/-- The scoped rest with the three scratch buffers split out, each a whole memref owned at some contents. -/
theorem scopedRest3_split (c : Dev nD) :
    (Pipeline.scopedRest (Ix := Unit) (Name := ℕ) (U := UR sig nD τ) (Lvl := ℕ) (Val := Elt F) spec3 c : sProp 𝕄)
      = iprop(((∃ d, owns (c : Thread nD τ) scM3_0 fullShare d) ∗ (∃ d, owns (c : Thread nD τ) scM3_1 fullShare d)
          ∗ (∃ d, owns (c : Thread nD τ) scM3_2 fullShare d)) ∗ restBut3 (F := F) c) := by
  rw [Pipeline.scopedRest_split_of_list spec3 c scR3 (by decide) (by decide)]
  simp only [scM3_0, scM3_1, scM3_2, owns_whole, bigSepL_cons_cons, bigSepL_singleton]; try rfl

end Cert.KernelIdeal.Hand

end
-- ==== Proof.AttnFrame.RunA.lean ====
/-
  The attention body at a FIRST key tile (the state is reset, then updated; nothing is written out): on whole memrefs, the five inputs at their blocks, the scratch at anything,
  the body runs to a state where each scratch buffer (and at a last tile the output block) holds a list of stored pieces,
  last first; the lists are what the run finds.
-/
import proofs.«161242_j13649406066792_2_alg».proof.Proof.AttnFrame.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun3_A (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) :
    Σ' (L5 : List (View.Piece (Elt F) S1x256x1024 .f32)) (LS0 : List (View.Piece (Elt F) S256x16 .f32)) (LS1 : List (View.Piece (Elt F) S256x16 .f32)), { LS2 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.AttnFrame.RunB.lean ====
/-
  The attention body at a MIDDLE key tile (the state is updated; nothing is written out): on whole memrefs, the five inputs at their blocks, the scratch at the state before the point,
  the body runs to a state where each scratch buffer (and at a last tile the output block) holds a list of stored pieces,
  last first; the lists are what the run finds.
-/
import proofs.«161242_j13649406066792_2_alg».proof.Proof.AttnFrame.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun3_B (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) :
    Σ' (L5 : List (View.Piece (Elt F) S1x256x1024 .f32)) (LS0 : List (View.Piece (Elt F) S256x16 .f32)) (LS1 : List (View.Piece (Elt F) S256x16 .f32)), { LS2 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.AttnFrame.RunC.lean ====
/-
  The attention body at a LAST key tile (the state is updated, the weighted sums are divided by the partition sums and the block is written out): on whole memrefs, the five inputs at their blocks, the scratch at the state before the point,
  the body runs to a state where each scratch buffer (and at a last tile the output block) holds a list of stored pieces,
  last first; the lists are what the run finds.
-/
import proofs.«161242_j13649406066792_2_alg».proof.Proof.AttnFrame.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun3_C (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) :
    Σ' (L5 : List (View.Piece (Elt F) S1x256x1024 .f32)) (LS0 : List (View.Piece (Elt F) S256x16 .f32)) (LS1 : List (View.Piece (Elt F) S256x16 .f32)), { LS2 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.AttnFrame.State.lean ====
/-
  What one grid point of the attention call leaves behind, and the carried state point by point.

  For each of the three cases of a point (first, middle, last key tile) the body's run (AttnFrame/Run·) finds, for each
  scratch buffer, the list of pieces it stored; those lists cover the buffer (columns per head: 16 of [256, 1] for the
  maxima and the partition sums, 16 of [256, 64] for the weighted sums), so what the buffer holds afterwards is the
  pieces read back, whatever it held before: `sout3_κ_j`. At a last tile the output block is one whole piece: `out3_C_5`.
  The state after point `n` (`stAfter3`) is then a recursion over the points: a first tile starts afresh from the
  point's blocks, a middle or last tile continues from the state after the point before.
-/
import proofs.«161242_j13649406066792_2_alg».proof.Proof.AttnFrame.RunA
import proofs.«161242_j13649406066792_2_alg».proof.Proof.AttnFrame.RunB
import proofs.«161242_j13649406066792_2_alg».proof.Proof.AttnFrame.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The carried state: the running maxima and the partition sums, per row and head, and the weighted sums, per row and
    model column. -/
abbrev St3 : Type := Vec F S256x16 .f32 × Vec F S256x16 .f32 × Vec F S256x1024 .f32

/-! ## What each case leaves in the scratch buffers and in the output block -/

/-- Case A's pieces for scratch buffer 0 cover it: they tile it in blocks of `S256x1`. -/
theorem scover3_A_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) (y : S256x16.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.1 S256x1.size (by sl_kernel_rfl) y

/-- What case A leaves in scratch buffer 0: its pieces read back. -/
def sout3_A_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) : Vec F S256x16 .f32 :=
  VS3_0.read (Elt F) (VS3_0.writes (Elt F) VS3_0.junk (kernelRun3_A c i arg3 harg3 arg4 harg4 arg5 harg5 arg6 harg6 arg7 harg7 arg8 harg8 arg9 harg9 arg10 harg10 arg11 harg11 hc0 hc1 x0 x1 x2 x3 x4).2.1)

/-- Case A's pieces for scratch buffer 1 cover it: they tile it in blocks of `S256x1`. -/
theorem scover3_A_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) (y : S256x16.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.1 S256x1.size (by sl_kernel_rfl) y

/-- What case A leaves in scratch buffer 1: its pieces read back. -/
def sout3_A_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) : Vec F S256x16 .f32 :=
  VS3_1.read (Elt F) (VS3_1.writes (Elt F) VS3_1.junk (kernelRun3_A c i arg3 harg3 arg4 harg4 arg5 harg5 arg6 harg6 arg7 harg7 arg8 harg8 arg9 harg9 arg10 harg10 arg11 harg11 hc0 hc1 x0 x1 x2 x3 x4).2.2.1)

/-- Case A's pieces for scratch buffer 2 cover it: they tile it in blocks of `S256x64`. -/
theorem scover3_A_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) (y : S256x1024.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.2.1 S256x64.size (by sl_kernel_rfl) y

/-- What case A leaves in scratch buffer 2: its pieces read back. -/
def sout3_A_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec F S1x256x1024 .f32) (x1 x2 : Vec F S1x512x1024 .f32) (x3 : Vec F S1024x1024 .bf16) (x4 : Vec F S1x1024 .f32) : Vec F S256x1024 .f32 :=
  VS3_2.read (Elt F) (VS3_2.writes (Elt F) VS3_2.junk (kernelRun3_A c i arg3 harg3 arg4 harg4 arg5 harg5 arg6 harg6 arg7 harg7 arg8 harg8 arg9 harg9 arg10 harg10 arg11 harg11 hc0 hc1 x0 x1 x2 x3 x4).2.2.2.1)

/-- Case B's pieces for scratch buffer 0 cover it: they tile it in blocks of `S256x1`. -/
theorem scover3_B_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.1 S256x1.size (by sl_kernel_rfl) y

/-- What case B leaves in scratch buffer 0: its pieces read back. -/
def sout3_B_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_0.read (Elt F) (VS3_0.writes (Elt F) VS3_0.junk (kernelRun3_B c i arg3 harg3 arg4 harg4 arg5 harg5 arg6 harg6 arg7 harg7 arg8 harg8 arg9 harg9 arg10 harg10 arg11 harg11 hc0 hc1 x0 x1 x2 x3 x4 xs0 xs1 xs2).2.1)

/-- Case B's pieces for scratch buffer 1 cover it: they tile it in blocks of `S256x1`. -/
theorem scover3_B_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.1 S256x1.size (by sl_kernel_rfl) y

/-- What case B leaves in scratch buffer 1: its pieces read back. -/
def sout3_B_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_1.read (Elt F) (VS3_1.writes (Elt F) VS3_1.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.1)

/-- Case B's pieces for scratch buffer 2 cover it: they tile it in blocks of `S256x64`. -/
theorem scover3_B_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x1024.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1 S256x64.size (by sl_kernel_rfl) y

/-- What case B leaves in scratch buffer 2: its pieces read back. -/
def sout3_B_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x1024 .f32 :=
  VS3_2.read (Elt F) (VS3_2.writes (Elt F) VS3_2.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1)

/-- Case C's pieces for scratch buffer 0 cover it: they tile it in blocks of `S256x1`. -/
theorem scover3_C_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.1 S256x1.size (by sl_kernel_rfl) y

/-- What case C leaves in scratch buffer 0: its pieces read back. -/
def sout3_C_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_0.read (Elt F) (VS3_0.writes (Elt F) VS3_0.junk (kernelRun3_C c i arg3 harg3 arg4 harg4 arg5 harg5 arg6 harg6 arg7 harg7 arg8 harg8 arg9 harg9 arg10 harg10 arg11 harg11 hc0 hc1 x0 x1 x2 x3 x4 xs0 xs1 xs2).2.1)

/-- Case C's pieces for scratch buffer 1 cover it: they tile it in blocks of `S256x1`. -/
theorem scover3_C_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x16.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.1 S256x1.size (by sl_kernel_rfl) y

/-- What case C leaves in scratch buffer 1: its pieces read back. -/
def sout3_C_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x16 .f32 :=
  VS3_1.read (Elt F) (VS3_1.writes (Elt F) VS3_1.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.1)

/-- Case C's pieces for scratch buffer 2 cover it: they tile it in blocks of `S256x64`. -/
theorem scover3_C_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S256x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1 S256x64.size (by sl_kernel_rfl) y

/-- What case C leaves in scratch buffer 2: its pieces read back. -/
def sout3_C_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S256x1024 .f32 :=
  VS3_2.read (Elt F) (VS3_2.writes (Elt F) VS3_2.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1)

/-- The last tile's one piece for the output block covers it. -/
theorem cover3_C_5 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) (y : S1x256x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).1 S1x256x1024.size (by sl_kernel_rfl) y

/-- What a last tile leaves in the output block's staging buffer: its piece read back. -/
def out3_C_5 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec F S1x256x1024 .f32) (x1 x2 : Vec F S1x512x1024 .f32) (x3 : Vec F S1024x1024 .bf16) (x4 : Vec F S1x1024 .f32) (xs0 xs1 : Vec F S256x16 .f32) (xs2 : Vec F S256x1024 .f32) : Vec F S1x256x1024 .f32 :=
  VO3_5.read (Elt F) (VO3_5.writes (Elt F) VO3_5.junk (kernelRun3_C c i arg3 harg3 arg4 harg4 arg5 harg5 arg6 harg6 arg7 harg7 arg8 harg8 arg9 harg9 arg10 harg10 arg11 harg11 hc0 hc1 x0 x1 x2 x3 x4 xs0 xs1 xs2).1)

/-- At a point that is no last tile the output window is idle: nothing consults this value. -/
def idle3_5 : Vec F S1x256x1024 .f32 := VO3_5.read (Elt F) VO3_5.junk

/-! ## The point's blocks and the state point by point -/

section Region
-- the buffers' contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The state after a first key tile at point `t`: reset, then updated with the point's query, key and value blocks. -/
def stA (c : Dev nD) (t : Fin cfg3.N) (h0 : t.val % 4 = 0) (h1 : ¬t.val % 4 = 3) : St3 (F := F) :=
  (sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t))

/-- The state after a middle key tile at point `t`, from the state `s` before it. -/
def stB (c : Dev nD) (t : Fin cfg3.N) (h0 : ¬t.val % 4 = 0) (h1 : ¬t.val % 4 = 3) (s : St3 (F := F)) : St3 (F := F) :=
  (sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2,
   sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2)

/-- The state after a last key tile at point `t`, from the state `s` before it (the weighted sums there already divided
    by the partition sums: the next point, a first tile, resets them). -/
def stC (c : Dev nD) (t : Fin cfg3.N) (h0 : ¬t.val % 4 = 0) (h1 : t.val % 4 = 3) (s : St3 (F := F)) : St3 (F := F) :=
  (sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2,
   sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2)

/-- What a last key tile at point `t` writes out, from the state `s` before it. -/
def outC (c : Dev nD) (t : Fin cfg3.N) (h0 : ¬t.val % 4 = 0) (h1 : t.val % 4 = 3) (s : St3 (F := F)) : Vec F S1x256x1024 .f32 :=
  out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2

/-- THE CARRIED STATE after the body at position `n`: a first tile (`n ≡ 0 mod 4`) starts afresh, the others continue from
    the state after position `n - 1`. -/
def stAfter3 (c : Dev nD) : (n : ℕ) → n < cfg3.N → St3 (F := F)
  | 0, hn => stA V c ⟨0, hn⟩ (Nat.zero_mod _) (by show ¬(0 % 4 = 3); decide)
  | n + 1, hn =>
    if h0 : (n + 1) % 4 = 0 then
      if h1 : (n + 1) % 4 = 3 then False.elim (by omega)
      else stA V c ⟨n + 1, hn⟩ h0 h1
    else
      if h1 : (n + 1) % 4 = 3 then stC V c ⟨n + 1, hn⟩ h0 h1 (stAfter3 c n (Nat.lt_of_succ_lt hn))
      else stB V c ⟨n + 1, hn⟩ h0 h1 (stAfter3 c n (Nat.lt_of_succ_lt hn))

/-- The state before position `n`: what the point before left; before the first point nothing is known (and nothing is
    read: the first point is a first tile). -/
def stBefore3 (c : Dev nD) : (n : ℕ) → n ≤ cfg3.N → St3 (F := F)
  | 0, _ => (VS3_0.read (Elt F) VS3_0.junk, VS3_1.read (Elt F) VS3_1.junk, VS3_2.read (Elt F) VS3_2.junk)
  | n + 1, hn => stAfter3 V c n hn

theorem stBefore3_succ (c : Dev nD) (n : ℕ) (hn : n < cfg3.N) : stBefore3 V c (n + 1) hn = stAfter3 V c n hn := rfl

theorem stBefore3_pos (c : Dev nD) (n : ℕ) (h : n ≤ cfg3.N) (hz : n ≠ 0) :
    stBefore3 V c n h = stAfter3 V c (n - 1) (by omega) := by
  cases n with
  | zero => exact absurd rfl hz
  | succ n => rfl

/-- At a first tile: afresh. -/
theorem stAfter3_A (c : Dev nD) (t : Fin cfg3.N) (h0 : t.val % 4 = 0) (h1 : ¬t.val % 4 = 3) :
    stAfter3 V c t.val t.isLt = stA V c t h0 h1 := by
  obtain ⟨n, hn⟩ := t
  cases n with
  | zero => exact rfl
  | succ n => exact (dif_pos h0).trans ((dif_neg h1).trans rfl)

/-- At a middle tile: one step from the state after the point before. -/
theorem stAfter3_B (c : Dev nD) (t : Fin cfg3.N) (h0 : ¬t.val % 4 = 0) (h1 : ¬t.val % 4 = 3) :
    stAfter3 V c t.val t.isLt = stB V c t h0 h1 (stAfter3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last tile: the closing step from the state after the point before. -/
theorem stAfter3_C (c : Dev nD) (t : Fin cfg3.N) (h0 : ¬t.val % 4 = 0) (h1 : t.val % 4 = 3) :
    stAfter3 V c t.val t.isLt = stC V c t h0 h1 (stAfter3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last tile what the closing step
    writes out of the state after the point before; elsewhere the window is idle. -/
def out5At (c : Dev nD) (t : Fin cfg3.N) : Vec F S1x256x1024 .f32 :=
  if h1 : t.val % 4 = 3 then
    outC V c t (by omega) h1 (stAfter3 V c (t.val - 1) (Nat.lt_of_le_of_lt (Nat.sub_le _ _) t.isLt))
  else idle3_5

theorem out5At_C (c : Dev nD) (t : Fin cfg3.N) (h0 : ¬t.val % 4 = 0) (h1 : t.val % 4 = 3) :
    out5At V c t = outC V c t h0 h1 (stAfter3 V c (t.val - 1) (Nat.lt_of_le_of_lt (Nat.sub_le _ _) t.isLt)) :=
  dif_pos h1

end Region

end Cert.KernelIdeal.Hand

end
-- ==== Proof.AttnFrame.lean ====
/-
  The attention call's proof data and body obligation.

  After the body at point `t` each input window's staging buffer holds its block; the output window's holds, at a last
  key tile, what the closing step writes out of the state after the point before (`out5At`), and is idle elsewhere. The
  region invariant before position `n` holds the three scratch buffers whole at the state after position `n - 1`
  (`stAfter3`) beside the other scoped buffers and the generator register; before the first point the scratch buffers
  hold anything, which suffices because the first point is a first key tile and resets them.
-/
import proofs.«161242_j13649406066792_2_alg».proof.Proof.AttnFrame.State

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Input window 0's current staging buffer holds its block at every point, fetched there or not: unfetched, the block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: unfetched, the block
    index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: unfetched, the block
    index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: unfetched, the block
    index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: unfetched, the block
    index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The region invariant -/

/-- The class's invariant with the three scratch buffers as whole memrefs at some contents. -/
theorem PhiA3_eq (c : Dev nD) :
    (Pipeline.ΦA spec3 c : sProp 𝕄)
      = iprop((((∃ d, owns (c : Thread nD τ) scM3_0 fullShare d) ∗ (∃ d, owns (c : Thread nD τ) scM3_1 fullShare d)
          ∗ (∃ d, owns (c : Thread nD τ) scM3_2 fullShare d)) ∗ restBut3 (F := F) c) ∗ (∃ r, prngReg c r)) := by
  unfold Pipeline.ΦA; rw [scopedRest3_split]

/-- The invariant before position `n`: before the first point the class's (every scratch buffer at anything);
    afterwards the scratch buffers at the state the point before left, the other scoped buffers at anything, the
    generator register at some state. -/
def PhiS3 (c : Dev nD) : (n : ℕ) → n ≤ cfg3.N → sProp 𝕄
  | 0, _ => Pipeline.ΦA spec3 c
  | n + 1, hn => iprop(((owns (c : Thread nD τ) scM3_0 fullShare (stAfter3 V c n hn).1 ∗ owns (c : Thread nD τ) scM3_1 fullShare (stAfter3 V c n hn).2.1 ∗ owns (c : Thread nD τ) scM3_2 fullShare (stAfter3 V c n hn).2.2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(((owns (c : Thread nD τ) scM3_0 fullShare (stAfter3 V c n hn).1 ∗ owns (c : Thread nD τ) scM3_1 fullShare (stAfter3 V c n hn).2.1 ∗ owns (c : Thread nD τ) scM3_2 fullShare (stAfter3 V c n hn).2.2) ∗ restBut3 (F := F) c) ∗ (∃ r, prngReg c r)) := rfl

theorem PhiS3_pos (c : Dev nD) (n : ℕ) (h : n ≤ cfg3.N) (hz : n ≠ 0) :
    PhiS3 V c n h = iprop(((owns (c : Thread nD τ) scM3_0 fullShare (stAfter3 V c (n - 1) (by omega)).1 ∗ owns (c : Thread nD τ) scM3_1 fullShare (stAfter3 V c (n - 1) (by omega)).2.1 ∗ owns (c : Thread nD τ) scM3_2 fullShare (stAfter3 V c (n - 1) (by omega)).2.2) ∗ restBut3 (F := F) c) ∗ (∃ r, prngReg c r)) := by
  cases n with
  | zero => exact absurd rfl hz
  | succ n => rfl

/-! ## The proof data -/

/-- The proof data of the attention call on core `c`: the arrays as the region finds them; after the body at point `t`
    each input's buffer at its block, the output's at `out5At`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out5At V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out5At V c t := by dsimp only [dat3]

/-- At a last key tile the output window's buffer holds what the closing step writes out of the state after the point before. -/
theorem after3_5_C (c : Dev nD) (t : Fin cfg3.N) (h0 : ¬t.val % 4 = 0) (h1 : t.val % 4 = 3) :
    (dat3 V c).after 5 t = outC V c t h0 h1 (stAfter3 V c (t.val - 1) (Nat.lt_of_le_of_lt (Nat.sub_le _ _) t.isLt)) :=
  (after3_5 V c t).trans (out5At_C V c t h0 h1)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t)

set_option maxHeartbeats 8000000 in
/-- The body at any point, by the three cases of the key-tile coordinate: the inputs' memrefs hold their blocks; the
    invariant hands the body the scratch buffers at the state the point before left (at anything before the first
    point, a first tile) and takes them back at this point's state; the output window is handed back untouched where
    it is idle and holds the written block at a last tile; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 4 = 0
  · by_cases h1 : t.val % 4 = 3
    · exfalso; omega
    · -- a first key tile
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5 t (fun h => h1 ((hcond3_1 t).mp h))) (noFlush3_5 t (fun h => h1 ((hcond3_1 t).mp h)))]
      rw [stAfter3_A V c t h0 h1]
      unfold stA sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS3_castSucc V c t, PhiS3_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · -- a last key tile
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t ((hcond3_1 t).mpr h1)], after3_5]
      rw [out5At_C V c t h0 h1, stAfter3_C V c t h0 h1]
      unfold stC outC sout3_C_0 sout3_C_1 sout3_C_2 out3_C_5; (try dsimp only)
      · rw [PhiS3_castSucc V c t, PhiS3_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_C_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_C_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_C_2 c _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover3_C_5 c _ _ _ _ _ _ _ _ _ _ _ _ _ _ _ _ _ _ _ _ _ _ _ _ _ _ _ _ _)
    · -- a middle key tile
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5 t (fun h => h1 ((hcond3_1 t).mp h))) (noFlush3_5 t (fun h => h1 ((hcond3_1 t).mp h)))]
      rw [stAfter3_B V c t h0 h1]
      unfold stB sout3_B_0 sout3_B_1 sout3_B_2; (try dsimp only)
      · rw [PhiS3_castSucc V c t, PhiS3_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
        iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover3_B_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_B_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover3_B_2 c _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- What the region hands the pipeline — the generator register, no tables, the scoped buffers no window stages — is
    the invariant before the first point. -/
theorem hin3 (c : Dev nD) :
    iprop((∃ r, prngReg c r) ∗ Pipeline.prefHeld (pcfgs (F := F) 3).pre c (fun _ => fullShare) ((cfgs 3).toPCfg_adm).1
        ∗ Pipeline.scopedRest (Ix := Unit) (Name := ℕ) (U := UR sig nD τ) (Lvl := ℕ) (Val := Elt F) spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- After the last point the invariant gives them back: the scratch buffers' named contents are forgotten. -/
theorem hout3 (c : Dev nD) :
    (dat3 V c).Φ (Fin.last cfg3.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec3 c) := by
  rw [Pipeline.ownSems0_none, show (dat3 V c).Φ (Fin.last cfg3.N) = PhiS3 V c cfg3.N (le_refl _) from rfl,
    PhiS3_pos V c _ _ (by have : cfg3.N = 64 := N_3; omega), scopedRest3_split]
  iintro ⟨⟨⟨HS0, HS1, HS2⟩, Hrest⟩, Hg⟩
  isplitl [Hg]; · iexact Hg
  isplitr; · iempintro
  isplitl [HS0 HS1 HS2]
  · isplitl [HS0]; · iexists _; iexact HS0
    isplitl [HS1]; · iexists _; iexact HS1
    iexists _; iexact HS2
  iexact Hrest

end Region

end Cert.KernelIdeal.Hand

end
-- ==== Proof.RunAll.lean ====
/-
  The kernel program's run, for any float instance: @main is four stretches of host operations, each followed by one
  kernel region.  The contents of the core's unscoped buffers are followed from the launch through the eight items
  (`W0` … `W8`): a stretch of host operations applies them, a region replaces its windows' arrays by what its
  pipeline leaves in them.  Every weakly fair execution terminates, faults nowhere, and ends with every unscoped
  buffer at `W8`.
-/
import proofs.«161242_j13649406066792_2_alg».proof.Proof.LinFrame
import proofs.«161242_j13649406066792_2_alg».proof.Proof.AttnFrame
import proofs.«161242_j13649406066792_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s unscoped buffers at launch. -/
abbrev W0 : Dev nD → Valuation τ sig (Elt F) := fun c b => m (c, b)

/-- Before region 0: the host operations of stretch 0 have run. -/
abbrev W1 : Dev nD → Valuation τ sig (Elt F) := fun c => StableHlo.after hostOps0 (W0 m c)
/-- The same read at the TensorCore's references: what region 0's proof data are stated at. -/
abbrev V1 : (c : Dev nD) → (b : Ref sig .tc) → Buf (Elt F) ((c : Thread nD τ).loc b) := fun c b => W1 m c b
/-- After region 0: its windows' arrays at what the pipeline leaves in them, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- Before region 1: the host operations of stretch 1 have run. -/
abbrev W3 : Dev nD → Valuation τ sig (Elt F) := fun c => StableHlo.after hostOps1 (W2 m c)
/-- The same read at the TensorCore's references: what region 1's proof data are stated at. -/
abbrev V3 : (c : Dev nD) → (b : Ref sig .tc) → Buf (Elt F) ((c : Thread nD τ).loc b) := fun c b => W3 m c b
/-- After region 1: its windows' arrays at what the pipeline leaves in them, every other buffer as before. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- Before region 2: the host operations of stretch 2 have run. -/
abbrev W5 : Dev nD → Valuation τ sig (Elt F) := fun c => StableHlo.after hostOps2 (W4 m c)
/-- The same read at the TensorCore's references: what region 2's proof data are stated at. -/
abbrev V5 : (c : Dev nD) → (b : Ref sig .tc) → Buf (Elt F) ((c : Thread nD τ).loc b) := fun c b => W5 m c b
/-- After region 2: its windows' arrays at what the pipeline leaves in them, every other buffer as before. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- Before region 3: the host operations of stretch 3 have run. -/
abbrev W7 : Dev nD → Valuation τ sig (Elt F) := fun c => StableHlo.after hostOps3 (W6 m c)
/-- The same read at the TensorCore's references: what region 3's proof data are stated at. -/
abbrev V7 : (c : Dev nD) → (b : Ref sig .tc) → Buf (Elt F) ((c : Thread nD τ).loc b) := fun c b => W7 m c b
/-- After region 3: its windows' arrays at what the pipeline leaves in them, every other buffer as before. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data family and what rides beside the buffers -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev Lz : GSem nD τ sig → Finset Unit := fun _ => ∅
abbrev lvz : GSem nD τ sig → Unit → ℕ := fun _ _ => 0
/-- Beside the buffers through every item: the generator register at some state, and the core owing nothing. -/
abbrev Rst (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state beside the core owing nothing. -/
abbrev Tlast (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 as a segment: entered with every unscoped buffer at `W1`, left with them at `W2`; its windows'
    arrays are taken out of the unscoped buffers at entry and put back at their final contents at exit; the generator
    register goes into the region's invariant and comes back; the core owes nothing; the kernel has no semaphore of its own. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lz lvz 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`; its windows'
    arrays are taken out of the unscoped buffers at entry and put back at their final contents at exit; the generator
    register goes into the region's invariant and comes back; the core owes nothing; the kernel has no semaphore of its own. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ Lz lvz 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`; its windows'
    arrays are taken out of the unscoped buffers at entry and put back at their final contents at exit; the generator
    register goes into the region's invariant and comes back; the core owes nothing; the kernel has no semaphore of its own. -/
def reg2 : Pipeline.RegionSeg (pcfgs (F := F)) adm (pdats m) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ Lz lvz 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`; its windows'
    arrays are taken out of the unscoped buffers at entry and put back at their final contents at exit; the generator
    register goes into the region's invariant and comes back; the core owes nothing; the kernel has no semaphore of its own. -/
def reg3 : Pipeline.RegionSeg (pcfgs (F := F)) adm (pdats m) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ Lz lvz 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V7 m) c
  hout c := hout3 (V7 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

theorem main_run (c : Dev nD) : main (F := F) c = Pipeline.Seg.run (segs m) := (main_chain c).trans (by chain_rfl)

set_option backward.isDefEq.respectTransparency.types false in
/-- THE RUN: every weakly fair execution of @main from memory `m` with zero counters terminates, nothing faulting, and
    every final memory holds each unscoped buffer of every core at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ Rst c) ⊢ _
        iintro ⟨Hh, Hp, HO⟩
        isplitl [Hh Hp]
        · isplitl [Hh]; · iexact Hh
          iexact Hp
        iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Run

end
-- ==== Proof.RunFrame.lean ====
/-
  The arguments survive the run, for any float instance.

  @main is four stretches of host operations, each followed by one kernel region.  A stretch of host operations
  changes only the buffers its operations write; a region changes only its windows' arrays.  None of the eleven
  argument buffers is written by a host operation, and none is a window's array of a region whose pipeline writes
  it back changed: followed through the eight items, each argument holds at the end what it held at the launch.
  With the run's final memory known at every unscoped buffer, the frame claim — every argument array ends at its
  launch contents, on every core — is read off it.
-/
import proofs.«161242_j13649406066792_2_alg».proof.Proof.RunAll

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- A buffer that is no window's array of any of the four regions and that no stretch of host operations writes
    holds after the eighth item what it held at the launch: each item in turn leaves it alone. -/
theorem W8_of_untouched (c : Dev nD) (r : Ref sig .tc)
    (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r)
    (g0 : r ∉ hostOps0_W) (g1 : r ∉ hostOps1_W) (g2 : r ∉ hostOps2_W) (g3 : r ∉ hostOps3_W) :
    W8 m c (Proc.devRef .tc r) = m ((c : Thread nD τ).loc r) :=
  (W8_of_ne m c r h3).trans <|
  (StableHlo.after_of_writes_sub hostOps3 (W6 m c) hostOps3_writes g3).trans <|
  (W6_of_ne m c r h2).trans <|
  (StableHlo.after_of_writes_sub hostOps2 (W4 m c) hostOps2_writes g2).trans <|
  (W4_of_ne m c r h1).trans <|
  (StableHlo.after_of_writes_sub hostOps1 (W2 m c) hostOps1_writes g1).trans <|
  (W2_of_ne m c r h0).trans <|
  (StableHlo.after_of_writes_sub hostOps0 (W0 m c) hostOps0_writes g0).trans rfl

/-- The eleven arguments. -/
abbrev args : List (Ref sig .tc) :=
  [main_arg0, main_arg1, main_arg2, main_arg3, main_arg4, main_arg5, main_arg6, main_arg7, main_arg8, main_arg9, main_arg10]

/-- No argument is a window's array of a region, and no stretch of host operations writes one: decided over the
    finitely many references and windows. -/
theorem args_untouched : ∀ r ∈ args,
    (∀ w, Pipeline.arrRef spec0 w ≠ r) ∧ (∀ w, Pipeline.arrRef spec1 w ≠ r) ∧
    (∀ w, Pipeline.arrRef spec2 w ≠ r) ∧ (∀ w, Pipeline.arrRef spec3 w ≠ r) ∧
    r ∉ hostOps0_W ∧ r ∉ hostOps1_W ∧ r ∉ hostOps2_W ∧ r ∉ hostOps3_W := by
  decide

/-- No item of @main writes an argument. -/
theorem W8_arg (c : Dev nD) (r : Ref sig .tc)
    (h : r ∈ ([main_arg0, main_arg1, main_arg2, main_arg3, main_arg4, main_arg5, main_arg6, main_arg7, main_arg8, main_arg9, main_arg10] : List (Ref sig .tc))) :
    W8 m c (Proc.devRef .tc r) = m ((c : Thread nD τ).loc r) := by
  obtain ⟨h0, h1, h2, h3, g0, g1, g2, g3⟩ := args_untouched r h
  exact W8_of_untouched m c r h0 h1 h2 h3 g0 g1 g2 g3

/-- THE FRAME: every weakly fair execution of @main terminates, nothing faulting, and on every core each argument
    array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c (Proc.devRef .tc main_arg0) (Finset.mem_filter.mpr ⟨StableHlo.devRef_mem_tcRefs main_arg0, by decide⟩)).trans (W8_arg m c main_arg0 (by decide)),
      (h c (Proc.devRef .tc main_arg1) (Finset.mem_filter.mpr ⟨StableHlo.devRef_mem_tcRefs main_arg1, by decide⟩)).trans (W8_arg m c main_arg1 (by decide)),
      (h c (Proc.devRef .tc main_arg2) (Finset.mem_filter.mpr ⟨StableHlo.devRef_mem_tcRefs main_arg2, by decide⟩)).trans (W8_arg m c main_arg2 (by decide)),
      (h c (Proc.devRef .tc main_arg3) (Finset.mem_filter.mpr ⟨StableHlo.devRef_mem_tcRefs main_arg3, by decide⟩)).trans (W8_arg m c main_arg3 (by decide)),
      (h c (Proc.devRef .tc main_arg4) (Finset.mem_filter.mpr ⟨StableHlo.devRef_mem_tcRefs main_arg4, by decide⟩)).trans (W8_arg m c main_arg4 (by decide)),
      (h c (Proc.devRef .tc main_arg5) (Finset.mem_filter.mpr ⟨StableHlo.devRef_mem_tcRefs main_arg5, by decide⟩)).trans (W8_arg m c main_arg5 (by decide)),
      (h c (Proc.devRef .tc main_arg6) (Finset.mem_filter.mpr ⟨StableHlo.devRef_mem_tcRefs main_arg6, by decide⟩)).trans (W8_arg m c main_arg6 (by decide)),
      (h c (Proc.devRef .tc main_arg7) (Finset.mem_filter.mpr ⟨StableHlo.devRef_mem_tcRefs main_arg7, by decide⟩)).trans (W8_arg m c main_arg7 (by decide)),
      (h c (Proc.devRef .tc main_arg8) (Finset.mem_filter.mpr ⟨StableHlo.devRef_mem_tcRefs main_arg8, by decide⟩)).trans (W8_arg m c main_arg8 (by decide)),
      (h c (Proc.devRef .tc main_arg9) (Finset.mem_filter.mpr ⟨StableHlo.devRef_mem_tcRefs main_arg9, by decide⟩)).trans (W8_arg m c main_arg9 (by decide)),
      (h c (Proc.devRef .tc main_arg10) (Finset.mem_filter.mpr ⟨StableHlo.devRef_mem_tcRefs main_arg10, by decide⟩)).trans (W8_arg m c main_arg10 (by decide))⟩)
    (run_all m ρ)

end Cert.KernelIdeal.Run

end
-- ==== Proof.RefFrame.lean ====
/-
  The reference terminates, faults nowhere and leaves its eleven argument arrays as launched: its run read back as a
  list of host operations already says where every argument ends, so the frame is that run with the result forgotten.
-/
import proofs.«161242_j13649406066792_2_alg».proof.Defs
import proofs.«161242_j13649406066792_2_alg».proof.Proof.Gen.ReferenceIdeal
import proofs.«161242_j13649406066792_2_alg».proof.Proof.Gen.Pre_finite_inputs
import proofs.«161242_j13649406066792_2_alg».proof.Proof.Gen.ReferenceIdeal.Run

noncomputable section

open Idealize.ShloMosaic Idealize.SL.Sem

namespace Cert.Proof.RefFrame

/-- Every weakly fair execution of the reference ends with each argument array unchanged. -/
theorem frame_ri :
    Cert.frame_ReferenceIdeal (hReferenceIdeal := Cert.ReferenceIdeal.Gen.facts)
      (hPre_finite_inputs := Cert.Pre_finite_inputs.Gen.facts) := fun m ρ _ =>
  (θ_run Cert.ReferenceIdeal.defs _ _).mono (fun _ h c => (h c).2)
    (Cert.ReferenceIdeal.Value.run (F := Ideal) m ρ)

end Cert.Proof.RefFrame

end
-- ==== Proof.Spec.lean ====
/-
  Multi-head attention as ONE function of its eleven argument arrays, index by index, on the extended reals:
  batch 2, sequence 2048, model width 1024 = 16 heads × 64.

  `proj X W b` is a linear layer (`X · Wᵀ + b`); `score` the scaled dot product of one query row with one key row
  inside one head; `prob` the two-pass softmax of a query's scores over all 2048 keys (maximum, exponentials, their
  sum, quotient); `heads` the softmax-weighted sum of the value rows; `merged` lays the heads side by side again;
  `G` projects the result with the output weights.  `linear` and `attnOut` are the same two outer layers in the
  layout the kernel's calls see them in (rows flattened, weights already transposed, bias as a 1 × 1024 row).
-/
import Idealize.ShloMosaic.PureOps.Ideal
import Idealize.ShloMosaic.Lib.ValueIdx

noncomputable section

namespace Cert.Spec

open Idealize.ShloMosaic Idealize.ShloMosaic.ValueIdx

/-- Activations [2, 2048, 1024], weights [1024, 1024], a bias [1024], flattened rows [4096, 1024], a bias row [1, 1024]. -/
abbrev SX : Shape := ⟨3, ![2, 2048, 1024]⟩
abbrev SW : Shape := ⟨2, ![1024, 1024]⟩
abbrev SB : Shape := ⟨1, ![1024]⟩
abbrev SF : Shape := ⟨2, ![4096, 1024]⟩
abbrev SR : Shape := ⟨2, ![1, 1024]⟩

/-- Column `d` of head `h` among the 1024 model columns. -/
def col (h : Fin 16) (d : Fin 64) : Fin 1024 := ⟨h.val * 64 + d.val, by omega⟩

/-- The head a model column belongs to, and its position inside the head. -/
def headOf (c : Fin 1024) : Fin 16 := ⟨c.val / 64, by omega⟩
def posOf (c : Fin 1024) : Fin 64 := ⟨c.val % 64, by omega⟩

/-- A linear layer: entry (b, s, e) is the sum over d of X (b, s, d) · W (e, d), plus the bias at e. -/
def proj (X : SX.Idx → EReal) (W : SW.Idx → EReal) (b : SB.Idx → EReal) : SX.Idx → EReal :=
  fun i => (∑ d : Fin 1024, X (ix3 (i 0) (i 1) d) * W (ix2 (i 2) d)) + b (ix1 (i 2))

/-- The scaled score of query row `i` against key row `j` in head `h` of batch `b`: the dot product over the
    head's 64 columns, divided by the square root of 64. -/
def score (q k : SX.Idx → EReal) (b : Fin 2) (h : Fin 16) (i j : Fin 2048) : EReal :=
  Ideal.div (∑ d : Fin 64, q (ix3 b i (col h d)) * k (ix3 b j (col h d)))
    (Ideal.sqrt (Ideal.ofBits .f32 0x42800000#32))

/-- The maximum of a query's scores over all keys, taken from −∞. -/
def rowMax (q k : SX.Idx → EReal) (b : Fin 2) (h : Fin 16) (i : Fin 2048) : EReal :=
  max ⊥ ((Finset.univ : Finset (Fin 2048)).fold max ⊥ fun j => score q k b h i j)

/-- The exponential of a score measured from the row's maximum. -/
def expo (q k : SX.Idx → EReal) (b : Fin 2) (h : Fin 16) (i j : Fin 2048) : EReal :=
  Ideal.exp (score q k b h i j - rowMax q k b h i)

/-- The softmax weight of key `j` for query `i`. -/
def prob (q k : SX.Idx → EReal) (b : Fin 2) (h : Fin 16) (i j : Fin 2048) : EReal :=
  Ideal.div (expo q k b h i j) (∑ j' : Fin 2048, expo q k b h i j')

/-- Head `h`'s output for query `i` at position `d`: the softmax-weighted sum of the value rows. -/
def heads (q k v : SX.Idx → EReal) (b : Fin 2) (h : Fin 16) (i : Fin 2048) (d : Fin 64) : EReal :=
  ∑ j : Fin 2048, prob q k b h i j * v (ix3 b j (col h d))

/-- The heads side by side: entry (b, i, c) is head `c / 64` at position `c % 64`. -/
def merged (q k v : SX.Idx → EReal) : SX.Idx → EReal :=
  fun i => heads q k v (i 0) (headOf (i 2)) (i 1) (posOf (i 2))

/-- Multi-head attention of the eleven arguments. -/
def G (Q K V : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal :=
  proj (merged (proj Q Wq bq) (proj K Wk bk) (proj V Wv bv)) Wo bo

/-- A linear layer as the kernel's projection calls see it: rows flattened to 4096, the weights already transposed
    (entry (d, e)), the bias a 1 × 1024 row. -/
def linear (x : SF.Idx → EReal) (wT : SW.Idx → EReal) (b2 : SR.Idx → EReal) : SF.Idx → EReal :=
  fun i => (∑ d : Fin 1024, x (ix2 (i 0) d) * wT (ix2 d (i 1))) + b2 (ix2 0 (i 1))

/-- The attention call's result from the three projected arrays, the transposed output weights and the bias row. -/
def attnOut (q k v : SX.Idx → EReal) (woT : SW.Idx → EReal) (bo2 : SR.Idx → EReal) : SX.Idx → EReal :=
  fun i => (∑ c : Fin 1024, merged q k v (ix3 (i 0) (i 1) c) * woT (ix2 c (i 2))) + bo2 (ix2 0 (i 2))

/-- An array of extended reals all of whose entries are real numbers. -/
def IsReal {s : Shape} (x : s.Idx → EReal) : Prop := ∀ i, ∃ r : ℝ, x i = (r : EReal)

end Cert.Spec

end
-- ==== Proof.HostGlue.lean ====
/-
  The host operations around the four kernel regions, read at an index, at the ideal instance.

  Before the first region the host flattens the three activation arrays' rows ([2, 2048, 1024] → [4096, 1024]: row
  (p, s) becomes row p · 2048 + s), transposes the four weight matrices, narrows the transposed output weights to
  bf16 (the identity on the extended reals) and lays each bias out as a 1 × 1024 row; after each projection region it
  unflattens the region's result.  Each projection region computes the flat linear layer of its three operands, so
  its unflattened result is the specification's linear layer of the arguments themselves, and the attention region's
  result on those three projections, the transposed output weights and the output bias row is the specification's
  multi-head attention.  What the regions compute enters as hypotheses; this module only follows the buffers through
  the items of @main: a buffer keeps its contents through a stretch of host operations that does not write it and
  through a region of which it is no window's array.
-/
import proofs.«161242_j13649406066792_2_alg».proof.Proof.RunAll
import proofs.«161242_j13649406066792_2_alg».proof.Proof.Spec
import Idealize.ShloMosaic.Lib.ValueLayout
import Idealize.ShloMosaic.Lib.ValueIdx
import Idealize.ShloMosaic.Lib.Pipeline.Value

noncomputable section

namespace Cert.KernelIdeal.Glue

open Cert.KernelIdeal Cert.KernelIdeal.Run
open Cert.KernelIdeal.Gen hiding V0 V1 V2 V3 V4 V5 V6 V7 V8
open Cert.KernelIdeal.Facts
open Idealize.ShloMosaic Idealize.ShloMosaic.TcCoe Idealize.ShloMosaic.Tactic Idealize.ShloMosaic.ValueIdx
open Cert.Spec (SX SW SB SF SR)

/-! ## The layout law: a linear layer on flattened rows, unflattened, is the linear layer -/

section Layout
variable {α : Type}

/-- Row `(p, s)` of the activations is row `p · 2048 + s` of the flattened array. -/
def flatRow (p : Fin 2) (s : Fin 2048) : Fin 4096 := ⟨p.val * 2048 + s.val, by omega⟩

/-- The flattened array at row `p · 2048 + s` is the array at `(p, s)`: both sit at the same row-major position. -/
theorem flatten_apply (X : SX.Idx → α) (h : SX.ShapeCasts SF) (p : Fin 2) (s : Fin 2048) (d : Fin 1024) :
    shapeCast SF X h (ix2 (flatRow p s) d) = X (ix3 p s d) :=
  shapeCast_apply X h _ _ (by rw [Shape.rowMajor_val_two, Shape.rowMajor_val_three]; rfl)

/-- The unflattened array at `(p, s)` is the flat array at row `p · 2048 + s`. -/
theorem unflatten_apply (Y : SF.Idx → α) (h : SF.ShapeCasts SX) (p : Fin 2) (s : Fin 2048) (e : Fin 1024) :
    shapeCast SX Y h (ix3 p s e) = Y (ix2 (flatRow p s) e) :=
  shapeCast_apply Y h _ _ (by rw [Shape.rowMajor_val_two, Shape.rowMajor_val_three]; rfl)

end Layout

/-- Flatten the activations' rows, transpose the weights, lay the bias out as a row, apply the flat linear layer and
    unflatten the result: entry `(p, s, e)` is the sum over `d` of `X (p, s, d) · W (e, d)` plus `b e` — the linear
    layer itself.  No arithmetic law is used: the two sums have the same terms in the same order. -/
theorem proj_of_linear (X : SX.Idx → EReal) (W : SW.Idx → EReal) (b : SB.Idx → EReal)
    (h1 : SX.ShapeCasts SF) (h2 : SW.Transposes [1, 0] SW) (h3 : SB.ShapeCasts SR) (h4 : SF.ShapeCasts SX) :
    shapeCast SX (Cert.Spec.linear (shapeCast SF X h1) (transpose SW [1, 0] W h2) (shapeCast SR b h3)) h4
      = Cert.Spec.proj X W b := by
  funext i
  obtain ⟨p, s, e, rfl⟩ : ∃ (p : Fin 2) (s : Fin 2048) (e : Fin 1024), i = ix3 p s e := ⟨i 0, i 1, i 2, eq_ix3 i⟩
  rw [unflatten_apply]
  show (∑ d : Fin 1024, shapeCast SF X h1 (ix2 (flatRow p s) d) * transpose SW [1, 0] W h2 (ix2 d e))
        + shapeCast SR b h3 (ix2 (0 : Fin 1) e)
      = (∑ d : Fin 1024, X (ix3 p s d) * W (ix2 e d)) + b (ix1 e)
  rw [shapeCast_a_1a_apply]
  congr 1
  refine Finset.sum_congr rfl fun d _ => ?_
  rw [flatten_apply, transpose_ix2_apply]

variable (m : (ℓ : Loc nD τ sig) → Buf (Elt Ideal) ℓ) (c : Dev nD)

/-! ## The eleven arguments as the specification's arrays -/

abbrev argQ : SX.Idx → EReal := m ((c : Thread nD τ).loc main_arg0)
abbrev argK : SX.Idx → EReal := m ((c : Thread nD τ).loc main_arg1)
abbrev argV : SX.Idx → EReal := m ((c : Thread nD τ).loc main_arg2)
abbrev argWq : SW.Idx → EReal := m ((c : Thread nD τ).loc main_arg3)
abbrev argbq : SB.Idx → EReal := m ((c : Thread nD τ).loc main_arg4)
abbrev argWk : SW.Idx → EReal := m ((c : Thread nD τ).loc main_arg5)
abbrev argbk : SB.Idx → EReal := m ((c : Thread nD τ).loc main_arg6)
abbrev argWv : SW.Idx → EReal := m ((c : Thread nD τ).loc main_arg7)
abbrev argbv : SB.Idx → EReal := m ((c : Thread nD τ).loc main_arg8)
abbrev argWo : SW.Idx → EReal := m ((c : Thread nD τ).loc main_arg9)
abbrev argbo : SB.Idx → EReal := m ((c : Thread nD τ).loc main_arg10)

/-! ## A buffer carried through a host stretch and the region after it -/

/-- Through region 0 and the second stretch: a buffer that is no window's array of region 0 and that the stretch does
    not write. -/
theorem W3_of_W1 (r : Ref sig .tc) (h0 : ∀ w, Pipeline.arrRef spec0 w ≠ r) (g1 : r ∉ hostOps1_W) :
    W3 m c (Proc.devRef .tc r) = W1 m c (Proc.devRef .tc r) :=
  (StableHlo.after_of_writes_sub hostOps1 (W2 m c) hostOps1_writes g1).trans (W2_of_ne m c r h0)

/-- Through region 1 and the third stretch. -/
theorem W5_of_W3 (r : Ref sig .tc) (h1 : ∀ w, Pipeline.arrRef spec1 w ≠ r) (g2 : r ∉ hostOps2_W) :
    W5 m c (Proc.devRef .tc r) = W3 m c (Proc.devRef .tc r) :=
  (StableHlo.after_of_writes_sub hostOps2 (W4 m c) hostOps2_writes g2).trans (W4_of_ne m c r h1)

/-- Through region 2 and the fourth stretch. -/
theorem W7_of_W5 (r : Ref sig .tc) (h2 : ∀ w, Pipeline.arrRef spec2 w ≠ r) (g3 : r ∉ hostOps3_W) :
    W7 m c (Proc.devRef .tc r) = W5 m c (Proc.devRef .tc r) :=
  (StableHlo.after_of_writes_sub hostOps3 (W6 m c) hostOps3_writes g3).trans (W6_of_ne m c r h2)

theorem W5_of_W1 (r : Ref sig .tc) (h0 : ∀ w, Pipeline.arrRef spec0 w ≠ r) (h1 : ∀ w, Pipeline.arrRef spec1 w ≠ r)
    (g1 : r ∉ hostOps1_W) (g2 : r ∉ hostOps2_W) : W5 m c (Proc.devRef .tc r) = W1 m c (Proc.devRef .tc r) :=
  (W5_of_W3 m c r h1 g2).trans (W3_of_W1 m c r h0 g1)

theorem W7_of_W3 (r : Ref sig .tc) (h1 : ∀ w, Pipeline.arrRef spec1 w ≠ r) (h2 : ∀ w, Pipeline.arrRef spec2 w ≠ r)
    (g2 : r ∉ hostOps2_W) (g3 : r ∉ hostOps3_W) : W7 m c (Proc.devRef .tc r) = W3 m c (Proc.devRef .tc r) :=
  (W7_of_W5 m c r h2 g3).trans (W5_of_W3 m c r h1 g2)

theorem W7_of_W1 (r : Ref sig .tc) (h0 : ∀ w, Pipeline.arrRef spec0 w ≠ r) (h1 : ∀ w, Pipeline.arrRef spec1 w ≠ r)
    (h2 : ∀ w, Pipeline.arrRef spec2 w ≠ r) (g1 : r ∉ hostOps1_W) (g2 : r ∉ hostOps2_W) (g3 : r ∉ hostOps3_W) :
    W7 m c (Proc.devRef .tc r) = W1 m c (Proc.devRef .tc r) :=
  (W7_of_W3 m c r h1 h2 g2 g3).trans (W3_of_W1 m c r h0 g1)

/-! ## What the first stretch of host operations leaves -/

theorem flatQ_eq : (W1 m c (Proc.devRef .tc main_v0) : SF.Idx → EReal) = shapeCast SF (argQ m c) shapeCasts_S2x2048x1024_S4096x1024 := by
  show StableHlo.after hostOps0 _ (Proc.devRef .tc main_v0) = _
  after_results
  all_goals rfl
theorem flatK_eq : (W1 m c (Proc.devRef .tc main_v1) : SF.Idx → EReal) = shapeCast SF (argK m c) shapeCasts_S2x2048x1024_S4096x1024 := by
  show StableHlo.after hostOps0 _ (Proc.devRef .tc main_v1) = _
  after_results
  all_goals rfl
theorem flatV_eq : (W1 m c (Proc.devRef .tc main_v2) : SF.Idx → EReal) = shapeCast SF (argV m c) shapeCasts_S2x2048x1024_S4096x1024 := by
  show StableHlo.after hostOps0 _ (Proc.devRef .tc main_v2) = _
  after_results
  all_goals rfl
theorem transWq_eq : (W1 m c (Proc.devRef .tc main_v3) : SW.Idx → EReal) = transpose SW [1, 0] (argWq m c) transposes_S1024x1024_S1024x1024_1_0 := by
  show StableHlo.after hostOps0 _ (Proc.devRef .tc main_v3) = _
  after_results
  all_goals rfl
theorem transWk_eq : (W1 m c (Proc.devRef .tc main_v4) : SW.Idx → EReal) = transpose SW [1, 0] (argWk m c) transposes_S1024x1024_S1024x1024_1_0 := by
  show StableHlo.after hostOps0 _ (Proc.devRef .tc main_v4) = _
  after_results
  all_goals rfl
theorem transWv_eq : (W1 m c (Proc.devRef .tc main_v5) : SW.Idx → EReal) = transpose SW [1, 0] (argWv m c) transposes_S1024x1024_S1024x1024_1_0 := by
  show StableHlo.after hostOps0 _ (Proc.devRef .tc main_v5) = _
  after_results
  all_goals rfl
/-- The transposed output weights, narrowed to bf16: on the extended reals the narrowing changes nothing. -/
theorem transWo_eq : (W1 m c (Proc.devRef .tc main_v7) : SW.Idx → EReal) = transpose SW [1, 0] (argWo m c) transposes_S1024x1024_S1024x1024_1_0 := by
  show StableHlo.after hostOps0 _ (Proc.devRef .tc main_v7) = _
  after_results
  all_goals rfl
theorem rowbq_eq : (W1 m c (Proc.devRef .tc main_v8) : SR.Idx → EReal) = shapeCast SR (argbq m c) shapeCasts_S1024_S1x1024 := by
  show StableHlo.after hostOps0 _ (Proc.devRef .tc main_v8) = _
  after_results
  all_goals rfl
theorem rowbk_eq : (W1 m c (Proc.devRef .tc main_v9) : SR.Idx → EReal) = shapeCast SR (argbk m c) shapeCasts_S1024_S1x1024 := by
  show StableHlo.after hostOps0 _ (Proc.devRef .tc main_v9) = _
  after_results
  all_goals rfl
theorem rowbv_eq : (W1 m c (Proc.devRef .tc main_v10) : SR.Idx → EReal) = shapeCast SR (argbv m c) shapeCasts_S1024_S1x1024 := by
  show StableHlo.after hostOps0 _ (Proc.devRef .tc main_v10) = _
  after_results
  all_goals rfl
theorem rowbo_eq : (W1 m c (Proc.devRef .tc main_v11) : SR.Idx → EReal) = shapeCast SR (argbo m c) shapeCasts_S1024_S1x1024 := by
  show StableHlo.after hostOps0 _ (Proc.devRef .tc main_v11) = _
  after_results
  all_goals rfl

/-! ## The three projections -/

/-- The query projection: region 0's flat linear layer of the flattened queries, unflattened by the second stretch
    and untouched from then on. -/
theorem q_eq (h0 : W2 m c (Proc.devRef .tc main_v12) = Cert.Spec.linear (V1 m c main_v0) (V1 m c main_v3) (V1 m c main_v8)) :
    V7 m c main_v13 = Cert.Spec.proj (argQ m c) (argWq m c) (argbq m c) := by
  have e1 : W7 m c (Proc.devRef .tc main_v13) = W3 m c (Proc.devRef .tc main_v13) :=
    W7_of_W3 m c main_v13 (by decide) (by decide) (by decide) (by decide)
  have e2 : (W3 m c (Proc.devRef .tc main_v13) : SX.Idx → EReal)
      = shapeCast SX (W2 m c (Proc.devRef .tc main_v12) : SF.Idx → EReal) shapeCasts_S4096x1024_S2x2048x1024 := by
    show StableHlo.after hostOps1 _ (Proc.devRef .tc main_v13) = _
    after_results
    all_goals rfl
  refine e1.trans (e2.trans ?_)
  rw [h0]
  show shapeCast SX (Cert.Spec.linear (W1 m c (Proc.devRef .tc main_v0) : SF.Idx → EReal) (W1 m c (Proc.devRef .tc main_v3) : SW.Idx → EReal)
    (W1 m c (Proc.devRef .tc main_v8) : SR.Idx → EReal)) _ = _
  rw [flatQ_eq, transWq_eq, rowbq_eq]
  exact proj_of_linear _ _ _ _ _ _ _

/-- The key projection. -/
theorem k_eq (h1 : W4 m c (Proc.devRef .tc main_v14) = Cert.Spec.linear (V3 m c main_v1) (V3 m c main_v4) (V3 m c main_v9)) :
    V7 m c main_v15 = Cert.Spec.proj (argK m c) (argWk m c) (argbk m c) := by
  have e1 : W7 m c (Proc.devRef .tc main_v15) = W5 m c (Proc.devRef .tc main_v15) :=
    W7_of_W5 m c main_v15 (by decide) (by decide)
  have e2 : (W5 m c (Proc.devRef .tc main_v15) : SX.Idx → EReal)
      = shapeCast SX (W4 m c (Proc.devRef .tc main_v14) : SF.Idx → EReal) shapeCasts_S4096x1024_S2x2048x1024 := by
    show StableHlo.after hostOps2 _ (Proc.devRef .tc main_v15) = _
    after_results
    all_goals rfl
  have a1 : W3 m c (Proc.devRef .tc main_v1) = W1 m c (Proc.devRef .tc main_v1) := W3_of_W1 m c main_v1 (by decide) (by decide)
  have a4 : W3 m c (Proc.devRef .tc main_v4) = W1 m c (Proc.devRef .tc main_v4) := W3_of_W1 m c main_v4 (by decide) (by decide)
  have a9 : W3 m c (Proc.devRef .tc main_v9) = W1 m c (Proc.devRef .tc main_v9) := W3_of_W1 m c main_v9 (by decide) (by decide)
  refine e1.trans (e2.trans ?_)
  rw [h1]
  show shapeCast SX (Cert.Spec.linear (W3 m c (Proc.devRef .tc main_v1) : SF.Idx → EReal) (W3 m c (Proc.devRef .tc main_v4) : SW.Idx → EReal)
    (W3 m c (Proc.devRef .tc main_v9) : SR.Idx → EReal)) _ = _
  rw [a1, a4, a9]
  show shapeCast SX (Cert.Spec.linear (W1 m c (Proc.devRef .tc main_v1) : SF.Idx → EReal) (W1 m c (Proc.devRef .tc main_v4) : SW.Idx → EReal)
    (W1 m c (Proc.devRef .tc main_v9) : SR.Idx → EReal)) _ = _
  rw [flatK_eq, transWk_eq, rowbk_eq]
  exact proj_of_linear _ _ _ _ _ _ _

/-- The value projection. -/
theorem v_eq (h2 : W6 m c (Proc.devRef .tc main_v16) = Cert.Spec.linear (V5 m c main_v2) (V5 m c main_v5) (V5 m c main_v10)) :
    V7 m c main_v17 = Cert.Spec.proj (argV m c) (argWv m c) (argbv m c) := by
  have e2 : (W7 m c (Proc.devRef .tc main_v17) : SX.Idx → EReal)
      = shapeCast SX (W6 m c (Proc.devRef .tc main_v16) : SF.Idx → EReal) shapeCasts_S4096x1024_S2x2048x1024 := by
    show StableHlo.after hostOps3 _ (Proc.devRef .tc main_v17) = _
    after_results
    all_goals rfl
  have a2 : W5 m c (Proc.devRef .tc main_v2) = W1 m c (Proc.devRef .tc main_v2) :=
    W5_of_W1 m c main_v2 (by decide) (by decide) (by decide) (by decide)
  have a5 : W5 m c (Proc.devRef .tc main_v5) = W1 m c (Proc.devRef .tc main_v5) :=
    W5_of_W1 m c main_v5 (by decide) (by decide) (by decide) (by decide)
  have a10 : W5 m c (Proc.devRef .tc main_v10) = W1 m c (Proc.devRef .tc main_v10) :=
    W5_of_W1 m c main_v10 (by decide) (by decide) (by decide) (by decide)
  refine e2.trans ?_
  rw [h2]
  show shapeCast SX (Cert.Spec.linear (W5 m c (Proc.devRef .tc main_v2) : SF.Idx → EReal) (W5 m c (Proc.devRef .tc main_v5) : SW.Idx → EReal)
    (W5 m c (Proc.devRef .tc main_v10) : SR.Idx → EReal)) _ = _
  rw [a2, a5, a10]
  show shapeCast SX (Cert.Spec.linear (W1 m c (Proc.devRef .tc main_v2) : SF.Idx → EReal) (W1 m c (Proc.devRef .tc main_v5) : SW.Idx → EReal)
    (W1 m c (Proc.devRef .tc main_v10) : SR.Idx → EReal)) _ = _
  rw [flatV_eq, transWv_eq, rowbv_eq]
  exact proj_of_linear _ _ _ _ _ _ _

/-! ## The output weights and bias as the attention region finds them -/

/-- Entry `(i, j)` of the transposed output weights is entry `(j, i)` of the output weights. -/
theorem wo_eq (i j : Fin 1024) : V7 m c main_v7 (ix2 i j) = argWo m c (ix2 j i) := by
  have e1 : W7 m c (Proc.devRef .tc main_v7) = W1 m c (Proc.devRef .tc main_v7) :=
    W7_of_W1 m c main_v7 (by decide) (by decide) (by decide) (by decide) (by decide) (by decide)
  have e : (W7 m c (Proc.devRef .tc main_v7) : SW.Idx → EReal) = transpose SW [1, 0] (argWo m c) transposes_S1024x1024_S1024x1024_1_0 :=
    e1.trans (transWo_eq m c)
  exact (congrFun e (ix2 i j)).trans (transpose_ix2_apply _ _ i j)

/-- Entry `(0, e)` of the output bias row is entry `e` of the output bias. -/
theorem bo_eq (e : Fin 1024) : V7 m c main_v11 (ix2 (0 : Fin 1) e) = argbo m c (ix1 e) := by
  have e1 : W7 m c (Proc.devRef .tc main_v11) = W1 m c (Proc.devRef .tc main_v11) :=
    W7_of_W1 m c main_v11 (by decide) (by decide) (by decide) (by decide) (by decide) (by decide)
  have e' : (W7 m c (Proc.devRef .tc main_v11) : SR.Idx → EReal) = shapeCast SR (argbo m c) shapeCasts_S1024_S1x1024 :=
    e1.trans (rowbo_eq m c)
  exact (congrFun e' (ix2 (0 : Fin 1) e)).trans (shapeCast_a_1a_apply _ _ 0 e)

/-! ## The result -/

/-- The attention region's result is multi-head attention of the eleven arguments: its three operands are the
    projections, and its output layer, written over the transposed weights and the bias row, has the same terms as
    the specification's. -/
theorem result_eq
    (h0 : W2 m c (Proc.devRef .tc main_v12) = Cert.Spec.linear (V1 m c main_v0) (V1 m c main_v3) (V1 m c main_v8))
    (h1 : W4 m c (Proc.devRef .tc main_v14) = Cert.Spec.linear (V3 m c main_v1) (V3 m c main_v4) (V3 m c main_v9))
    (h2 : W6 m c (Proc.devRef .tc main_v16) = Cert.Spec.linear (V5 m c main_v2) (V5 m c main_v5) (V5 m c main_v10))
    (h3 : W8 m c (Proc.devRef .tc main_v18) = Cert.Spec.attnOut (V7 m c main_v13) (V7 m c main_v15) (V7 m c main_v17)
      (V7 m c main_v7) (V7 m c main_v11)) :
    W8 m c (Proc.devRef .tc main_v18) = Cert.Spec.G (argQ m c) (argK m c) (argV m c) (argWq m c) (argbq m c) (argWk m c)
      (argbk m c) (argWv m c) (argbv m c) (argWo m c) (argbo m c) := by
  refine h3.trans ?_
  rw [q_eq m c h0, k_eq m c h1, v_eq m c h2]
  funext i
  obtain ⟨p, s, e, rfl⟩ : ∃ (p : Fin 2) (s : Fin 2048) (e : Fin 1024), i = ix3 p s e := ⟨i 0, i 1, i 2, eq_ix3 i⟩
  show (∑ d : Fin 1024, Cert.Spec.merged _ _ _ (ix3 p s d) * V7 m c main_v7 (ix2 d e)) + V7 m c main_v11 (ix2 (0 : Fin 1) e)
      = (∑ d : Fin 1024, Cert.Spec.merged _ _ _ (ix3 p s d) * argWo m c (ix2 e d)) + argbo m c (ix1 e)
  rw [bo_eq]
  congr 1
  refine Finset.sum_congr rfl fun d _ => ?_
  rw [wo_eq]

end Cert.KernelIdeal.Glue

end
-- ==== Proof.LinValue.lean ====
/-
  What the three linear-projection kernels leave in their output arrays, on the extended reals: after the
  last grid point the output array of each is the linear layer `Cert.Spec.linear` of the three arrays the
  region finds (rows, transposed weights, bias row), index by index.

  The body's payload at an index is the row of the block times the column of the weights, summed over the
  1024 contracted coordinates, plus the bias row's entry: the two narrowing conversions are the identity on
  extended reals, the product accumulates into the zero word, the bias row is laid along every row.  Point
  `t` of the grid writes rows 512·t … 512·t + 511, so row `r` is written by point `r / 512`, and the
  eight blocks cover the 4096 rows.
-/
import proofs.«161242_j13649406066792_2_alg».proof.Proof.LinFrame
import proofs.«161242_j13649406066792_2_alg».proof.Proof.Spec
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

/-! ## The payload at an index -/

/-- The contraction record of the three products: rows × contraction times contraction × columns. -/
abbrev DD : DotDims S512x1024 S1024x1024 S512x1024 := dot_S512x1024_S1024x1024_S512x1024_1_0_0_1_n_n

/-- The left operand's index at output index `i` and contraction index `q`: the output's row … -/
theorem lhs_row (i : S512x1024.Idx) (q : DD.contr.Idx) : (DD.lhsIdx i q 0).val = (i 0).val := by
  unfold DotDims.lhsIdx
  rw [dif_neg (show ¬(0 : Fin S512x1024.rank) ∈ DD.lhsBatch by decide), dif_pos (show (0 : Fin S512x1024.rank) ∈ DD.lhsNonContracting by decide)]
  rfl
/-- … and the contracted coordinate; -/
theorem lhs_con (i : S512x1024.Idx) (q : DD.contr.Idx) : (DD.lhsIdx i q 1).val = (q ⟨0, by decide⟩).val :=
  DD.lhsIdx_val_of_single rfl i q
/-- the right operand's: the contracted coordinate … -/
theorem rhs_con (i : S512x1024.Idx) (q : DD.contr.Idx) : (DD.rhsIdx i q 0).val = (q ⟨0, by decide⟩).val :=
  DD.rhsIdx_val_of_single rfl i q
/-- … and the output's column. -/
theorem rhs_col (i : S512x1024.Idx) (q : DD.contr.Idx) : (DD.rhsIdx i q 1).val = (i 1).val := by
  unfold DotDims.rhsIdx
  rw [dif_neg (show ¬(1 : Fin S1024x1024.rank) ∈ DD.rhsBatch by decide), dif_pos (show (1 : Fin S1024x1024.rank) ∈ DD.rhsNonContracting by decide)]
  rfl

/-- The product into the zero accumulator at (p, q): the sum over the 1024 contracted coordinates of the
    left operand's row entry times the right operand's column entry. -/
theorem matmul_at (a : FVec Ideal S512x1024 .bf16) (b : FVec Ideal S1024x1024 .bf16) (p : Fin 512) (q : Fin 1024) :
    matmul DD none a b (constant (F := Ideal) S512x1024 .f32 0x00000000#32) (ix2 p q) = ∑ k : Fin 1024, a (ix2 p k) * b (ix2 k q) := by
  refine (Ideal.matmul_constant_zero_apply DD none a b (ix2 p q)).trans ?_
  rw [← Equiv.sum_comp (contrEquiv1 DD 1024 rfl rfl).symm]
  refine Finset.sum_congr rfl fun k _ => ?_
  have hk := contrEquiv1_symm_val DD 1024 rfl rfl k
  have el : DD.lhsIdx (ix2 p q) ((contrEquiv1 DD 1024 rfl rfl).symm k) = ix2 p k := funext fun x => Fin.ext (by
    match x with
    | ⟨0, _⟩ => exact lhs_row _ _
    | ⟨1, _⟩ => exact (lhs_con _ _).trans hk)
  have er : DD.rhsIdx (ix2 p q) ((contrEquiv1 DD 1024 rfl rfl).symm k) = ix2 k q := funext fun x => Fin.ext (by
    match x with
    | ⟨0, _⟩ => exact (rhs_con _ _).trans hk
    | ⟨1, _⟩ => exact rhs_col _ _)
  rw [el, er]

/-- The bias row laid along every row, at (p, q): the row's entry at column q. -/
theorem bias_at (v : FVec Ideal S1x1024 .f32) (hb : S1x1024.Broadcasts S512x1024) (p : Fin 512) (q : Fin 1024) :
    broadcastTo S512x1024 v hb (ix2 p q) = v (ix2 0 q) :=
  broadcastTo_apply v hb (ix2 p q) (ix2 (0 : Fin 1) q) (by
    intro x
    match x with
    | ⟨0, _⟩ => rfl
    | ⟨1, _⟩ => rfl)

/-- The common payload of the three kernels at (p, q). -/
theorem pay_at (v0 : Vec Ideal S512x1024 .f32) (v3 : Vec Ideal S1024x1024 .f32) (v7 : Vec Ideal S1x1024 .f32)
    (h0 : S512x1024.ShapeCasts S512x1024) (h3 : S1024x1024.ShapeCasts S1024x1024) (h7 : S1x1024.ShapeCasts S1x1024)
    (ht : FTy.bits .bf16 < FTy.bits .f32) (hb : S1x1024.Broadcasts S512x1024) (p : Fin 512) (q : Fin 1024) :
    addf (matmul DD none (truncf .bf16 (shapeCast S512x1024 v0 h0) ht)
        (truncf .bf16 (shapeCast S1024x1024 v3 h3) ht) (constant (F := Ideal) S512x1024 .f32 0x00000000#32))
      (broadcastTo S512x1024 (shapeCast S1x1024 v7 h7) hb) (ix2 p q)
      = (∑ k : Fin 1024, v0 (ix2 p k) * v3 (ix2 k q)) + v7 (ix2 0 q) := by
  rw [shapeCast_self, shapeCast_self, shapeCast_self, addf_apply, matmul_at, bias_at]
  rfl

theorem pay0_at (v0 : Vec Ideal S512x1024 .f32) (v3 : Vec Ideal S1024x1024 .f32) (v7 : Vec Ideal S1x1024 .f32) (p : Fin 512) (q : Fin 1024) :
    k0_pay1 (F := Ideal) v0 v3 v7 (ix2 p q) = (∑ k : Fin 1024, v0 (ix2 p k) * v3 (ix2 k q)) + v7 (ix2 0 q) :=
  pay_at v0 v3 v7 _ _ _ _ _ p q
theorem pay1_at (v0 : Vec Ideal S512x1024 .f32) (v3 : Vec Ideal S1024x1024 .f32) (v7 : Vec Ideal S1x1024 .f32) (p : Fin 512) (q : Fin 1024) :
    k1_pay1 (F := Ideal) v0 v3 v7 (ix2 p q) = (∑ k : Fin 1024, v0 (ix2 p k) * v3 (ix2 k q)) + v7 (ix2 0 q) :=
  pay_at v0 v3 v7 _ _ _ _ _ p q
theorem pay2_at (v0 : Vec Ideal S512x1024 .f32) (v3 : Vec Ideal S1024x1024 .f32) (v7 : Vec Ideal S1x1024 .f32) (p : Fin 512) (q : Fin 1024) :
    k2_pay1 (F := Ideal) v0 v3 v7 (ix2 p q) = (∑ k : Fin 1024, v0 (ix2 p k) * v3 (ix2 k q)) + v7 (ix2 0 q) :=
  pay_at v0 v3 v7 _ _ _ _ _ p q

theorem hz : (![0, 0] : Fin 2 → Nat) = fun _ => 0 := funext fun a => by fin_cases a <;> rfl

/-! ## A block of the linear layer -/

/-- If the rows window, the weights window and the bias window read the arrays where the output block's entry
    (p, q) says — the same row of the rows array, the same column of the weights and of the bias row —, the
    payload's value at (p, q) is the linear layer's at the output block's entry. -/
theorem block_linear (x : S4096x1024.Idx → EReal) (w : S1024x1024.Idx → EReal) (b : S1x1024.Idx → EReal)
    (ex : S512x1024.Idx → S4096x1024.Idx) (ew : S1024x1024.Idx → S1024x1024.Idx) (eb : S1x1024.Idx → S1x1024.Idx)
    (eo : S512x1024.Idx → S4096x1024.Idx) (p : Fin 512) (q : Fin 1024)
    (hx : ∀ k : Fin 1024, ex (ix2 p k) = ix2 (eo (ix2 p q) 0) k)
    (hw : ∀ k : Fin 1024, ew (ix2 k q) = ix2 k (eo (ix2 p q) 1))
    (hb : eb (ix2 (0 : Fin 1) q) = ix2 (0 : Fin 1) (eo (ix2 p q) 1)) :
    (∑ k : Fin 1024, x (ex (ix2 p k)) * w (ew (ix2 k q))) + b (eb (ix2 0 q)) = Cert.Spec.linear x w b (eo (ix2 p q)) := by
  show _ = (∑ d : Fin 1024, x (ix2 (eo (ix2 p q) 0) d) * w (ix2 d (eo (ix2 p q) 1))) + b (ix2 0 (eo (ix2 p q) 1))
  rw [hb]
  exact congrArg (· + _) (Finset.sum_congr rfl fun k _ => congrArg₂ (· * ·) (congrArg x (hx k)) (congrArg w (hw k)))

/-! # Region 0: the array window 3 of custom_call 0 writes -/

section Region0
variable (V : (c : Dev nD) → (b : Ref sig .tc) → Buf (Elt Ideal) ((c : Thread nD τ).loc b))

/-- The index maps over the eight grid points, decided: the rows window and the output window move together,
    point `t` at block row `t`; every other block coordinate is 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row below 8 is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of the linear layer of the three arrays the region finds. -/
theorem flushed0_eq (c : Dev nD) (t : Fin cfg0.N) :
    (Hand.dat0 (F := Ideal) V c).flushed 3 t
      = ((cfg0.win 3).blk t).view.read (Elt Ideal) (Cert.Spec.linear (V c main_v0) (V c main_v3) (V c main_v8)) := by
  show (cfg0.win 3).cut (grid0.coords t) ((Hand.dat0 (F := Ideal) V c).after 3 t) = _
  rw [Hand.after0_3]
  unfold Hand.out0_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts0 t
  funext j
  obtain ⟨p, q, rfl⟩ : ∃ (p : Fin 512) (q : Fin 1024), j = ix2 p q := ⟨j 0, j 1, eq_ix2 j⟩
  refine (pay0_at (Hand.iblk0 V c 0 t) (Hand.iblk0 V c 1 t) (Hand.iblk0 V c 2 t) p q).trans ?_
  have hx : ∀ k : Fin 1024, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have hw : ∀ k : Fin 1024, ((cfg0.win 1).blk t).view.emb (ix2 k q) = ix2 k ((((cfg0.win 3).blk t).view.emb (ix2 p q)) 1) := by
    intro k; funext a; apply Fin.ext
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  have hb : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  exact block_linear (V c main_v0) (V c main_v3) (V c main_v8) ((cfg0.win 0).blk t).view.emb ((cfg0.win 1).blk t).view.emb
    ((cfg0.win 2).blk t).view.emb ((cfg0.win 3).blk t).view.emb p q hx hw hb

/-- An index of the array is in point `t`'s block iff each coordinate is in the block's range on its axis. -/
theorem mem_blk0 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v12).slice (win0_3.rect t)).set ↔ _
  rw [View.set_slice_whole, Rect.mem_set_unit]
  exact Iff.rfl

/-- Row `r` is in the block of point `r / 512`: the eight blocks cover the array. -/
theorem covered0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The output array after the last point is the linear layer of the three arrays the region finds. -/
theorem arrAt0 (c : Dev nD) :
    (Hand.dat0 (F := Ideal) V c).arrAt 3 cfg0.N = Cert.Spec.linear (V c main_v0) (V c main_v3) (V c main_v8) :=
  (Hand.dat0 (F := Ideal) V c).arrAt_eq_of_cover 3 (Cert.Spec.linear (V c main_v0) (V c main_v3) (V c main_v8))
    (fun t _ => flushed0_eq V c t) covered0

end Region0

/-! # Region 1: the array window 3 of custom_call 1 writes -/

section Region1
variable (V : (c : Dev nD) → (b : Ref sig .tc) → Buf (Elt Ideal) ((c : Thread nD τ).loc b))

/-- The index maps over the eight grid points, decided: the rows window and the output window move together,
    point `t` at block row `t`; every other block coordinate is 0. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row below 8 is some point's. -/
theorem idx_onto1 : ∀ q0 : Fin 8, ∃ t : Fin cfg1.N, win1_3.index t = ![q0.val, 0] :=
  (by decide +kernel : ∀ q0 : Fin 8, ∃ t : Fin grid1.N, win1_3.index t = ![q0.val, 0])

/-- What point `t` writes back is block `t` of the linear layer of the three arrays the region finds. -/
theorem flushed1_eq (c : Dev nD) (t : Fin cfg1.N) :
    (Hand.dat1 (F := Ideal) V c).flushed 3 t
      = ((cfg1.win 3).blk t).view.read (Elt Ideal) (Cert.Spec.linear (V c main_v1) (V c main_v4) (V c main_v9)) := by
  show (cfg1.win 3).cut (grid1.coords t) ((Hand.dat1 (F := Ideal) V c).after 3 t) = _
  rw [Hand.after1_3]
  unfold Hand.out1_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts1 t
  funext j
  obtain ⟨p, q, rfl⟩ : ∃ (p : Fin 512) (q : Fin 1024), j = ix2 p q := ⟨j 0, j 1, eq_ix2 j⟩
  refine (pay1_at (Hand.iblk1 V c 0 t) (Hand.iblk1 V c 1 t) (Hand.iblk1 V c 2 t) p q).trans ?_
  have hx : ∀ k : Fin 1024, ((cfg1.win 0).blk t).view.emb (ix2 p k) = ix2 ((((cfg1.win 3).blk t).view.emb (ix2 p q)) 0) k := by
    intro k; funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * k.val = k.val; omega
  have hw : ∀ k : Fin 1024, ((cfg1.win 1).blk t).view.emb (ix2 k q) = ix2 k ((((cfg1.win 3).blk t).view.emb (ix2 p q)) 1) := by
    intro k; funext a; apply Fin.ext
    match a with
    | ⟨0, _⟩ => show win1_1.index t (0 : Fin 2) * 1024 + 1 * k.val = k.val; omega
    | ⟨1, _⟩ => show win1_1.index t (1 : Fin 2) * 1024 + 1 * q.val = win1_3.index t (1 : Fin 2) * 1024 + 1 * q.val; omega
  have hb : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega
  exact block_linear (V c main_v1) (V c main_v4) (V c main_v9) ((cfg1.win 0).blk t).view.emb ((cfg1.win 1).blk t).view.emb
    ((cfg1.win 2).blk t).view.emb ((cfg1.win 3).blk t).view.emb p q hx hw hb

/-- An index of the array is in point `t`'s block iff each coordinate is in the block's range on its axis. -/
theorem mem_blk1 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v14).slice (win1_3.rect t)).set ↔ _
  rw [View.set_slice_whole, Rect.mem_set_unit]
  exact Iff.rfl

/-- Row `r` is in the block of point `r / 512`: the eight blocks cover the array. -/
theorem covered1 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- The output array after the last point is the linear layer of the three arrays the region finds. -/
theorem arrAt1 (c : Dev nD) :
    (Hand.dat1 (F := Ideal) V c).arrAt 3 cfg1.N = Cert.Spec.linear (V c main_v1) (V c main_v4) (V c main_v9) :=
  (Hand.dat1 (F := Ideal) V c).arrAt_eq_of_cover 3 (Cert.Spec.linear (V c main_v1) (V c main_v4) (V c main_v9))
    (fun t _ => flushed1_eq V c t) covered1

end Region1

/-! # Region 2: the array window 3 of custom_call 2 writes -/

section Region2
variable (V : (c : Dev nD) → (b : Ref sig .tc) → Buf (Elt Ideal) ((c : Thread nD τ).loc b))

/-- The index maps over the eight grid points, decided: the rows window and the output window move together,
    point `t` at block row `t`; every other block coordinate is 0. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row below 8 is some point's. -/
theorem idx_onto2 : ∀ q0 : Fin 8, ∃ t : Fin cfg2.N, win2_3.index t = ![q0.val, 0] :=
  (by decide +kernel : ∀ q0 : Fin 8, ∃ t : Fin grid2.N, win2_3.index t = ![q0.val, 0])

/-- What point `t` writes back is block `t` of the linear layer of the three arrays the region finds. -/
theorem flushed2_eq (c : Dev nD) (t : Fin cfg2.N) :
    (Hand.dat2 (F := Ideal) V c).flushed 3 t
      = ((cfg2.win 3).blk t).view.read (Elt Ideal) (Cert.Spec.linear (V c main_v2) (V c main_v5) (V c main_v10)) := by
  show (cfg2.win 3).cut (grid2.coords t) ((Hand.dat2 (F := Ideal) V c).after 3 t) = _
  rw [Hand.after2_3]
  unfold Hand.out2_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts2 t
  funext j
  obtain ⟨p, q, rfl⟩ : ∃ (p : Fin 512) (q : Fin 1024), j = ix2 p q := ⟨j 0, j 1, eq_ix2 j⟩
  refine (pay2_at (Hand.iblk2 V c 0 t) (Hand.iblk2 V c 1 t) (Hand.iblk2 V c 2 t) p q).trans ?_
  have hx : ∀ k : Fin 1024, ((cfg2.win 0).blk t).view.emb (ix2 p k) = ix2 ((((cfg2.win 3).blk t).view.emb (ix2 p q)) 0) k := by
    intro k; funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have hw : ∀ k : Fin 1024, ((cfg2.win 1).blk t).view.emb (ix2 k q) = ix2 k ((((cfg2.win 3).blk t).view.emb (ix2 p q)) 1) := by
    intro k; funext a; apply Fin.ext
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + 1 * q.val; omega
  have hb : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  exact block_linear (V c main_v2) (V c main_v5) (V c main_v10) ((cfg2.win 0).blk t).view.emb ((cfg2.win 1).blk t).view.emb
    ((cfg2.win 2).blk t).view.emb ((cfg2.win 3).blk t).view.emb p q hx hw hb

/-- An index of the array is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v16).slice (win2_3.rect t)).set ↔ _
  rw [View.set_slice_whole, Rect.mem_set_unit]
  exact Iff.rfl

/-- Row `r` is in the block of point `r / 512`: the eight blocks cover the array. -/
theorem covered2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array after the last point is the linear layer of the three arrays the region finds. -/
theorem arrAt2 (c : Dev nD) :
    (Hand.dat2 (F := Ideal) V c).arrAt 3 cfg2.N = Cert.Spec.linear (V c main_v2) (V c main_v5) (V c main_v10) :=
  (Hand.dat2 (F := Ideal) V c).arrAt_eq_of_cover 3 (Cert.Spec.linear (V c main_v2) (V c main_v5) (V c main_v10))
    (fun t _ => flushed2_eq V c t) covered2

end Region2

end Cert.KernelIdeal.HandValue

end
-- ==== Proof.AttnStep.lean ====
/-
  One grid point of the streaming attention call, as functions on the extended reals: a block of 256 query rows, one
  tile of 512 key and value rows, and the carried state — per row and head a running maximum `m` and a partition sum
  `l` ([256, 16]), per row and model column a weighted sum `acc` ([256, 1024]).

  `sc` is the scaled score of a query row against a key row of the tile inside one head (the scale the exact
  eighth); `newM`, `newL`, `newAcc` the state after the tile; the start state is `m = −∞`, `l = 0`, `acc = 0`;
  `outBlk` is what the last tile's point writes out: every column divided by its head's partition sum, multiplied
  by the transposed output weights, plus the bias row.
-/
import proofs.«161242_j13649406066792_2_alg».proof.Proof.Spec

noncomputable section

namespace Cert.AttnStep

open Idealize.ShloMosaic Idealize.ShloMosaic.ValueIdx Cert.Spec

/-- A block of 256 query rows [1, 256, 1024]; a tile of 512 key or value rows [1, 512, 1024]; the per-head state
    [256, 16]; the weighted sums [256, 1024]. -/
abbrev QB : Shape := ⟨3, ![1, 256, 1024]⟩
abbrev KB : Shape := ⟨3, ![1, 512, 1024]⟩
abbrev ML : Shape := ⟨2, ![256, 16]⟩
abbrev AC : Shape := ⟨2, ![256, 1024]⟩

/-- The scaled score of query row `r` of the block against key row `j` of the tile, in head `h`. -/
def sc (qb : QB.Idx → EReal) (kb : KB.Idx → EReal) (h : Fin 16) (r : Fin 256) (j : Fin 512) : EReal :=
  (∑ d : Fin 64, qb (ix3 0 r (col h d)) * kb (ix3 0 j (col h d))) * Ideal.ofBits .f32 0x3E000000#32

/-- The tile's maximum score for row `r` in head `h`, taken from −∞. -/
def tileMax (qb : QB.Idx → EReal) (kb : KB.Idx → EReal) (h : Fin 16) (r : Fin 256) : EReal :=
  (Finset.univ : Finset (Fin 512)).fold max ⊥ fun j => sc qb kb h r j

/-- The running maximum after the tile. -/
def newM (m : ML.Idx → EReal) (qb : QB.Idx → EReal) (kb : KB.Idx → EReal) (r : Fin 256) (h : Fin 16) : EReal :=
  max (m (ix2 r h)) (tileMax qb kb h r)

/-- The partition sum after the tile: the old one rescaled, plus the tile's exponentials. -/
def newL (m l : ML.Idx → EReal) (qb : QB.Idx → EReal) (kb : KB.Idx → EReal) (r : Fin 256) (h : Fin 16) : EReal :=
  Ideal.exp (m (ix2 r h) - newM m qb kb r h) * l (ix2 r h)
    + ∑ j : Fin 512, Ideal.exp (sc qb kb h r j - newM m qb kb r h)

/-- The weighted sum after the tile at model column `c` (head `c / 64`). -/
def newAcc (m : ML.Idx → EReal) (acc : AC.Idx → EReal) (qb : QB.Idx → EReal) (kb vb : KB.Idx → EReal)
    (r : Fin 256) (c : Fin 1024) : EReal :=
  Ideal.exp (m (ix2 r (headOf c)) - newM m qb kb r (headOf c)) * acc (ix2 r c)
    + ∑ j : Fin 512, Ideal.exp (sc qb kb (headOf c) r j - newM m qb kb r (headOf c)) * vb (ix3 0 j c)

/-- What the last tile's point writes out for row `r` at output column `e`. -/
def outBlk (l : ML.Idx → EReal) (acc : AC.Idx → EReal) (woT : SW.Idx → EReal) (bo2 : SR.Idx → EReal)
    (r : Fin 256) (e : Fin 1024) : EReal :=
  (∑ c : Fin 1024, (acc (ix2 r c) * Ideal.div 1 (l (ix2 r (headOf c)))) * woT (ix2 c e)) + bo2 (ix2 0 e)

end Cert.AttnStep

end
-- ==== Proof.LibOnlineSoftmax.lean ====
/-
  The online (streaming) softmax against the two-pass softmax, for real scores, on the extended reals.

  A streaming attention kernel keeps, per query row, a reference point `m` (the running maximum), the partition sum
  `l = Σ_{k ∈ A} exp (s k − m)` and the weighted sum `acc = Σ_{k ∈ A} exp (s k − m) · v k` over the keys `A` seen so
  far.  A new tile `B` of keys moves the reference point to `m'` and rescales both sums by `exp (m − m')`:

      l'   = exp (m − m') · l   + Σ_{k ∈ B} exp (s k − m'),
      acc' = exp (m − m') · acc + Σ_{k ∈ B} exp (s k − m') · v k,

  and at the end the row's output is `acc · (1 / l)`.  The two-pass reference computes
  `Σ_k (exp (s k − M) / Σ_j exp (s j − M)) · v k` with `M` the maximum of the row.

  Nothing below uses that `m`, `m'` or `M` are maxima: the two sums measured from ANY real reference point are
  the sums measured from any other one times a positive factor (`Z_rescale`, `N_rescale`), so the quotient does not
  depend on the reference point (`quotient_eq`).  What IS used is that scores, values and reference points are real
  numbers: on the extended reals `exp (m − m') · exp (s − m) = exp (s − m')` fails at the infinities.  The empty
  state the kernel starts from (reference point −∞, both sums 0) is covered by `first_l` / `first_acc`:
  `exp (−∞ − m') · 0 = 0`.

  `fold_max_real` / `max_real`: running maxima of real scores stay real.  `stream` / `stream_final`: the whole
  recurrence over consecutive tiles, from the empty state to the quotient, against the two-pass formula.
  The last section cuts `Fin (T * b)` into `T` consecutive tiles of `b` keys (`tile`, `upto`): the keys before
  tile `J + 1` are the keys before tile `J` and tile `J`, all of them after `T` tiles, and a sum over tile `j`
  is the sum over `i : Fin b` at position `j * b + i`.
-/
import Mathlib.Data.EReal.Operations
import Mathlib.Data.EReal.Inv
import Mathlib.Analysis.SpecialFunctions.Exp
import Mathlib.Algebra.BigOperators.Fin
import Idealize.ShloMosaic.PureOps.Ideal

noncomputable section

namespace Cert.LibOnlineSoftmax

open Finset Idealize.ShloMosaic

variable {ι : Type*} [DecidableEq ι]

/-! ## Real numbers -/

/-- The partition sum of the scores `s` over the keys `A`, measured from the reference point `m`. -/
def Z (s : ι → ℝ) (m : ℝ) (A : Finset ι) : ℝ := ∑ k ∈ A, Real.exp (s k - m)

/-- The sum of the values `v` over the keys `A` weighted by `exp (s k − m)`. -/
def N (s v : ι → ℝ) (m : ℝ) (A : Finset ι) : ℝ := ∑ k ∈ A, Real.exp (s k - m) * v k

/-- Moving the reference point from `m` to `m'` multiplies the partition sum by `exp (m − m')`. -/
theorem Z_rescale (s : ι → ℝ) (m m' : ℝ) (A : Finset ι) : Real.exp (m - m') * Z s m A = Z s m' A := by
  unfold Z
  rw [Finset.mul_sum]
  refine Finset.sum_congr rfl fun k _ => ?_
  rw [← Real.exp_add]
  congr 1
  ring

/-- Moving the reference point from `m` to `m'` multiplies the weighted sum by `exp (m − m')`. -/
theorem N_rescale (s v : ι → ℝ) (m m' : ℝ) (A : Finset ι) : Real.exp (m - m') * N s v m A = N s v m' A := by
  unfold N
  rw [Finset.mul_sum]
  refine Finset.sum_congr rfl fun k _ => ?_
  rw [← mul_assoc, ← Real.exp_add]
  congr 2
  ring

/-- A partition sum over at least one key is positive. -/
theorem Z_pos (s : ι → ℝ) (m : ℝ) {A : Finset ι} (hA : A.Nonempty) : 0 < Z s m A :=
  Finset.sum_pos (fun _ _ => Real.exp_pos _) hA

/-- One streaming step on the partition sum: the keys `A` at reference point `m`, a disjoint tile `B`, the new
    reference point `m'`. -/
theorem Z_union (s : ι → ℝ) (m m' : ℝ) {A B : Finset ι} (h : Disjoint A B) :
    Z s m' (A ∪ B) = Real.exp (m - m') * Z s m A + Z s m' B := by
  rw [Z_rescale]
  exact Finset.sum_union h

/-- One streaming step on the weighted sum. -/
theorem N_union (s v : ι → ℝ) (m m' : ℝ) {A B : Finset ι} (h : Disjoint A B) :
    N s v m' (A ∪ B) = Real.exp (m - m') * N s v m A + N s v m' B := by
  rw [N_rescale]
  exact Finset.sum_union h

/-- The streamed quotient, at whatever reference point `m` the stream ended, is the two-pass softmax-weighted sum
    at the reference point `M`. -/
theorem quotient_eq (s v : ι → ℝ) (m M : ℝ) {A : Finset ι} (hA : A.Nonempty) :
    N s v m A * (1 / Z s m A) = ∑ k ∈ A, Real.exp (s k - M) * (1 / Z s M A) * v k := by
  have hZ : Z s M A ≠ 0 := (Z_pos s M hA).ne'
  have he : Real.exp (M - m) ≠ 0 := (Real.exp_pos _).ne'
  rw [← N_rescale s v M m A, ← Z_rescale s M m A]
  have : Real.exp (M - m) * N s v M A * (1 / (Real.exp (M - m) * Z s M A)) = N s v M A * (1 / Z s M A) := by
    field_simp
  rw [this]
  unfold N
  rw [Finset.sum_mul]
  refine Finset.sum_congr rfl fun k _ => ?_
  ring

/-! ## The same on the extended reals, in the ideal operations -/

/-- The coercion of a finite sum of reals is the sum of the coercions. -/
theorem coe_sum (A : Finset ι) (f : ι → ℝ) : ((∑ k ∈ A, f k : ℝ) : EReal) = ∑ k ∈ A, (f k : EReal) := by
  induction A using Finset.induction_on with
  | empty => simp
  | insert a A ha ih => rw [Finset.sum_insert ha, Finset.sum_insert ha, EReal.coe_add, ih]

/-- The ideal exponential of a difference of two reals. -/
theorem exp_coe_sub (x y : ℝ) : Ideal.exp ((x : EReal) - (y : EReal)) = ((Real.exp (x - y) : ℝ) : EReal) := by
  rw [← EReal.coe_sub]
  rfl

/-- The partition sum of a tile as the kernel forms it: a sum of ideal exponentials. -/
theorem sum_exp (s : ι → ℝ) (m : ℝ) (B : Finset ι) :
    ∑ k ∈ B, Ideal.exp ((s k : EReal) - (m : EReal)) = ((Z s m B : ℝ) : EReal) := by
  rw [Z, coe_sum]
  exact Finset.sum_congr rfl fun k _ => exp_coe_sub _ _

/-- The weighted sum of a tile as the kernel forms it: a sum of products. -/
theorem sum_exp_mul (s v : ι → ℝ) (m : ℝ) (B : Finset ι) :
    ∑ k ∈ B, Ideal.exp ((s k : EReal) - (m : EReal)) * (v k : EReal) = ((N s v m B : ℝ) : EReal) := by
  rw [N, coe_sum]
  refine Finset.sum_congr rfl fun k _ => ?_
  rw [exp_coe_sub, ← EReal.coe_mul]

/-- The first tile on the partition sum: from reference point −∞ and sum 0. -/
theorem first_l (s : ι → ℝ) (m' : ℝ) (B : Finset ι) :
    Ideal.exp (⊥ - (m' : EReal)) * 0 + ∑ k ∈ B, Ideal.exp ((s k : EReal) - (m' : EReal)) = ((Z s m' B : ℝ) : EReal) := by
  rw [EReal.bot_sub, Ideal.exp_bot, zero_mul, zero_add, sum_exp]

/-- The first tile on the weighted sum. -/
theorem first_acc (s v : ι → ℝ) (m' : ℝ) (B : Finset ι) :
    Ideal.exp (⊥ - (m' : EReal)) * 0 + ∑ k ∈ B, Ideal.exp ((s k : EReal) - (m' : EReal)) * (v k : EReal)
      = ((N s v m' B : ℝ) : EReal) := by
  rw [EReal.bot_sub, Ideal.exp_bot, zero_mul, zero_add, sum_exp_mul]

/-- A later tile on the partition sum. -/
theorem step_l (s : ι → ℝ) (m m' : ℝ) {A B : Finset ι} (h : Disjoint A B) :
    Ideal.exp ((m : EReal) - (m' : EReal)) * ((Z s m A : ℝ) : EReal) + ∑ k ∈ B, Ideal.exp ((s k : EReal) - (m' : EReal))
      = ((Z s m' (A ∪ B) : ℝ) : EReal) := by
  rw [exp_coe_sub, sum_exp, ← EReal.coe_mul, ← EReal.coe_add, Z_union s m m' h]

/-- A later tile on the weighted sum. -/
theorem step_acc (s v : ι → ℝ) (m m' : ℝ) {A B : Finset ι} (h : Disjoint A B) :
    Ideal.exp ((m : EReal) - (m' : EReal)) * ((N s v m A : ℝ) : EReal)
        + ∑ k ∈ B, Ideal.exp ((s k : EReal) - (m' : EReal)) * (v k : EReal)
      = ((N s v m' (A ∪ B) : ℝ) : EReal) := by
  rw [exp_coe_sub, sum_exp_mul, ← EReal.coe_mul, ← EReal.coe_add, N_union s v m m' h]

/-- The end of the stream against the two-pass reference: the kernel's `acc · (1 / l)` is the reference's
    `Σ_k (exp (s k − M) / Σ_j exp (s j − M)) · v k`, divisions the ideal ones. -/
theorem final_eq (s v : ι → ℝ) (m M : ℝ) {A : Finset ι} (hA : A.Nonempty) :
    ((N s v m A : ℝ) : EReal) * Ideal.div 1 ((Z s m A : ℝ) : EReal)
      = ∑ k ∈ A, Ideal.div (Ideal.exp ((s k : EReal) - (M : EReal))) (∑ j ∈ A, Ideal.exp ((s j : EReal) - (M : EReal)))
          * (v k : EReal) := by
  rw [sum_exp, Ideal.div_coe (Z_pos s m hA).ne', one_mul, ← EReal.coe_mul, quotient_eq s v m M hA, coe_sum]
  refine Finset.sum_congr rfl fun k _ => ?_
  rw [Ideal.div_coe (Z_pos s M hA).ne', exp_coe_sub, ← EReal.coe_mul, ← EReal.coe_mul]

/-! ## Running maxima stay real -/

/-- The maximum of two coerced reals is a coerced real. -/
theorem max_coe (x y : ℝ) : max (x : EReal) (y : EReal) = ((max x y : ℝ) : EReal) :=
  (Monotone.map_max EReal.coe_strictMono.monotone).symm

/-- A running maximum that is −∞ (nothing seen yet) or real, joined with a real tile maximum, is real. -/
theorem max_real {m : EReal} (hm : m = ⊥ ∨ ∃ r : ℝ, m = (r : EReal)) (t : ℝ) : ∃ r : ℝ, max m (t : EReal) = (r : EReal) := by
  rcases hm with rfl | ⟨r, rfl⟩
  · exact ⟨t, max_eq_right bot_le⟩
  · exact ⟨max r t, max_coe r t⟩

/-- The fold of `max` over at least one real score, from −∞ or from a real, is real: what a row-maximum reduction
    from the −∞ word, or a host reduce from a −∞ operand, leaves for real scores. -/
theorem fold_max_real {A : Finset ι} (hA : A.Nonempty) (f : ι → ℝ) {b : EReal} (hb : b = ⊥ ∨ ∃ r : ℝ, b = (r : EReal)) :
    ∃ M : ℝ, A.fold max b (fun k => (f k : EReal)) = (M : EReal) := by
  induction hA using Finset.Nonempty.cons_induction with
  | singleton a =>
    rw [Finset.fold_singleton, max_comm]
    exact max_real hb (f a)
  | cons a A ha hA ih =>
    obtain ⟨M, hM⟩ := ih
    rw [Finset.fold_cons, hM]
    exact ⟨max (f a) M, max_coe _ _⟩

/-! ## The whole stream over consecutive tiles of `b` keys

Keys are numbered by the naturals, tile `J` holds the keys `J * b, …, J * b + b − 1`.  The reference point moves to
`max m (t J)` for ANY real `t J` (a kernel takes the tile's maximum; the algebra does not care). -/

section Stream

variable (b : ℕ) (s v t : ℕ → ℝ)

/-- The streaming state `(m, l, acc)` after `J` tiles, in the ideal operations, from `(−∞, 0, 0)`. -/
def stream : ℕ → EReal × EReal × EReal
  | 0 => (⊥, 0, 0)
  | J + 1 =>
    let m' : EReal := max (stream J).1 (t J : EReal)
    let a : EReal := Ideal.exp ((stream J).1 - m')
    (m',
     a * (stream J).2.1 + ∑ i ∈ Finset.range b, Ideal.exp ((s (J * b + i) : EReal) - m'),
     a * (stream J).2.2 + ∑ i ∈ Finset.range b, Ideal.exp ((s (J * b + i) : EReal) - m') * (v (J * b + i) : EReal))

/-- The keys of the first `J + 1` tiles are those of the first `J` and tile `J`. -/
theorem range_succ_tile (J : ℕ) :
    Finset.range ((J + 1) * b) = Finset.range (J * b) ∪ Finset.Ico (J * b) (J * b + b) := by
  ext k
  simp only [Finset.mem_range, Finset.mem_union, Finset.mem_Ico, Nat.add_mul, Nat.one_mul]
  omega

theorem range_disjoint_tile (J : ℕ) : Disjoint (Finset.range (J * b)) (Finset.Ico (J * b) (J * b + b)) := by
  rw [Finset.disjoint_left]
  intro k hk hk'
  simp only [Finset.mem_range, Finset.mem_Ico] at hk hk'
  omega

/-- A sum over tile `J` is the sum over the positions inside the tile. -/
theorem sum_Ico_tile {M : Type*} [AddCommMonoid M] (J : ℕ) (f : ℕ → M) :
    ∑ k ∈ Finset.Ico (J * b) (J * b + b), f k = ∑ i ∈ Finset.range b, f (J * b + i) := by
  rw [Finset.sum_Ico_eq_sum_range, Nat.add_sub_cancel_left]

/-- After at least one tile the reference point is a real `mr`, and the two sums are the partition sum and the
    weighted sum of all keys seen, measured from `mr`. -/
theorem stream_inv (J : ℕ) :
    ∃ mr : ℝ, (stream b s v t (J + 1)).1 = (mr : EReal)
      ∧ (stream b s v t (J + 1)).2.1 = ((Z s mr (Finset.range ((J + 1) * b)) : ℝ) : EReal)
      ∧ (stream b s v t (J + 1)).2.2 = ((N s v mr (Finset.range ((J + 1) * b)) : ℝ) : EReal) := by
  induction J with
  | zero =>
    refine ⟨t 0, max_eq_right bot_le, ?_, ?_⟩
    · show Ideal.exp (⊥ - max ⊥ (t 0 : EReal)) * 0 + ∑ i ∈ Finset.range b, Ideal.exp ((s (0 * b + i) : EReal) - max ⊥ (t 0 : EReal)) = _
      rw [max_eq_right (bot_le : (⊥ : EReal) ≤ (t 0 : EReal)), ← sum_Ico_tile b 0 (fun k => Ideal.exp ((s k : EReal) - (t 0 : EReal))),
        first_l, Nat.zero_mul, Nat.zero_add, Nat.one_mul, Nat.Ico_zero_eq_range]
    · show Ideal.exp (⊥ - max ⊥ (t 0 : EReal)) * 0
          + ∑ i ∈ Finset.range b, Ideal.exp ((s (0 * b + i) : EReal) - max ⊥ (t 0 : EReal)) * (v (0 * b + i) : EReal) = _
      rw [max_eq_right (bot_le : (⊥ : EReal) ≤ (t 0 : EReal)),
        ← sum_Ico_tile b 0 (fun k => Ideal.exp ((s k : EReal) - (t 0 : EReal)) * (v k : EReal)),
        first_acc, Nat.zero_mul, Nat.zero_add, Nat.one_mul, Nat.Ico_zero_eq_range]
  | succ J ih =>
    obtain ⟨mr, hm, hl, hacc⟩ := ih
    refine ⟨max mr (t (J + 1)), ?_, ?_, ?_⟩
    · show max (stream b s v t (J + 1)).1 (t (J + 1) : EReal) = _
      rw [hm, max_coe]
    · show Ideal.exp ((stream b s v t (J + 1)).1 - max (stream b s v t (J + 1)).1 (t (J + 1) : EReal)) * (stream b s v t (J + 1)).2.1
          + ∑ i ∈ Finset.range b, Ideal.exp ((s ((J + 1) * b + i) : EReal) - max (stream b s v t (J + 1)).1 (t (J + 1) : EReal)) = _
      rw [hm, hl, max_coe,
        ← sum_Ico_tile b (J + 1) (fun k => Ideal.exp ((s k : EReal) - ((max mr (t (J + 1)) : ℝ) : EReal))),
        step_l s mr _ (range_disjoint_tile b (J + 1)), ← range_succ_tile]
    · show Ideal.exp ((stream b s v t (J + 1)).1 - max (stream b s v t (J + 1)).1 (t (J + 1) : EReal)) * (stream b s v t (J + 1)).2.2
          + ∑ i ∈ Finset.range b, Ideal.exp ((s ((J + 1) * b + i) : EReal) - max (stream b s v t (J + 1)).1 (t (J + 1) : EReal))
              * (v ((J + 1) * b + i) : EReal) = _
      rw [hm, hacc, max_coe,
        ← sum_Ico_tile b (J + 1) (fun k => Ideal.exp ((s k : EReal) - ((max mr (t (J + 1)) : ℝ) : EReal)) * (v k : EReal)),
        step_acc s v mr _ (range_disjoint_tile b (J + 1)), ← range_succ_tile]

/-- THE STREAM AGAINST THE TWO PASSES: after `T + 1` tiles of `b ≥ 1` keys, the kernel's `acc · (1 / l)` is the
    reference's softmax-weighted sum of the values over all `(T + 1) * b` keys, at any real reference point `M`. -/
theorem stream_final (hb : 0 < b) (T : ℕ) (M : ℝ) :
    (stream b s v t (T + 1)).2.2 * Ideal.div 1 (stream b s v t (T + 1)).2.1
      = ∑ k ∈ Finset.range ((T + 1) * b),
          Ideal.div (Ideal.exp ((s k : EReal) - (M : EReal)))
            (∑ j ∈ Finset.range ((T + 1) * b), Ideal.exp ((s j : EReal) - (M : EReal))) * (v k : EReal) := by
  obtain ⟨mr, _, hl, hacc⟩ := stream_inv b s v t T
  rw [hl, hacc]
  exact final_eq s v mr M ⟨0, Finset.mem_range.mpr (Nat.mul_pos (Nat.succ_pos T) hb)⟩

end Stream

/-! ## Tiles of consecutive keys -/

section Tiles

variable {T b : ℕ}

/-- The keys of tile `j` among `T * b` keys: the positions `j * b, …, j * b + b − 1`. -/
def tile (T b j : ℕ) : Finset (Fin (T * b)) := Finset.univ.filter fun k => k.val / b = j

/-- The keys before tile `J`. -/
def upto (T b J : ℕ) : Finset (Fin (T * b)) := Finset.univ.filter fun k => k.val / b < J

theorem upto_zero : upto T b 0 = ∅ := by
  simp [upto]

/-- The keys before tile `J + 1` are the keys before tile `J` and tile `J`. -/
theorem upto_succ (J : ℕ) : upto T b (J + 1) = upto T b J ∪ tile T b J := by
  ext k
  simp only [upto, tile, Finset.mem_union, Finset.mem_filter, Finset.mem_univ, true_and]
  omega

theorem upto_one : upto T b 1 = tile T b 0 := by
  rw [upto_succ, upto_zero, Finset.empty_union]

theorem upto_disjoint (J : ℕ) : Disjoint (upto T b J) (tile T b J) := by
  rw [Finset.disjoint_left]
  intro k hk hk'
  simp only [upto, tile, Finset.mem_filter, Finset.mem_univ, true_and] at hk hk'
  omega

/-- After all `T` tiles every key has been seen. -/
theorem upto_all : upto T b T = Finset.univ := by
  ext k
  simp only [upto, Finset.mem_filter, Finset.mem_univ, true_and, iff_true]
  exact Nat.div_lt_of_lt_mul (lt_of_lt_of_eq k.isLt (Nat.mul_comm T b))

/-- Position `i` of tile `j` is a key. -/
theorem pos_lt {j : ℕ} (hj : j < T) (i : Fin b) : j * b + i.val < T * b :=
  calc j * b + i.val < j * b + b := Nat.add_lt_add_left i.isLt _
    _ = (j + 1) * b := by ring
    _ ≤ T * b := Nat.mul_le_mul_right b hj

/-- A tile of at least one key is not empty. -/
theorem tile_nonempty {j : ℕ} (hj : j < T) (hb : 0 < b) : (tile T b j).Nonempty :=
  ⟨⟨j * b + 0, pos_lt hj ⟨0, hb⟩⟩, by
    simp only [tile, Finset.mem_filter, Finset.mem_univ, true_and]
    exact Nat.div_eq_of_lt_le (by omega) (by rw [Nat.add_mul]; omega)⟩

/-- A sum over tile `j` is the sum over the positions inside the tile. -/
theorem sum_tile {M : Type*} [AddCommMonoid M] {j : ℕ} (hj : j < T) (f : Fin (T * b) → M) :
    ∑ k ∈ tile T b j, f k = ∑ i : Fin b, f ⟨j * b + i.val, pos_lt hj i⟩ := by
  symm
  refine Finset.sum_bij (fun i _ => (⟨j * b + i.val, pos_lt hj i⟩ : Fin (T * b))) ?_ ?_ ?_ (fun _ _ => rfl)
  · intro i _
    simp only [tile, Finset.mem_filter, Finset.mem_univ, true_and]
    exact Nat.div_eq_of_lt_le (by omega) (by rw [Nat.add_mul]; have := i.isLt; omega)
  · intro i _ i' _ h
    have := Fin.mk.inj h
    exact Fin.ext (by omega)
  · intro k hk
    simp only [tile, Finset.mem_filter, Finset.mem_univ, true_and] at hk
    have hb : 0 < b := by
      rcases Nat.eq_zero_or_pos b with h0 | h0
      · have h1 : k.val < T * b := k.isLt
        have h2 : T * b = 0 := by rw [h0, Nat.mul_zero]
        omega
      · exact h0
    refine ⟨⟨k.val % b, Nat.mod_lt _ hb⟩, Finset.mem_univ _, Fin.ext ?_⟩
    show j * b + k.val % b = k.val
    rw [← hk]
    exact Nat.div_add_mod' _ _

end Tiles

end Cert.LibOnlineSoftmax

end
-- ==== Proof.LibAttnScale.lean ====
/-
  The attention scale for a head width that is a perfect square: a reference divides the scores by the square root of
  the width, computed at run time from the width's float word, while a kernel multiplies by the reciprocal folded to a
  literal.  For width 64 the root is the real 8 and the literal is the exact eighth, and on every extended real
  (the infinities included) the quotient by 8 is the product with 1/8.
-/
import Idealize.ShloMosaic.PureOps.Ideal

noncomputable section

namespace Cert.LibAttnScale

open Idealize.ShloMosaic

/-- The f32 word of `64.0` denotes the real 64. -/
theorem ofBits_64 : Ideal.ofBits .f32 0x42800000#32 = ((64 : ℝ) : EReal) := by
  simp [Ideal.ofBits, Ideal.ieee, -EReal.coe_mul]; norm_num

/-- The f32 word of `0.125` denotes the real 1/8. -/
theorem ofBits_eighth : Ideal.ofBits .f32 0x3E000000#32 = ((1 / 8 : ℝ) : EReal) := by
  simp [Ideal.ofBits, Ideal.ieee, -EReal.coe_mul]; norm_num

/-- The ideal square root of the square of a nonnegative real. -/
theorem sqrt_coe_mul_self {r : ℝ} (hr : 0 ≤ r) : Ideal.sqrt ((r * r : ℝ) : EReal) = (r : EReal) := by
  rw [Ideal.sqrt_coe, if_neg (not_lt.mpr (mul_self_nonneg r)), Real.sqrt_mul_self hr]

/-- The ideal square root of the word of `64.0` is the real 8. -/
theorem sqrt_64 : Ideal.sqrt (Ideal.ofBits .f32 0x42800000#32) = ((8 : ℝ) : EReal) := by
  rw [ofBits_64, show (64 : ℝ) = 8 * 8 by norm_num, sqrt_coe_mul_self (by norm_num)]

/-- Dividing by the square root of 64 is multiplying by the word of 0.125, on every extended real. -/
theorem div_sqrt_64 (x : EReal) :
    Ideal.div x (Ideal.sqrt (Ideal.ofBits .f32 0x42800000#32)) = x * Ideal.ofBits .f32 0x3E000000#32 := by
  rw [sqrt_64, ofBits_eighth, Ideal.div_coe (by norm_num : (8 : ℝ) ≠ 0)]

end Cert.LibAttnScale

end
-- ==== Proof.AttnFold.lean ====
/-
  The streaming attention call for one batch and one block of 256 query rows, as mathematics on the extended reals:
  the query block and the four key / value tiles cut out of the projected arrays, the carried state (running maxima,
  partition sums, weighted sums) after each tile, and the theorem that what the last tile writes out (every column of
  the weighted sums divided by its head's partition sum, times the transposed output weights, plus the bias row) is the
  two-pass multi-head attention of the specification at those rows.

  Per query row and head the three state entries are the online-softmax recurrence over the 2048 keys in four tiles of
  512, the reference point moving to the maximum of the old one and the tile's largest score.  For real projected
  arrays every score is real, so every reference point after the first tile is real, and the streamed quotient is the
  two-pass softmax-weighted sum at any real reference point, in particular at the row's maximum that the specification
  uses.  The specification divides the dot product by the square root of 64, the kernel multiplies it by the exact
  eighth: the same extended real.
-/
import proofs.«161242_j13649406066792_2_alg».proof.Proof.Spec
import proofs.«161242_j13649406066792_2_alg».proof.Proof.AttnStep
import proofs.«161242_j13649406066792_2_alg».proof.Proof.LibOnlineSoftmax
import proofs.«161242_j13649406066792_2_alg».proof.Proof.LibAttnScale

noncomputable section

namespace Cert.AttnFold

open Finset Idealize.ShloMosaic Idealize.ShloMosaic.ValueIdx Cert.Spec Cert.AttnStep Cert.LibOnlineSoftmax

/-! ## Blocks, tiles and the carried state -/

/-- Row r of query block qi among the 2048 rows: qi * 256 + r. -/
def qrow (qi : Fin 8) (r : Fin 256) : Fin 2048 := ⟨qi.val * 256 + r.val, by omega⟩

/-- Row j of key tile ki among the 2048 rows: ki * 512 + j. -/
def krow (ki : Fin 4) (j : Fin 512) : Fin 2048 := ⟨ki.val * 512 + j.val, by omega⟩

/-- The block of 256 rows from qi * 256 on of batch b of a [2, 2048, 1024] array, as a [1, 256, 1024] array. -/
def qb (x : SX.Idx → EReal) (b : Fin 2) (qi : Fin 8) : QB.Idx → EReal :=
  fun i => x (ix3 b (qrow qi (i 1)) (i 2))

/-- The tile of 512 rows from ki * 512 on of batch b of a [2, 2048, 1024] array, as a [1, 512, 1024] array. -/
def kb (x : SX.Idx → EReal) (b : Fin 2) (ki : Fin 4) : KB.Idx → EReal :=
  fun i => x (ix3 b (krow ki (i 1)) (i 2))

/-- The carried state: running maxima and partition sums per row and head, weighted sums per row and column. -/
structure State where
  m : ML.Idx → EReal
  l : ML.Idx → EReal
  acc : AC.Idx → EReal

/-- The state a first tile starts from: maxima −∞, both sums zero. -/
def start : State := ⟨fun _ => ⊥, fun _ => 0, fun _ => 0⟩

/-- One tile applied to a state. -/
def step (qb : QB.Idx → EReal) (kb vb : KB.Idx → EReal) (s : State) : State :=
  ⟨fun i => newM s.m qb kb (i 0) (i 1), fun i => newL s.m s.l qb kb (i 0) (i 1),
   fun i => newAcc s.m s.acc qb kb vb (i 0) (i 1)⟩

/-- The state after the first T key tiles (the tile applied at step T is tile T % 4), for batch b and query block qi. -/
def after (q k v : SX.Idx → EReal) (b : Fin 2) (qi : Fin 8) : ℕ → State
  | 0 => start
  | T + 1 => step (qb q b qi) (kb k b ⟨T % 4, Nat.mod_lt _ (by norm_num)⟩) (kb v b ⟨T % 4, Nat.mod_lt _ (by norm_num)⟩)
      (after q k v b qi T)

theorem after_zero (q k v : SX.Idx → EReal) (b : Fin 2) (qi : Fin 8) : after q k v b qi 0 = start := rfl

/-- Tile ki takes the state after ki tiles to the state after ki + 1. -/
theorem after_succ (q k v : SX.Idx → EReal) (b : Fin 2) (qi : Fin 8) (ki : Fin 4) :
    after q k v b qi (ki.val + 1) = step (qb q b qi) (kb k b ki) (kb v b ki) (after q k v b qi ki.val) := by
  have h : (⟨ki.val % 4, Nat.mod_lt _ (by norm_num)⟩ : Fin 4) = ki := Fin.ext (Nat.mod_eq_of_lt ki.isLt)
  show step _ (kb k b ⟨ki.val % 4, _⟩) (kb v b ⟨ki.val % 4, _⟩) _ = _
  rw [h]

theorem step_m (qb : QB.Idx → EReal) (kb vb : KB.Idx → EReal) (s : State) (r : Fin 256) (h : Fin 16) :
    (step qb kb vb s).m (ix2 r h) = newM s.m qb kb r h := rfl

theorem step_l (qb : QB.Idx → EReal) (kb vb : KB.Idx → EReal) (s : State) (r : Fin 256) (h : Fin 16) :
    (step qb kb vb s).l (ix2 r h) = newL s.m s.l qb kb r h := rfl

theorem step_acc (qb : QB.Idx → EReal) (kb vb : KB.Idx → EReal) (s : State) (r : Fin 256) (c : Fin 1024) :
    (step qb kb vb s).acc (ix2 r c) = newAcc s.m s.acc qb kb vb r c := rfl

theorem qb_apply (x : SX.Idx → EReal) (b : Fin 2) (qi : Fin 8) (r : Fin 256) (c : Fin 1024) :
    qb x b qi (ix3 0 r c) = x (ix3 b (qrow qi r) c) := rfl

theorem kb_apply (x : SX.Idx → EReal) (b : Fin 2) (ki : Fin 4) (j : Fin 512) (c : Fin 1024) :
    kb x b ki (ix3 0 j c) = x (ix3 b (krow ki j) c) := rfl

/-! ## Real scores, keys numbered by the naturals -/

/-- The scaled score of query row i against key row j in head h of batch b, for real arrays: a real number. -/
def sR (qr kr : SX.Idx → ℝ) (b : Fin 2) (h : Fin 16) (i j : Fin 2048) : ℝ :=
  (∑ d : Fin 64, qr (ix3 b i (col h d)) * kr (ix3 b j (col h d))) * (1 / 8)

/-- The scores of one query row against the keys numbered by the naturals (zero past the last key). -/
def sN (qr kr : SX.Idx → ℝ) (b : Fin 2) (h : Fin 16) (i : Fin 2048) : ℕ → ℝ :=
  fun n => if hn : n < 2048 then sR qr kr b h i ⟨n, hn⟩ else 0

/-- Column c of the value rows numbered by the naturals (zero past the last row). -/
def vN (vr : SX.Idx → ℝ) (b : Fin 2) (c : Fin 1024) : ℕ → ℝ :=
  fun n => if hn : n < 2048 then vr (ix3 b ⟨n, hn⟩ c) else 0

theorem sN_val (qr kr : SX.Idx → ℝ) (b : Fin 2) (h : Fin 16) (i j : Fin 2048) :
    sN qr kr b h i j.val = sR qr kr b h i j := dif_pos j.isLt

theorem vN_val (vr : SX.Idx → ℝ) (b : Fin 2) (c : Fin 1024) (j : Fin 2048) :
    vN vr b c j.val = vr (ix3 b j c) := dif_pos j.isLt

section Real

variable {q k v : SX.Idx → EReal} {qr kr vr : SX.Idx → ℝ}

/-- A dot product of real rows over a head's columns, times the eighth, is the coerced real score. -/
theorem dot_eighth (hq : ∀ i, q i = (qr i : EReal)) (hk : ∀ i, k i = (kr i : EReal)) (b : Fin 2) (h : Fin 16)
    (i j : Fin 2048) :
    (∑ d : Fin 64, q (ix3 b i (col h d)) * k (ix3 b j (col h d))) * Ideal.ofBits .f32 0x3E000000#32
      = ((sR qr kr b h i j : ℝ) : EReal) := by
  rw [LibAttnScale.ofBits_eighth, sR, EReal.coe_mul, coe_sum]
  congr 1
  refine Finset.sum_congr rfl fun d _ => ?_
  rw [hq, hk, EReal.coe_mul]

/-- The specification's score of real arrays is real. -/
theorem score_real (hq : ∀ i, q i = (qr i : EReal)) (hk : ∀ i, k i = (kr i : EReal)) (b : Fin 2) (h : Fin 16)
    (i j : Fin 2048) : score q k b h i j = ((sR qr kr b h i j : ℝ) : EReal) := by
  rw [score, LibAttnScale.div_sqrt_64, dot_eighth hq hk]

/-- The score the kernel forms inside a block and a tile is the score at the rows they were cut from. -/
theorem sc_real (hq : ∀ i, q i = (qr i : EReal)) (hk : ∀ i, k i = (kr i : EReal)) (b : Fin 2) (qi : Fin 8) (ki : Fin 4)
    (h : Fin 16) (r : Fin 256) (j : Fin 512) :
    sc (qb q b qi) (kb k b ki) h r j = ((sR qr kr b h (qrow qi r) (krow ki j) : ℝ) : EReal) := by
  rw [sc]
  simp only [qb_apply, kb_apply]
  exact dot_eighth hq hk b h (qrow qi r) (krow ki j)

/-- A tile's maximum score is real. -/
theorem tileMax_real (hq : ∀ i, q i = (qr i : EReal)) (hk : ∀ i, k i = (kr i : EReal)) (b : Fin 2) (qi : Fin 8)
    (ki : Fin 4) (h : Fin 16) (r : Fin 256) :
    ∃ t : ℝ, tileMax (qb q b qi) (kb k b ki) h r = (t : EReal) := by
  rw [tileMax]
  simp only [sc_real hq hk]
  exact fold_max_real ⟨0, Finset.mem_univ _⟩ (fun j => sR qr kr b h (qrow qi r) (krow ki j)) (Or.inl rfl)

/-- The row maximum of the specification is real. -/
theorem rowMax_real (hq : ∀ i, q i = (qr i : EReal)) (hk : ∀ i, k i = (kr i : EReal)) (b : Fin 2) (h : Fin 16)
    (i : Fin 2048) : ∃ M : ℝ, rowMax q k b h i = (M : EReal) := by
  rw [rowMax]
  simp only [score_real hq hk]
  obtain ⟨M, hM⟩ := fold_max_real (A := (Finset.univ : Finset (Fin 2048))) ⟨0, Finset.mem_univ _⟩
    (fun j => sR qr kr b h i j) (b := ⊥) (Or.inl rfl)
  exact ⟨M, by rw [hM]; exact max_eq_right bot_le⟩

end Real

/-! ## The carried state is the online-softmax stream, row by row -/

section Stream

variable {q k v : SX.Idx → EReal} {qr kr vr : SX.Idx → ℝ}

/-- The tile maxima of row r of block qi in head h as reals, tiles numbered by the naturals. -/
def tN (q k : SX.Idx → EReal) (b : Fin 2) (qi : Fin 8) (h : Fin 16) (r : Fin 256) : ℕ → ℝ :=
  fun J => (tileMax (qb q b qi) (kb k b ⟨J % 4, Nat.mod_lt _ (by norm_num)⟩) h r).toReal

theorem tN_val (hq : ∀ i, q i = (qr i : EReal)) (hk : ∀ i, k i = (kr i : EReal)) (b : Fin 2) (qi : Fin 8) (ki : Fin 4)
    (h : Fin 16) (r : Fin 256) :
    tileMax (qb q b qi) (kb k b ki) h r = ((tN q k b qi h r ki.val : ℝ) : EReal) := by
  obtain ⟨t, ht⟩ := tileMax_real hq hk b qi ki h r
  have h4 : (⟨ki.val % 4, Nat.mod_lt _ (by norm_num)⟩ : Fin 4) = ki := Fin.ext (Nat.mod_eq_of_lt ki.isLt)
  show _ = (((tileMax (qb q b qi) (kb k b ⟨ki.val % 4, _⟩) h r).toReal : ℝ) : EReal)
  rw [h4, ht, EReal.toReal_coe]

/-- The online-softmax stream of row r of block qi for model column c: scores of the column's head, values of the
    column, tiles of 512 keys. -/
abbrev rowStream (q k : SX.Idx → EReal) (qr kr vr : SX.Idx → ℝ) (b : Fin 2) (qi : Fin 8) (r : Fin 256) (c : Fin 1024) :
    ℕ → EReal × EReal × EReal :=
  stream 512 (sN qr kr b (headOf c) (qrow qi r)) (vN vr b c) (tN q k b qi (headOf c) r)

/-- Up to the fourth tile the state's entries of a row and a column are the stream's. -/
theorem after_stream (hq : ∀ i, q i = (qr i : EReal)) (hk : ∀ i, k i = (kr i : EReal)) (hv : ∀ i, v i = (vr i : EReal))
    (b : Fin 2) (qi : Fin 8) (r : Fin 256) (c : Fin 1024) :
    ∀ T : ℕ, T ≤ 4 →
      (after q k v b qi T).m (ix2 r (headOf c)) = (rowStream q k qr kr vr b qi r c T).1
        ∧ (after q k v b qi T).l (ix2 r (headOf c)) = (rowStream q k qr kr vr b qi r c T).2.1
        ∧ (after q k v b qi T).acc (ix2 r c) = (rowStream q k qr kr vr b qi r c T).2.2
  | 0, _ => ⟨rfl, rfl, rfl⟩
  | T + 1, hT => by
    have hT4 : T < 4 := by omega
    obtain ⟨hm, hl, ha⟩ := after_stream hq hk hv b qi r c T (by omega)
    have hs : after q k v b qi (T + 1)
        = step (qb q b qi) (kb k b ⟨T, hT4⟩) (kb v b ⟨T, hT4⟩) (after q k v b qi T) :=
      after_succ q k v b qi ⟨T, hT4⟩
    have hsc : ∀ j : Fin 512, sc (qb q b qi) (kb k b ⟨T, hT4⟩) (headOf c) r j
        = ((sN qr kr b (headOf c) (qrow qi r) (T * 512 + j.val) : ℝ) : EReal) := fun j => by
      rw [sc_real hq hk]
      exact congrArg _ (sN_val qr kr b (headOf c) (qrow qi r) (krow ⟨T, hT4⟩ j)).symm
    have hvb : ∀ j : Fin 512, kb v b ⟨T, hT4⟩ (ix3 0 j c) = ((vN vr b c (T * 512 + j.val) : ℝ) : EReal) := fun j => by
      rw [kb_apply, hv]
      exact congrArg _ (vN_val vr b c (krow ⟨T, hT4⟩ j)).symm
    have htm : tileMax (qb q b qi) (kb k b ⟨T, hT4⟩) (headOf c) r = ((tN q k b qi (headOf c) r T : ℝ) : EReal) :=
      tN_val hq hk b qi ⟨T, hT4⟩ (headOf c) r
    have hnm : newM (after q k v b qi T).m (qb q b qi) (kb k b ⟨T, hT4⟩) r (headOf c)
        = max (rowStream q k qr kr vr b qi r c T).1 ((tN q k b qi (headOf c) r T : ℝ) : EReal) := by
      rw [newM, hm, htm]
    refine ⟨?_, ?_, ?_⟩
    · rw [hs, step_m, hnm]
      rfl
    · rw [hs, step_l, newL, hnm, hm, hl]
      simp only [hsc]
      rw [Fin.sum_univ_eq_sum_range
        (fun i => Ideal.exp (((sN qr kr b (headOf c) (qrow qi r) (T * 512 + i) : ℝ) : EReal)
          - max (rowStream q k qr kr vr b qi r c T).1 ((tN q k b qi (headOf c) r T : ℝ) : EReal))) 512]
      rfl
    · rw [hs, step_acc, newAcc, hnm, hm, ha]
      simp only [hsc, hvb]
      rw [Fin.sum_univ_eq_sum_range
        (fun i => Ideal.exp (((sN qr kr b (headOf c) (qrow qi r) (T * 512 + i) : ℝ) : EReal)
          - max (rowStream q k qr kr vr b qi r c T).1 ((tN q k b qi (headOf c) r T : ℝ) : EReal))
            * ((vN vr b c (T * 512 + i) : ℝ) : EReal)) 512]
      rfl

end Stream

/-! ## The end of the stream is the two-pass attention -/

/-- The head and the position of a column give the column back. -/
theorem col_headOf_posOf (c : Fin 1024) : col (headOf c) (posOf c) = c :=
  Fin.ext (by show c.val / 64 * 64 + c.val % 64 = c.val; omega)

/-- Per row and column: after the four tiles the weighted sum times the reciprocal of its head's partition sum is the
    specification's merged heads at that row and column. -/
theorem col_eq (q k v : SX.Idx → EReal) (hq : IsReal q) (hk : IsReal k) (hv : IsReal v) (b : Fin 2) (qi : Fin 8)
    (r : Fin 256) (c : Fin 1024) :
    (after q k v b qi 4).acc (ix2 r c) * Ideal.div 1 ((after q k v b qi 4).l (ix2 r (headOf c)))
      = merged q k v (ix3 b (qrow qi r) c) := by
  choose qr hq using hq
  choose kr hk using hk
  choose vr hv using hv
  obtain ⟨_, hl, ha⟩ := after_stream hq hk hv b qi r c 4 le_rfl
  obtain ⟨M, hM⟩ := rowMax_real hq hk b (headOf c) (qrow qi r)
  have hfin := stream_final 512 (sN qr kr b (headOf c) (qrow qi r)) (vN vr b c) (tN q k b qi (headOf c) r)
    (by norm_num) 3 M
  have h2048 : (3 + 1) * 512 = 2048 := by norm_num
  rw [h2048] at hfin
  have hden : (∑ j' : Fin 2048, expo q k b (headOf c) (qrow qi r) j')
      = ∑ j' ∈ Finset.range 2048,
          Ideal.exp (((sN qr kr b (headOf c) (qrow qi r) j' : ℝ) : EReal) - (M : EReal)) := by
    rw [← Fin.sum_univ_eq_sum_range
      (fun j' => Ideal.exp (((sN qr kr b (headOf c) (qrow qi r) j' : ℝ) : EReal) - (M : EReal))) 2048]
    refine Finset.sum_congr rfl fun j' _ => ?_
    beta_reduce
    rw [expo, score_real hq hk, hM, sN_val]
  rw [hl, ha]
  refine hfin.trans ?_
  show _ = ∑ j : Fin 2048, prob q k b (headOf c) (qrow qi r) j * v (ix3 b j (col (headOf c) (posOf c)))
  rw [col_headOf_posOf, ← Fin.sum_univ_eq_sum_range
    (fun j => Ideal.div (Ideal.exp (((sN qr kr b (headOf c) (qrow qi r) j : ℝ) : EReal) - (M : EReal)))
        (∑ j' ∈ Finset.range 2048,
          Ideal.exp (((sN qr kr b (headOf c) (qrow qi r) j' : ℝ) : EReal) - (M : EReal)))
      * ((vN vr b c j : ℝ) : EReal)) 2048]
  refine Finset.sum_congr rfl fun j _ => ?_
  beta_reduce
  rw [prob, hden, expo, score_real hq hk, hM, hv, vN_val, sN_val]

/-- THE REGION'S MATHEMATICS: what the last tile's point writes out for row r of block qi of batch b, from the state
    after the four tiles, is the specification's attention output at that row. -/
theorem out_eq (q k v : SX.Idx → EReal) (hq : IsReal q) (hk : IsReal k) (hv : IsReal v) (b : Fin 2) (qi : Fin 8)
    (woT : SW.Idx → EReal) (bo2 : SR.Idx → EReal) (r : Fin 256) (e : Fin 1024) :
    outBlk (after q k v b qi 4).l (after q k v b qi 4).acc woT bo2 r e
      = attnOut q k v woT bo2 (ix3 b (qrow qi r) e) := by
  show (∑ c : Fin 1024, ((after q k v b qi 4).acc (ix2 r c) * Ideal.div 1 ((after q k v b qi 4).l (ix2 r (headOf c))))
        * woT (ix2 c e)) + bo2 (ix2 0 e)
    = (∑ c : Fin 1024, merged q k v (ix3 b (qrow qi r) c) * woT (ix2 c e)) + bo2 (ix2 0 e)
  congr 1
  refine Finset.sum_congr rfl fun c _ => ?_
  rw [col_eq q k v hq hk hv]

end Cert.AttnFold

end
-- ==== Proof.AttnValue.Blocks.lean ====
/-
  The attention call's grid and windows, read as arithmetic.

  Point `t` of the 2 × 8 × 4 grid is batch `t / 32`, query block `t / 4 % 8`, key tile `t % 4`.  At that point the
  query window holds rows 256 · (t / 4 % 8) … of the batch, the key and value windows rows 512 · (t % 4) …, the
  weight and bias windows their whole arrays, and the output window is the block of the same rows as the query
  window.  The output blocks of the last-tile points (`t % 4 = 3`) cover the output array: row `s` of batch `b` lies in
  the block of the point (b, s / 256, 3).
-/
import proofs.«161242_j13649406066792_2_alg».proof.Proof.AttnFrame.Base
import proofs.«161242_j13649406066792_2_alg».proof.Proof.AttnFold
import Idealize.ShloMosaic.Lib.Pipeline.Value
import Idealize.ShloMosaic.Lib.ValueIdx

noncomputable section

namespace Cert.KernelIdeal.AttnValue

open Cert.KernelIdeal Cert.KernelIdeal.Gen Idealize.ShloMosaic Idealize.ShloMosaic.TcCoe Idealize.SL.Sem
open Idealize.ShloMosaic.Pipeline (Dat)
open Idealize.ShloMosaic.ValueIdx

/-! ## A point's coordinates -/

theorem N64 : cfg3.N = 64 := N_3

/-- The batch, the query block and the key tile of point `t`. -/
def bOf (t : Fin cfg3.N) : Fin 2 := ⟨t.val / 32, by have := t.isLt; have := N64; omega⟩
def qOf (t : Fin cfg3.N) : Fin 8 := ⟨t.val / 4 % 8, by omega⟩
def kOf (t : Fin cfg3.N) : Fin 4 := ⟨t.val % 4, by omega⟩

/-- The windows' block indices over the 64 points, decided. -/
theorem idx_facts3 : ∀ t : Fin cfg3.N,
    (win3_0.index t (0 : Fin 3) = t.val / 32 ∧ win3_0.index t (1 : Fin 3) = t.val / 4 % 8 ∧ win3_0.index t (2 : Fin 3) = 0)
    ∧ (win3_1.index t (0 : Fin 3) = t.val / 32 ∧ win3_1.index t (1 : Fin 3) = t.val % 4 ∧ win3_1.index t (2 : Fin 3) = 0)
    ∧ (win3_2.index t (0 : Fin 3) = t.val / 32 ∧ win3_2.index t (1 : Fin 3) = t.val % 4 ∧ win3_2.index t (2 : Fin 3) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 3) = t.val / 32 ∧ win3_5.index t (1 : Fin 3) = t.val / 4 % 8 ∧ win3_5.index t (2 : Fin 3) = 0) :=
  (by decide +kernel : ∀ t : Fin grid3.N, _)

/-- Every batch and query block has its last-tile point. -/
theorem idx_onto3 : ∀ (b : Fin 2) (qi : Fin 8), ∃ t : Fin cfg3.N, t.val = (b.val * 8 + qi.val) * 4 + 3 :=
  (by decide +kernel : ∀ (b : Fin 2) (qi : Fin 8), ∃ t : Fin grid3.N, t.val = (b.val * 8 + qi.val) * 4 + 3)

/-! ## The windows' blocks as functions of their arrays -/

/-- The query window's block at point `t`: the 256 rows of the point's query block, of the point's batch. -/
theorem qblk_eq (x : Cert.Spec.SX.Idx → EReal) (t : Fin cfg3.N) :
    ((cfg3.win 0).blk t).view.read (Elt Ideal) x = Cert.AttnFold.qb x (bOf t) (qOf t) := by
  obtain ⟨⟨e0, e1, e2⟩, -⟩ := idx_facts3 t
  funext j
  have h0 : (j 0).val < 1 := (j 0).isLt
  show x (((cfg3.win 0).blk t).view.emb j) = x (ix3 (bOf t) (Cert.AttnFold.qrow (qOf t) (j 1)) (j 2))
  refine congrArg x (funext fun a => Fin.ext ?_)
  match a with
  | ⟨0, _⟩ => show win3_0.index t (0 : Fin 3) * 1 + 1 * (j 0).val = t.val / 32; omega
  | ⟨1, _⟩ => show win3_0.index t (1 : Fin 3) * 256 + 1 * (j 1).val = t.val / 4 % 8 * 256 + (j 1).val; omega
  | ⟨2, _⟩ => show win3_0.index t (2 : Fin 3) * 1024 + 1 * (j 2).val = (j 2).val; omega

/-- The key window's block: the 512 rows of the point's key tile, of the point's batch. -/
theorem kblk_eq (x : Cert.Spec.SX.Idx → EReal) (t : Fin cfg3.N) :
    ((cfg3.win 1).blk t).view.read (Elt Ideal) x = Cert.AttnFold.kb x (bOf t) (kOf t) := by
  obtain ⟨-, ⟨e0, e1, e2⟩, -⟩ := idx_facts3 t
  funext j
  have h0 : (j 0).val < 1 := (j 0).isLt
  show x (((cfg3.win 1).blk t).view.emb j) = x (ix3 (bOf t) (Cert.AttnFold.krow (kOf t) (j 1)) (j 2))
  refine congrArg x (funext fun a => Fin.ext ?_)
  match a with
  | ⟨0, _⟩ => show win3_1.index t (0 : Fin 3) * 1 + 1 * (j 0).val = t.val / 32; omega
  | ⟨1, _⟩ => show win3_1.index t (1 : Fin 3) * 512 + 1 * (j 1).val = t.val % 4 * 512 + (j 1).val; omega
  | ⟨2, _⟩ => show win3_1.index t (2 : Fin 3) * 1024 + 1 * (j 2).val = (j 2).val; omega

/-- The value window's block: the same rows of the value array. -/
theorem vblk_eq (x : Cert.Spec.SX.Idx → EReal) (t : Fin cfg3.N) :
    ((cfg3.win 2).blk t).view.read (Elt Ideal) x = Cert.AttnFold.kb x (bOf t) (kOf t) := by
  obtain ⟨-, -, ⟨e0, e1, e2⟩, -⟩ := idx_facts3 t
  funext j
  have h0 : (j 0).val < 1 := (j 0).isLt
  show x (((cfg3.win 2).blk t).view.emb j) = x (ix3 (bOf t) (Cert.AttnFold.krow (kOf t) (j 1)) (j 2))
  refine congrArg x (funext fun a => Fin.ext ?_)
  match a with
  | ⟨0, _⟩ => show win3_2.index t (0 : Fin 3) * 1 + 1 * (j 0).val = t.val / 32; omega
  | ⟨1, _⟩ => show win3_2.index t (1 : Fin 3) * 512 + 1 * (j 1).val = t.val % 4 * 512 + (j 1).val; omega
  | ⟨2, _⟩ => show win3_2.index t (2 : Fin 3) * 1024 + 1 * (j 2).val = (j 2).val; omega

/-- The weight window's block is the whole array of transposed output weights. -/
theorem wblk_eq (w : Cert.Spec.SW.Idx → EReal) (t : Fin cfg3.N) :
    ((cfg3.win 3).blk t).view.read (Elt Ideal) w = w := by
  obtain ⟨-, -, -, ⟨e0, e1⟩, -⟩ := idx_facts3 t
  funext j
  show w (((cfg3.win 3).blk t).view.emb j) = w j
  refine congrArg w (funext fun a => Fin.ext ?_)
  match a with
  | ⟨0, _⟩ => show win3_3.index t (0 : Fin 2) * 1024 + 1 * (j 0).val = (j 0).val; omega
  | ⟨1, _⟩ => show win3_3.index t (1 : Fin 2) * 1024 + 1 * (j 1).val = (j 1).val; omega

/-- The bias window's block is the whole bias row. -/
theorem bblk_eq (b2 : Cert.Spec.SR.Idx → EReal) (t : Fin cfg3.N) :
    ((cfg3.win 4).blk t).view.read (Elt Ideal) b2 = b2 := by
  obtain ⟨-, -, -, -, ⟨e0, e1⟩, -⟩ := idx_facts3 t
  funext j
  show b2 (((cfg3.win 4).blk t).view.emb j) = b2 j
  refine congrArg b2 (funext fun a => Fin.ext ?_)
  match a with
  | ⟨0, _⟩ => show win3_4.index t (0 : Fin 2) * 1 + 1 * (j 0).val = (j 0).val; omega
  | ⟨1, _⟩ => show win3_4.index t (1 : Fin 2) * 1024 + 1 * (j 1).val = (j 1).val; omega

/-- The output window's block read out of an array `G`: entry (0, r, e) is `G` at row r of the point's query block. -/
theorem oblk_read (G : Cert.Spec.SX.Idx → EReal) (t : Fin cfg3.N) (r : Fin 256) (e : Fin 1024) :
    ((cfg3.win 5).blk t).view.read (Elt Ideal) G (ix3 0 r e) = G (ix3 (bOf t) (Cert.AttnFold.qrow (qOf t) r) e) := by
  obtain ⟨-, -, -, -, -, ⟨e0, e1, e2⟩⟩ := idx_facts3 t
  show G (((cfg3.win 5).blk t).view.emb (ix3 0 r e)) = _
  refine congrArg G (funext fun a => Fin.ext ?_)
  match a with
  | ⟨0, _⟩ => show win3_5.index t (0 : Fin 3) * 1 + 1 * 0 = t.val / 32; omega
  | ⟨1, _⟩ => show win3_5.index t (1 : Fin 3) * 256 + 1 * r.val = t.val / 4 % 8 * 256 + r.val; omega
  | ⟨2, _⟩ => show win3_5.index t (2 : Fin 3) * 1024 + 1 * e.val = e.val; omega

/-! ## The output blocks cover the output array -/

/-- An index of the output array is in point `t`'s block iff each coordinate is in the block's range on its axis. -/
theorem mem_blk3 (t : Fin cfg3.N) (i : S2x2048x1024.Idx) :
    i ∈ ((cfg3.win 5).blk t).view.set
      ↔ ∀ a : Fin 3, win3_5.index t a * S1x256x1024.size a ≤ (i a).val ∧ (i a).val < win3_5.index t a * S1x256x1024.size a + S1x256x1024.size a := by
  show i ∈ ((View.whole main_v18).slice (win3_5.rect t)).set ↔ _
  rw [View.set_slice_whole, Rect.mem_set_unit]
  exact Iff.rfl

/-- Row `s` of batch `b` is in the block the point (b, s / 256, 3) writes back. -/
theorem covered3 (i : S2x2048x1024.Idx) :
    ∃ t : Fin cfg3.N, (cfg3.win 5).flush t = true ∧ i ∈ ((cfg3.win 5).blk t).view.set := by
  have hi0 : (i 0).val < 2 := (i 0).isLt
  have hi1 : (i 1).val < 2048 := (i 1).isLt
  have hi2 : (i 2).val < 1024 := (i 2).isLt
  obtain ⟨t, ht⟩ := idx_onto3 ⟨(i 0).val, hi0⟩ ⟨(i 1).val / 256, by omega⟩
  have ht' : t.val = ((i 0).val * 8 + (i 1).val / 256) * 4 + 3 := ht
  obtain ⟨-, -, -, -, -, ⟨e0, e1, e2⟩⟩ := idx_facts3 t
  refine ⟨t, (flush3_5 t).mpr (by omega), ?_⟩
  rw [mem_blk3]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 256 ≤ (i 1).val ∧ (i 1).val < win3_5.index t (1 : Fin 3) * 256 + 256; omega
  | ⟨2, _⟩ => show win3_5.index t (2 : Fin 3) * 1024 ≤ (i 2).val ∧ (i 2).val < win3_5.index t (2 : Fin 3) * 1024 + 1024; omega

end Cert.KernelIdeal.AttnValue

end
-- ==== Proof.AttnPayload.Ops.lean ====
/-
  The operations of the streaming attention step that are not pointwise, each read at one index on the extended
  reals, over variables of the literal vector shapes and explicit coordinates:

  * a block of 64 columns cut out of a [256, 1024] or [512, 1024] array at a column offset reads the array at the
    shifted column;
  * a [1, n, 1024] block viewed as [n, 1024] reads the block at (0, row, column), and the change of float format on
    top of it is the identity;
  * the product of a [256, 64] block with the transpose of a [512, 64] block reads, at (r, j), the sum over the 64
    columns of the products; the product of a [256, 512] block with a [512, 64] block reads, at (r, d), the sum
    over the 512 rows;
  * the maximum of a [256, 512] block along its rows, from −∞, is the fold of max over the 512 columns; the sum
    along its rows, from 0, the sum over them;
  * a [256] vector viewed as a [256, 1] column reads its entry at the row; a [256, 1] column spread over 512 or 64
    columns reads the column at the row.
-/
import proofs.«161242_j13649406066792_2_alg».proof.Proof.Gen.KernelIdeal.Skeleton
import proofs.«161242_j13649406066792_2_alg».proof.Proof.Spec
import proofs.«161242_j13649406066792_2_alg».proof.Proof.AttnStep
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnPayload

open Idealize.ShloMosaic Idealize.ShloMosaic.ValueIdx Cert.KernelIdeal Cert.KernelIdeal.Gen Cert.Spec Cert.AttnStep

/-! ## Blocks of 64 columns -/

/-- Columns `off … off + 63` of a [256, 1024] array: entry (r, d) is the array at (r, off + d). -/
theorem slice256_apply {α : Type} (off : ℕ) (x : S256x1024.Idx → α) (h : S256x1024.Slices ![0, off] S256x64)
    (r : Fin 256) (d : Fin 64) (c : Fin 1024) (hc : c.val = off + d.val) :
    extractStridedSlice S256x64 ![0, off] x h (ix2 r d) = x (ix2 r c) :=
  extractStridedSlice_apply _ x h (ix2 r d) (ix2 r c) fun a => match a with
    | ⟨0, _⟩ => by show r.val = 0 + r.val; omega
    | ⟨1, _⟩ => by show c.val = off + d.val; exact hc

/-- Columns `off … off + 63` of a [512, 1024] array: entry (j, d) is the array at (j, off + d). -/
theorem slice512_apply {α : Type} (off : ℕ) (x : S512x1024.Idx → α) (h : S512x1024.Slices ![0, off] S512x64)
    (j : Fin 512) (d : Fin 64) (c : Fin 1024) (hc : c.val = off + d.val) :
    extractStridedSlice S512x64 ![0, off] x h (ix2 j d) = x (ix2 j c) :=
  extractStridedSlice_apply _ x h (ix2 j d) (ix2 j c) fun a => match a with
    | ⟨0, _⟩ => by show j.val = 0 + j.val; omega
    | ⟨1, _⟩ => by show c.val = off + d.val; exact hc

/-! ## The loaded blocks as [n, 1024] arrays -/

/-- The query block as a [256, 1024] array in the narrower format: entry (r, c) is the block at (0, r, c). -/
theorem qcast_apply (qb : Vec Ideal S1x256x1024 .f32) (r : Fin 256) (c : Fin 1024) :
    k3_pay26 qb (ix2 r c) = qb (ix3 (0 : Fin 1) r c) := by
  unfold k3_pay26
  exact shapeCast_1ab_ab_apply qb _ r c

/-- The key tile as a [512, 1024] array in the narrower format: entry (j, c) is the tile at (0, j, c). -/
theorem kcast_apply (kb : Vec Ideal S1x512x1024 .f32) (j : Fin 512) (c : Fin 1024) :
    k3_pay27 kb (ix2 j c) = kb (ix3 (0 : Fin 1) j c) := by
  unfold k3_pay27
  exact shapeCast_1ab_ab_apply kb _ j c

/-- The value tile likewise. -/
theorem vcast_apply (vb : Vec Ideal S1x512x1024 .f32) (j : Fin 512) (c : Fin 1024) :
    k3_pay28 vb (ix2 j c) = vb (ix3 (0 : Fin 1) j c) := by
  unfold k3_pay28
  exact shapeCast_1ab_ab_apply vb _ j c

/-! ## The two matrix products -/

theorem qk_lhs0 (i : S256x512.Idx) (q : dot_S256x64_S512x64_S256x512_1_1_0_0_n_n.contr.Idx) : (dot_S256x64_S512x64_S256x512_1_1_0_0_n_n.lhsIdx i q 0).val = (i 0).val := by
  unfold DotDims.lhsIdx
  rw [dif_neg (show ¬(0 : Fin S256x64.rank) ∈ dot_S256x64_S512x64_S256x512_1_1_0_0_n_n.lhsBatch by decide), dif_pos (show (0 : Fin S256x64.rank) ∈ dot_S256x64_S512x64_S256x512_1_1_0_0_n_n.lhsNonContracting by decide)]
  rfl
theorem qk_rhs0 (i : S256x512.Idx) (q : dot_S256x64_S512x64_S256x512_1_1_0_0_n_n.contr.Idx) : (dot_S256x64_S512x64_S256x512_1_1_0_0_n_n.rhsIdx i q 0).val = (i 1).val := by
  unfold DotDims.rhsIdx
  rw [dif_neg (show ¬(0 : Fin S512x64.rank) ∈ dot_S256x64_S512x64_S256x512_1_1_0_0_n_n.rhsBatch by decide), dif_pos (show (0 : Fin S512x64.rank) ∈ dot_S256x64_S512x64_S256x512_1_1_0_0_n_n.rhsNonContracting by decide)]
  rfl

/-- A [256, 64] block times the transpose of a [512, 64] block, from zero: entry (r, j) is the sum over the 64
    columns of the products of row r of the one with row j of the other. -/
theorem qk_apply (q : FVec Ideal S256x64 .bf16) (k : FVec Ideal S512x64 .bf16) (r : Fin 256) (j : Fin 512) :
    matmul dot_S256x64_S512x64_S256x512_1_1_0_0_n_n none q k (constant S256x512 .f32 0x00000000#32) (ix2 r j) = ∑ d : Fin 64, q (ix2 r d) * k (ix2 j d) := by
  refine (Ideal.matmul_constant_zero_apply dot_S256x64_S512x64_S256x512_1_1_0_0_n_n none q k (ix2 r j)).trans ?_
  rw [← Equiv.sum_comp (contrEquiv1 dot_S256x64_S512x64_S256x512_1_1_0_0_n_n 64 rfl rfl).symm]
  refine Finset.sum_congr rfl fun d _ => ?_
  have hd := contrEquiv1_symm_val dot_S256x64_S512x64_S256x512_1_1_0_0_n_n 64 rfl rfl d
  have el : dot_S256x64_S512x64_S256x512_1_1_0_0_n_n.lhsIdx (ix2 r j) ((contrEquiv1 dot_S256x64_S512x64_S256x512_1_1_0_0_n_n 64 rfl rfl).symm d) = ix2 r d := funext fun a => Fin.ext (by
    match a with
    | ⟨0, _⟩ => exact qk_lhs0 _ _
    | ⟨1, _⟩ => exact (dot_S256x64_S512x64_S256x512_1_1_0_0_n_n.lhsIdx_val_of_single rfl _ _).trans hd)
  have er : dot_S256x64_S512x64_S256x512_1_1_0_0_n_n.rhsIdx (ix2 r j) ((contrEquiv1 dot_S256x64_S512x64_S256x512_1_1_0_0_n_n 64 rfl rfl).symm d) = ix2 j d := funext fun a => Fin.ext (by
    match a with
    | ⟨0, _⟩ => exact qk_rhs0 _ _
    | ⟨1, _⟩ => exact (dot_S256x64_S512x64_S256x512_1_1_0_0_n_n.rhsIdx_val_of_single rfl _ _).trans hd)
  rw [el, er]

theorem pv_lhs0 (i : S256x64.Idx) (q : dot_S256x512_S512x64_S256x64_1_0_0_1_n_n.contr.Idx) : (dot_S256x512_S512x64_S256x64_1_0_0_1_n_n.lhsIdx i q 0).val = (i 0).val := by
  unfold DotDims.lhsIdx
  rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
  rfl
theorem pv_rhs1 (i : S256x64.Idx) (q : dot_S256x512_S512x64_S256x64_1_0_0_1_n_n.contr.Idx) : (dot_S256x512_S512x64_S256x64_1_0_0_1_n_n.rhsIdx i q 1).val = (i 1).val := by
  unfold DotDims.rhsIdx
  rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
  rfl

/-- A [256, 512] block times a [512, 64] block, from zero: entry (r, d) is the sum over the 512 rows of the second
    of the products. -/
theorem pv_apply (p : FVec Ideal S256x512 .bf16) (v : FVec Ideal S512x64 .bf16) (r : Fin 256) (d : Fin 64) :
    matmul dot_S256x512_S512x64_S256x64_1_0_0_1_n_n none p v (constant S256x64 .f32 0x00000000#32) (ix2 r d) = ∑ j : Fin 512, p (ix2 r j) * v (ix2 j d) := by
  refine (Ideal.matmul_constant_zero_apply dot_S256x512_S512x64_S256x64_1_0_0_1_n_n none p v (ix2 r d)).trans ?_
  rw [← Equiv.sum_comp (contrEquiv1 dot_S256x512_S512x64_S256x64_1_0_0_1_n_n 512 rfl rfl).symm]
  refine Finset.sum_congr rfl fun j _ => ?_
  have hj := contrEquiv1_symm_val dot_S256x512_S512x64_S256x64_1_0_0_1_n_n 512 rfl rfl j
  have el : dot_S256x512_S512x64_S256x64_1_0_0_1_n_n.lhsIdx (ix2 r d) ((contrEquiv1 dot_S256x512_S512x64_S256x64_1_0_0_1_n_n 512 rfl rfl).symm j) = ix2 r j := funext fun a => Fin.ext (by
    match a with
    | ⟨0, _⟩ => exact pv_lhs0 _ _
    | ⟨1, _⟩ => exact (dot_S256x512_S512x64_S256x64_1_0_0_1_n_n.lhsIdx_val_of_single rfl _ _).trans hj)
  have er : dot_S256x512_S512x64_S256x64_1_0_0_1_n_n.rhsIdx (ix2 r d) ((contrEquiv1 dot_S256x512_S512x64_S256x64_1_0_0_1_n_n 512 rfl rfl).symm j) = ix2 j d := funext fun a => Fin.ext (by
    match a with
    | ⟨0, _⟩ => exact (dot_S256x512_S512x64_S256x64_1_0_0_1_n_n.rhsIdx_val_of_single rfl _ _).trans hj
    | ⟨1, _⟩ => exact pv_rhs1 _ _)
  rw [el, er]

/-! ## Row maximum, row sum, and the column forms -/

/-- The word of −∞ reads as the bottom element. -/
theorem ofBits_neg_inf : Ideal.ofBits .f32 0xFF800000#32 = ⊥ := by simp [Ideal.ofBits, Ideal.ieee]

/-- A [256] vector as a [256, 1] column: entry (r, 0) is the vector at r. -/
theorem col_apply {α : Type} (x : S256.Idx → α) (h : S256.ShapeCasts S256x1) (r : Fin 256) :
    shapeCast S256x1 x h (ix2 r (0 : Fin 1)) = x (ix1 r) :=
  shapeCast_apply x h _ _ (by
    rw [Shape.rowMajor_val_one, Shape.rowMajor_val_two]
    show r.val = r.val * 1 + 0
    omega)

/-- The inserted index of the row reduction of a [256, 512] block: row r, column j. -/
theorem lift_row (h : S256x512.Reduces [1] S256) (r : Fin 256) (j : Fin 512) : h.lift (ix1 r) j = ix2 r j :=
  funext fun a => Fin.ext (by match a with | ⟨0, _⟩ => rfl | ⟨1, _⟩ => rfl)

/-- The maximum of a [256, 512] block along each row, from −∞, as a column: the fold of max over the row. -/
theorem rowMax_apply (s : FVec Ideal S256x512 .f32) (r : Fin 256) :
    shapeCast S256x1 (multiReduction (F := Ideal) .maximumf [1] S256 s 0xFF800000#32 reduces_S256x512_S256 (.inl rfl) rfl)
        shapeCasts_S256_S256x1 (ix2 r (0 : Fin 1))
      = (Finset.univ : Finset (Fin 512)).fold max ⊥ fun j => s (ix2 r j) := by
  refine (col_apply _ _ r).trans ?_
  refine (Ideal.multiReduction_maximumf_single s _ reduces_S256x512_S256 (.inl rfl) rfl (ix1 r)).trans ?_
  show (Finset.univ : Finset (Fin 512)).fold max (Ideal.ofBits .f32 0xFF800000#32)
      (fun j => s (Shape.Reduces.lift reduces_S256x512_S256 (ix1 r) j)) = _
  rw [ofBits_neg_inf]
  exact congrArg (fun f => (Finset.univ : Finset (Fin 512)).fold max ⊥ f) (funext fun j => congrArg s (lift_row _ r j))

/-- The sum of a [256, 512] block along each row, from zero, as a column: the sum over the row. -/
theorem rowSum_apply (s : FVec Ideal S256x512 .f32) (r : Fin 256) :
    shapeCast S256x1 (multiReduction (F := Ideal) .add [1] S256 s 0x00000000#32 reduces_S256x512_S256 (.inl rfl) rfl)
        shapeCasts_S256_S256x1 (ix2 r (0 : Fin 1))
      = ∑ j : Fin 512, s (ix2 r j) := by
  refine (col_apply _ _ r).trans ?_
  refine (Ideal.multiReduction_add_single s _ reduces_S256x512_S256 (.inl rfl) rfl (ix1 r)).trans ?_
  show ∑ j : Fin 512, s (Shape.Reduces.lift reduces_S256x512_S256 (ix1 r) j) = _
  exact Finset.sum_congr rfl fun j _ => congrArg s (lift_row _ r j)

/-- A [256, 1] column spread over 512 columns: entry (r, j) is the column at r. -/
theorem spread512_apply {α : Type} (x : S256x1.Idx → α) (h : S256x1.Broadcasts S256x512) (r : Fin 256) (j : Fin 512) :
    broadcastTo S256x512 x h (ix2 r j) = x (ix2 r (0 : Fin 1)) :=
  broadcastTo_apply x h (ix2 r j) (ix2 r (0 : Fin 1)) fun a => match a with
    | ⟨0, _⟩ => rfl
    | ⟨1, _⟩ => rfl

/-- A [256, 1] column spread over 64 columns: entry (r, d) is the column at r. -/
theorem spread64_apply {α : Type} (x : S256x1.Idx → α) (h : S256x1.Broadcasts S256x64) (r : Fin 256) (d : Fin 64) :
    broadcastTo S256x64 x h (ix2 r d) = x (ix2 r (0 : Fin 1)) :=
  broadcastTo_apply x h (ix2 r d) (ix2 r (0 : Fin 1)) fun a => match a with
    | ⟨0, _⟩ => rfl
    | ⟨1, _⟩ => rfl

end Cert.KernelIdeal.AttnPayload

end
-- ==== Proof.AttnPayload.Step.lean ====
/-
  One head of the streaming attention step, read at an index on the extended reals.

  For the head whose 64 columns start at column `off` of the model width: `scoreBlk` is the [256, 512] block of
  scaled scores of the query block against the key tile, `valBlk` the head's 64 columns of the value tile.  From a
  score block `s`, the loaded column `m` of running maxima, the loaded column `l` of partition sums and the loaded
  block `a` of weighted sums, the step stores

    the new maximum      M r   = max (m r) (the maximum of row r of s),
    the new sum          exp (m r − M r) · l r + ∑ j, exp (s r j − M r),
    the new weighted sum exp (m r − M r) · a r d + ∑ j, exp (s r j − M r) · v j d.

  The score block at (r, j) is the scaled score `sc` of query row r against key row j in the head; so the three
  stored values are `max (m r) (tileMax …)` and the two recurrences of the online softmax over `sc`.
-/
import proofs.«161242_j13649406066792_2_alg».proof.Proof.AttnPayload.Ops

noncomputable section

namespace Cert.KernelIdeal.AttnPayload

open Idealize.ShloMosaic Idealize.ShloMosaic.ValueIdx Cert.KernelIdeal Cert.KernelIdeal.Gen Cert.Spec Cert.AttnStep

/-! ## The score block and the value columns of one head -/

/-- The [256, 512] block of scaled scores of the head whose columns start at `off`. -/
def scoreBlk (off : ℕ) (hq : S256x1024.Slices ![0, off] S256x64) (hk : S512x1024.Slices ![0, off] S512x64)
    (qb : Vec Ideal S1x256x1024 .f32) (kb : Vec Ideal S1x512x1024 .f32) : FVec Ideal S256x512 .f32 :=
  k3_pay78 (F := Ideal) (extractStridedSlice S256x64 ![0, off] (k3_pay26 qb) hq)
    (extractStridedSlice S512x64 ![0, off] (k3_pay27 kb) hk)

/-- The 64 value columns of the head whose columns start at `off`. -/
def valBlk (off : ℕ) (hv : S512x1024.Slices ![0, off] S512x64) (vb : Vec Ideal S1x512x1024 .f32) :
    FVec Ideal S512x64 .bf16 :=
  extractStridedSlice S512x64 ![0, off] (k3_pay28 (F := Ideal) vb) hv

/-- Scores from two 64-column blocks: the sum of products over the columns, times the eighth. -/
theorem score_apply (q : FVec Ideal S256x64 .bf16) (k : FVec Ideal S512x64 .bf16) (r : Fin 256) (j : Fin 512) :
    k3_pay78 q k (ix2 r j) = (∑ d : Fin 64, q (ix2 r d) * k (ix2 j d)) * Ideal.ofBits .f32 0x3E000000#32 := by
  unfold k3_pay78
  exact congrArg (· * Ideal.ofBits .f32 0x3E000000#32) (qk_apply q k r j)

/-- The score block of head `h` at (r, j) is the scaled score of query row r against key row j in that head. -/
theorem scoreBlk_apply (off : ℕ) (hq : S256x1024.Slices ![0, off] S256x64) (hk : S512x1024.Slices ![0, off] S512x64)
    (qb : Vec Ideal S1x256x1024 .f32) (kb : Vec Ideal S1x512x1024 .f32) (h : Fin 16) (hoff : off = h.val * 64)
    (r : Fin 256) (j : Fin 512) : scoreBlk off hq hk qb kb (ix2 r j) = sc qb kb h r j := by
  unfold scoreBlk sc
  refine (score_apply _ _ r j).trans ?_
  refine congrArg (· * Ideal.ofBits .f32 0x3E000000#32) (Finset.sum_congr rfl fun d _ => ?_)
  have hc : (col h d).val = off + d.val := by show h.val * 64 + d.val = off + d.val; omega
  rw [slice256_apply off _ hq r d (col h d) hc, slice512_apply off _ hk j d (col h d) hc, qcast_apply, kcast_apply]

/-- The value columns of head `h` at (j, d) are the value tile at row j, column d of the head. -/
theorem valBlk_apply (off : ℕ) (hv : S512x1024.Slices ![0, off] S512x64) (vb : Vec Ideal S1x512x1024 .f32) (h : Fin 16)
    (hoff : off = h.val * 64) (j : Fin 512) (d : Fin 64) :
    valBlk off hv vb (ix2 j d) = vb (ix3 (0 : Fin 1) j (col h d)) := by
  unfold valBlk
  have hc : (col h d).val = off + d.val := by show h.val * 64 + d.val = off + d.val; omega
  rw [slice512_apply off _ hv j d (col h d) hc, vcast_apply]

/-! ## The step over a score block -/

/-- The new maximum of row r: the old one against the row's maximum score. -/
theorem newMax_apply (s : FVec Ideal S256x512 .f32) (m : Vec Ideal S256x1 .f32) (r : Fin 256) :
    k3_pay87 s m (ix2 r (0 : Fin 1))
      = max (m (ix2 r (0 : Fin 1))) ((Finset.univ : Finset (Fin 512)).fold max ⊥ fun j => s (ix2 r j)) := by
  unfold k3_pay87
  exact congrArg (max (m (ix2 r (0 : Fin 1)))) (rowMax_apply s r)

/-- The exponential of a score measured from the row's new maximum. -/
theorem weight_apply (s : FVec Ideal S256x512 .f32) (m : Vec Ideal S256x1 .f32) (r : Fin 256) (j : Fin 512) :
    k3_pay89 s m (ix2 r j) = Ideal.exp (s (ix2 r j) - k3_pay87 s m (ix2 r (0 : Fin 1))) := by
  unfold k3_pay89
  exact congrArg (fun t => Ideal.exp (s (ix2 r j) - t)) (spread512_apply (k3_pay87 s m) _ r j)

/-- What the step stores as the new maximum. -/
theorem mStore_apply (s : FVec Ideal S256x512 .f32) (m : Vec Ideal S256x1 .f32) (r : Fin 256) :
    k3_pay92 s m (ix2 r (0 : Fin 1)) = k3_pay87 s m (ix2 r (0 : Fin 1)) := by
  unfold k3_pay92
  exact congrFun (shapeCast_self _ _) _

/-- What the step stores as the new partition sum: the old one rescaled, plus the row's exponentials. -/
theorem lStore_apply (s : FVec Ideal S256x512 .f32) (m l : Vec Ideal S256x1 .f32) (r : Fin 256) :
    k3_pay90 s m l (ix2 r (0 : Fin 1))
      = Ideal.exp (m (ix2 r (0 : Fin 1)) - k3_pay87 s m (ix2 r (0 : Fin 1))) * l (ix2 r (0 : Fin 1))
        + ∑ j : Fin 512, Ideal.exp (s (ix2 r j) - k3_pay87 s m (ix2 r (0 : Fin 1))) := by
  unfold k3_pay90
  refine (congrFun (shapeCast_self _ _) _).trans ?_
  refine congrArg₂ (· + ·) rfl ?_
  refine (rowSum_apply (k3_pay89 s m) r).trans ?_
  exact Finset.sum_congr rfl fun j _ => weight_apply s m r j

/-- What the step stores as the new weighted sum: the old one rescaled, plus the weighted value rows. -/
theorem accStore_apply (v : FVec Ideal S512x64 .bf16) (s : FVec Ideal S256x512 .f32) (m : Vec Ideal S256x1 .f32)
    (a : Vec Ideal S256x64 .f32) (r : Fin 256) (d : Fin 64) :
    k3_pay91 v s m a (ix2 r d)
      = Ideal.exp (m (ix2 r (0 : Fin 1)) - k3_pay87 s m (ix2 r (0 : Fin 1))) * a (ix2 r d)
        + ∑ j : Fin 512, Ideal.exp (s (ix2 r j) - k3_pay87 s m (ix2 r (0 : Fin 1))) * v (ix2 j d) := by
  unfold k3_pay91
  refine (congrFun (shapeCast_self _ _) _).trans ?_
  refine congrArg₂ (· + ·) ?_ ?_
  · exact congrArg (· * a (ix2 r d)) (spread64_apply (k3_pay88 s m) _ r d)
  · refine (pv_apply _ v r d).trans ?_
    exact Finset.sum_congr rfl fun j _ => congrArg (· * v (ix2 j d)) (weight_apply s m r j)

/-! ## The step of head `h` -/

section Head
variable (off : ℕ) (hq : S256x1024.Slices ![0, off] S256x64) (hk hv : S512x1024.Slices ![0, off] S512x64)
  (qb : Vec Ideal S1x256x1024 .f32) (kb vb : Vec Ideal S1x512x1024 .f32) (mcol lcol : Vec Ideal S256x1 .f32)
  (accblk : Vec Ideal S256x64 .f32) (h : Fin 16) (hoff : off = h.val * 64)
include hoff

/-- The new maximum of head `h`: the loaded one against the tile's maximum score. -/
theorem head_newMax (r : Fin 256) :
    k3_pay87 (scoreBlk off hq hk qb kb) mcol (ix2 r (0 : Fin 1))
      = max (mcol (ix2 r (0 : Fin 1))) (tileMax qb kb h r) := by
  refine (newMax_apply _ mcol r).trans ?_
  unfold tileMax
  exact congrArg (fun f => max (mcol (ix2 r (0 : Fin 1))) ((Finset.univ : Finset (Fin 512)).fold max ⊥ f))
    (funext fun j => scoreBlk_apply off hq hk qb kb h hoff r j)

/-- The stored maximum column of head `h`. -/
theorem head_mStore (r : Fin 256) :
    k3_pay92 (scoreBlk off hq hk qb kb) mcol (ix2 r (0 : Fin 1))
      = max (mcol (ix2 r (0 : Fin 1))) (tileMax qb kb h r) :=
  (mStore_apply _ mcol r).trans (head_newMax off hq hk qb kb mcol h hoff r)

/-- The stored partition-sum column of head `h`. -/
theorem head_lStore (r : Fin 256) :
    k3_pay90 (scoreBlk off hq hk qb kb) mcol lcol (ix2 r (0 : Fin 1))
      = Ideal.exp (mcol (ix2 r (0 : Fin 1)) - max (mcol (ix2 r (0 : Fin 1))) (tileMax qb kb h r)) * lcol (ix2 r (0 : Fin 1))
        + ∑ j : Fin 512, Ideal.exp (sc qb kb h r j - max (mcol (ix2 r (0 : Fin 1))) (tileMax qb kb h r)) := by
  refine (lStore_apply _ mcol lcol r).trans ?_
  rw [head_newMax off hq hk qb kb mcol h hoff r]
  exact congrArg (_ + ·) (Finset.sum_congr rfl fun j _ => by rw [scoreBlk_apply off hq hk qb kb h hoff r j])

/-- The stored block of weighted sums of head `h`. -/
theorem head_accStore (r : Fin 256) (d : Fin 64) :
    k3_pay91 (valBlk off hv vb) (scoreBlk off hq hk qb kb) mcol accblk (ix2 r d)
      = Ideal.exp (mcol (ix2 r (0 : Fin 1)) - max (mcol (ix2 r (0 : Fin 1))) (tileMax qb kb h r)) * accblk (ix2 r d)
        + ∑ j : Fin 512, Ideal.exp (sc qb kb h r j - max (mcol (ix2 r (0 : Fin 1))) (tileMax qb kb h r))
            * vb (ix3 (0 : Fin 1) j (col h d)) := by
  refine (accStore_apply _ _ mcol accblk r d).trans ?_
  rw [head_newMax off hq hk qb kb mcol h hoff r]
  exact congrArg (_ + ·) (Finset.sum_congr rfl fun j _ => by
    rw [scoreBlk_apply off hq hk qb kb h hoff r j, valBlk_apply off hv vb h hoff j d])

end Head

end Cert.KernelIdeal.AttnPayload

end
-- ==== Proof.AttnPayload.Heads00_03.lean ====
/-
  Heads 0 to 3 of the streaming attention step: for each head, the three values the step stores — the new
  maximum column, the new partition-sum column, the new block of weighted sums — as the kernel's body composes
  them from the loaded query block `qb`, key tile `kb`, value tile `vb` and the head's loaded state (`mcol`,
  `lcol`, `accblk`), read at a row r (and a position d inside the head).  Each stored term unfolds to the one-head
  step over the head's score block at column offset 64 · h, so each statement is the one-head statement at that
  offset.
-/
import proofs.«161242_j13649406066792_2_alg».proof.Proof.AttnPayload.Step

noncomputable section

namespace Cert.KernelIdeal.AttnPayload

open Idealize.ShloMosaic Idealize.ShloMosaic.ValueIdx Cert.KernelIdeal Cert.KernelIdeal.Gen Cert.Spec Cert.AttnStep

/-! ## Head 0: model columns 0 … 63 -/

/-- The maximum column stored for head 0. -/
theorem h00_m (qb : Vec Ideal S1x256x1024 .f32) (kb : Vec Ideal S1x512x1024 .f32) (mcol : Vec Ideal S256x1 .f32) (r : Fin 256) :
    (k3_pay36 (k3_pay31 qb kb mcol)) (ix2 r (0 : Fin 1))
      = max (mcol (ix2 r (0 : Fin 1))) (tileMax qb kb 0 r) :=
  head_mStore 0 slices_S256x1024_o0_0_S256x64 slices_S512x1024_o0_0_S512x64 qb kb mcol 0 rfl r

/-- The partition-sum column stored for head 0. -/
theorem h00_l (qb : Vec Ideal S1x256x1024 .f32) (kb : Vec Ideal S1x512x1024 .f32) (mcol lcol : Vec Ideal S256x1 .f32) (r : Fin 256) :
    (k3_pay34 qb kb mcol lcol) (ix2 r (0 : Fin 1))
      = Ideal.exp (mcol (ix2 r (0 : Fin 1)) - max (mcol (ix2 r (0 : Fin 1))) (tileMax qb kb 0 r)) * lcol (ix2 r (0 : Fin 1))
        + ∑ j : Fin 512, Ideal.exp (sc qb kb 0 r j - max (mcol (ix2 r (0 : Fin 1))) (tileMax qb kb 0 r)) :=
  head_lStore 0 slices_S256x1024_o0_0_S256x64 slices_S512x1024_o0_0_S512x64 qb kb mcol lcol 0 rfl r

/-- The block of weighted sums stored for head 0. -/
theorem h00_acc (qb : Vec Ideal S1x256x1024 .f32) (kb vb : Vec Ideal S1x512x1024 .f32) (mcol : Vec Ideal S256x1 .f32)
    (accblk : Vec Ideal S256x64 .f32) (r : Fin 256) (d : Fin 64) :
    (k3_pay35 (k3_pay29 vb) (k3_pay32 qb kb mcol) (k3_pay33 qb kb mcol) accblk) (ix2 r d)
      = Ideal.exp (mcol (ix2 r (0 : Fin 1)) - max (mcol (ix2 r (0 : Fin 1))) (tileMax qb kb 0 r)) * accblk (ix2 r d)
        + ∑ j : Fin 512, Ideal.exp (sc qb kb 0 r j - max (mcol (ix2 r (0 : Fin 1))) (tileMax qb kb 0 r)) * vb (ix3 (0 : Fin 1) j (col 0 d)) :=
  head_accStore 0 slices_S256x1024_o0_0_S256x64 slices_S512x1024_o0_0_S512x64 slices_S512x1024_o0_0_S512x64 qb kb vb mcol accblk 0 rfl r d

/-! ## Head 1: model columns 64 … 127 -/

/-- The maximum column stored for head 1. -/
theorem h01_m (qb : Vec Ideal S1x256x1024 .f32) (kb : Vec Ideal S1x512x1024 .f32) (mcol : Vec Ideal S256x1 .f32) (r : Fin 256) :
    (k3_pay45 (k3_pay39 (k3_pay26 qb) (k3_pay27 kb) mcol)) (ix2 r (0 : Fin 1))
      = max (mcol (ix2 r (0 : Fin 1))) (tileMax qb kb 1 r) :=
  head_mStore 64 slices_S256x1024_o0_64_S256x64 slices_S512x1024_o0_64_S512x64 qb kb mcol 1 rfl r

/-- The partition-sum column stored for head 1. -/
theorem h01_l (qb : Vec Ideal S1x256x1024 .f32) (kb : Vec Ideal S1x512x1024 .f32) (mcol lcol : Vec Ideal S256x1 .f32) (r : Fin 256) :
    (k3_pay42 (k3_pay26 qb) (k3_pay27 kb) mcol lcol) (ix2 r (0 : Fin 1))
      = Ideal.exp (mcol (ix2 r (0 : Fin 1)) - max (mcol (ix2 r (0 : Fin 1))) (tileMax qb kb 1 r)) * lcol (ix2 r (0 : Fin 1))
        + ∑ j : Fin 512, Ideal.exp (sc qb kb 1 r j - max (mcol (ix2 r (0 : Fin 1))) (tileMax qb kb 1 r)) :=
  head_lStore 64 slices_S256x1024_o0_64_S256x64 slices_S512x1024_o0_64_S512x64 qb kb mcol lcol 1 rfl r

/-- The block of weighted sums stored for head 1. -/
theorem h01_acc (qb : Vec Ideal S1x256x1024 .f32) (kb vb : Vec Ideal S1x512x1024 .f32) (mcol : Vec Ideal S256x1 .f32)
    (accblk : Vec Ideal S256x64 .f32) (r : Fin 256) (d : Fin 64) :
    (k3_pay44 (k3_pay37 (k3_pay28 vb)) (k3_pay41 (k3_pay26 qb) (k3_pay27 kb) mcol) accblk (k3_pay43 (k3_pay26 qb) (k3_pay27 kb) mcol)) (ix2 r d)
      = Ideal.exp (mcol (ix2 r (0 : Fin 1)) - max (mcol (ix2 r (0 : Fin 1))) (tileMax qb kb 1 r)) * accblk (ix2 r d)
        + ∑ j : Fin 512, Ideal.exp (sc qb kb 1 r j - max (mcol (ix2 r (0 : Fin 1))) (tileMax qb kb 1 r)) * vb (ix3 (0 : Fin 1) j (col 1 d)) :=
  head_accStore 64 slices_S256x1024_o0_64_S256x64 slices_S512x1024_o0_64_S512x64 slices_S512x1024_o0_64_S512x64 qb kb vb mcol accblk 1 rfl r d

/-! ## Head 2: model columns 128 … 191 -/

/-- The maximum column stored for head 2. -/
theorem h02_m (qb : Vec Ideal S1x256x1024 .f32) (kb : Vec Ideal S1x512x1024 .f32) (mcol : Vec Ideal S256x1 .f32) (r : Fin 256) :
    (k3_pay53 (k3_pay47 (k3_pay26 qb) (k3_pay27 kb) mcol)) (ix2 r (0 : Fin 1))
      = max (mcol (ix2 r (0 : Fin 1))) (tileMax qb kb 2 r) :=
  head_mStore 128 slices_S256x1024_o0_128_S256x64 slices_S512x1024_o0_128_S512x64 qb kb mcol 2 rfl r

/-- The partition-sum column stored for head 2. -/
theorem h02_l (qb : Vec Ideal S1x256x1024 .f32) (kb : Vec Ideal S1x512x1024 .f32) (mcol lcol : Vec Ideal S256x1 .f32) (r : Fin 256) :
    (k3_pay50 (k3_pay26 qb) (k3_pay27 kb) mcol lcol) (ix2 r (0 : Fin 1))
      = Ideal.exp (mcol (ix2 r (0 : Fin 1)) - max (mcol (ix2 r (0 : Fin 1))) (tileMax qb kb 2 r)) * lcol (ix2 r (0 : Fin 1))
        + ∑ j : Fin 512, Ideal.exp (sc qb kb 2 r j - max (mcol (ix2 r (0 : Fin 1))) (tileMax qb kb 2 r)) :=
  head_lStore 128 slices_S256x1024_o0_128_S256x64 slices_S512x1024_o0_128_S512x64 qb kb mcol lcol 2 rfl r

/-- The block of weighted sums stored for head 2. -/
theorem h02_acc (qb : Vec Ideal S1x256x1024 .f32) (kb vb : Vec Ideal S1x512x1024 .f32) (mcol : Vec Ideal S256x1 .f32)
    (accblk : Vec Ideal S256x64 .f32) (r : Fin 256) (d : Fin 64) :
    (k3_pay52 (k3_pay51 (k3_pay26 qb) (k3_pay27 kb) (k3_pay28 vb) mcol accblk)) (ix2 r d)
      = Ideal.exp (mcol (ix2 r (0 : Fin 1)) - max (mcol (ix2 r (0 : Fin 1))) (tileMax qb kb 2 r)) * accblk (ix2 r d)
        + ∑ j : Fin 512, Ideal.exp (sc qb kb 2 r j - max (mcol (ix2 r (0 : Fin 1))) (tileMax qb kb 2 r)) * vb (ix3 (0 : Fin 1) j (col 2 d)) :=
  head_accStore 128 slices_S256x1024_o0_128_S256x64 slices_S512x1024_o0_128_S512x64 slices_S512x1024_o0_128_S512x64 qb kb vb mcol accblk 2 rfl r d

/-! ## Head 3: model columns 192 … 255 -/

/-- The maximum column stored for head 3. -/
theorem h03_m (qb : Vec Ideal S1x256x1024 .f32) (kb : Vec Ideal S1x512x1024 .f32) (mcol : Vec Ideal S256x1 .f32) (r : Fin 256) :
    (k3_pay60 (k3_pay55 (k3_pay26 qb) (k3_pay27 kb) mcol)) (ix2 r (0 : Fin 1))
      = max (mcol (ix2 r (0 : Fin 1))) (tileMax qb kb 3 r) :=
  head_mStore 192 slices_S256x1024_o0_192_S256x64 slices_S512x1024_o0_192_S512x64 qb kb mcol 3 rfl r

/-- The partition-sum column stored for head 3. -/
theorem h03_l (qb : Vec Ideal S1x256x1024 .f32) (kb : Vec Ideal S1x512x1024 .f32) (mcol lcol : Vec Ideal S256x1 .f32) (r : Fin 256) :
    (k3_pay58 (k3_pay26 qb) (k3_pay27 kb) mcol lcol) (ix2 r (0 : Fin 1))
      = Ideal.exp (mcol (ix2 r (0 : Fin 1)) - max (mcol (ix2 r (0 : Fin 1))) (tileMax qb kb 3 r)) * lcol (ix2 r (0 : Fin 1))
        + ∑ j : Fin 512, Ideal.exp (sc qb kb 3 r j - max (mcol (ix2 r (0 : Fin 1))) (tileMax qb kb 3 r)) :=
  head_lStore 192 slices_S256x1024_o0_192_S256x64 slices_S512x1024_o0_192_S512x64 qb kb mcol lcol 3 rfl r

/-- The block of weighted sums stored for head 3. -/
theorem h03_acc (qb : Vec Ideal S1x256x1024 .f32) (kb vb : Vec Ideal S1x512x1024 .f32) (mcol : Vec Ideal S256x1 .f32)
    (accblk : Vec Ideal S256x64 .f32) (r : Fin 256) (d : Fin 64) :
    (k3_pay59 (k3_pay26 qb) (k3_pay27 kb) (k3_pay28 vb) mcol accblk) (ix2 r d)
      = Ideal.exp (mcol (ix2 r (0 : Fin 1)) - max (mcol (ix2 r (0 : Fin 1))) (tileMax qb kb 3 r)) * accblk (ix2 r d)
        + ∑ j : Fin 512, Ideal.exp (sc qb kb 3 r j - max (mcol (ix2 r (0 : Fin 1))) (tileMax qb kb 3 r)) * vb (ix3 (0 : Fin 1) j (col 3 d)) :=
  head_accStore 192 slices_S256x1024_o0_192_S256x64 slices_S512x1024_o0_192_S512x64 slices_S512x1024_o0_192_S512x64 qb kb vb mcol accblk 3 rfl r d

end Cert.KernelIdeal.AttnPayload

end
-- ==== Proof.AttnPayload.Heads04_07.lean ====
/-
  Heads 4 to 7 of the streaming attention step: for each head, the three values the step stores — the new
  maximum column, the new partition-sum column, the new block of weighted sums — as the kernel's body composes
  them from the loaded query block `qb`, key tile `kb`, value tile `vb` and the head's loaded state (`mcol`,
  `lcol`, `accblk`), read at a row r (and a position d inside the head).  Each stored term unfolds to the one-head
  step over the head's score block at column offset 64 · h, so each statement is the one-head statement at that
  offset.
-/
import proofs.«161242_j13649406066792_2_alg».proof.Proof.AttnPayload.Step

noncomputable section

namespace Cert.KernelIdeal.AttnPayload

open Idealize.ShloMosaic Idealize.ShloMosaic.ValueIdx Cert.KernelIdeal Cert.KernelIdeal.Gen Cert.Spec Cert.AttnStep

/-! ## Head 4: model columns 256 … 319 -/

/-- The maximum column stored for head 4. -/
theorem h04_m (qb : Vec Ideal S1x256x1024 .f32) (kb : Vec Ideal S1x512x1024 .f32) (mcol : Vec Ideal S256x1 .f32) (r : Fin 256) :
    (k3_pay67 (k3_pay62 (k3_pay26 qb) (k3_pay27 kb) mcol)) (ix2 r (0 : Fin 1))
      = max (mcol (ix2 r (0 : Fin 1))) (tileMax qb kb 4 r) :=
  head_mStore 256 slices_S256x1024_o0_256_S256x64 slices_S512x1024_o0_256_S512x64 qb kb mcol 4 rfl r

/-- The partition-sum column stored for head 4. -/
theorem h04_l (qb : Vec Ideal S1x256x1024 .f32) (kb : Vec Ideal S1x512x1024 .f32) (mcol lcol : Vec Ideal S256x1 .f32) (r : Fin 256) :
    (k3_pay65 (k3_pay26 qb) (k3_pay27 kb) mcol lcol) (ix2 r (0 : Fin 1))
      = Ideal.exp (mcol (ix2 r (0 : Fin 1)) - max (mcol (ix2 r (0 : Fin 1))) (tileMax qb kb 4 r)) * lcol (ix2 r (0 : Fin 1))
        + ∑ j : Fin 512, Ideal.exp (sc qb kb 4 r j - max (mcol (ix2 r (0 : Fin 1))) (tileMax qb kb 4 r)) :=
  head_lStore 256 slices_S256x1024_o0_256_S256x64 slices_S512x1024_o0_256_S512x64 qb kb mcol lcol 4 rfl r

/-- The block of weighted sums stored for head 4. -/
theorem h04_acc (qb : Vec Ideal S1x256x1024 .f32) (kb vb : Vec Ideal S1x512x1024 .f32) (mcol : Vec Ideal S256x1 .f32)
    (accblk : Vec Ideal S256x64 .f32) (r : Fin 256) (d : Fin 64) :
    (k3_pay66 (k3_pay26 qb) (k3_pay27 kb) (k3_pay28 vb) mcol accblk) (ix2 r d)
      = Ideal.exp (mcol (ix2 r (0 : Fin 1)) - max (mcol (ix2 r (0 : Fin 1))) (tileMax qb kb 4 r)) * accblk (ix2 r d)
        + ∑ j : Fin 512, Ideal.exp (sc qb kb 4 r j - max (mcol (ix2 r (0 : Fin 1))) (tileMax qb kb 4 r)) * vb (ix3 (0 : Fin 1) j (col 4 d)) :=
  head_accStore 256 slices_S256x1024_o0_256_S256x64 slices_S512x1024_o0_256_S512x64 slices_S512x1024_o0_256_S512x64 qb kb vb mcol accblk 4 rfl r d

/-! ## Head 5: model columns 320 … 383 -/

/-- The maximum column stored for head 5. -/
theorem h05_m (qb : Vec Ideal S1x256x1024 .f32) (kb : Vec Ideal S1x512x1024 .f32) (mcol : Vec Ideal S256x1 .f32) (r : Fin 256) :
    (k3_pay74 (k3_pay26 qb) (k3_pay27 kb) mcol) (ix2 r (0 : Fin 1))
      = max (mcol (ix2 r (0 : Fin 1))) (tileMax qb kb 5 r) :=
  head_mStore 320 slices_S256x1024_o0_320_S256x64 slices_S512x1024_o0_320_S512x64 qb kb mcol 5 rfl r

/-- The partition-sum column stored for head 5. -/
theorem h05_l (qb : Vec Ideal S1x256x1024 .f32) (kb : Vec Ideal S1x512x1024 .f32) (mcol lcol : Vec Ideal S256x1 .f32) (r : Fin 256) :
    (k3_pay72 (k3_pay26 qb) (k3_pay27 kb) mcol lcol) (ix2 r (0 : Fin 1))
      = Ideal.exp (mcol (ix2 r (0 : Fin 1)) - max (mcol (ix2 r (0 : Fin 1))) (tileMax qb kb 5 r)) * lcol (ix2 r (0 : Fin 1))
        + ∑ j : Fin 512, Ideal.exp (sc qb kb 5 r j - max (mcol (ix2 r (0 : Fin 1))) (tileMax qb kb 5 r)) :=
  head_lStore 320 slices_S256x1024_o0_320_S256x64 slices_S512x1024_o0_320_S512x64 qb kb mcol lcol 5 rfl r

/-- The block of weighted sums stored for head 5. -/
theorem h05_acc (qb : Vec Ideal S1x256x1024 .f32) (kb vb : Vec Ideal S1x512x1024 .f32) (mcol : Vec Ideal S256x1 .f32)
    (accblk : Vec Ideal S256x64 .f32) (r : Fin 256) (d : Fin 64) :
    (k3_pay73 (k3_pay26 qb) (k3_pay27 kb) (k3_pay28 vb) mcol accblk) (ix2 r d)
      = Ideal.exp (mcol (ix2 r (0 : Fin 1)) - max (mcol (ix2 r (0 : Fin 1))) (tileMax qb kb 5 r)) * accblk (ix2 r d)
        + ∑ j : Fin 512, Ideal.exp (sc qb kb 5 r j - max (mcol (ix2 r (0 : Fin 1))) (tileMax qb kb 5 r)) * vb (ix3 (0 : Fin 1) j (col 5 d)) :=
  head_accStore 320 slices_S256x1024_o0_320_S256x64 slices_S512x1024_o0_320_S512x64 slices_S512x1024_o0_320_S512x64 qb kb vb mcol accblk 5 rfl r d

/-! ## Head 6: model columns 384 … 447 -/

/-- The maximum column stored for head 6. -/
theorem h06_m (qb : Vec Ideal S1x256x1024 .f32) (kb : Vec Ideal S1x512x1024 .f32) (mcol : Vec Ideal S256x1 .f32) (r : Fin 256) :
    (k3_pay84 (k3_pay75 (k3_pay26 qb)) (k3_pay76 (k3_pay27 kb)) mcol) (ix2 r (0 : Fin 1))
      = max (mcol (ix2 r (0 : Fin 1))) (tileMax qb kb 6 r) :=
  head_mStore 384 slices_S256x1024_o0_384_S256x64 slices_S512x1024_o0_384_S512x64 qb kb mcol 6 rfl r

/-- The partition-sum column stored for head 6. -/
theorem h06_l (qb : Vec Ideal S1x256x1024 .f32) (kb : Vec Ideal S1x512x1024 .f32) (mcol lcol : Vec Ideal S256x1 .f32) (r : Fin 256) :
    (k3_pay82 (k3_pay75 (k3_pay26 qb)) (k3_pay76 (k3_pay27 kb)) mcol lcol) (ix2 r (0 : Fin 1))
      = Ideal.exp (mcol (ix2 r (0 : Fin 1)) - max (mcol (ix2 r (0 : Fin 1))) (tileMax qb kb 6 r)) * lcol (ix2 r (0 : Fin 1))
        + ∑ j : Fin 512, Ideal.exp (sc qb kb 6 r j - max (mcol (ix2 r (0 : Fin 1))) (tileMax qb kb 6 r)) :=
  head_lStore 384 slices_S256x1024_o0_384_S256x64 slices_S512x1024_o0_384_S512x64 qb kb mcol lcol 6 rfl r

/-- The block of weighted sums stored for head 6. -/
theorem h06_acc (qb : Vec Ideal S1x256x1024 .f32) (kb vb : Vec Ideal S1x512x1024 .f32) (mcol : Vec Ideal S256x1 .f32)
    (accblk : Vec Ideal S256x64 .f32) (r : Fin 256) (d : Fin 64) :
    (k3_pay83 (k3_pay75 (k3_pay26 qb)) (k3_pay76 (k3_pay27 kb)) (k3_pay77 (k3_pay28 vb)) mcol accblk) (ix2 r d)
      = Ideal.exp (mcol (ix2 r (0 : Fin 1)) - max (mcol (ix2 r (0 : Fin 1))) (tileMax qb kb 6 r)) * accblk (ix2 r d)
        + ∑ j : Fin 512, Ideal.exp (sc qb kb 6 r j - max (mcol (ix2 r (0 : Fin 1))) (tileMax qb kb 6 r)) * vb (ix3 (0 : Fin 1) j (col 6 d)) :=
  head_accStore 384 slices_S256x1024_o0_384_S256x64 slices_S512x1024_o0_384_S512x64 slices_S512x1024_o0_384_S512x64 qb kb vb mcol accblk 6 rfl r d

/-! ## Head 7: model columns 448 … 511 -/

/-- The maximum column stored for head 7. -/
theorem h07_m (qb : Vec Ideal S1x256x1024 .f32) (kb : Vec Ideal S1x512x1024 .f32) (mcol : Vec Ideal S256x1 .f32) (r : Fin 256) :
    (k3_pay92 (k3_pay86 (k3_pay26 qb) (k3_pay27 kb)) mcol) (ix2 r (0 : Fin 1))
      = max (mcol (ix2 r (0 : Fin 1))) (tileMax qb kb 7 r) :=
  head_mStore 448 slices_S256x1024_o0_448_S256x64 slices_S512x1024_o0_448_S512x64 qb kb mcol 7 rfl r

/-- The partition-sum column stored for head 7. -/
theorem h07_l (qb : Vec Ideal S1x256x1024 .f32) (kb : Vec Ideal S1x512x1024 .f32) (mcol lcol : Vec Ideal S256x1 .f32) (r : Fin 256) :
    (k3_pay90 (k3_pay86 (k3_pay26 qb) (k3_pay27 kb)) mcol lcol) (ix2 r (0 : Fin 1))
      = Ideal.exp (mcol (ix2 r (0 : Fin 1)) - max (mcol (ix2 r (0 : Fin 1))) (tileMax qb kb 7 r)) * lcol (ix2 r (0 : Fin 1))
        + ∑ j : Fin 512, Ideal.exp (sc qb kb 7 r j - max (mcol (ix2 r (0 : Fin 1))) (tileMax qb kb 7 r)) :=
  head_lStore 448 slices_S256x1024_o0_448_S256x64 slices_S512x1024_o0_448_S512x64 qb kb mcol lcol 7 rfl r

/-- The block of weighted sums stored for head 7. -/
theorem h07_acc (qb : Vec Ideal S1x256x1024 .f32) (kb vb : Vec Ideal S1x512x1024 .f32) (mcol : Vec Ideal S256x1 .f32)
    (accblk : Vec Ideal S256x64 .f32) (r : Fin 256) (d : Fin 64) :
    (k3_pay91 (k3_pay85 (k3_pay28 vb)) (k3_pay86 (k3_pay26 qb) (k3_pay27 kb)) mcol accblk) (ix2 r d)
      = Ideal.exp (mcol (ix2 r (0 : Fin 1)) - max (mcol (ix2 r (0 : Fin 1))) (tileMax qb kb 7 r)) * accblk (ix2 r d)
        + ∑ j : Fin 512, Ideal.exp (sc qb kb 7 r j - max (mcol (ix2 r (0 : Fin 1))) (tileMax qb kb 7 r)) * vb (ix3 (0 : Fin 1) j (col 7 d)) :=
  head_accStore 448 slices_S256x1024_o0_448_S256x64 slices_S512x1024_o0_448_S512x64 slices_S512x1024_o0_448_S512x64 qb kb vb mcol accblk 7 rfl r d

end Cert.KernelIdeal.AttnPayload

end
-- ==== Proof.AttnPayload.Heads08_11.lean ====
/-
  Heads 8 to 11 of the streaming attention step: for each head, the three values the step stores — the new
  maximum column, the new partition-sum column, the new block of weighted sums — as the kernel's body composes
  them from the loaded query block `qb`, key tile `kb`, value tile `vb` and the head's loaded state (`mcol`,
  `lcol`, `accblk`), read at a row r (and a position d inside the head).  Each stored term unfolds to the one-head
  step over the head's score block at column offset 64 · h, so each statement is the one-head statement at that
  offset.
-/
import proofs.«161242_j13649406066792_2_alg».proof.Proof.AttnPayload.Step

noncomputable section

namespace Cert.KernelIdeal.AttnPayload

open Idealize.ShloMosaic Idealize.ShloMosaic.ValueIdx Cert.KernelIdeal Cert.KernelIdeal.Gen Cert.Spec Cert.AttnStep

/-! ## Head 8: model columns 512 … 575 -/

/-- The maximum column stored for head 8. -/
theorem h08_m (qb : Vec Ideal S1x256x1024 .f32) (kb : Vec Ideal S1x512x1024 .f32) (mcol : Vec Ideal S256x1 .f32) (r : Fin 256) :
    (k3_pay100 (k3_pay94 (k3_pay26 qb) (k3_pay27 kb)) mcol) (ix2 r (0 : Fin 1))
      = max (mcol (ix2 r (0 : Fin 1))) (tileMax qb kb 8 r) :=
  head_mStore 512 slices_S256x1024_o0_512_S256x64 slices_S512x1024_o0_512_S512x64 qb kb mcol 8 rfl r

/-- The partition-sum column stored for head 8. -/
theorem h08_l (qb : Vec Ideal S1x256x1024 .f32) (kb : Vec Ideal S1x512x1024 .f32) (mcol lcol : Vec Ideal S256x1 .f32) (r : Fin 256) :
    (k3_pay98 (k3_pay94 (k3_pay26 qb) (k3_pay27 kb)) mcol lcol) (ix2 r (0 : Fin 1))
      = Ideal.exp (mcol (ix2 r (0 : Fin 1)) - max (mcol (ix2 r (0 : Fin 1))) (tileMax qb kb 8 r)) * lcol (ix2 r (0 : Fin 1))
        + ∑ j : Fin 512, Ideal.exp (sc qb kb 8 r j - max (mcol (ix2 r (0 : Fin 1))) (tileMax qb kb 8 r)) :=
  head_lStore 512 slices_S256x1024_o0_512_S256x64 slices_S512x1024_o0_512_S512x64 qb kb mcol lcol 8 rfl r

/-- The block of weighted sums stored for head 8. -/
theorem h08_acc (qb : Vec Ideal S1x256x1024 .f32) (kb vb : Vec Ideal S1x512x1024 .f32) (mcol : Vec Ideal S256x1 .f32)
    (accblk : Vec Ideal S256x64 .f32) (r : Fin 256) (d : Fin 64) :
    (k3_pay99 (k3_pay93 (k3_pay28 vb)) (k3_pay94 (k3_pay26 qb) (k3_pay27 kb)) mcol accblk) (ix2 r d)
      = Ideal.exp (mcol (ix2 r (0 : Fin 1)) - max (mcol (ix2 r (0 : Fin 1))) (tileMax qb kb 8 r)) * accblk (ix2 r d)
        + ∑ j : Fin 512, Ideal.exp (sc qb kb 8 r j - max (mcol (ix2 r (0 : Fin 1))) (tileMax qb kb 8 r)) * vb (ix3 (0 : Fin 1) j (col 8 d)) :=
  head_accStore 512 slices_S256x1024_o0_512_S256x64 slices_S512x1024_o0_512_S512x64 slices_S512x1024_o0_512_S512x64 qb kb vb mcol accblk 8 rfl r d

/-! ## Head 9: model columns 576 … 639 -/

/-- The maximum column stored for head 9. -/
theorem h09_m (qb : Vec Ideal S1x256x1024 .f32) (kb : Vec Ideal S1x512x1024 .f32) (mcol : Vec Ideal S256x1 .f32) (r : Fin 256) :
    (k3_pay108 (k3_pay103 (k3_pay26 qb) (k3_pay27 kb) mcol)) (ix2 r (0 : Fin 1))
      = max (mcol (ix2 r (0 : Fin 1))) (tileMax qb kb 9 r) :=
  head_mStore 576 slices_S256x1024_o0_576_S256x64 slices_S512x1024_o0_576_S512x64 qb kb mcol 9 rfl r

/-- The partition-sum column stored for head 9. -/
theorem h09_l (qb : Vec Ideal S1x256x1024 .f32) (kb : Vec Ideal S1x512x1024 .f32) (mcol lcol : Vec Ideal S256x1 .f32) (r : Fin 256) :
    (k3_pay106 (k3_pay102 (k3_pay26 qb) (k3_pay27 kb)) mcol lcol (k3_pay103 (k3_pay26 qb) (k3_pay27 kb) mcol)) (ix2 r (0 : Fin 1))
      = Ideal.exp (mcol (ix2 r (0 : Fin 1)) - max (mcol (ix2 r (0 : Fin 1))) (tileMax qb kb 9 r)) * lcol (ix2 r (0 : Fin 1))
        + ∑ j : Fin 512, Ideal.exp (sc qb kb 9 r j - max (mcol (ix2 r (0 : Fin 1))) (tileMax qb kb 9 r)) :=
  head_lStore 576 slices_S256x1024_o0_576_S256x64 slices_S512x1024_o0_576_S512x64 qb kb mcol lcol 9 rfl r

/-- The block of weighted sums stored for head 9. -/
theorem h09_acc (qb : Vec Ideal S1x256x1024 .f32) (kb vb : Vec Ideal S1x512x1024 .f32) (mcol : Vec Ideal S256x1 .f32)
    (accblk : Vec Ideal S256x64 .f32) (r : Fin 256) (d : Fin 64) :
    (k3_pay107 (k3_pay101 (k3_pay28 vb)) (k3_pay102 (k3_pay26 qb) (k3_pay27 kb)) mcol (k3_pay103 (k3_pay26 qb) (k3_pay27 kb) mcol) accblk) (ix2 r d)
      = Ideal.exp (mcol (ix2 r (0 : Fin 1)) - max (mcol (ix2 r (0 : Fin 1))) (tileMax qb kb 9 r)) * accblk (ix2 r d)
        + ∑ j : Fin 512, Ideal.exp (sc qb kb 9 r j - max (mcol (ix2 r (0 : Fin 1))) (tileMax qb kb 9 r)) * vb (ix3 (0 : Fin 1) j (col 9 d)) :=
  head_accStore 576 slices_S256x1024_o0_576_S256x64 slices_S512x1024_o0_576_S512x64 slices_S512x1024_o0_576_S512x64 qb kb vb mcol accblk 9 rfl r d

/-! ## Head 10: model columns 640 … 703 -/

/-- The maximum column stored for head 10. -/
theorem h10_m (qb : Vec Ideal S1x256x1024 .f32) (kb : Vec Ideal S1x512x1024 .f32) (mcol : Vec Ideal S256x1 .f32) (r : Fin 256) :
    (k3_pay116 (k3_pay111 (k3_pay26 qb) (k3_pay27 kb) mcol)) (ix2 r (0 : Fin 1))
      = max (mcol (ix2 r (0 : Fin 1))) (tileMax qb kb 10 r) :=
  head_mStore 640 slices_S256x1024_o0_640_S256x64 slices_S512x1024_o0_640_S512x64 qb kb mcol 10 rfl r

/-- The partition-sum column stored for head 10. -/
theorem h10_l (qb : Vec Ideal S1x256x1024 .f32) (kb : Vec Ideal S1x512x1024 .f32) (mcol lcol : Vec Ideal S256x1 .f32) (r : Fin 256) :
    (k3_pay114 lcol (k3_pay112 (k3_pay26 qb) (k3_pay27 kb) mcol) (k3_pay113 (k3_pay26 qb) (k3_pay27 kb) mcol)) (ix2 r (0 : Fin 1))
      = Ideal.exp (mcol (ix2 r (0 : Fin 1)) - max (mcol (ix2 r (0 : Fin 1))) (tileMax qb kb 10 r)) * lcol (ix2 r (0 : Fin 1))
        + ∑ j : Fin 512, Ideal.exp (sc qb kb 10 r j - max (mcol (ix2 r (0 : Fin 1))) (tileMax qb kb 10 r)) :=
  head_lStore 640 slices_S256x1024_o0_640_S256x64 slices_S512x1024_o0_640_S512x64 qb kb mcol lcol 10 rfl r

/-- The block of weighted sums stored for head 10. -/
theorem h10_acc (qb : Vec Ideal S1x256x1024 .f32) (kb vb : Vec Ideal S1x512x1024 .f32) (mcol : Vec Ideal S256x1 .f32)
    (accblk : Vec Ideal S256x64 .f32) (r : Fin 256) (d : Fin 64) :
    (k3_pay115 (k3_pay109 (k3_pay28 vb)) (k3_pay112 (k3_pay26 qb) (k3_pay27 kb) mcol) (k3_pay113 (k3_pay26 qb) (k3_pay27 kb) mcol) accblk) (ix2 r d)
      = Ideal.exp (mcol (ix2 r (0 : Fin 1)) - max (mcol (ix2 r (0 : Fin 1))) (tileMax qb kb 10 r)) * accblk (ix2 r d)
        + ∑ j : Fin 512, Ideal.exp (sc qb kb 10 r j - max (mcol (ix2 r (0 : Fin 1))) (tileMax qb kb 10 r)) * vb (ix3 (0 : Fin 1) j (col 10 d)) :=
  head_accStore 640 slices_S256x1024_o0_640_S256x64 slices_S512x1024_o0_640_S512x64 slices_S512x1024_o0_640_S512x64 qb kb vb mcol accblk 10 rfl r d

/-! ## Head 11: model columns 704 … 767 -/

/-- The maximum column stored for head 11. -/
theorem h11_m (qb : Vec Ideal S1x256x1024 .f32) (kb : Vec Ideal S1x512x1024 .f32) (mcol : Vec Ideal S256x1 .f32) (r : Fin 256) :
    (k3_pay125 (k3_pay119 (k3_pay26 qb) (k3_pay27 kb) mcol)) (ix2 r (0 : Fin 1))
      = max (mcol (ix2 r (0 : Fin 1))) (tileMax qb kb 11 r) :=
  head_mStore 704 slices_S256x1024_o0_704_S256x64 slices_S512x1024_o0_704_S512x64 qb kb mcol 11 rfl r

/-- The partition-sum column stored for head 11. -/
theorem h11_l (qb : Vec Ideal S1x256x1024 .f32) (kb : Vec Ideal S1x512x1024 .f32) (mcol lcol : Vec Ideal S256x1 .f32) (r : Fin 256) :
    (k3_pay123 (k3_pay122 (k3_pay26 qb) (k3_pay27 kb) mcol lcol)) (ix2 r (0 : Fin 1))
      = Ideal.exp (mcol (ix2 r (0 : Fin 1)) - max (mcol (ix2 r (0 : Fin 1))) (tileMax qb kb 11 r)) * lcol (ix2 r (0 : Fin 1))
        + ∑ j : Fin 512, Ideal.exp (sc qb kb 11 r j - max (mcol (ix2 r (0 : Fin 1))) (tileMax qb kb 11 r)) :=
  head_lStore 704 slices_S256x1024_o0_704_S256x64 slices_S512x1024_o0_704_S512x64 qb kb mcol lcol 11 rfl r

/-- The block of weighted sums stored for head 11. -/
theorem h11_acc (qb : Vec Ideal S1x256x1024 .f32) (kb vb : Vec Ideal S1x512x1024 .f32) (mcol : Vec Ideal S256x1 .f32)
    (accblk : Vec Ideal S256x64 .f32) (r : Fin 256) (d : Fin 64) :
    (k3_pay124 (k3_pay117 (k3_pay28 vb)) (k3_pay120 (k3_pay26 qb) (k3_pay27 kb) mcol) (k3_pay121 (k3_pay26 qb) (k3_pay27 kb) mcol) accblk) (ix2 r d)
      = Ideal.exp (mcol (ix2 r (0 : Fin 1)) - max (mcol (ix2 r (0 : Fin 1))) (tileMax qb kb 11 r)) * accblk (ix2 r d)
        + ∑ j : Fin 512, Ideal.exp (sc qb kb 11 r j - max (mcol (ix2 r (0 : Fin 1))) (tileMax qb kb 11 r)) * vb (ix3 (0 : Fin 1) j (col 11 d)) :=
  head_accStore 704 slices_S256x1024_o0_704_S256x64 slices_S512x1024_o0_704_S512x64 slices_S512x1024_o0_704_S512x64 qb kb vb mcol accblk 11 rfl r d

end Cert.KernelIdeal.AttnPayload

end
-- ==== Proof.AttnPayload.Heads12_15.lean ====
/-
  Heads 12 to 15 of the streaming attention step: for each head, the three values the step stores — the new
  maximum column, the new partition-sum column, the new block of weighted sums — as the kernel's body composes
  them from the loaded query block `qb`, key tile `kb`, value tile `vb` and the head's loaded state (`mcol`,
  `lcol`, `accblk`), read at a row r (and a position d inside the head).  Each stored term unfolds to the one-head
  step over the head's score block at column offset 64 · h, so each statement is the one-head statement at that
  offset.
-/
import proofs.«161242_j13649406066792_2_alg».proof.Proof.AttnPayload.Step

noncomputable section

namespace Cert.KernelIdeal.AttnPayload

open Idealize.ShloMosaic Idealize.ShloMosaic.ValueIdx Cert.KernelIdeal Cert.KernelIdeal.Gen Cert.Spec Cert.AttnStep

/-! ## Head 12: model columns 768 … 831 -/

/-- The maximum column stored for head 12. -/
theorem h12_m (qb : Vec Ideal S1x256x1024 .f32) (kb : Vec Ideal S1x512x1024 .f32) (mcol : Vec Ideal S256x1 .f32) (r : Fin 256) :
    (k3_pay133 (k3_pay128 (k3_pay26 qb) (k3_pay27 kb) mcol)) (ix2 r (0 : Fin 1))
      = max (mcol (ix2 r (0 : Fin 1))) (tileMax qb kb 12 r) :=
  head_mStore 768 slices_S256x1024_o0_768_S256x64 slices_S512x1024_o0_768_S512x64 qb kb mcol 12 rfl r

/-- The partition-sum column stored for head 12. -/
theorem h12_l (qb : Vec Ideal S1x256x1024 .f32) (kb : Vec Ideal S1x512x1024 .f32) (mcol lcol : Vec Ideal S256x1 .f32) (r : Fin 256) :
    (k3_pay131 (k3_pay26 qb) (k3_pay27 kb) mcol lcol) (ix2 r (0 : Fin 1))
      = Ideal.exp (mcol (ix2 r (0 : Fin 1)) - max (mcol (ix2 r (0 : Fin 1))) (tileMax qb kb 12 r)) * lcol (ix2 r (0 : Fin 1))
        + ∑ j : Fin 512, Ideal.exp (sc qb kb 12 r j - max (mcol (ix2 r (0 : Fin 1))) (tileMax qb kb 12 r)) :=
  head_lStore 768 slices_S256x1024_o0_768_S256x64 slices_S512x1024_o0_768_S512x64 qb kb mcol lcol 12 rfl r

/-- The block of weighted sums stored for head 12. -/
theorem h12_acc (qb : Vec Ideal S1x256x1024 .f32) (kb vb : Vec Ideal S1x512x1024 .f32) (mcol : Vec Ideal S256x1 .f32)
    (accblk : Vec Ideal S256x64 .f32) (r : Fin 256) (d : Fin 64) :
    (k3_pay132 (k3_pay126 (k3_pay28 vb)) (k3_pay129 (k3_pay26 qb) (k3_pay27 kb) mcol) (k3_pay130 (k3_pay26 qb) (k3_pay27 kb) mcol) accblk) (ix2 r d)
      = Ideal.exp (mcol (ix2 r (0 : Fin 1)) - max (mcol (ix2 r (0 : Fin 1))) (tileMax qb kb 12 r)) * accblk (ix2 r d)
        + ∑ j : Fin 512, Ideal.exp (sc qb kb 12 r j - max (mcol (ix2 r (0 : Fin 1))) (tileMax qb kb 12 r)) * vb (ix3 (0 : Fin 1) j (col 12 d)) :=
  head_accStore 768 slices_S256x1024_o0_768_S256x64 slices_S512x1024_o0_768_S512x64 slices_S512x1024_o0_768_S512x64 qb kb vb mcol accblk 12 rfl r d

/-! ## Head 13: model columns 832 … 895 -/

/-- The maximum column stored for head 13. -/
theorem h13_m (qb : Vec Ideal S1x256x1024 .f32) (kb : Vec Ideal S1x512x1024 .f32) (mcol : Vec Ideal S256x1 .f32) (r : Fin 256) :
    (k3_pay142 (k3_pay136 (k3_pay26 qb) (k3_pay27 kb) mcol)) (ix2 r (0 : Fin 1))
      = max (mcol (ix2 r (0 : Fin 1))) (tileMax qb kb 13 r) :=
  head_mStore 832 slices_S256x1024_o0_832_S256x64 slices_S512x1024_o0_832_S512x64 qb kb mcol 13 rfl r

/-- The partition-sum column stored for head 13. -/
theorem h13_l (qb : Vec Ideal S1x256x1024 .f32) (kb : Vec Ideal S1x512x1024 .f32) (mcol lcol : Vec Ideal S256x1 .f32) (r : Fin 256) :
    (k3_pay139 (k3_pay26 qb) (k3_pay27 kb) mcol lcol) (ix2 r (0 : Fin 1))
      = Ideal.exp (mcol (ix2 r (0 : Fin 1)) - max (mcol (ix2 r (0 : Fin 1))) (tileMax qb kb 13 r)) * lcol (ix2 r (0 : Fin 1))
        + ∑ j : Fin 512, Ideal.exp (sc qb kb 13 r j - max (mcol (ix2 r (0 : Fin 1))) (tileMax qb kb 13 r)) :=
  head_lStore 832 slices_S256x1024_o0_832_S256x64 slices_S512x1024_o0_832_S512x64 qb kb mcol lcol 13 rfl r

/-- The block of weighted sums stored for head 13. -/
theorem h13_acc (qb : Vec Ideal S1x256x1024 .f32) (kb vb : Vec Ideal S1x512x1024 .f32) (mcol : Vec Ideal S256x1 .f32)
    (accblk : Vec Ideal S256x64 .f32) (r : Fin 256) (d : Fin 64) :
    (k3_pay141 (k3_pay134 (k3_pay28 vb)) (k3_pay138 (k3_pay26 qb) (k3_pay27 kb) mcol) accblk (k3_pay140 (k3_pay26 qb) (k3_pay27 kb) mcol)) (ix2 r d)
      = Ideal.exp (mcol (ix2 r (0 : Fin 1)) - max (mcol (ix2 r (0 : Fin 1))) (tileMax qb kb 13 r)) * accblk (ix2 r d)
        + ∑ j : Fin 512, Ideal.exp (sc qb kb 13 r j - max (mcol (ix2 r (0 : Fin 1))) (tileMax qb kb 13 r)) * vb (ix3 (0 : Fin 1) j (col 13 d)) :=
  head_accStore 832 slices_S256x1024_o0_832_S256x64 slices_S512x1024_o0_832_S512x64 slices_S512x1024_o0_832_S512x64 qb kb vb mcol accblk 13 rfl r d

/-! ## Head 14: model columns 896 … 959 -/

/-- The maximum column stored for head 14. -/
theorem h14_m (qb : Vec Ideal S1x256x1024 .f32) (kb : Vec Ideal S1x512x1024 .f32) (mcol : Vec Ideal S256x1 .f32) (r : Fin 256) :
    (k3_pay150 (k3_pay144 (k3_pay26 qb) (k3_pay27 kb) mcol)) (ix2 r (0 : Fin 1))
      = max (mcol (ix2 r (0 : Fin 1))) (tileMax qb kb 14 r) :=
  head_mStore 896 slices_S256x1024_o0_896_S256x64 slices_S512x1024_o0_896_S512x64 qb kb mcol 14 rfl r

/-- The partition-sum column stored for head 14. -/
theorem h14_l (qb : Vec Ideal S1x256x1024 .f32) (kb : Vec Ideal S1x512x1024 .f32) (mcol lcol : Vec Ideal S256x1 .f32) (r : Fin 256) :
    (k3_pay147 (k3_pay26 qb) (k3_pay27 kb) mcol lcol) (ix2 r (0 : Fin 1))
      = Ideal.exp (mcol (ix2 r (0 : Fin 1)) - max (mcol (ix2 r (0 : Fin 1))) (tileMax qb kb 14 r)) * lcol (ix2 r (0 : Fin 1))
        + ∑ j : Fin 512, Ideal.exp (sc qb kb 14 r j - max (mcol (ix2 r (0 : Fin 1))) (tileMax qb kb 14 r)) :=
  head_lStore 896 slices_S256x1024_o0_896_S256x64 slices_S512x1024_o0_896_S512x64 qb kb mcol lcol 14 rfl r

/-- The block of weighted sums stored for head 14. -/
theorem h14_acc (qb : Vec Ideal S1x256x1024 .f32) (kb vb : Vec Ideal S1x512x1024 .f32) (mcol : Vec Ideal S256x1 .f32)
    (accblk : Vec Ideal S256x64 .f32) (r : Fin 256) (d : Fin 64) :
    (k3_pay149 (k3_pay148 (k3_pay26 qb) (k3_pay27 kb) (k3_pay28 vb) mcol accblk)) (ix2 r d)
      = Ideal.exp (mcol (ix2 r (0 : Fin 1)) - max (mcol (ix2 r (0 : Fin 1))) (tileMax qb kb 14 r)) * accblk (ix2 r d)
        + ∑ j : Fin 512, Ideal.exp (sc qb kb 14 r j - max (mcol (ix2 r (0 : Fin 1))) (tileMax qb kb 14 r)) * vb (ix3 (0 : Fin 1) j (col 14 d)) :=
  head_accStore 896 slices_S256x1024_o0_896_S256x64 slices_S512x1024_o0_896_S512x64 slices_S512x1024_o0_896_S512x64 qb kb vb mcol accblk 14 rfl r d

/-! ## Head 15: model columns 960 … 1023 -/

/-- The maximum column stored for head 15. -/
theorem h15_m (qb : Vec Ideal S1x256x1024 .f32) (kb : Vec Ideal S1x512x1024 .f32) (mcol : Vec Ideal S256x1 .f32) (r : Fin 256) :
    (k3_pay1 (k3_pay152 (k3_pay26 qb) (k3_pay27 kb) mcol)) (ix2 r (0 : Fin 1))
      = max (mcol (ix2 r (0 : Fin 1))) (tileMax qb kb 15 r) :=
  head_mStore 960 slices_S256x1024_o0_960_S256x64 slices_S512x1024_o0_960_S512x64 qb kb mcol 15 rfl r

/-- The partition-sum column stored for head 15. -/
theorem h15_l (qb : Vec Ideal S1x256x1024 .f32) (kb : Vec Ideal S1x512x1024 .f32) (mcol lcol : Vec Ideal S256x1 .f32) (r : Fin 256) :
    (k3_pay155 (k3_pay26 qb) (k3_pay27 kb) mcol lcol) (ix2 r (0 : Fin 1))
      = Ideal.exp (mcol (ix2 r (0 : Fin 1)) - max (mcol (ix2 r (0 : Fin 1))) (tileMax qb kb 15 r)) * lcol (ix2 r (0 : Fin 1))
        + ∑ j : Fin 512, Ideal.exp (sc qb kb 15 r j - max (mcol (ix2 r (0 : Fin 1))) (tileMax qb kb 15 r)) :=
  head_lStore 960 slices_S256x1024_o0_960_S256x64 slices_S512x1024_o0_960_S512x64 qb kb mcol lcol 15 rfl r

/-- The block of weighted sums stored for head 15. -/
theorem h15_acc (qb : Vec Ideal S1x256x1024 .f32) (kb vb : Vec Ideal S1x512x1024 .f32) (mcol : Vec Ideal S256x1 .f32)
    (accblk : Vec Ideal S256x64 .f32) (r : Fin 256) (d : Fin 64) :
    (k3_pay156 (k3_pay26 qb) (k3_pay27 kb) (k3_pay28 vb) mcol accblk) (ix2 r d)
      = Ideal.exp (mcol (ix2 r (0 : Fin 1)) - max (mcol (ix2 r (0 : Fin 1))) (tileMax qb kb 15 r)) * accblk (ix2 r d)
        + ∑ j : Fin 512, Ideal.exp (sc qb kb 15 r j - max (mcol (ix2 r (0 : Fin 1))) (tileMax qb kb 15 r)) * vb (ix3 (0 : Fin 1) j (col 15 d)) :=
  head_accStore 960 slices_S256x1024_o0_960_S256x64 slices_S512x1024_o0_960_S512x64 slices_S512x1024_o0_960_S512x64 qb kb vb mcol accblk 15 rfl r d

end Cert.KernelIdeal.AttnPayload

end
-- ==== Proof.AttnPayload.lean ====
/-
  The streaming attention step's stored values read at an index, head by head.

  At every grid point the body loads the query block `qb` [1, 256, 1024], the key tile `kb` and the value tile `vb`
  [1, 512, 1024], and for each of the 16 heads h the head's state: the column `mcol` of running maxima and the column
  `lcol` of partition sums [256, 1] (column h of the two [256, 16] buffers), and the block `accblk` [256, 64] of
  weighted sums (columns 64 · h … 64 · h + 63 of the [256, 1024] buffer).  It stores back, for row r and position d
  inside the head, with  M = max (mcol r) (the tile's maximum score of row r in head h):

    the maximum column       M
    the partition-sum column exp (mcol r − M) · lcol r + ∑ j, exp (sc r j − M)
    the weighted sums        exp (mcol r − M) · accblk r d + ∑ j, exp (sc r j − M) · vb (0, j, 64 · h + d)

  where `sc r j` is the scaled score of query row r against key row j of the tile inside head h.  The modules below
  prove exactly this for each head's three stored terms:

  head | first column | maximum column | partition-sum column | weighted sums
   0 |   0 | h00_m | h00_l | h00_acc
   1 |  64 | h01_m | h01_l | h01_acc
   2 | 128 | h02_m | h02_l | h02_acc
   3 | 192 | h03_m | h03_l | h03_acc
   4 | 256 | h04_m | h04_l | h04_acc
   5 | 320 | h05_m | h05_l | h05_acc
   6 | 384 | h06_m | h06_l | h06_acc
   7 | 448 | h07_m | h07_l | h07_acc
   8 | 512 | h08_m | h08_l | h08_acc
   9 | 576 | h09_m | h09_l | h09_acc
  10 | 640 | h10_m | h10_l | h10_acc
  11 | 704 | h11_m | h11_l | h11_acc
  12 | 768 | h12_m | h12_l | h12_acc
  13 | 832 | h13_m | h13_l | h13_acc
  14 | 896 | h14_m | h14_l | h14_acc
  15 | 960 | h15_m | h15_l | h15_acc

  `Ops` reads the operations that are not pointwise (column blocks, the two matrix products, the row maximum and row
  sum, the column forms) at an index; `Step` proves the three statements once, for a head at any column offset
  (`head_mStore`, `head_lStore`, `head_accStore`); the four `Heads` modules instantiate them at the sixteen offsets.
-/
import proofs.«161242_j13649406066792_2_alg».proof.Proof.AttnPayload.Heads00_03
import proofs.«161242_j13649406066792_2_alg».proof.Proof.AttnPayload.Heads04_07
import proofs.«161242_j13649406066792_2_alg».proof.Proof.AttnPayload.Heads08_11
import proofs.«161242_j13649406066792_2_alg».proof.Proof.AttnPayload.Heads12_15
-- ==== Proof.AttnPieces.Loads.lean ====
/-
  Reading the carried state's buffers piece by piece: what a load of one head's column (of the [256, 16] buffers of
  running maxima and partition sums) or of one head's 64 columns (of the [256, 1024] buffer of weighted sums) reads
  of the buffer's contents; when a stored column or block of columns is a block of one function of the buffer's
  index; and the three formulas of the streaming step written from the loaded entries.
-/
import proofs.«161242_j13649406066792_2_alg».proof.Proof.AttnFrame.State
import proofs.«161242_j13649406066792_2_alg».proof.Proof.AttnPayload
import Idealize.ShloMosaic.Lib.Pipeline.Value
import Idealize.ShloMosaic.Lib.Pipeline.CanonAppend

set_option maxRecDepth 16384

noncomputable section

namespace Cert.KernelIdeal.AttnPieces

open Idealize.ShloMosaic Idealize.ShloMosaic.ValueIdx Idealize.ShloMosaic.Tactic Idealize.SL.Sem
open Cert.KernelIdeal Cert.KernelIdeal.Gen Cert.KernelIdeal.Hand Cert.KernelIdeal.AttnPayload Cert.Spec Cert.AttnStep

/-! ## Loads of the state's columns, and where a column piece sits -/

theorem hz3 : (![0, 0, 0] : Fin 3 → Nat) = fun _ => 0 := funext fun a => by fin_cases a <;> rfl

/-- Column `k` of a [256, 16] buffer, loaded as a [256, 1] column: entry (r, 0) is the buffer at (r, k). -/
theorem ld_col (xs : Vec Ideal S256x16 .f32) (k : ℕ) (h : Fin 16) (hk : h.val = k)
    (inb : ∀ a, (![0, k] : Fin 2 → Nat) a + S256x1.size a ≤ S256x16.size a) (r : Fin 256) (z : Fin 1) :
    View.ld xs (Rect.unit (s := S256x16) ![0, k] S256x1.size inb) (ix2 r z) = xs (ix2 r h) :=
  congrArg xs (funext fun a => Fin.ext (by
    match a with
    | ⟨0, _⟩ => show 0 + 1 * r.val = r.val; omega
    | ⟨1, _⟩ => show k + 1 * z.val = h.val; omega))

/-- Columns `off … off + 63` of a [256, 1024] buffer, loaded as a [256, 64] block: entry (r, d) is the buffer at
    (r, off + d). -/
theorem ld_blk (xs : Vec Ideal S256x1024 .f32) (off : ℕ) (c : Fin 1024) (d : Fin 64) (hc : c.val = off + d.val)
    (inb : ∀ a, (![0, off] : Fin 2 → Nat) a + S256x64.size a ≤ S256x1024.size a) (r : Fin 256) :
    View.ld xs (Rect.unit (s := S256x1024) ![0, off] S256x64.size inb) (ix2 r d) = xs (ix2 r c) :=
  congrArg xs (funext fun a => Fin.ext (by
    match a with
    | ⟨0, _⟩ => show 0 + 1 * r.val = r.val; omega
    | ⟨1, _⟩ => show off + 1 * d.val = c.val; omega))

/-- A [256, 1] piece stored at column `k` of a [256, 16] buffer is a block of the function `G` of the buffer's
    index as soon as its entry (r, 0) is `G` at (r, k). -/
theorem colPiece (G : S256x16.Idx → Elt Ideal .f32) (k : ℕ) (h : Fin 16) (hk : h.val = k)
    (inb : ∀ a, (![0, k] : Fin 2 → Nat) a + S256x1.size a ≤ S256x16.size a) (pay : Vec Ideal S256x1 .f32)
    (hpay : ∀ r : Fin 256, pay (ix2 r (0 : Fin 1)) = G (ix2 r h)) :
    ∀ x : (Rect.unit (s := S256x16) ![0, k] S256x1.size inb).shape.Idx,
      pay x = G ((Rect.unit (s := S256x16) ![0, k] S256x1.size inb).emb x) := by
  intro x
  obtain ⟨r, z, rfl⟩ : ∃ (r : Fin 256) (z : Fin 1), x = ix2 r z := ⟨x 0, x 1, eq_ix2 x⟩
  obtain rfl : z = 0 := Subsingleton.elim _ _
  refine (hpay r).trans (congrArg G (funext fun a => Fin.ext ?_))
  match a with
  | ⟨0, _⟩ => show r.val = 0 + 1 * r.val; omega
  | ⟨1, _⟩ => show h.val = k + 1 * 0; omega

/-- A [256, 64] piece stored at columns `off …` of a [256, 1024] buffer is a block of the function `G` as soon as
    its entry (r, d) is `G` at (r, off + d). -/
theorem blkPiece (G : S256x1024.Idx → Elt Ideal .f32) (off : ℕ)
    (inb : ∀ a, (![0, off] : Fin 2 → Nat) a + S256x64.size a ≤ S256x1024.size a) (pay : Vec Ideal S256x64 .f32)
    (hpay : ∀ (r : Fin 256) (d : Fin 64) (c : Fin 1024), c.val = off + d.val → pay (ix2 r d) = G (ix2 r c)) :
    ∀ x : (Rect.unit (s := S256x1024) ![0, off] S256x64.size inb).shape.Idx,
      pay x = G ((Rect.unit (s := S256x1024) ![0, off] S256x64.size inb).emb x) := by
  intro x
  obtain ⟨r, d, rfl⟩ : ∃ (r : Fin 256) (d : Fin 64), x = ix2 r d := ⟨x 0, x 1, eq_ix2 x⟩
  have hlt : off + d.val < 1024 := by
    have := inb 1
    have h64 : (![0, off] : Fin 2 → Nat) 1 + S256x64.size 1 ≤ S256x1024.size 1 := this
    have : off + 64 ≤ 1024 := h64
    omega
  refine (hpay r d ⟨off + d.val, hlt⟩ rfl).trans (congrArg G (funext fun a => Fin.ext ?_))
  match a with
  | ⟨0, _⟩ => show r.val = 0 + 1 * r.val; omega
  | ⟨1, _⟩ => show off + d.val = off + 1 * d.val; omega

/-! ## The step's formulas from the loaded entries -/

/-- The new maximum, from the loaded old one. -/
theorem newM_of (m : Vec Ideal S256x16 .f32) (q : Vec Ideal S1x256x1024 .f32) (k : Vec Ideal S1x512x1024 .f32)
    (h : Fin 16) (r : Fin 256) (a : EReal) (ha : a = m (ix2 r h)) :
    max a (tileMax q k h r) = newM m q k r h := by
  subst ha; rfl

/-- The new partition sum, from the loaded old maximum and old sum. -/
theorem newL_of (m l : Vec Ideal S256x16 .f32) (q : Vec Ideal S1x256x1024 .f32) (k : Vec Ideal S1x512x1024 .f32)
    (h : Fin 16) (r : Fin 256) (a b : EReal) (ha : a = m (ix2 r h)) (hb : b = l (ix2 r h)) :
    Ideal.exp (a - max a (tileMax q k h r)) * b + ∑ j : Fin 512, Ideal.exp (sc q k h r j - max a (tileMax q k h r))
      = newL m l q k r h := by
  subst ha hb; rfl

/-- The new weighted sum at model column `c` = 64 · h + d, from the loaded old maximum and old weighted sum. -/
theorem newAcc_of (m : Vec Ideal S256x16 .f32) (acc : Vec Ideal S256x1024 .f32) (q : Vec Ideal S1x256x1024 .f32)
    (k v : Vec Ideal S1x512x1024 .f32) (h : Fin 16) (d : Fin 64) (c : Fin 1024) (off : ℕ) (hoff : off = h.val * 64)
    (hc : c.val = off + d.val) (r : Fin 256) (a b : EReal) (ha : a = m (ix2 r h)) (hb : b = acc (ix2 r c)) :
    Ideal.exp (a - max a (tileMax q k h r)) * b
        + ∑ j : Fin 512, Ideal.exp (sc q k h r j - max a (tileMax q k h r)) * v (ix3 (0 : Fin 1) j (col h d))
      = newAcc m acc q k v r c := by
  have hd := d.isLt
  have h1 : headOf c = h := Fin.ext (by show c.val / 64 = h.val; omega)
  have h2 : col h d = c := Fin.ext (by show h.val * 64 + d.val = c.val; omega)
  subst ha hb
  unfold newAcc
  rw [h1, h2]
  rfl

end Cert.KernelIdeal.AttnPieces

end
-- ==== Proof.AttnEnds.lean ====
/-
  The two conditional ends of the streaming attention body, read at explicit coordinates on the extended reals.

  At a first key tile the body resets the carried state: the running maxima to the word of −∞, the partition sums and
  the weighted sums to the zero word.  At the last key tile it divides every head's 64 columns of the weighted sums by
  the head's partition sum (the reciprocal 1.0 / l first, then a product with the reciprocal broadcast along the head's
  columns), loads the weighted sums whole, multiplies them with the transposed output weights into a zero accumulator,
  adds the bias row and stores the block with a leading unit axis.  Read at row r and output column e the stored
  block is the sum over the model columns c of (weighted sum at (r, c) times the reciprocal of the partition sum
  at (r, head of c)) times the weight at (c, e), plus the bias at e.
-/
import proofs.«161242_j13649406066792_2_alg».proof.Proof.Gen.KernelIdeal.Skeleton
import proofs.«161242_j13649406066792_2_alg».proof.Proof.Spec
import proofs.«161242_j13649406066792_2_alg».proof.Proof.AttnStep
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.AttnEnds

open Idealize.ShloMosaic Idealize.ShloMosaic.ValueIdx Cert.KernelIdeal Cert.KernelIdeal.Gen Cert.Spec Cert.AttnStep

/-! ## The reset at a first key tile -/

/-- The word of −∞ is the bottom of the extended reals. -/
theorem ofBits_neg_inf : Ideal.ofBits .f32 0xFF800000#32 = (⊥ : EReal) := by
  simp [Ideal.ofBits, Ideal.ieee]

/-- The running maxima are reset to −∞ everywhere. -/
theorem pay23_apply (r : Fin 256) (h : Fin 16) : (k3_pay23 (F := Ideal) (ix2 r h) : EReal) = ⊥ := by
  show shapeCast S256x16 (broadcast S256x16 (Scalar.ofBits (F := Ideal) .f32 0xFF800000#32)) shapeCasts_S256x16_S256x16
    (ix2 r h) = _
  rw [shapeCast_self]
  exact ofBits_neg_inf

/-- The partition sums are reset to zero everywhere. -/
theorem pay24_apply (r : Fin 256) (h : Fin 16) : (k3_pay24 (F := Ideal) (ix2 r h) : EReal) = 0 := by
  show shapeCast S256x16 (broadcast S256x16 (Scalar.ofBits (F := Ideal) .f32 0x00000000#32)) shapeCasts_S256x16_S256x16
    (ix2 r h) = _
  rw [shapeCast_self]
  exact Ideal.ofBits_zero_f32

/-- The weighted sums are reset to zero everywhere. -/
theorem pay25_apply (r : Fin 256) (c : Fin 1024) : (k3_pay25 (F := Ideal) (ix2 r c) : EReal) = 0 := by
  show shapeCast S256x1024 (broadcast S256x1024 (Scalar.ofBits (F := Ideal) .f32 0x00000000#32))
    shapeCasts_S256x1024_S256x1024 (ix2 r c) = _
  rw [shapeCast_self]
  exact Ideal.ofBits_zero_f32

/-! ## The last key tile: the division by the partition sums -/

/-- A column broadcast along the columns: a [a, 1] array broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocals of the partition sums: the word of 1.0 divided by each entry. -/
theorem pay5_apply (l : Vec Ideal S256x16 .f32) (r : Fin 256) (h : Fin 16) :
    (k3_pay5 (F := Ideal) l (ix2 r h) : EReal) = Ideal.div 1 (l (ix2 r h)) := by
  show Ideal.div (Ideal.ofBits .f32 0x3F800000#32) (l (ix2 r h)) = _
  rw [Ideal.ofBits_one_f32]

/-- One head's step: a block of 64 columns times column o of a [256, 16] array broadcast along the 64 columns. -/
theorem head_scale (o : ℕ) (hd : Fin 16) (ho : hd.val = o) (w : FVec Ideal S256x16 .f32) (a : FVec Ideal S256x64 .f32)
    (hs : S256x16.Slices ![0, o] S256x1) (r : Fin 256) (d : Fin 64) :
    (mulf a (broadcastTo S256x64 (extractStridedSlice S256x1 ![0, o] w hs) broadcasts_S256x1_S256x64) (ix2 r d) : EReal)
      = a (ix2 r d) * w (ix2 r hd) := by
  rw [mulf_apply, broadcastTo_a1_ab_apply, slice2_axis1_apply o w hs r (0 : Fin 1) hd (by rw [ho]; rfl)]

/-- Head 0: its 64 columns of the weighted sums times the reciprocal of its partition sum. -/
theorem pay6_apply (l : Vec Ideal S256x16 .f32) (a : Vec Ideal S256x64 .f32) (r : Fin 256) (d : Fin 64) :
    (k3_pay6 (F := Ideal) l a (ix2 r d) : EReal) = a (ix2 r d) * Ideal.div 1 (l (ix2 r (0 : Fin 16))) :=
  ((congrFun (shapeCast_self _ _) _).trans (head_scale 0 0 rfl (k3_pay5 l) a _ r d)).trans
    (congrArg (a (ix2 r d) * ·) (pay5_apply l r 0))

/-- Head 1. -/
theorem pay7_apply (l : Vec Ideal S256x16 .f32) (a : Vec Ideal S256x64 .f32) (r : Fin 256) (d : Fin 64) :
    (k3_pay7 (F := Ideal) l a (ix2 r d) : EReal) = a (ix2 r d) * Ideal.div 1 (l (ix2 r (1 : Fin 16))) :=
  ((congrFun (shapeCast_self _ _) _).trans (head_scale 1 1 rfl (k3_pay5 l) a _ r d)).trans
    (congrArg (a (ix2 r d) * ·) (pay5_apply l r 1))

/-- Head 2. -/
theorem pay8_apply (l : Vec Ideal S256x16 .f32) (a : Vec Ideal S256x64 .f32) (r : Fin 256) (d : Fin 64) :
    (k3_pay8 (F := Ideal) l a (ix2 r d) : EReal) = a (ix2 r d) * Ideal.div 1 (l (ix2 r (2 : Fin 16))) :=
  ((congrFun (shapeCast_self _ _) _).trans (head_scale 2 2 rfl (k3_pay5 l) a _ r d)).trans
    (congrArg (a (ix2 r d) * ·) (pay5_apply l r 2))

/-- Head 3. -/
theorem pay9_apply (l : Vec Ideal S256x16 .f32) (a : Vec Ideal S256x64 .f32) (r : Fin 256) (d : Fin 64) :
    (k3_pay9 (F := Ideal) l a (ix2 r d) : EReal) = a (ix2 r d) * Ideal.div 1 (l (ix2 r (3 : Fin 16))) :=
  ((congrFun (shapeCast_self _ _) _).trans (head_scale 3 3 rfl (k3_pay5 l) a _ r d)).trans
    (congrArg (a (ix2 r d) * ·) (pay5_apply l r 3))

/-- Head 4 (the product itself; the store restates it in its shape, see pay11_eq). -/
theorem pay10_apply (l : Vec Ideal S256x16 .f32) (a : Vec Ideal S256x64 .f32) (r : Fin 256) (d : Fin 64) :
    (k3_pay10 (F := Ideal) l a (ix2 r d) : EReal) = a (ix2 r d) * Ideal.div 1 (l (ix2 r (4 : Fin 16))) :=
  (head_scale 4 4 rfl (k3_pay5 l) a _ r d).trans (congrArg (a (ix2 r d) * ·) (pay5_apply l r 4))

/-- Head 5: its 64 columns of the weighted sums times column 5 of the reciprocals. -/
theorem pay12_apply (w : FVec Ideal S256x16 .f32) (a : Vec Ideal S256x64 .f32) (r : Fin 256) (d : Fin 64) :
    (k3_pay12 (F := Ideal) w a (ix2 r d) : EReal) = a (ix2 r d) * w (ix2 r (5 : Fin 16)) :=
  (congrFun (shapeCast_self _ _) _).trans (head_scale 5 5 rfl w a _ r d)

/-- Head 6. -/
theorem pay13_apply (w : FVec Ideal S256x16 .f32) (a : Vec Ideal S256x64 .f32) (r : Fin 256) (d : Fin 64) :
    (k3_pay13 (F := Ideal) w a (ix2 r d) : EReal) = a (ix2 r d) * w (ix2 r (6 : Fin 16)) :=
  (congrFun (shapeCast_self _ _) _).trans (head_scale 6 6 rfl w a _ r d)

/-- Head 7. -/
theorem pay14_apply (w : FVec Ideal S256x16 .f32) (a : Vec Ideal S256x64 .f32) (r : Fin 256) (d : Fin 64) :
    (k3_pay14 (F := Ideal) w a (ix2 r d) : EReal) = a (ix2 r d) * w (ix2 r (7 : Fin 16)) :=
  (congrFun (shapeCast_self _ _) _).trans (head_scale 7 7 rfl w a _ r d)

/-- Head 8. -/
theorem pay15_apply (w : FVec Ideal S256x16 .f32) (a : Vec Ideal S256x64 .f32) (r : Fin 256) (d : Fin 64) :
    (k3_pay15 (F := Ideal) w a (ix2 r d) : EReal) = a (ix2 r d) * w (ix2 r (8 : Fin 16)) :=
  (congrFun (shapeCast_self _ _) _).trans (head_scale 8 8 rfl w a _ r d)

/-- Head 9 (the product itself; the store restates it in its shape, see pay17_eq). -/
theorem pay16_apply (w : FVec Ideal S256x16 .f32) (a : Vec Ideal S256x64 .f32) (r : Fin 256) (d : Fin 64) :
    (k3_pay16 (F := Ideal) w a (ix2 r d) : EReal) = a (ix2 r d) * w (ix2 r (9 : Fin 16)) :=
  head_scale 9 9 rfl w a _ r d

/-- Head 10. -/
theorem pay18_apply (w : FVec Ideal S256x16 .f32) (a : Vec Ideal S256x64 .f32) (r : Fin 256) (d : Fin 64) :
    (k3_pay18 (F := Ideal) w a (ix2 r d) : EReal) = a (ix2 r d) * w (ix2 r (10 : Fin 16)) :=
  (congrFun (shapeCast_self _ _) _).trans (head_scale 10 10 rfl w a _ r d)

/-- Head 11. -/
theorem pay19_apply (w : FVec Ideal S256x16 .f32) (a : Vec Ideal S256x64 .f32) (r : Fin 256) (d : Fin 64) :
    (k3_pay19 (F := Ideal) w a (ix2 r d) : EReal) = a (ix2 r d) * w (ix2 r (11 : Fin 16)) :=
  (congrFun (shapeCast_self _ _) _).trans (head_scale 11 11 rfl w a _ r d)

/-- Head 12. -/
theorem pay20_apply (w : FVec Ideal S256x16 .f32) (a : Vec Ideal S256x64 .f32) (r : Fin 256) (d : Fin 64) :
    (k3_pay20 (F := Ideal) w a (ix2 r d) : EReal) = a (ix2 r d) * w (ix2 r (12 : Fin 16)) :=
  (congrFun (shapeCast_self _ _) _).trans (head_scale 12 12 rfl w a _ r d)

/-- Head 13. -/
theorem pay21_apply (w : FVec Ideal S256x16 .f32) (a : Vec Ideal S256x64 .f32) (r : Fin 256) (d : Fin 64) :
    (k3_pay21 (F := Ideal) w a (ix2 r d) : EReal) = a (ix2 r d) * w (ix2 r (13 : Fin 16)) :=
  (congrFun (shapeCast_self _ _) _).trans (head_scale 13 13 rfl w a _ r d)

/-- Head 14 (the product itself; the store restates it in its shape, see pay2_eq). -/
theorem pay22_apply (w : FVec Ideal S256x16 .f32) (a : Vec Ideal S256x64 .f32) (r : Fin 256) (d : Fin 64) :
    (k3_pay22 (F := Ideal) w a (ix2 r d) : EReal) = a (ix2 r d) * w (ix2 r (14 : Fin 16)) :=
  head_scale 14 14 rfl w a _ r d

/-- Head 15. -/
theorem pay3_apply (w : FVec Ideal S256x16 .f32) (a : Vec Ideal S256x64 .f32) (r : Fin 256) (d : Fin 64) :
    (k3_pay3 (F := Ideal) w a (ix2 r d) : EReal) = a (ix2 r d) * w (ix2 r (15 : Fin 16)) :=
  (congrFun (shapeCast_self _ _) _).trans (head_scale 15 15 rfl w a _ r d)

/-- The payloads that only restate a value in its own shape are the value: the last head's column of maxima, and the
    products of heads 14, 4 and 9 when they are stored. -/
theorem pay1_eq (x : FVec Ideal S256x1 .f32) : k3_pay1 (F := Ideal) x = x := shapeCast_self x _

theorem pay2_eq (x : FVec Ideal S256x64 .f32) : k3_pay2 (F := Ideal) x = x := shapeCast_self x _

theorem pay11_eq (x : FVec Ideal S256x64 .f32) : k3_pay11 (F := Ideal) x = x := shapeCast_self x _

theorem pay17_eq (x : FVec Ideal S256x64 .f32) : k3_pay17 (F := Ideal) x = x := shapeCast_self x _

/-- Column d of head h belongs to head h. -/
theorem headOf_col (h : Fin 16) (d : Fin 64) : headOf (col h d) = h :=
  Fin.ext (by show (h.val * 64 + d.val) / 64 = h.val; omega)

/-! ## The last key tile: the output projection -/

/-- The output projection's dimension numbers: the left operand's columns against the right operand's rows. -/
abbrev DO := dot_S256x1024_S1024x1024_S256x1024_1_0_0_1_n_n

theorem lhs_row (i : S256x1024.Idx) (q : DO.contr.Idx) : (DO.lhsIdx i q 0).val = (i 0).val := by
  unfold DotDims.lhsIdx
  rw [dif_neg (show ¬(0 : Fin S256x1024.rank) ∈ DO.lhsBatch by decide),
    dif_pos (show (0 : Fin S256x1024.rank) ∈ DO.lhsNonContracting by decide)]
  rfl

theorem rhs_col (i : S256x1024.Idx) (q : DO.contr.Idx) : (DO.rhsIdx i q 1).val = (i 1).val := by
  unfold DotDims.rhsIdx
  rw [dif_neg (show ¬(1 : Fin S1024x1024.rank) ∈ DO.rhsBatch by decide),
    dif_pos (show (1 : Fin S1024x1024.rank) ∈ DO.rhsNonContracting by decide)]
  rfl

/-- The block product into the zero accumulator, at row r and column e: the sum over the 1024 contracted columns. -/
theorem proj_apply (x : FVec Ideal S256x1024 .bf16) (w : FVec Ideal S1024x1024 .bf16) (r : Fin 256) (e : Fin 1024) :
    (matmul DO none x w (constant (F := Ideal) S256x1024 .f32 0x00000000#32) (ix2 r e) : EReal)
      = ∑ c : Fin 1024, x (ix2 r c) * w (ix2 c e) := by
  simp only [matmul]
  rw [Ideal.matmul_constant_zero_apply, ← Equiv.sum_comp (contrEquiv1 DO 1024 rfl rfl).symm]
  refine Finset.sum_congr rfl fun c _ => ?_
  have hk := contrEquiv1_symm_val DO 1024 rfl rfl c
  have el : DO.lhsIdx (ix2 r e) ((contrEquiv1 DO 1024 rfl rfl).symm c) = ix2 r c := funext fun a => Fin.ext (by
    match a with
    | ⟨0, _⟩ => exact lhs_row _ _
    | ⟨1, _⟩ => exact (DO.lhsIdx_val_of_single rfl _ _).trans hk)
  have er : DO.rhsIdx (ix2 r e) ((contrEquiv1 DO 1024 rfl rfl).symm c) = ix2 c e := funext fun a => Fin.ext (by
    match a with
    | ⟨0, _⟩ => exact (DO.rhsIdx_val_of_single rfl _ _).trans hk
    | ⟨1, _⟩ => exact rhs_col _ _)
  rw [el, er]

/-- What the last tile stores into the output block at (0, r, e): the loaded weighted sums times the transposed
    weights, summed over the model columns, plus the bias row at e. -/
theorem pay4_apply (acc : Vec Ideal S256x1024 .f32) (w : Vec Ideal S1024x1024 .bf16) (bias : Vec Ideal S1x1024 .f32)
    (r : Fin 256) (e : Fin 1024) :
    (k3_pay4 (F := Ideal) acc w bias (ix3 (0 : Fin 1) r e) : EReal)
      = (∑ c : Fin 1024, acc (ix2 r c) * w (ix2 c e)) + bias (ix2 (0 : Fin 1) e) := by
  show shapeCast S1x256x1024
      (addf (matmul DO none (truncf .bf16 acc bitsLt_bf16_f32) (shapeCast S1024x1024 w shapeCasts_S1024x1024_S1024x1024)
          (constant (F := Ideal) S256x1024 .f32 0x00000000#32))
        (broadcastTo S256x1024 (shapeCast S1x1024 bias shapeCasts_S1x1024_S1x1024) broadcasts_S1x1024_S256x1024))
      shapeCasts_S256x1024_S1x256x1024 (ix3 (0 : Fin 1) r e) = _
  rw [shapeCast_ab_1ab_apply, addf_apply, proj_apply, broadcastTo_1b_ab_apply, shapeCast_self, shapeCast_self]
  rfl

/-- THE LAST TILE'S STORE: when the loaded weighted sums are the carried ones already divided head by head by the
    partition sums, the stored block at (0, r, e) is the step's output for row r and column e. -/
theorem pay4_outBlk (l : ML.Idx → EReal) (acc : AC.Idx → EReal) (acc' : Vec Ideal S256x1024 .f32)
    (woT : Vec Ideal S1024x1024 .bf16) (bo2 : Vec Ideal S1x1024 .f32)
    (hacc : ∀ (r : Fin 256) (c : Fin 1024), (acc' (ix2 r c) : EReal) = acc (ix2 r c) * Ideal.div 1 (l (ix2 r (headOf c))))
    (r : Fin 256) (e : Fin 1024) :
    (k3_pay4 (F := Ideal) acc' woT bo2 (ix3 (0 : Fin 1) r e) : EReal) = outBlk l acc woT bo2 r e := by
  rw [pay4_apply, outBlk]
  congr 1
  exact Finset.sum_congr rfl fun c _ => by rw [hacc]

/-! ## The sixteen divisions as one function of the carried state -/

/-- The weighted sums with every column divided by its head's partition sum: what the scratch holds after the last
    tile's sixteen division stores. -/
def divided (l : ML.Idx → EReal) (acc : AC.Idx → EReal) : AC.Idx → EReal :=
  fun i => acc (ix2 (i 0) (i 1)) * Ideal.div 1 (l (ix2 (i 0) (headOf (i 1))))

theorem divided_apply (l : ML.Idx → EReal) (acc : AC.Idx → EReal) (r : Fin 256) (c : Fin 1024) :
    divided l acc (ix2 r c) = acc (ix2 r c) * Ideal.div 1 (l (ix2 r (headOf c))) := rfl

/-- Head h's product, formed from the head's 64 loaded columns, is the divided state at those columns. -/
theorem scaled_eq_divided (l : ML.Idx → EReal) (acc : AC.Idx → EReal) (h : Fin 16) (a : Vec Ideal S256x64 .f32)
    (ha : ∀ (r : Fin 256) (d : Fin 64), (a (ix2 r d) : EReal) = acc (ix2 r (col h d))) (r : Fin 256) (d : Fin 64) :
    (a (ix2 r d) : EReal) * Ideal.div 1 (l (ix2 r h)) = divided l acc (ix2 r (col h d)) := by
  rw [divided_apply, headOf_col, ha]

/-- The last tile's store from the divided state is the step's output. -/
theorem pay4_divided (l : ML.Idx → EReal) (acc : AC.Idx → EReal) (woT : Vec Ideal S1024x1024 .bf16)
    (bo2 : Vec Ideal S1x1024 .f32) (r : Fin 256) (e : Fin 1024) :
    (k3_pay4 (F := Ideal) (divided l acc) woT bo2 (ix3 (0 : Fin 1) r e) : EReal) = outBlk l acc woT bo2 r e :=
  pay4_outBlk l acc (divided l acc) woT bo2 (fun _ _ => rfl) r e

end Cert.KernelIdeal.AttnEnds

end
-- ==== Proof.AttnPieces.LoadsA.lean ====
/-
  A first key tile: the state the body loads is the state it has just reset.  The run's stored pieces of a carried
  buffer are then, last first, the sixteen per-head pieces and under them the one whole-buffer reset; a load of
  head k's column (or 64 columns) made after the pieces of heads 0 … k − 1 lies under none of them and reads the
  reset value: −∞ for the running maxima, 0 for the two sums.  This module proves that, buffer by buffer and head
  by head, and gives the chain step by which a list of per-head pieces over anything is read at an index.
-/
import proofs.«161242_j13649406066792_2_alg».proof.Proof.AttnPieces.Loads
import proofs.«161242_j13649406066792_2_alg».proof.Proof.AttnEnds

set_option maxRecDepth 16384

noncomputable section

namespace Cert.KernelIdeal.AttnPieces

open Idealize.ShloMosaic Idealize.ShloMosaic.ValueIdx Idealize.ShloMosaic.Tactic Idealize.SL.Sem
open Cert.KernelIdeal Cert.KernelIdeal.Gen Cert.KernelIdeal.Hand Cert.KernelIdeal.AttnPayload Cert.Spec Cert.AttnStep

theorem hz2 : (![0, 0] : Fin 2 → Nat) = fun _ => 0 := funext fun a => by fin_cases a <;> rfl

/-! ## The loaded query block and tiles are the blocks themselves -/

theorem ld_q (arg3 : Memref sig .tc .vmem S1x256x1024 .f32) (harg3 : arg3.IsWhole) (x0 : Vec Ideal S1x256x1024 .f32)
    (inb : ∀ a, (![0, 0, 0] : Fin 3 → Nat) a + S1x256x1024.size a ≤ S1x256x1024.size a) :
    View.readAt (Elt Ideal) arg3.view (Rect.unit (s := S1x256x1024) ![0, 0, 0] S1x256x1024.size inb).toLoadRect
      (harg3.unread x0) = x0 := by
  rw [View.readAt_eq_ld, harg3.read_unread, View.ld_unit_zero (S := S1x256x1024) hz3]

theorem ld_kv (arg4 : Memref sig .tc .vmem S1x512x1024 .f32) (harg4 : arg4.IsWhole) (x1 : Vec Ideal S1x512x1024 .f32)
    (inb : ∀ a, (![0, 0, 0] : Fin 3 → Nat) a + S1x512x1024.size a ≤ S1x512x1024.size a) :
    View.readAt (Elt Ideal) arg4.view (Rect.unit (s := S1x512x1024) ![0, 0, 0] S1x512x1024.size inb).toLoadRect
      (harg4.unread x1) = x1 := by
  rw [View.readAt_eq_ld, harg4.read_unread, View.ld_unit_zero (S := S1x512x1024) hz3]

/-- The step's formulas with the query block and the tiles given up to equality. -/
theorem newM_of' (m : Vec Ideal S256x16 .f32) (q q' : Vec Ideal S1x256x1024 .f32) (k k' : Vec Ideal S1x512x1024 .f32)
    (hq : q' = q) (hk : k' = k) (h : Fin 16) (r : Fin 256) (a : EReal) (ha : a = m (ix2 r h)) :
    max a (tileMax q' k' h r) = newM m q k r h := by
  subst hq hk; exact newM_of m q' k' h r a ha

theorem newL_of' (m l : Vec Ideal S256x16 .f32) (q q' : Vec Ideal S1x256x1024 .f32) (k k' : Vec Ideal S1x512x1024 .f32)
    (hq : q' = q) (hk : k' = k) (h : Fin 16) (r : Fin 256) (a b : EReal) (ha : a = m (ix2 r h)) (hb : b = l (ix2 r h)) :
    Ideal.exp (a - max a (tileMax q' k' h r)) * b + ∑ j : Fin 512, Ideal.exp (sc q' k' h r j - max a (tileMax q' k' h r))
      = newL m l q k r h := by
  subst hq hk; exact newL_of m l q' k' h r a b ha hb

theorem newAcc_of' (m : Vec Ideal S256x16 .f32) (acc : Vec Ideal S256x1024 .f32) (q q' : Vec Ideal S1x256x1024 .f32)
    (k k' v v' : Vec Ideal S1x512x1024 .f32) (hq : q' = q) (hk : k' = k) (hv : v' = v) (h : Fin 16) (d : Fin 64)
    (c : Fin 1024) (off : ℕ) (hoff : off = h.val * 64) (hc : c.val = off + d.val) (r : Fin 256) (a b : EReal)
    (ha : a = m (ix2 r h)) (hb : b = acc (ix2 r c)) :
    Ideal.exp (a - max a (tileMax q' k' h r)) * b
        + ∑ j : Fin 512, Ideal.exp (sc q' k' h r j - max a (tileMax q' k' h r)) * v' (ix3 (0 : Fin 1) j (col h d))
      = newAcc m acc q k v r c := by
  subst hq hk hv; exact newAcc_of m acc q' k' v' h d c off hoff hc r a b ha hb

/-! ## A list of per-head pieces read at an index, piece by piece -/

/-- A column piece at another column leaves the entry (r, h) to the pieces under it. -/
theorem canon_skip_col (j : ℕ) (inb : ∀ a, (![0, j] : Fin 2 → Nat) a + S256x1.size a ≤ S256x16.size a)
    (pay : Vec Ideal S256x1 .f32) (L : List (View.Piece (Elt Ideal) S256x16 .f32)) (r : Fin 256) (h : Fin 16)
    (hj : h.val ≠ j) :
    View.canon (⟨Rect.unit (s := S256x16) ![0, j] S256x1.size inb, pay⟩ :: L) (ix2 r h) = View.canon L (ix2 r h) :=
  View.canon_cons_of_not_mem _ L (by
    show ix2 r h ∉ (Rect.unit (s := S256x16) ![0, j] S256x1.size inb).set
    rw [Rect.mem_set_unit]
    intro hm
    have h2 : j ≤ h.val ∧ h.val < j + 1 := hm 1
    omega)

/-- A block of 64 columns elsewhere leaves the entry (r, c) to the pieces under it. -/
theorem canon_skip_blk (off : ℕ) (inb : ∀ a, (![0, off] : Fin 2 → Nat) a + S256x64.size a ≤ S256x1024.size a)
    (pay : Vec Ideal S256x64 .f32) (L : List (View.Piece (Elt Ideal) S256x1024 .f32)) (r : Fin 256) (c : Fin 1024)
    (hc : ¬(off ≤ c.val ∧ c.val < off + 64)) :
    View.canon (⟨Rect.unit (s := S256x1024) ![0, off] S256x64.size inb, pay⟩ :: L) (ix2 r c) = View.canon L (ix2 r c) :=
  View.canon_cons_of_not_mem _ L (by
    show ix2 r c ∉ (Rect.unit (s := S256x1024) ![0, off] S256x64.size inb).set
    rw [Rect.mem_set_unit]
    intro hm
    have h2 : off ≤ c.val ∧ c.val < off + 64 := hm 1
    exact hc h2)

/-- One step down a list of column pieces: a piece that is a block of `G`, over a list that reads `G` at every
    entry of the other columns. -/
theorem canon_cons_col (G : S256x16.Idx → Elt Ideal .f32) (k : ℕ) (hk : Fin 16) (hkk : hk.val = k)
    (inb : ∀ a, (![0, k] : Fin 2 → Nat) a + S256x1.size a ≤ S256x16.size a) (pay : Vec Ideal S256x1 .f32)
    (L : List (View.Piece (Elt Ideal) S256x16 .f32)) (hpay : ∀ r : Fin 256, pay (ix2 r (0 : Fin 1)) = G (ix2 r hk))
    (r : Fin 256) (h : Fin 16) (hrest : h.val ≠ k → View.canon L (ix2 r h) = G (ix2 r h)) :
    View.canon (⟨Rect.unit (s := S256x16) ![0, k] S256x1.size inb, pay⟩ :: L) (ix2 r h) = G (ix2 r h) := by
  by_cases hh : h.val = k
  · have e : (Rect.unit (s := S256x16) ![0, k] S256x1.size inb).emb (ix2 r (0 : Fin 1)) = ix2 r h :=
      funext fun a => Fin.ext (by
        match a with
        | ⟨0, _⟩ => show 0 + 1 * r.val = r.val; omega
        | ⟨1, _⟩ => show k + 1 * 0 = h.val; omega)
    have hh' : hk = h := Fin.ext (by omega)
    rw [← e, View.canon_cons_emb, e, ← hh']
    exact hpay r
  · exact (canon_skip_col k inb pay L r h hh).trans (hrest hh)

/-- One step down a list of 64-column pieces. -/
theorem canon_cons_blk (G : S256x1024.Idx → Elt Ideal .f32) (off : ℕ)
    (inb : ∀ a, (![0, off] : Fin 2 → Nat) a + S256x64.size a ≤ S256x1024.size a) (pay : Vec Ideal S256x64 .f32)
    (L : List (View.Piece (Elt Ideal) S256x1024 .f32))
    (hpay : ∀ (r : Fin 256) (d : Fin 64) (c : Fin 1024), c.val = off + d.val → pay (ix2 r d) = G (ix2 r c))
    (r : Fin 256) (c : Fin 1024)
    (hrest : ¬(off ≤ c.val ∧ c.val < off + 64) → View.canon L (ix2 r c) = G (ix2 r c)) :
    View.canon (⟨Rect.unit (s := S256x1024) ![0, off] S256x64.size inb, pay⟩ :: L) (ix2 r c) = G (ix2 r c) := by
  by_cases hc : off ≤ c.val ∧ c.val < off + 64
  · have hd : c.val - off < 64 := by omega
    have e : (Rect.unit (s := S256x1024) ![0, off] S256x64.size inb).emb (ix2 r (⟨c.val - off, hd⟩ : Fin 64)) = ix2 r c :=
      funext fun a => Fin.ext (by
        match a with
        | ⟨0, _⟩ => show 0 + 1 * r.val = r.val; omega
        | ⟨1, _⟩ => show off + 1 * (c.val - off) = c.val; omega)
    rw [← e, View.canon_cons_emb, e]
    exact hpay r ⟨c.val - off, hd⟩ c (by show c.val = off + (c.val - off); omega)
  · exact (canon_skip_blk off inb pay L r c hc).trans (hrest hc)

/-! ## A covered load reads what the pieces under it hold -/

/-- A load of column `k` after the stores `L` reads, at (r, 0), what `L` holds at (r, k). -/
theorem readCov_col (v : View sig .tc .vmem S256x16 .f32) (L : List (View.Piece (Elt Ideal) S256x16 .f32)) (k : ℕ)
    (h : Fin 16) (hk : h.val = k) (inb : ∀ a, (![0, k] : Fin 2 → Nat) a + S256x1.size a ≤ S256x16.size a)
    (r : Fin 256) (z : Fin 1) (w : EReal) (hL : View.canon L (ix2 r h) = w) :
    v.readCov L (Rect.unit (s := S256x16) ![0, k] S256x1.size inb).toLoadRect (ix2 r z) = w := by
  refine (congrFun (View.readCov_eq_canon' v L (Rect.unit (s := S256x16) ![0, k] S256x1.size inb).toLoadRect) (ix2 r z)).trans ?_
  refine (congrArg (View.canon L) (funext fun a => Fin.ext ?_)).trans hL
  match a with
  | ⟨0, _⟩ => show 0 + 1 * r.val = r.val; omega
  | ⟨1, _⟩ => show k + 1 * z.val = h.val; omega

/-- A load of columns `off …` after the stores `L` reads, at (r, d), what `L` holds at (r, off + d). -/
theorem readCov_blk (v : View sig .tc .vmem S256x1024 .f32) (L : List (View.Piece (Elt Ideal) S256x1024 .f32))
    (off : ℕ) (c : Fin 1024) (d : Fin 64) (hc : c.val = off + d.val)
    (inb : ∀ a, (![0, off] : Fin 2 → Nat) a + S256x64.size a ≤ S256x1024.size a) (r : Fin 256) (w : EReal)
    (hL : View.canon L (ix2 r c) = w) :
    v.readCov L (Rect.unit (s := S256x1024) ![0, off] S256x64.size inb).toLoadRect (ix2 r d) = w := by
  refine (congrFun (View.readCov_eq_canon' v L (Rect.unit (s := S256x1024) ![0, off] S256x64.size inb).toLoadRect) (ix2 r d)).trans ?_
  refine (congrArg (View.canon L) (funext fun a => Fin.ext ?_)).trans hL
  match a with
  | ⟨0, _⟩ => show 0 + 1 * r.val = r.val; omega
  | ⟨1, _⟩ => show off + 1 * d.val = c.val; omega

/-! ## Under the pieces of heads 0 … k − 1 a first tile's buffers still hold the reset values -/

section Tails
variable (c : Dev nD) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (x0 : Vec Ideal S1x256x1024 .f32) (x1 x2 : Vec Ideal S1x512x1024 .f32)

theorem tailA0_1 (r : Fin 256) (h : Fin 16) :
    View.canon (kernelRun3_A.sl.HS0_1 (F := Ideal)) (ix2 r h) = (⊥ : EReal) :=
  (congrFun (View.canon_unit_zero hz2 _ _) _).trans (Cert.KernelIdeal.AttnEnds.pay23_apply r h)
theorem tailA1_1 (r : Fin 256) (h : Fin 16) :
    View.canon (kernelRun3_A.sl.HS1_1 (F := Ideal)) (ix2 r h) = (0 : EReal) :=
  (congrFun (View.canon_unit_zero hz2 _ _) _).trans (Cert.KernelIdeal.AttnEnds.pay24_apply r h)
theorem tailA2_1 (r : Fin 256) (cc : Fin 1024) :
    View.canon (kernelRun3_A.sl.HS2_1 (F := Ideal)) (ix2 r cc) = (0 : EReal) :=
  (congrFun (View.canon_unit_zero hz2 _ _) _).trans (Cert.KernelIdeal.AttnEnds.pay25_apply r cc)

theorem tailA0_2 (r : Fin 256) (h : Fin 16) (hh : 1 ≤ h.val) :
    View.canon (kernelRun3_A.sl.HS0_2 c arg3 harg3 arg4 harg4 arg9 x0 x1) (ix2 r h) = (⊥ : EReal) :=
  (canon_skip_col 0 _ _ _ r h (by omega)).trans (tailA0_1 r h)
theorem tailA1_2 (r : Fin 256) (h : Fin 16) (hh : 1 ≤ h.val) :
    View.canon (kernelRun3_A.sl.HS1_2 c arg3 harg3 arg4 harg4 arg9 arg10 x0 x1) (ix2 r h) = (0 : EReal) :=
  (canon_skip_col 0 _ _ _ r h (by omega)).trans (tailA1_1 r h)
theorem tailA2_2 (r : Fin 256) (cc : Fin 1024) (hh : 64 ≤ cc.val) :
    View.canon (kernelRun3_A.sl.HS2_2 c arg3 harg3 arg4 harg4 arg5 harg5 arg9 arg11 x0 x1 x2) (ix2 r cc) = (0 : EReal) :=
  (canon_skip_blk 0 _ _ _ r cc (by omega)).trans (tailA2_1 r cc)

theorem tailA0_3 (r : Fin 256) (h : Fin 16) (hh : 2 ≤ h.val) :
    View.canon (kernelRun3_A.sl.HS0_3 c arg3 harg3 arg4 harg4 arg9 x0 x1) (ix2 r h) = (⊥ : EReal) :=
  (canon_skip_col 1 _ _ _ r h (by omega)).trans (tailA0_2 c arg3 harg3 arg4 harg4 arg9 x0 x1 r h (by omega))
theorem tailA1_3 (r : Fin 256) (h : Fin 16) (hh : 2 ≤ h.val) :
    View.canon (kernelRun3_A.sl.HS1_3 c arg3 harg3 arg4 harg4 arg9 arg10 x0 x1) (ix2 r h) = (0 : EReal) :=
  (canon_skip_col 1 _ _ _ r h (by omega)).trans (tailA1_2 c arg3 harg3 arg4 harg4 arg9 arg10 x0 x1 r h (by omega))
theorem tailA2_3 (r : Fin 256) (cc : Fin 1024) (hh : 128 ≤ cc.val) :
    View.canon (kernelRun3_A.sl.HS2_3 c arg3 harg3 arg4 harg4 arg5 harg5 arg9 arg11 x0 x1 x2) (ix2 r cc) = (0 : EReal) :=
  (canon_skip_blk 64 _ _ _ r cc (by omega)).trans (tailA2_2 c arg3 harg3 arg4 harg4 arg5 harg5 arg9 arg11 x0 x1 x2 r cc (by omega))

theorem tailA0_4 (r : Fin 256) (h : Fin 16) (hh : 3 ≤ h.val) :
    View.canon (kernelRun3_A.sl.HS0_4 c arg3 harg3 arg4 harg4 arg9 x0 x1) (ix2 r h) = (⊥ : EReal) :=
  (canon_skip_col 2 _ _ _ r h (by omega)).trans (tailA0_3 c arg3 harg3 arg4 harg4 arg9 x0 x1 r h (by omega))
theorem tailA1_4 (r : Fin 256) (h : Fin 16) (hh : 3 ≤ h.val) :
    View.canon (kernelRun3_A.sl.HS1_4 c arg3 harg3 arg4 harg4 arg9 arg10 x0 x1) (ix2 r h) = (0 : EReal) :=
  (canon_skip_col 2 _ _ _ r h (by omega)).trans (tailA1_3 c arg3 harg3 arg4 harg4 arg9 arg10 x0 x1 r h (by omega))
theorem tailA2_4 (r : Fin 256) (cc : Fin 1024) (hh : 192 ≤ cc.val) :
    View.canon (kernelRun3_A.sl.HS2_4 c arg3 harg3 arg4 harg4 arg5 harg5 arg9 arg11 x0 x1 x2) (ix2 r cc) = (0 : EReal) :=
  (canon_skip_blk 128 _ _ _ r cc (by omega)).trans (tailA2_3 c arg3 harg3 arg4 harg4 arg5 harg5 arg9 arg11 x0 x1 x2 r cc (by omega))

theorem tailA0_5 (r : Fin 256) (h : Fin 16) (hh : 4 ≤ h.val) :
    View.canon (kernelRun3_A.sl.HS0_5 c arg3 harg3 arg4 harg4 arg9 x0 x1) (ix2 r h) = (⊥ : EReal) :=
  (canon_skip_col 3 _ _ _ r h (by omega)).trans (tailA0_4 c arg3 harg3 arg4 harg4 arg9 x0 x1 r h (by omega))
theorem tailA1_5 (r : Fin 256) (h : Fin 16) (hh : 4 ≤ h.val) :
    View.canon (kernelRun3_A.sl.HS1_5 c arg3 harg3 arg4 harg4 arg9 arg10 x0 x1) (ix2 r h) = (0 : EReal) :=
  (canon_skip_col 3 _ _ _ r h (by omega)).trans (tailA1_4 c arg3 harg3 arg4 harg4 arg9 arg10 x0 x1 r h (by omega))
theorem tailA2_5 (r : Fin 256) (cc : Fin 1024) (hh : 256 ≤ cc.val) :
    View.canon (kernelRun3_A.sl.HS2_5 c arg3 harg3 arg4 harg4 arg5 harg5 arg9 arg11 x0 x1 x2) (ix2 r cc) = (0 : EReal) :=
  (canon_skip_blk 192 _ _ _ r cc (by omega)).trans (tailA2_4 c arg3 harg3 arg4 harg4 arg5 harg5 arg9 arg11 x0 x1 x2 r cc (by omega))

theorem tailA0_6 (r : Fin 256) (h : Fin 16) (hh : 5 ≤ h.val) :
    View.canon (kernelRun3_A.sl.HS0_6 c arg3 harg3 arg4 harg4 arg9 x0 x1) (ix2 r h) = (⊥ : EReal) :=
  (canon_skip_col 4 _ _ _ r h (by omega)).trans (tailA0_5 c arg3 harg3 arg4 harg4 arg9 x0 x1 r h (by omega))
theorem tailA1_6 (r : Fin 256) (h : Fin 16) (hh : 5 ≤ h.val) :
    View.canon (kernelRun3_A.sl.HS1_6 c arg3 harg3 arg4 harg4 arg9 arg10 x0 x1) (ix2 r h) = (0 : EReal) :=
  (canon_skip_col 4 _ _ _ r h (by omega)).trans (tailA1_5 c arg3 harg3 arg4 harg4 arg9 arg10 x0 x1 r h (by omega))
theorem tailA2_6 (r : Fin 256) (cc : Fin 1024) (hh : 320 ≤ cc.val) :
    View.canon (kernelRun3_A.sl.HS2_6 c arg3 harg3 arg4 harg4 arg5 harg5 arg9 arg11 x0 x1 x2) (ix2 r cc) = (0 : EReal) :=
  (canon_skip_blk 256 _ _ _ r cc (by omega)).trans (tailA2_5 c arg3 harg3 arg4 harg4 arg5 harg5 arg9 arg11 x0 x1 x2 r cc (by omega))

theorem tailA0_7 (r : Fin 256) (h : Fin 16) (hh : 6 ≤ h.val) :
    View.canon (kernelRun3_A.sl.HS0_7 c arg3 harg3 arg4 harg4 arg9 x0 x1) (ix2 r h) = (⊥ : EReal) :=
  (canon_skip_col 5 _ _ _ r h (by omega)).trans (tailA0_6 c arg3 harg3 arg4 harg4 arg9 x0 x1 r h (by omega))
theorem tailA1_7 (r : Fin 256) (h : Fin 16) (hh : 6 ≤ h.val) :
    View.canon (kernelRun3_A.sl.HS1_7 c arg3 harg3 arg4 harg4 arg9 arg10 x0 x1) (ix2 r h) = (0 : EReal) :=
  (canon_skip_col 5 _ _ _ r h (by omega)).trans (tailA1_6 c arg3 harg3 arg4 harg4 arg9 arg10 x0 x1 r h (by omega))
theorem tailA2_7 (r : Fin 256) (cc : Fin 1024) (hh : 384 ≤ cc.val) :
    View.canon (kernelRun3_A.sl.HS2_7 c arg3 harg3 arg4 harg4 arg5 harg5 arg9 arg11 x0 x1 x2) (ix2 r cc) = (0 : EReal) :=
  (canon_skip_blk 320 _ _ _ r cc (by omega)).trans (tailA2_6 c arg3 harg3 arg4 harg4 arg5 harg5 arg9 arg11 x0 x1 x2 r cc (by omega))

theorem tailA0_8 (r : Fin 256) (h : Fin 16) (hh : 7 ≤ h.val) :
    View.canon (kernelRun3_A.sl.HS0_8 c arg3 harg3 arg4 harg4 arg9 x0 x1) (ix2 r h) = (⊥ : EReal) :=
  (canon_skip_col 6 _ _ _ r h (by omega)).trans (tailA0_7 c arg3 harg3 arg4 harg4 arg9 x0 x1 r h (by omega))
theorem tailA1_8 (r : Fin 256) (h : Fin 16) (hh : 7 ≤ h.val) :
    View.canon (kernelRun3_A.sl.HS1_8 c arg3 harg3 arg4 harg4 arg9 arg10 x0 x1) (ix2 r h) = (0 : EReal) :=
  (canon_skip_col 6 _ _ _ r h (by omega)).trans (tailA1_7 c arg3 harg3 arg4 harg4 arg9 arg10 x0 x1 r h (by omega))
theorem tailA2_8 (r : Fin 256) (cc : Fin 1024) (hh : 448 ≤ cc.val) :
    View.canon (kernelRun3_A.sl.HS2_8 c arg3 harg3 arg4 harg4 arg5 harg5 arg9 arg11 x0 x1 x2) (ix2 r cc) = (0 : EReal) :=
  (canon_skip_blk 384 _ _ _ r cc (by omega)).trans (tailA2_7 c arg3 harg3 arg4 harg4 arg5 harg5 arg9 arg11 x0 x1 x2 r cc (by omega))

theorem tailA0_9 (r : Fin 256) (h : Fin 16) (hh : 8 ≤ h.val) :
    View.canon (kernelRun3_A.sl.HS0_9 c arg3 harg3 arg4 harg4 arg9 x0 x1) (ix2 r h) = (⊥ : EReal) :=
  (canon_skip_col 7 _ _ _ r h (by omega)).trans (tailA0_8 c arg3 harg3 arg4 harg4 arg9 x0 x1 r h (by omega))
theorem tailA1_9 (r : Fin 256) (h : Fin 16) (hh : 8 ≤ h.val) :
    View.canon (kernelRun3_A.sl.HS1_9 c arg3 harg3 arg4 harg4 arg9 arg10 x0 x1) (ix2 r h) = (0 : EReal) :=
  (canon_skip_col 7 _ _ _ r h (by omega)).trans (tailA1_8 c arg3 harg3 arg4 harg4 arg9 arg10 x0 x1 r h (by omega))
theorem tailA2_9 (r : Fin 256) (cc : Fin 1024) (hh : 512 ≤ cc.val) :
    View.canon (kernelRun3_A.sl.HS2_9 c arg3 harg3 arg4 harg4 arg5 harg5 arg9 arg11 x0 x1 x2) (ix2 r cc) = (0 : EReal) :=
  (canon_skip_blk 448 _ _ _ r cc (by omega)).trans (tailA2_8 c arg3 harg3 arg4 harg4 arg5 harg5 arg9 arg11 x0 x1 x2 r cc (by omega))

theorem tailA0_10 (r : Fin 256) (h : Fin 16) (hh : 9 ≤ h.val) :
    View.canon (kernelRun3_A.sl.HS0_10 c arg3 harg3 arg4 harg4 arg9 x0 x1) (ix2 r h) = (⊥ : EReal) :=
  (canon_skip_col 8 _ _ _ r h (by omega)).trans (tailA0_9 c arg3 harg3 arg4 harg4 arg9 x0 x1 r h (by omega))
theorem tailA1_10 (r : Fin 256) (h : Fin 16) (hh : 9 ≤ h.val) :
    View.canon (kernelRun3_A.sl.HS1_10 c arg3 harg3 arg4 harg4 arg9 arg10 x0 x1) (ix2 r h) = (0 : EReal) :=
  (canon_skip_col 8 _ _ _ r h (by omega)).trans (tailA1_9 c arg3 harg3 arg4 harg4 arg9 arg10 x0 x1 r h (by omega))
theorem tailA2_10 (r : Fin 256) (cc : Fin 1024) (hh : 576 ≤ cc.val) :
    View.canon (kernelRun3_A.sl.HS2_10 c arg3 harg3 arg4 harg4 arg5 harg5 arg9 arg11 x0 x1 x2) (ix2 r cc) = (0 : EReal) :=
  (canon_skip_blk 512 _ _ _ r cc (by omega)).trans (tailA2_9 c arg3 harg3 arg4 harg4 arg5 harg5 arg9 arg11 x0 x1 x2 r cc (by omega))

theorem tailA0_11 (r : Fin 256) (h : Fin 16) (hh : 10 ≤ h.val) :
    View.canon (kernelRun3_A.sl.HS0_11 c arg3 harg3 arg4 harg4 arg9 x0 x1) (ix2 r h) = (⊥ : EReal) :=
  (canon_skip_col 9 _ _ _ r h (by omega)).trans (tailA0_10 c arg3 harg3 arg4 harg4 arg9 x0 x1 r h (by omega))
theorem tailA1_11 (r : Fin 256) (h : Fin 16) (hh : 10 ≤ h.val) :
    View.canon (kernelRun3_A.sl.HS1_11 c arg3 harg3 arg4 harg4 arg9 arg10 x0 x1) (ix2 r h) = (0 : EReal) :=
  (canon_skip_col 9 _ _ _ r h (by omega)).trans (tailA1_10 c arg3 harg3 arg4 harg4 arg9 arg10 x0 x1 r h (by omega))
theorem tailA2_11 (r : Fin 256) (cc : Fin 1024) (hh : 640 ≤ cc.val) :
    View.canon (kernelRun3_A.sl.HS2_11 c arg3 harg3 arg4 harg4 arg5 harg5 arg9 arg11 x0 x1 x2) (ix2 r cc) = (0 : EReal) :=
  (canon_skip_blk 576 _ _ _ r cc (by omega)).trans (tailA2_10 c arg3 harg3 arg4 harg4 arg5 harg5 arg9 arg11 x0 x1 x2 r cc (by omega))

theorem tailA0_12 (r : Fin 256) (h : Fin 16) (hh : 11 ≤ h.val) :
    View.canon (kernelRun3_A.sl.HS0_12 c arg3 harg3 arg4 harg4 arg9 x0 x1) (ix2 r h) = (⊥ : EReal) :=
  (canon_skip_col 10 _ _ _ r h (by omega)).trans (tailA0_11 c arg3 harg3 arg4 harg4 arg9 x0 x1 r h (by omega))
theorem tailA1_12 (r : Fin 256) (h : Fin 16) (hh : 11 ≤ h.val) :
    View.canon (kernelRun3_A.sl.HS1_12 c arg3 harg3 arg4 harg4 arg9 arg10 x0 x1) (ix2 r h) = (0 : EReal) :=
  (canon_skip_col 10 _ _ _ r h (by omega)).trans (tailA1_11 c arg3 harg3 arg4 harg4 arg9 arg10 x0 x1 r h (by omega))
theorem tailA2_12 (r : Fin 256) (cc : Fin 1024) (hh : 704 ≤ cc.val) :
    View.canon (kernelRun3_A.sl.HS2_12 c arg3 harg3 arg4 harg4 arg5 harg5 arg9 arg11 x0 x1 x2) (ix2 r cc) = (0 : EReal) :=
  (canon_skip_blk 640 _ _ _ r cc (by omega)).trans (tailA2_11 c arg3 harg3 arg4 harg4 arg5 harg5 arg9 arg11 x0 x1 x2 r cc (by omega))

theorem tailA0_13 (r : Fin 256) (h : Fin 16) (hh : 12 ≤ h.val) :
    View.canon (kernelRun3_A.sl.HS0_13 c arg3 harg3 arg4 harg4 arg9 x0 x1) (ix2 r h) = (⊥ : EReal) :=
  (canon_skip_col 11 _ _ _ r h (by omega)).trans (tailA0_12 c arg3 harg3 arg4 harg4 arg9 x0 x1 r h (by omega))
theorem tailA1_13 (r : Fin 256) (h : Fin 16) (hh : 12 ≤ h.val) :
    View.canon (kernelRun3_A.sl.HS1_13 c arg3 harg3 arg4 harg4 arg9 arg10 x0 x1) (ix2 r h) = (0 : EReal) :=
  (canon_skip_col 11 _ _ _ r h (by omega)).trans (tailA1_12 c arg3 harg3 arg4 harg4 arg9 arg10 x0 x1 r h (by omega))
theorem tailA2_13 (r : Fin 256) (cc : Fin 1024) (hh : 768 ≤ cc.val) :
    View.canon (kernelRun3_A.sl.HS2_13 c arg3 harg3 arg4 harg4 arg5 harg5 arg9 arg11 x0 x1 x2) (ix2 r cc) = (0 : EReal) :=
  (canon_skip_blk 704 _ _ _ r cc (by omega)).trans (tailA2_12 c arg3 harg3 arg4 harg4 arg5 harg5 arg9 arg11 x0 x1 x2 r cc (by omega))

theorem tailA0_14 (r : Fin 256) (h : Fin 16) (hh : 13 ≤ h.val) :
    View.canon (kernelRun3_A.sl.HS0_14 c arg3 harg3 arg4 harg4 arg9 x0 x1) (ix2 r h) = (⊥ : EReal) :=
  (canon_skip_col 12 _ _ _ r h (by omega)).trans (tailA0_13 c arg3 harg3 arg4 harg4 arg9 x0 x1 r h (by omega))
theorem tailA1_14 (r : Fin 256) (h : Fin 16) (hh : 13 ≤ h.val) :
    View.canon (kernelRun3_A.sl.HS1_14 c arg3 harg3 arg4 harg4 arg9 arg10 x0 x1) (ix2 r h) = (0 : EReal) :=
  (canon_skip_col 12 _ _ _ r h (by omega)).trans (tailA1_13 c arg3 harg3 arg4 harg4 arg9 arg10 x0 x1 r h (by omega))
theorem tailA2_14 (r : Fin 256) (cc : Fin 1024) (hh : 832 ≤ cc.val) :
    View.canon (kernelRun3_A.sl.HS2_14 c arg3 harg3 arg4 harg4 arg5 harg5 arg9 arg11 x0 x1 x2) (ix2 r cc) = (0 : EReal) :=
  (canon_skip_blk 768 _ _ _ r cc (by omega)).trans (tailA2_13 c arg3 harg3 arg4 harg4 arg5 harg5 arg9 arg11 x0 x1 x2 r cc (by omega))

theorem tailA0_15 (r : Fin 256) (h : Fin 16) (hh : 14 ≤ h.val) :
    View.canon (kernelRun3_A.sl.HS0_15 c arg3 harg3 arg4 harg4 arg9 x0 x1) (ix2 r h) = (⊥ : EReal) :=
  (canon_skip_col 13 _ _ _ r h (by omega)).trans (tailA0_14 c arg3 harg3 arg4 harg4 arg9 x0 x1 r h (by omega))
theorem tailA1_15 (r : Fin 256) (h : Fin 16) (hh : 14 ≤ h.val) :
    View.canon (kernelRun3_A.sl.HS1_15 c arg3 harg3 arg4 harg4 arg9 arg10 x0 x1) (ix2 r h) = (0 : EReal) :=
  (canon_skip_col 13 _ _ _ r h (by omega)).trans (tailA1_14 c arg3 harg3 arg4 harg4 arg9 arg10 x0 x1 r h (by omega))
theorem tailA2_15 (r : Fin 256) (cc : Fin 1024) (hh : 896 ≤ cc.val) :
    View.canon (kernelRun3_A.sl.HS2_15 c arg3 harg3 arg4 harg4 arg5 harg5 arg9 arg11 x0 x1 x2) (ix2 r cc) = (0 : EReal) :=
  (canon_skip_blk 832 _ _ _ r cc (by omega)).trans (tailA2_14 c arg3 harg3 arg4 harg4 arg5 harg5 arg9 arg11 x0 x1 x2 r cc (by omega))

theorem tailA0_16 (r : Fin 256) (h : Fin 16) (hh : 15 ≤ h.val) :
    View.canon (kernelRun3_A.sl.HS0_16 c arg3 harg3 arg4 harg4 arg9 x0 x1) (ix2 r h) = (⊥ : EReal) :=
  (canon_skip_col 14 _ _ _ r h (by omega)).trans (tailA0_15 c arg3 harg3 arg4 harg4 arg9 x0 x1 r h (by omega))
theorem tailA1_16 (r : Fin 256) (h : Fin 16) (hh : 15 ≤ h.val) :
    View.canon (kernelRun3_A.sl.HS1_16 c arg3 harg3 arg4 harg4 arg9 arg10 x0 x1) (ix2 r h) = (0 : EReal) :=
  (canon_skip_col 14 _ _ _ r h (by omega)).trans (tailA1_15 c arg3 harg3 arg4 harg4 arg9 arg10 x0 x1 r h (by omega))
theorem tailA2_16 (r : Fin 256) (cc : Fin 1024) (hh : 960 ≤ cc.val) :
    View.canon (kernelRun3_A.sl.HS2_16 c arg3 harg3 arg4 harg4 arg5 harg5 arg9 arg11 x0 x1 x2) (ix2 r cc) = (0 : EReal) :=
  (canon_skip_blk 896 _ _ _ r cc (by omega)).trans (tailA2_15 c arg3 harg3 arg4 harg4 arg5 harg5 arg9 arg11 x0 x1 x2 r cc (by omega))

end Tails

end Cert.KernelIdeal.AttnPieces

end
-- ==== Proof.AttnPieces.A.lean ====
/-
  A first key tile: what the body leaves in the three carried buffers, read at coordinates.  The body resets the
  state (maxima −∞, sums 0) and then runs the same sixteen one-head steps as at a middle tile; each head's loads of
  its own column or block lie under none of the earlier heads' pieces and read the reset values, so the buffers hold
  the streaming step applied to the start state.  The stored pieces are walked last first: the entry at row r and
  head h (or model column c) is under exactly one per-head piece.
-/
import proofs.«161242_j13649406066792_2_alg».proof.Proof.AttnPieces.LoadsA

set_option maxRecDepth 16384

noncomputable section

namespace Cert.KernelIdeal.AttnPieces

open Idealize.ShloMosaic Idealize.ShloMosaic.ValueIdx Idealize.ShloMosaic.Tactic Idealize.SL.Sem
open Cert.KernelIdeal Cert.KernelIdeal.Gen Cert.KernelIdeal.Hand Cert.KernelIdeal.AttnPayload Cert.Spec Cert.AttnStep

/-- What a first tile leaves in the buffer of running maxima: the step's new maximum from −∞. -/
theorem sout_A_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec Ideal S1x256x1024 .f32) (x1 x2 : Vec Ideal S1x512x1024 .f32) (x3 : Vec Ideal S1024x1024 .bf16) (x4 : Vec Ideal S1x1024 .f32) (r : Fin 256) (h : Fin 16) :
    sout3_A_0 (F := Ideal) c i arg3 harg3 arg4 harg4 arg5 harg5 arg6 harg6 arg7 harg7 arg8 harg8 arg9 harg9 arg10 harg10 arg11 harg11 hc0 hc1 x0 x1 x2 x3 x4 (ix2 r h) = newM (fun _ => ⊥) x0 x1 r h := by
  unfold sout3_A_0
  rw [View.read_writes_eq_canon _ _ _ (scover3_A_0 c i arg3 harg3 arg4 harg4 arg5 harg5 arg6 harg6 arg7 harg7 arg8 harg8 arg9 harg9 arg10 harg10 arg11 harg11 hc0 hc1 x0 x1 x2 x3 x4)]
  unfold kernelRun3_A
  dsimp only
  refine canon_cons_col (fun y : S256x16.Idx => newM (fun _ => ⊥) x0 x1 (y 0) (y 1)) 15 15 rfl inb_S256x16_S256x1_0_15 _ _ (fun r' => ?_) r h fun n15 => ?_
  · refine (h15_m _ _ _ r').trans ?_
    exact newM_of' (fun _ => ⊥) x0 _ x1 _ (ld_q arg3 harg3 x0 _) (ld_kv arg4 harg4 x1 _) 15 r' _ (readCov_col arg9.view _ 15 15 rfl _ r' 0 ⊥ (tailA0_16 c arg3 harg3 arg4 harg4 arg9 x0 x1 r' 15 (by decide)))
  refine canon_cons_col (fun y : S256x16.Idx => newM (fun _ => ⊥) x0 x1 (y 0) (y 1)) 14 14 rfl inb_S256x16_S256x1_0_14 _ _ (fun r' => ?_) r h fun n14 => ?_
  · refine (h14_m _ _ _ r').trans ?_
    exact newM_of' (fun _ => ⊥) x0 _ x1 _ (ld_q arg3 harg3 x0 _) (ld_kv arg4 harg4 x1 _) 14 r' _ (readCov_col arg9.view _ 14 14 rfl _ r' 0 ⊥ (tailA0_15 c arg3 harg3 arg4 harg4 arg9 x0 x1 r' 14 (by decide)))
  refine canon_cons_col (fun y : S256x16.Idx => newM (fun _ => ⊥) x0 x1 (y 0) (y 1)) 13 13 rfl inb_S256x16_S256x1_0_13 _ _ (fun r' => ?_) r h fun n13 => ?_
  · refine (h13_m _ _ _ r').trans ?_
    exact newM_of' (fun _ => ⊥) x0 _ x1 _ (ld_q arg3 harg3 x0 _) (ld_kv arg4 harg4 x1 _) 13 r' _ (readCov_col arg9.view _ 13 13 rfl _ r' 0 ⊥ (tailA0_14 c arg3 harg3 arg4 harg4 arg9 x0 x1 r' 13 (by decide)))
  refine canon_cons_col (fun y : S256x16.Idx => newM (fun _ => ⊥) x0 x1 (y 0) (y 1)) 12 12 rfl inb_S256x16_S256x1_0_12 _ _ (fun r' => ?_) r h fun n12 => ?_
  · refine (h12_m _ _ _ r').trans ?_
    exact newM_of' (fun _ => ⊥) x0 _ x1 _ (ld_q arg3 harg3 x0 _) (ld_kv arg4 harg4 x1 _) 12 r' _ (readCov_col arg9.view _ 12 12 rfl _ r' 0 ⊥ (tailA0_13 c arg3 harg3 arg4 harg4 arg9 x0 x1 r' 12 (by decide)))
  refine canon_cons_col (fun y : S256x16.Idx => newM (fun _ => ⊥) x0 x1 (y 0) (y 1)) 11 11 rfl inb_S256x16_S256x1_0_11 _ _ (fun r' => ?_) r h fun n11 => ?_
  · refine (h11_m _ _ _ r').trans ?_
    exact newM_of' (fun _ => ⊥) x0 _ x1 _ (ld_q arg3 harg3 x0 _) (ld_kv arg4 harg4 x1 _) 11 r' _ (readCov_col arg9.view _ 11 11 rfl _ r' 0 ⊥ (tailA0_12 c arg3 harg3 arg4 harg4 arg9 x0 x1 r' 11 (by decide)))
  refine canon_cons_col (fun y : S256x16.Idx => newM (fun _ => ⊥) x0 x1 (y 0) (y 1)) 10 10 rfl inb_S256x16_S256x1_0_10 _ _ (fun r' => ?_) r h fun n10 => ?_
  · refine (h10_m _ _ _ r').trans ?_
    exact newM_of' (fun _ => ⊥) x0 _ x1 _ (ld_q arg3 harg3 x0 _) (ld_kv arg4 harg4 x1 _) 10 r' _ (readCov_col arg9.view _ 10 10 rfl _ r' 0 ⊥ (tailA0_11 c arg3 harg3 arg4 harg4 arg9 x0 x1 r' 10 (by decide)))
  refine canon_cons_col (fun y : S256x16.Idx => newM (fun _ => ⊥) x0 x1 (y 0) (y 1)) 9 9 rfl inb_S256x16_S256x1_0_9 _ _ (fun r' => ?_) r h fun n9 => ?_
  · refine (h09_m _ _ _ r').trans ?_
    exact newM_of' (fun _ => ⊥) x0 _ x1 _ (ld_q arg3 harg3 x0 _) (ld_kv arg4 harg4 x1 _) 9 r' _ (readCov_col arg9.view _ 9 9 rfl _ r' 0 ⊥ (tailA0_10 c arg3 harg3 arg4 harg4 arg9 x0 x1 r' 9 (by decide)))
  refine canon_cons_col (fun y : S256x16.Idx => newM (fun _ => ⊥) x0 x1 (y 0) (y 1)) 8 8 rfl inb_S256x16_S256x1_0_8 _ _ (fun r' => ?_) r h fun n8 => ?_
  · refine (h08_m _ _ _ r').trans ?_
    exact newM_of' (fun _ => ⊥) x0 _ x1 _ (ld_q arg3 harg3 x0 _) (ld_kv arg4 harg4 x1 _) 8 r' _ (readCov_col arg9.view _ 8 8 rfl _ r' 0 ⊥ (tailA0_9 c arg3 harg3 arg4 harg4 arg9 x0 x1 r' 8 (by decide)))
  refine canon_cons_col (fun y : S256x16.Idx => newM (fun _ => ⊥) x0 x1 (y 0) (y 1)) 7 7 rfl inb_S256x16_S256x1_0_7 _ _ (fun r' => ?_) r h fun n7 => ?_
  · refine (h07_m _ _ _ r').trans ?_
    exact newM_of' (fun _ => ⊥) x0 _ x1 _ (ld_q arg3 harg3 x0 _) (ld_kv arg4 harg4 x1 _) 7 r' _ (readCov_col arg9.view _ 7 7 rfl _ r' 0 ⊥ (tailA0_8 c arg3 harg3 arg4 harg4 arg9 x0 x1 r' 7 (by decide)))
  refine canon_cons_col (fun y : S256x16.Idx => newM (fun _ => ⊥) x0 x1 (y 0) (y 1)) 6 6 rfl inb_S256x16_S256x1_0_6 _ _ (fun r' => ?_) r h fun n6 => ?_
  · refine (h06_m _ _ _ r').trans ?_
    exact newM_of' (fun _ => ⊥) x0 _ x1 _ (ld_q arg3 harg3 x0 _) (ld_kv arg4 harg4 x1 _) 6 r' _ (readCov_col arg9.view _ 6 6 rfl _ r' 0 ⊥ (tailA0_7 c arg3 harg3 arg4 harg4 arg9 x0 x1 r' 6 (by decide)))
  refine canon_cons_col (fun y : S256x16.Idx => newM (fun _ => ⊥) x0 x1 (y 0) (y 1)) 5 5 rfl inb_S256x16_S256x1_0_5 _ _ (fun r' => ?_) r h fun n5 => ?_
  · refine (h05_m _ _ _ r').trans ?_
    exact newM_of' (fun _ => ⊥) x0 _ x1 _ (ld_q arg3 harg3 x0 _) (ld_kv arg4 harg4 x1 _) 5 r' _ (readCov_col arg9.view _ 5 5 rfl _ r' 0 ⊥ (tailA0_6 c arg3 harg3 arg4 harg4 arg9 x0 x1 r' 5 (by decide)))
  refine canon_cons_col (fun y : S256x16.Idx => newM (fun _ => ⊥) x0 x1 (y 0) (y 1)) 4 4 rfl inb_S256x16_S256x1_0_4 _ _ (fun r' => ?_) r h fun n4 => ?_
  · refine (h04_m _ _ _ r').trans ?_
    exact newM_of' (fun _ => ⊥) x0 _ x1 _ (ld_q arg3 harg3 x0 _) (ld_kv arg4 harg4 x1 _) 4 r' _ (readCov_col arg9.view _ 4 4 rfl _ r' 0 ⊥ (tailA0_5 c arg3 harg3 arg4 harg4 arg9 x0 x1 r' 4 (by decide)))
  refine canon_cons_col (fun y : S256x16.Idx => newM (fun _ => ⊥) x0 x1 (y 0) (y 1)) 3 3 rfl inb_S256x16_S256x1_0_3 _ _ (fun r' => ?_) r h fun n3 => ?_
  · refine (h03_m _ _ _ r').trans ?_
    exact newM_of' (fun _ => ⊥) x0 _ x1 _ (ld_q arg3 harg3 x0 _) (ld_kv arg4 harg4 x1 _) 3 r' _ (readCov_col arg9.view _ 3 3 rfl _ r' 0 ⊥ (tailA0_4 c arg3 harg3 arg4 harg4 arg9 x0 x1 r' 3 (by decide)))
  refine canon_cons_col (fun y : S256x16.Idx => newM (fun _ => ⊥) x0 x1 (y 0) (y 1)) 2 2 rfl inb_S256x16_S256x1_0_2 _ _ (fun r' => ?_) r h fun n2 => ?_
  · refine (h02_m _ _ _ r').trans ?_
    exact newM_of' (fun _ => ⊥) x0 _ x1 _ (ld_q arg3 harg3 x0 _) (ld_kv arg4 harg4 x1 _) 2 r' _ (readCov_col arg9.view _ 2 2 rfl _ r' 0 ⊥ (tailA0_3 c arg3 harg3 arg4 harg4 arg9 x0 x1 r' 2 (by decide)))
  refine canon_cons_col (fun y : S256x16.Idx => newM (fun _ => ⊥) x0 x1 (y 0) (y 1)) 1 1 rfl inb_S256x16_S256x1_0_1 _ _ (fun r' => ?_) r h fun n1 => ?_
  · refine (h01_m _ _ _ r').trans ?_
    exact newM_of' (fun _ => ⊥) x0 _ x1 _ (ld_q arg3 harg3 x0 _) (ld_kv arg4 harg4 x1 _) 1 r' _ (readCov_col arg9.view _ 1 1 rfl _ r' 0 ⊥ (tailA0_2 c arg3 harg3 arg4 harg4 arg9 x0 x1 r' 1 (by decide)))
  refine canon_cons_col (fun y : S256x16.Idx => newM (fun _ => ⊥) x0 x1 (y 0) (y 1)) 0 0 rfl inb_S256x16_S256x1_0_0 _ _ (fun r' => ?_) r h fun n0 => ?_
  · refine (h00_m _ _ _ r').trans ?_
    exact newM_of' (fun _ => ⊥) x0 _ x1 _ (ld_q arg3 harg3 x0 _) (ld_kv arg4 harg4 x1 _) 0 r' _ (readCov_col arg9.view _ 0 0 rfl _ r' 0 ⊥ (tailA0_1 r' 0))
  exfalso
  have := h.isLt; omega

/-- What a first tile leaves in the buffer of partition sums: the step's new sum from the start state. -/
theorem sout_A_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec Ideal S1x256x1024 .f32) (x1 x2 : Vec Ideal S1x512x1024 .f32) (x3 : Vec Ideal S1024x1024 .bf16) (x4 : Vec Ideal S1x1024 .f32) (r : Fin 256) (h : Fin 16) :
    sout3_A_1 (F := Ideal) c i arg3 harg3 arg4 harg4 arg5 harg5 arg6 harg6 arg7 harg7 arg8 harg8 arg9 harg9 arg10 harg10 arg11 harg11 hc0 hc1 x0 x1 x2 x3 x4 (ix2 r h) = newL (fun _ => ⊥) (fun _ => 0) x0 x1 r h := by
  unfold sout3_A_1
  rw [View.read_writes_eq_canon _ _ _ (scover3_A_1 c i arg3 harg3 arg4 harg4 arg5 harg5 arg6 harg6 arg7 harg7 arg8 harg8 arg9 harg9 arg10 harg10 arg11 harg11 hc0 hc1 x0 x1 x2 x3 x4)]
  unfold kernelRun3_A
  dsimp only
  refine canon_cons_col (fun y : S256x16.Idx => newL (fun _ => ⊥) (fun _ => 0) x0 x1 (y 0) (y 1)) 15 15 rfl inb_S256x16_S256x1_0_15 _ _ (fun r' => ?_) r h fun n15 => ?_
  · refine (h15_l _ _ _ _ r').trans ?_
    exact newL_of' (fun _ => ⊥) (fun _ => 0) x0 _ x1 _ (ld_q arg3 harg3 x0 _) (ld_kv arg4 harg4 x1 _) 15 r' _ _ (readCov_col arg9.view _ 15 15 rfl _ r' 0 ⊥ (tailA0_16 c arg3 harg3 arg4 harg4 arg9 x0 x1 r' 15 (by decide)))
      (readCov_col arg10.view _ 15 15 rfl _ r' 0 0 (tailA1_16 c arg3 harg3 arg4 harg4 arg9 arg10 x0 x1 r' 15 (by decide)))
  refine canon_cons_col (fun y : S256x16.Idx => newL (fun _ => ⊥) (fun _ => 0) x0 x1 (y 0) (y 1)) 14 14 rfl inb_S256x16_S256x1_0_14 _ _ (fun r' => ?_) r h fun n14 => ?_
  · refine (h14_l _ _ _ _ r').trans ?_
    exact newL_of' (fun _ => ⊥) (fun _ => 0) x0 _ x1 _ (ld_q arg3 harg3 x0 _) (ld_kv arg4 harg4 x1 _) 14 r' _ _ (readCov_col arg9.view _ 14 14 rfl _ r' 0 ⊥ (tailA0_15 c arg3 harg3 arg4 harg4 arg9 x0 x1 r' 14 (by decide)))
      (readCov_col arg10.view _ 14 14 rfl _ r' 0 0 (tailA1_15 c arg3 harg3 arg4 harg4 arg9 arg10 x0 x1 r' 14 (by decide)))
  refine canon_cons_col (fun y : S256x16.Idx => newL (fun _ => ⊥) (fun _ => 0) x0 x1 (y 0) (y 1)) 13 13 rfl inb_S256x16_S256x1_0_13 _ _ (fun r' => ?_) r h fun n13 => ?_
  · refine (h13_l _ _ _ _ r').trans ?_
    exact newL_of' (fun _ => ⊥) (fun _ => 0) x0 _ x1 _ (ld_q arg3 harg3 x0 _) (ld_kv arg4 harg4 x1 _) 13 r' _ _ (readCov_col arg9.view _ 13 13 rfl _ r' 0 ⊥ (tailA0_14 c arg3 harg3 arg4 harg4 arg9 x0 x1 r' 13 (by decide)))
      (readCov_col arg10.view _ 13 13 rfl _ r' 0 0 (tailA1_14 c arg3 harg3 arg4 harg4 arg9 arg10 x0 x1 r' 13 (by decide)))
  refine canon_cons_col (fun y : S256x16.Idx => newL (fun _ => ⊥) (fun _ => 0) x0 x1 (y 0) (y 1)) 12 12 rfl inb_S256x16_S256x1_0_12 _ _ (fun r' => ?_) r h fun n12 => ?_
  · refine (h12_l _ _ _ _ r').trans ?_
    exact newL_of' (fun _ => ⊥) (fun _ => 0) x0 _ x1 _ (ld_q arg3 harg3 x0 _) (ld_kv arg4 harg4 x1 _) 12 r' _ _ (readCov_col arg9.view _ 12 12 rfl _ r' 0 ⊥ (tailA0_13 c arg3 harg3 arg4 harg4 arg9 x0 x1 r' 12 (by decide)))
      (readCov_col arg10.view _ 12 12 rfl _ r' 0 0 (tailA1_13 c arg3 harg3 arg4 harg4 arg9 arg10 x0 x1 r' 12 (by decide)))
  refine canon_cons_col (fun y : S256x16.Idx => newL (fun _ => ⊥) (fun _ => 0) x0 x1 (y 0) (y 1)) 11 11 rfl inb_S256x16_S256x1_0_11 _ _ (fun r' => ?_) r h fun n11 => ?_
  · refine (h11_l _ _ _ _ r').trans ?_
    exact newL_of' (fun _ => ⊥) (fun _ => 0) x0 _ x1 _ (ld_q arg3 harg3 x0 _) (ld_kv arg4 harg4 x1 _) 11 r' _ _ (readCov_col arg9.view _ 11 11 rfl _ r' 0 ⊥ (tailA0_12 c arg3 harg3 arg4 harg4 arg9 x0 x1 r' 11 (by decide)))
      (readCov_col arg10.view _ 11 11 rfl _ r' 0 0 (tailA1_12 c arg3 harg3 arg4 harg4 arg9 arg10 x0 x1 r' 11 (by decide)))
  refine canon_cons_col (fun y : S256x16.Idx => newL (fun _ => ⊥) (fun _ => 0) x0 x1 (y 0) (y 1)) 10 10 rfl inb_S256x16_S256x1_0_10 _ _ (fun r' => ?_) r h fun n10 => ?_
  · refine (h10_l _ _ _ _ r').trans ?_
    exact newL_of' (fun _ => ⊥) (fun _ => 0) x0 _ x1 _ (ld_q arg3 harg3 x0 _) (ld_kv arg4 harg4 x1 _) 10 r' _ _ (readCov_col arg9.view _ 10 10 rfl _ r' 0 ⊥ (tailA0_11 c arg3 harg3 arg4 harg4 arg9 x0 x1 r' 10 (by decide)))
      (readCov_col arg10.view _ 10 10 rfl _ r' 0 0 (tailA1_11 c arg3 harg3 arg4 harg4 arg9 arg10 x0 x1 r' 10 (by decide)))
  refine canon_cons_col (fun y : S256x16.Idx => newL (fun _ => ⊥) (fun _ => 0) x0 x1 (y 0) (y 1)) 9 9 rfl inb_S256x16_S256x1_0_9 _ _ (fun r' => ?_) r h fun n9 => ?_
  · refine (h09_l _ _ _ _ r').trans ?_
    exact newL_of' (fun _ => ⊥) (fun _ => 0) x0 _ x1 _ (ld_q arg3 harg3 x0 _) (ld_kv arg4 harg4 x1 _) 9 r' _ _ (readCov_col arg9.view _ 9 9 rfl _ r' 0 ⊥ (tailA0_10 c arg3 harg3 arg4 harg4 arg9 x0 x1 r' 9 (by decide)))
      (readCov_col arg10.view _ 9 9 rfl _ r' 0 0 (tailA1_10 c arg3 harg3 arg4 harg4 arg9 arg10 x0 x1 r' 9 (by decide)))
  refine canon_cons_col (fun y : S256x16.Idx => newL (fun _ => ⊥) (fun _ => 0) x0 x1 (y 0) (y 1)) 8 8 rfl inb_S256x16_S256x1_0_8 _ _ (fun r' => ?_) r h fun n8 => ?_
  · refine (h08_l _ _ _ _ r').trans ?_
    exact newL_of' (fun _ => ⊥) (fun _ => 0) x0 _ x1 _ (ld_q arg3 harg3 x0 _) (ld_kv arg4 harg4 x1 _) 8 r' _ _ (readCov_col arg9.view _ 8 8 rfl _ r' 0 ⊥ (tailA0_9 c arg3 harg3 arg4 harg4 arg9 x0 x1 r' 8 (by decide)))
      (readCov_col arg10.view _ 8 8 rfl _ r' 0 0 (tailA1_9 c arg3 harg3 arg4 harg4 arg9 arg10 x0 x1 r' 8 (by decide)))
  refine canon_cons_col (fun y : S256x16.Idx => newL (fun _ => ⊥) (fun _ => 0) x0 x1 (y 0) (y 1)) 7 7 rfl inb_S256x16_S256x1_0_7 _ _ (fun r' => ?_) r h fun n7 => ?_
  · refine (h07_l _ _ _ _ r').trans ?_
    exact newL_of' (fun _ => ⊥) (fun _ => 0) x0 _ x1 _ (ld_q arg3 harg3 x0 _) (ld_kv arg4 harg4 x1 _) 7 r' _ _ (readCov_col arg9.view _ 7 7 rfl _ r' 0 ⊥ (tailA0_8 c arg3 harg3 arg4 harg4 arg9 x0 x1 r' 7 (by decide)))
      (readCov_col arg10.view _ 7 7 rfl _ r' 0 0 (tailA1_8 c arg3 harg3 arg4 harg4 arg9 arg10 x0 x1 r' 7 (by decide)))
  refine canon_cons_col (fun y : S256x16.Idx => newL (fun _ => ⊥) (fun _ => 0) x0 x1 (y 0) (y 1)) 6 6 rfl inb_S256x16_S256x1_0_6 _ _ (fun r' => ?_) r h fun n6 => ?_
  · refine (h06_l _ _ _ _ r').trans ?_
    exact newL_of' (fun _ => ⊥) (fun _ => 0) x0 _ x1 _ (ld_q arg3 harg3 x0 _) (ld_kv arg4 harg4 x1 _) 6 r' _ _ (readCov_col arg9.view _ 6 6 rfl _ r' 0 ⊥ (tailA0_7 c arg3 harg3 arg4 harg4 arg9 x0 x1 r' 6 (by decide)))
      (readCov_col arg10.view _ 6 6 rfl _ r' 0 0 (tailA1_7 c arg3 harg3 arg4 harg4 arg9 arg10 x0 x1 r' 6 (by decide)))
  refine canon_cons_col (fun y : S256x16.Idx => newL (fun _ => ⊥) (fun _ => 0) x0 x1 (y 0) (y 1)) 5 5 rfl inb_S256x16_S256x1_0_5 _ _ (fun r' => ?_) r h fun n5 => ?_
  · refine (h05_l _ _ _ _ r').trans ?_
    exact newL_of' (fun _ => ⊥) (fun _ => 0) x0 _ x1 _ (ld_q arg3 harg3 x0 _) (ld_kv arg4 harg4 x1 _) 5 r' _ _ (readCov_col arg9.view _ 5 5 rfl _ r' 0 ⊥ (tailA0_6 c arg3 harg3 arg4 harg4 arg9 x0 x1 r' 5 (by decide)))
      (readCov_col arg10.view _ 5 5 rfl _ r' 0 0 (tailA1_6 c arg3 harg3 arg4 harg4 arg9 arg10 x0 x1 r' 5 (by decide)))
  refine canon_cons_col (fun y : S256x16.Idx => newL (fun _ => ⊥) (fun _ => 0) x0 x1 (y 0) (y 1)) 4 4 rfl inb_S256x16_S256x1_0_4 _ _ (fun r' => ?_) r h fun n4 => ?_
  · refine (h04_l _ _ _ _ r').trans ?_
    exact newL_of' (fun _ => ⊥) (fun _ => 0) x0 _ x1 _ (ld_q arg3 harg3 x0 _) (ld_kv arg4 harg4 x1 _) 4 r' _ _ (readCov_col arg9.view _ 4 4 rfl _ r' 0 ⊥ (tailA0_5 c arg3 harg3 arg4 harg4 arg9 x0 x1 r' 4 (by decide)))
      (readCov_col arg10.view _ 4 4 rfl _ r' 0 0 (tailA1_5 c arg3 harg3 arg4 harg4 arg9 arg10 x0 x1 r' 4 (by decide)))
  refine canon_cons_col (fun y : S256x16.Idx => newL (fun _ => ⊥) (fun _ => 0) x0 x1 (y 0) (y 1)) 3 3 rfl inb_S256x16_S256x1_0_3 _ _ (fun r' => ?_) r h fun n3 => ?_
  · refine (h03_l _ _ _ _ r').trans ?_
    exact newL_of' (fun _ => ⊥) (fun _ => 0) x0 _ x1 _ (ld_q arg3 harg3 x0 _) (ld_kv arg4 harg4 x1 _) 3 r' _ _ (readCov_col arg9.view _ 3 3 rfl _ r' 0 ⊥ (tailA0_4 c arg3 harg3 arg4 harg4 arg9 x0 x1 r' 3 (by decide)))
      (readCov_col arg10.view _ 3 3 rfl _ r' 0 0 (tailA1_4 c arg3 harg3 arg4 harg4 arg9 arg10 x0 x1 r' 3 (by decide)))
  refine canon_cons_col (fun y : S256x16.Idx => newL (fun _ => ⊥) (fun _ => 0) x0 x1 (y 0) (y 1)) 2 2 rfl inb_S256x16_S256x1_0_2 _ _ (fun r' => ?_) r h fun n2 => ?_
  · refine (h02_l _ _ _ _ r').trans ?_
    exact newL_of' (fun _ => ⊥) (fun _ => 0) x0 _ x1 _ (ld_q arg3 harg3 x0 _) (ld_kv arg4 harg4 x1 _) 2 r' _ _ (readCov_col arg9.view _ 2 2 rfl _ r' 0 ⊥ (tailA0_3 c arg3 harg3 arg4 harg4 arg9 x0 x1 r' 2 (by decide)))
      (readCov_col arg10.view _ 2 2 rfl _ r' 0 0 (tailA1_3 c arg3 harg3 arg4 harg4 arg9 arg10 x0 x1 r' 2 (by decide)))
  refine canon_cons_col (fun y : S256x16.Idx => newL (fun _ => ⊥) (fun _ => 0) x0 x1 (y 0) (y 1)) 1 1 rfl inb_S256x16_S256x1_0_1 _ _ (fun r' => ?_) r h fun n1 => ?_
  · refine (h01_l _ _ _ _ r').trans ?_
    exact newL_of' (fun _ => ⊥) (fun _ => 0) x0 _ x1 _ (ld_q arg3 harg3 x0 _) (ld_kv arg4 harg4 x1 _) 1 r' _ _ (readCov_col arg9.view _ 1 1 rfl _ r' 0 ⊥ (tailA0_2 c arg3 harg3 arg4 harg4 arg9 x0 x1 r' 1 (by decide)))
      (readCov_col arg10.view _ 1 1 rfl _ r' 0 0 (tailA1_2 c arg3 harg3 arg4 harg4 arg9 arg10 x0 x1 r' 1 (by decide)))
  refine canon_cons_col (fun y : S256x16.Idx => newL (fun _ => ⊥) (fun _ => 0) x0 x1 (y 0) (y 1)) 0 0 rfl inb_S256x16_S256x1_0_0 _ _ (fun r' => ?_) r h fun n0 => ?_
  · refine (h00_l _ _ _ _ r').trans ?_
    exact newL_of' (fun _ => ⊥) (fun _ => 0) x0 _ x1 _ (ld_q arg3 harg3 x0 _) (ld_kv arg4 harg4 x1 _) 0 r' _ _ (readCov_col arg9.view _ 0 0 rfl _ r' 0 ⊥ (tailA0_1 r' 0))
      (readCov_col arg10.view _ 0 0 rfl _ r' 0 0 (tailA1_1 r' 0))
  exfalso
  have := h.isLt; omega

/-- What a first tile leaves in the buffer of weighted sums: the step's new weighted sum from the start state. -/
theorem sout_A_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : cond3_0 i) (hc1 : ¬cond3_1 i)
    (x0 : Vec Ideal S1x256x1024 .f32) (x1 x2 : Vec Ideal S1x512x1024 .f32) (x3 : Vec Ideal S1024x1024 .bf16) (x4 : Vec Ideal S1x1024 .f32) (r : Fin 256) (cc : Fin 1024) :
    sout3_A_2 (F := Ideal) c i arg3 harg3 arg4 harg4 arg5 harg5 arg6 harg6 arg7 harg7 arg8 harg8 arg9 harg9 arg10 harg10 arg11 harg11 hc0 hc1 x0 x1 x2 x3 x4 (ix2 r cc) = newAcc (fun _ => ⊥) (fun _ => 0) x0 x1 x2 r cc := by
  unfold sout3_A_2
  rw [View.read_writes_eq_canon _ _ _ (scover3_A_2 c i arg3 harg3 arg4 harg4 arg5 harg5 arg6 harg6 arg7 harg7 arg8 harg8 arg9 harg9 arg10 harg10 arg11 harg11 hc0 hc1 x0 x1 x2 x3 x4)]
  unfold kernelRun3_A
  dsimp only
  refine canon_cons_blk (fun y : S256x1024.Idx => newAcc (fun _ => ⊥) (fun _ => 0) x0 x1 x2 (y 0) (y 1)) 960 inb_S256x1024_S256x64_0_960 _ _ (fun r' d cc' hcc => ?_) r cc fun n15 => ?_
  · refine (h15_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      15 d cc' 960 rfl hcc r' _ _ (readCov_col arg9.view _ 15 15 rfl _ r' 0 ⊥ (tailA0_16 c arg3 harg3 arg4 harg4 arg9 x0 x1 r' 15 (by decide)))
      (readCov_blk arg11.view _ 960 cc' d hcc _ r' 0 (tailA2_16 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 896 inb_S256x1024_S256x64_0_896 _ _ (fun r' d cc' hcc => ?_) r cc fun n14 => ?_
  · refine (h14_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      14 d cc' 896 rfl hcc r' _ _ (readCov_col arg9.view _ 14 14 rfl _ r' 0 ⊥ (tailA0_15 c arg3 harg3 arg4 harg4 arg9 x0 x1 r' 14 (by decide)))
      (readCov_blk arg11.view _ 896 cc' d hcc _ r' 0 (tailA2_15 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 832 inb_S256x1024_S256x64_0_832 _ _ (fun r' d cc' hcc => ?_) r cc fun n13 => ?_
  · refine (h13_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      13 d cc' 832 rfl hcc r' _ _ (readCov_col arg9.view _ 13 13 rfl _ r' 0 ⊥ (tailA0_14 c arg3 harg3 arg4 harg4 arg9 x0 x1 r' 13 (by decide)))
      (readCov_blk arg11.view _ 832 cc' d hcc _ r' 0 (tailA2_14 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 768 inb_S256x1024_S256x64_0_768 _ _ (fun r' d cc' hcc => ?_) r cc fun n12 => ?_
  · refine (h12_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      12 d cc' 768 rfl hcc r' _ _ (readCov_col arg9.view _ 12 12 rfl _ r' 0 ⊥ (tailA0_13 c arg3 harg3 arg4 harg4 arg9 x0 x1 r' 12 (by decide)))
      (readCov_blk arg11.view _ 768 cc' d hcc _ r' 0 (tailA2_13 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 704 inb_S256x1024_S256x64_0_704 _ _ (fun r' d cc' hcc => ?_) r cc fun n11 => ?_
  · refine (h11_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      11 d cc' 704 rfl hcc r' _ _ (readCov_col arg9.view _ 11 11 rfl _ r' 0 ⊥ (tailA0_12 c arg3 harg3 arg4 harg4 arg9 x0 x1 r' 11 (by decide)))
      (readCov_blk arg11.view _ 704 cc' d hcc _ r' 0 (tailA2_12 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 640 inb_S256x1024_S256x64_0_640 _ _ (fun r' d cc' hcc => ?_) r cc fun n10 => ?_
  · refine (h10_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      10 d cc' 640 rfl hcc r' _ _ (readCov_col arg9.view _ 10 10 rfl _ r' 0 ⊥ (tailA0_11 c arg3 harg3 arg4 harg4 arg9 x0 x1 r' 10 (by decide)))
      (readCov_blk arg11.view _ 640 cc' d hcc _ r' 0 (tailA2_11 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 576 inb_S256x1024_S256x64_0_576 _ _ (fun r' d cc' hcc => ?_) r cc fun n9 => ?_
  · refine (h09_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      9 d cc' 576 rfl hcc r' _ _ (readCov_col arg9.view _ 9 9 rfl _ r' 0 ⊥ (tailA0_10 c arg3 harg3 arg4 harg4 arg9 x0 x1 r' 9 (by decide)))
      (readCov_blk arg11.view _ 576 cc' d hcc _ r' 0 (tailA2_10 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 512 inb_S256x1024_S256x64_0_512 _ _ (fun r' d cc' hcc => ?_) r cc fun n8 => ?_
  · refine (h08_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      8 d cc' 512 rfl hcc r' _ _ (readCov_col arg9.view _ 8 8 rfl _ r' 0 ⊥ (tailA0_9 c arg3 harg3 arg4 harg4 arg9 x0 x1 r' 8 (by decide)))
      (readCov_blk arg11.view _ 512 cc' d hcc _ r' 0 (tailA2_9 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 448 inb_S256x1024_S256x64_0_448 _ _ (fun r' d cc' hcc => ?_) r cc fun n7 => ?_
  · refine (h07_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      7 d cc' 448 rfl hcc r' _ _ (readCov_col arg9.view _ 7 7 rfl _ r' 0 ⊥ (tailA0_8 c arg3 harg3 arg4 harg4 arg9 x0 x1 r' 7 (by decide)))
      (readCov_blk arg11.view _ 448 cc' d hcc _ r' 0 (tailA2_8 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 384 inb_S256x1024_S256x64_0_384 _ _ (fun r' d cc' hcc => ?_) r cc fun n6 => ?_
  · refine (h06_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      6 d cc' 384 rfl hcc r' _ _ (readCov_col arg9.view _ 6 6 rfl _ r' 0 ⊥ (tailA0_7 c arg3 harg3 arg4 harg4 arg9 x0 x1 r' 6 (by decide)))
      (readCov_blk arg11.view _ 384 cc' d hcc _ r' 0 (tailA2_7 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 320 inb_S256x1024_S256x64_0_320 _ _ (fun r' d cc' hcc => ?_) r cc fun n5 => ?_
  · refine (h05_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      5 d cc' 320 rfl hcc r' _ _ (readCov_col arg9.view _ 5 5 rfl _ r' 0 ⊥ (tailA0_6 c arg3 harg3 arg4 harg4 arg9 x0 x1 r' 5 (by decide)))
      (readCov_blk arg11.view _ 320 cc' d hcc _ r' 0 (tailA2_6 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 256 inb_S256x1024_S256x64_0_256 _ _ (fun r' d cc' hcc => ?_) r cc fun n4 => ?_
  · refine (h04_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      4 d cc' 256 rfl hcc r' _ _ (readCov_col arg9.view _ 4 4 rfl _ r' 0 ⊥ (tailA0_5 c arg3 harg3 arg4 harg4 arg9 x0 x1 r' 4 (by decide)))
      (readCov_blk arg11.view _ 256 cc' d hcc _ r' 0 (tailA2_5 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 192 inb_S256x1024_S256x64_0_192 _ _ (fun r' d cc' hcc => ?_) r cc fun n3 => ?_
  · refine (h03_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      3 d cc' 192 rfl hcc r' _ _ (readCov_col arg9.view _ 3 3 rfl _ r' 0 ⊥ (tailA0_4 c arg3 harg3 arg4 harg4 arg9 x0 x1 r' 3 (by decide)))
      (readCov_blk arg11.view _ 192 cc' d hcc _ r' 0 (tailA2_4 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 128 inb_S256x1024_S256x64_0_128 _ _ (fun r' d cc' hcc => ?_) r cc fun n2 => ?_
  · refine (h02_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      2 d cc' 128 rfl hcc r' _ _ (readCov_col arg9.view _ 2 2 rfl _ r' 0 ⊥ (tailA0_3 c arg3 harg3 arg4 harg4 arg9 x0 x1 r' 2 (by decide)))
      (readCov_blk arg11.view _ 128 cc' d hcc _ r' 0 (tailA2_3 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 64 inb_S256x1024_S256x64_0_64 _ _ (fun r' d cc' hcc => ?_) r cc fun n1 => ?_
  · refine (h01_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      1 d cc' 64 rfl hcc r' _ _ (readCov_col arg9.view _ 1 1 rfl _ r' 0 ⊥ (tailA0_2 c arg3 harg3 arg4 harg4 arg9 x0 x1 r' 1 (by decide)))
      (readCov_blk arg11.view _ 64 cc' d hcc _ r' 0 (tailA2_2 c arg3 harg3 arg4 harg4 arg5 harg5 arg9 arg11 x0 x1 x2 r' cc' (by omega)))
  refine canon_cons_blk (fun y : S256x1024.Idx => newAcc (fun _ => ⊥) (fun _ => 0) x0 x1 x2 (y 0) (y 1)) 0 inb_S256x1024_S256x64_0_0 _ _ (fun r' d cc' hcc => ?_) r cc fun n0 => ?_
  · refine (h00_acc _ _ _ _ _ r' d).trans ?_
    exact newAcc_of' (fun _ => ⊥) (fun _ => 0) x0 _ x1 _ x2 _ (ld_q arg3 harg3 x0 _) (ld_kv arg4 harg4 x1 _) (ld_kv arg5 harg5 x2 _)
      0 d cc' 0 rfl hcc r' _ _ (readCov_col arg9.view _ 0 0 rfl _ r' 0 ⊥ (tailA0_1 r' 0))
      (readCov_blk arg11.view _ 0 cc' d hcc _ r' 0 (tailA2_1 r' cc'))
  exfalso
  have := cc.isLt; omega

end Cert.KernelIdeal.AttnPieces

end
-- ==== Proof.AttnPieces.B.lean ====
/-
  A middle key tile: what the body leaves in the three carried buffers, read at coordinates.  The run finds, for
  each buffer, sixteen stored pieces, one per head (a column of the maxima, a column of the partition sums, 64
  columns of the weighted sums); each piece is the one-head step over what the body loaded — the query block, the
  key and value tiles, and the head's column or block of the state before the point — so each buffer holds, at
  every row and head (or model column), the streaming step's new maximum, new partition sum, new weighted sum.
-/
import proofs.«161242_j13649406066792_2_alg».proof.Proof.AttnPieces.Loads

set_option maxRecDepth 16384

noncomputable section

namespace Cert.KernelIdeal.AttnPieces

open Idealize.ShloMosaic Idealize.ShloMosaic.ValueIdx Idealize.ShloMosaic.Tactic Idealize.SL.Sem
open Cert.KernelIdeal Cert.KernelIdeal.Gen Cert.KernelIdeal.Hand Cert.KernelIdeal.AttnPayload Cert.Spec Cert.AttnStep

/-- What a middle tile leaves in the buffer of running maxima: the new maximum at every row and head. -/
theorem sout_B_0 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec Ideal S1x256x1024 .f32) (x1 x2 : Vec Ideal S1x512x1024 .f32) (x3 : Vec Ideal S1024x1024 .bf16) (x4 : Vec Ideal S1x1024 .f32) (xs0 xs1 : Vec Ideal S256x16 .f32) (xs2 : Vec Ideal S256x1024 .f32) (r : Fin 256) (h : Fin 16) :
    sout3_B_0 (F := Ideal) c i arg3 harg3 arg4 harg4 arg5 harg5 arg6 harg6 arg7 harg7 arg8 harg8 arg9 harg9 arg10 harg10 arg11 harg11 hc0 hc1 x0 x1 x2 x3 x4 xs0 xs1 xs2 (ix2 r h) = newM xs0 x0 x1 r h := by
  unfold sout3_B_0
  rw [View.read_writes_eq_canon _ _ _ (scover3_B_0 c i arg3 harg3 arg4 harg4 arg5 harg5 arg6 harg6 arg7 harg7 arg8 harg8 arg9 harg9 arg10 harg10 arg11 harg11 hc0 hc1 x0 x1 x2 x3 x4 xs0 xs1 xs2)]
  refine View.canon_apply_of_pieces (fun y : S256x16.Idx => newM xs0 x0 x1 (y 0) (y 1)) _ ?_ (ix2 r h) (scover3_B_0 c i arg3 harg3 arg4 harg4 arg5 harg5 arg6 harg6 arg7 harg7 arg8 harg8 arg9 harg9 arg10 harg10 arg11 harg11 hc0 hc1 x0 x1 x2 x3 x4 xs0 xs1 xs2 (ix2 r h))
  unfold kernelRun3_B
  dsimp only
  sl_unfold_words
  simp only [View.readAt_eq_ld, harg3.read_unread, harg4.read_unread, harg9.read_unread,
    View.ld_unit_zero (S := S1x256x1024) hz3, View.ld_unit_zero (S := S1x512x1024) hz3]
  intro p hp
  simp only [List.mem_cons, List.not_mem_nil, or_false] at hp
  rcases hp with rfl | rfl | rfl | rfl | rfl | rfl | rfl | rfl | rfl | rfl | rfl | rfl | rfl | rfl | rfl | rfl
  · refine colPiece (fun y : S256x16.Idx => newM xs0 x0 x1 (y 0) (y 1)) 15 15 rfl inb_S256x16_S256x1_0_15 _ fun r => ?_
    exact (h15_m x0 x1 _ r).trans (newM_of xs0 x0 x1 15 r _ (ld_col xs0 15 15 rfl _ r 0))
  · refine colPiece (fun y : S256x16.Idx => newM xs0 x0 x1 (y 0) (y 1)) 14 14 rfl inb_S256x16_S256x1_0_14 _ fun r => ?_
    exact (h14_m x0 x1 _ r).trans (newM_of xs0 x0 x1 14 r _ (ld_col xs0 14 14 rfl _ r 0))
  · refine colPiece (fun y : S256x16.Idx => newM xs0 x0 x1 (y 0) (y 1)) 13 13 rfl inb_S256x16_S256x1_0_13 _ fun r => ?_
    exact (h13_m x0 x1 _ r).trans (newM_of xs0 x0 x1 13 r _ (ld_col xs0 13 13 rfl _ r 0))
  · refine colPiece (fun y : S256x16.Idx => newM xs0 x0 x1 (y 0) (y 1)) 12 12 rfl inb_S256x16_S256x1_0_12 _ fun r => ?_
    exact (h12_m x0 x1 _ r).trans (newM_of xs0 x0 x1 12 r _ (ld_col xs0 12 12 rfl _ r 0))
  · refine colPiece (fun y : S256x16.Idx => newM xs0 x0 x1 (y 0) (y 1)) 11 11 rfl inb_S256x16_S256x1_0_11 _ fun r => ?_
    exact (h11_m x0 x1 _ r).trans (newM_of xs0 x0 x1 11 r _ (ld_col xs0 11 11 rfl _ r 0))
  · refine colPiece (fun y : S256x16.Idx => newM xs0 x0 x1 (y 0) (y 1)) 10 10 rfl inb_S256x16_S256x1_0_10 _ fun r => ?_
    exact (h10_m x0 x1 _ r).trans (newM_of xs0 x0 x1 10 r _ (ld_col xs0 10 10 rfl _ r 0))
  · refine colPiece (fun y : S256x16.Idx => newM xs0 x0 x1 (y 0) (y 1)) 9 9 rfl inb_S256x16_S256x1_0_9 _ fun r => ?_
    exact (h09_m x0 x1 _ r).trans (newM_of xs0 x0 x1 9 r _ (ld_col xs0 9 9 rfl _ r 0))
  · refine colPiece (fun y : S256x16.Idx => newM xs0 x0 x1 (y 0) (y 1)) 8 8 rfl inb_S256x16_S256x1_0_8 _ fun r => ?_
    exact (h08_m x0 x1 _ r).trans (newM_of xs0 x0 x1 8 r _ (ld_col xs0 8 8 rfl _ r 0))
  · refine colPiece (fun y : S256x16.Idx => newM xs0 x0 x1 (y 0) (y 1)) 7 7 rfl inb_S256x16_S256x1_0_7 _ fun r => ?_
    exact (h07_m x0 x1 _ r).trans (newM_of xs0 x0 x1 7 r _ (ld_col xs0 7 7 rfl _ r 0))
  · refine colPiece (fun y : S256x16.Idx => newM xs0 x0 x1 (y 0) (y 1)) 6 6 rfl inb_S256x16_S256x1_0_6 _ fun r => ?_
    exact (h06_m x0 x1 _ r).trans (newM_of xs0 x0 x1 6 r _ (ld_col xs0 6 6 rfl _ r 0))
  · refine colPiece (fun y : S256x16.Idx => newM xs0 x0 x1 (y 0) (y 1)) 5 5 rfl inb_S256x16_S256x1_0_5 _ fun r => ?_
    exact (h05_m x0 x1 _ r).trans (newM_of xs0 x0 x1 5 r _ (ld_col xs0 5 5 rfl _ r 0))
  · refine colPiece (fun y : S256x16.Idx => newM xs0 x0 x1 (y 0) (y 1)) 4 4 rfl inb_S256x16_S256x1_0_4 _ fun r => ?_
    exact (h04_m x0 x1 _ r).trans (newM_of xs0 x0 x1 4 r _ (ld_col xs0 4 4 rfl _ r 0))
  · refine colPiece (fun y : S256x16.Idx => newM xs0 x0 x1 (y 0) (y 1)) 3 3 rfl inb_S256x16_S256x1_0_3 _ fun r => ?_
    exact (h03_m x0 x1 _ r).trans (newM_of xs0 x0 x1 3 r _ (ld_col xs0 3 3 rfl _ r 0))
  · refine colPiece (fun y : S256x16.Idx => newM xs0 x0 x1 (y 0) (y 1)) 2 2 rfl inb_S256x16_S256x1_0_2 _ fun r => ?_
    exact (h02_m x0 x1 _ r).trans (newM_of xs0 x0 x1 2 r _ (ld_col xs0 2 2 rfl _ r 0))
  · refine colPiece (fun y : S256x16.Idx => newM xs0 x0 x1 (y 0) (y 1)) 1 1 rfl inb_S256x16_S256x1_0_1 _ fun r => ?_
    exact (h01_m x0 x1 _ r).trans (newM_of xs0 x0 x1 1 r _ (ld_col xs0 1 1 rfl _ r 0))
  · refine colPiece (fun y : S256x16.Idx => newM xs0 x0 x1 (y 0) (y 1)) 0 0 rfl inb_S256x16_S256x1_0_0 _ fun r => ?_
    exact (h00_m x0 x1 _ r).trans (newM_of xs0 x0 x1 0 r _ (ld_col xs0 0 0 rfl _ r 0))

/-- What a middle tile leaves in the buffer of partition sums: the new sum at every row and head. -/
theorem sout_B_1 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec Ideal S1x256x1024 .f32) (x1 x2 : Vec Ideal S1x512x1024 .f32) (x3 : Vec Ideal S1024x1024 .bf16) (x4 : Vec Ideal S1x1024 .f32) (xs0 xs1 : Vec Ideal S256x16 .f32) (xs2 : Vec Ideal S256x1024 .f32) (r : Fin 256) (h : Fin 16) :
    sout3_B_1 (F := Ideal) c i arg3 harg3 arg4 harg4 arg5 harg5 arg6 harg6 arg7 harg7 arg8 harg8 arg9 harg9 arg10 harg10 arg11 harg11 hc0 hc1 x0 x1 x2 x3 x4 xs0 xs1 xs2 (ix2 r h) = newL xs0 xs1 x0 x1 r h := by
  unfold sout3_B_1
  rw [View.read_writes_eq_canon _ _ _ (scover3_B_1 c i arg3 harg3 arg4 harg4 arg5 harg5 arg6 harg6 arg7 harg7 arg8 harg8 arg9 harg9 arg10 harg10 arg11 harg11 hc0 hc1 x0 x1 x2 x3 x4 xs0 xs1 xs2)]
  refine View.canon_apply_of_pieces (fun y : S256x16.Idx => newL xs0 xs1 x0 x1 (y 0) (y 1)) _ ?_ (ix2 r h) (scover3_B_1 c i arg3 harg3 arg4 harg4 arg5 harg5 arg6 harg6 arg7 harg7 arg8 harg8 arg9 harg9 arg10 harg10 arg11 harg11 hc0 hc1 x0 x1 x2 x3 x4 xs0 xs1 xs2 (ix2 r h))
  unfold kernelRun3_B
  dsimp only
  sl_unfold_words
  simp only [View.readAt_eq_ld, harg3.read_unread, harg4.read_unread, harg9.read_unread, harg10.read_unread,
    View.ld_unit_zero (S := S1x256x1024) hz3, View.ld_unit_zero (S := S1x512x1024) hz3]
  intro p hp
  simp only [List.mem_cons, List.not_mem_nil, or_false] at hp
  rcases hp with rfl | rfl | rfl | rfl | rfl | rfl | rfl | rfl | rfl | rfl | rfl | rfl | rfl | rfl | rfl | rfl
  · refine colPiece (fun y : S256x16.Idx => newL xs0 xs1 x0 x1 (y 0) (y 1)) 15 15 rfl inb_S256x16_S256x1_0_15 _ fun r => ?_
    exact (h15_l x0 x1 _ _ r).trans (newL_of xs0 xs1 x0 x1 15 r _ _ (ld_col xs0 15 15 rfl _ r 0) (ld_col xs1 15 15 rfl _ r 0))
  · refine colPiece (fun y : S256x16.Idx => newL xs0 xs1 x0 x1 (y 0) (y 1)) 14 14 rfl inb_S256x16_S256x1_0_14 _ fun r => ?_
    exact (h14_l x0 x1 _ _ r).trans (newL_of xs0 xs1 x0 x1 14 r _ _ (ld_col xs0 14 14 rfl _ r 0) (ld_col xs1 14 14 rfl _ r 0))
  · refine colPiece (fun y : S256x16.Idx => newL xs0 xs1 x0 x1 (y 0) (y 1)) 13 13 rfl inb_S256x16_S256x1_0_13 _ fun r => ?_
    exact (h13_l x0 x1 _ _ r).trans (newL_of xs0 xs1 x0 x1 13 r _ _ (ld_col xs0 13 13 rfl _ r 0) (ld_col xs1 13 13 rfl _ r 0))
  · refine colPiece (fun y : S256x16.Idx => newL xs0 xs1 x0 x1 (y 0) (y 1)) 12 12 rfl inb_S256x16_S256x1_0_12 _ fun r => ?_
    exact (h12_l x0 x1 _ _ r).trans (newL_of xs0 xs1 x0 x1 12 r _ _ (ld_col xs0 12 12 rfl _ r 0) (ld_col xs1 12 12 rfl _ r 0))
  · refine colPiece (fun y : S256x16.Idx => newL xs0 xs1 x0 x1 (y 0) (y 1)) 11 11 rfl inb_S256x16_S256x1_0_11 _ fun r => ?_
    exact (h11_l x0 x1 _ _ r).trans (newL_of xs0 xs1 x0 x1 11 r _ _ (ld_col xs0 11 11 rfl _ r 0) (ld_col xs1 11 11 rfl _ r 0))
  · refine colPiece (fun y : S256x16.Idx => newL xs0 xs1 x0 x1 (y 0) (y 1)) 10 10 rfl inb_S256x16_S256x1_0_10 _ fun r => ?_
    exact (h10_l x0 x1 _ _ r).trans (newL_of xs0 xs1 x0 x1 10 r _ _ (ld_col xs0 10 10 rfl _ r 0) (ld_col xs1 10 10 rfl _ r 0))
  · refine colPiece (fun y : S256x16.Idx => newL xs0 xs1 x0 x1 (y 0) (y 1)) 9 9 rfl inb_S256x16_S256x1_0_9 _ fun r => ?_
    exact (h09_l x0 x1 _ _ r).trans (newL_of xs0 xs1 x0 x1 9 r _ _ (ld_col xs0 9 9 rfl _ r 0) (ld_col xs1 9 9 rfl _ r 0))
  · refine colPiece (fun y : S256x16.Idx => newL xs0 xs1 x0 x1 (y 0) (y 1)) 8 8 rfl inb_S256x16_S256x1_0_8 _ fun r => ?_
    exact (h08_l x0 x1 _ _ r).trans (newL_of xs0 xs1 x0 x1 8 r _ _ (ld_col xs0 8 8 rfl _ r 0) (ld_col xs1 8 8 rfl _ r 0))
  · refine colPiece (fun y : S256x16.Idx => newL xs0 xs1 x0 x1 (y 0) (y 1)) 7 7 rfl inb_S256x16_S256x1_0_7 _ fun r => ?_
    exact (h07_l x0 x1 _ _ r).trans (newL_of xs0 xs1 x0 x1 7 r _ _ (ld_col xs0 7 7 rfl _ r 0) (ld_col xs1 7 7 rfl _ r 0))
  · refine colPiece (fun y : S256x16.Idx => newL xs0 xs1 x0 x1 (y 0) (y 1)) 6 6 rfl inb_S256x16_S256x1_0_6 _ fun r => ?_
    exact (h06_l x0 x1 _ _ r).trans (newL_of xs0 xs1 x0 x1 6 r _ _ (ld_col xs0 6 6 rfl _ r 0) (ld_col xs1 6 6 rfl _ r 0))
  · refine colPiece (fun y : S256x16.Idx => newL xs0 xs1 x0 x1 (y 0) (y 1)) 5 5 rfl inb_S256x16_S256x1_0_5 _ fun r => ?_
    exact (h05_l x0 x1 _ _ r).trans (newL_of xs0 xs1 x0 x1 5 r _ _ (ld_col xs0 5 5 rfl _ r 0) (ld_col xs1 5 5 rfl _ r 0))
  · refine colPiece (fun y : S256x16.Idx => newL xs0 xs1 x0 x1 (y 0) (y 1)) 4 4 rfl inb_S256x16_S256x1_0_4 _ fun r => ?_
    exact (h04_l x0 x1 _ _ r).trans (newL_of xs0 xs1 x0 x1 4 r _ _ (ld_col xs0 4 4 rfl _ r 0) (ld_col xs1 4 4 rfl _ r 0))
  · refine colPiece (fun y : S256x16.Idx => newL xs0 xs1 x0 x1 (y 0) (y 1)) 3 3 rfl inb_S256x16_S256x1_0_3 _ fun r => ?_
    exact (h03_l x0 x1 _ _ r).trans (newL_of xs0 xs1 x0 x1 3 r _ _ (ld_col xs0 3 3 rfl _ r 0) (ld_col xs1 3 3 rfl _ r 0))
  · refine colPiece (fun y : S256x16.Idx => newL xs0 xs1 x0 x1 (y 0) (y 1)) 2 2 rfl inb_S256x16_S256x1_0_2 _ fun r => ?_
    exact (h02_l x0 x1 _ _ r).trans (newL_of xs0 xs1 x0 x1 2 r _ _ (ld_col xs0 2 2 rfl _ r 0) (ld_col xs1 2 2 rfl _ r 0))
  · refine colPiece (fun y : S256x16.Idx => newL xs0 xs1 x0 x1 (y 0) (y 1)) 1 1 rfl inb_S256x16_S256x1_0_1 _ fun r => ?_
    exact (h01_l x0 x1 _ _ r).trans (newL_of xs0 xs1 x0 x1 1 r _ _ (ld_col xs0 1 1 rfl _ r 0) (ld_col xs1 1 1 rfl _ r 0))
  · refine colPiece (fun y : S256x16.Idx => newL xs0 xs1 x0 x1 (y 0) (y 1)) 0 0 rfl inb_S256x16_S256x1_0_0 _ fun r => ?_
    exact (h00_l x0 x1 _ _ r).trans (newL_of xs0 xs1 x0 x1 0 r _ _ (ld_col xs0 0 0 rfl _ r 0) (ld_col xs1 0 0 rfl _ r 0))

/-- What a middle tile leaves in the buffer of weighted sums: the new weighted sum at every row and model column. -/
theorem sout_B_2 (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : ¬cond3_1 i)
    (x0 : Vec Ideal S1x256x1024 .f32) (x1 x2 : Vec Ideal S1x512x1024 .f32) (x3 : Vec Ideal S1024x1024 .bf16) (x4 : Vec Ideal S1x1024 .f32) (xs0 xs1 : Vec Ideal S256x16 .f32) (xs2 : Vec Ideal S256x1024 .f32) (r : Fin 256) (cc : Fin 1024) :
    sout3_B_2 (F := Ideal) c i arg3 harg3 arg4 harg4 arg5 harg5 arg6 harg6 arg7 harg7 arg8 harg8 arg9 harg9 arg10 harg10 arg11 harg11 hc0 hc1 x0 x1 x2 x3 x4 xs0 xs1 xs2 (ix2 r cc) = newAcc xs0 xs2 x0 x1 x2 r cc := by
  unfold sout3_B_2
  rw [View.read_writes_eq_canon _ _ _ (scover3_B_2 c i arg3 harg3 arg4 harg4 arg5 harg5 arg6 harg6 arg7 harg7 arg8 harg8 arg9 harg9 arg10 harg10 arg11 harg11 hc0 hc1 x0 x1 x2 x3 x4 xs0 xs1 xs2)]
  refine View.canon_apply_of_pieces (fun y : S256x1024.Idx => newAcc xs0 xs2 x0 x1 x2 (y 0) (y 1)) _ ?_ (ix2 r cc) (scover3_B_2 c i arg3 harg3 arg4 harg4 arg5 harg5 arg6 harg6 arg7 harg7 arg8 harg8 arg9 harg9 arg10 harg10 arg11 harg11 hc0 hc1 x0 x1 x2 x3 x4 xs0 xs1 xs2 (ix2 r cc))
  unfold kernelRun3_B
  dsimp only
  sl_unfold_words
  simp only [View.readAt_eq_ld, harg3.read_unread, harg4.read_unread, harg5.read_unread, harg9.read_unread, harg11.read_unread,
    View.ld_unit_zero (S := S1x256x1024) hz3, View.ld_unit_zero (S := S1x512x1024) hz3]
  intro p hp
  simp only [List.mem_cons, List.not_mem_nil, or_false] at hp
  rcases hp with rfl | rfl | rfl | rfl | rfl | rfl | rfl | rfl | rfl | rfl | rfl | rfl | rfl | rfl | rfl | rfl
  · refine blkPiece (fun y : S256x1024.Idx => newAcc xs0 xs2 x0 x1 x2 (y 0) (y 1)) 960 inb_S256x1024_S256x64_0_960 _ fun r d cc hcc => ?_
    exact (h15_acc x0 x1 x2 _ _ r d).trans (newAcc_of xs0 xs2 x0 x1 x2 15 d cc 960 rfl hcc r _ _ (ld_col xs0 15 15 rfl _ r 0) (ld_blk xs2 960 cc d hcc _ r))
  · refine blkPiece (fun y : S256x1024.Idx => newAcc xs0 xs2 x0 x1 x2 (y 0) (y 1)) 896 inb_S256x1024_S256x64_0_896 _ fun r d cc hcc => ?_
    exact (h14_acc x0 x1 x2 _ _ r d).trans (newAcc_of xs0 xs2 x0 x1 x2 14 d cc 896 rfl hcc r _ _ (ld_col xs0 14 14 rfl _ r 0) (ld_blk xs2 896 cc d hcc _ r))
  · refine blkPiece (fun y : S256x1024.Idx => newAcc xs0 xs2 x0 x1 x2 (y 0) (y 1)) 832 inb_S256x1024_S256x64_0_832 _ fun r d cc hcc => ?_
    exact (h13_acc x0 x1 x2 _ _ r d).trans (newAcc_of xs0 xs2 x0 x1 x2 13 d cc 832 rfl hcc r _ _ (ld_col xs0 13 13 rfl _ r 0) (ld_blk xs2 832 cc d hcc _ r))
  · refine blkPiece (fun y : S256x1024.Idx => newAcc xs0 xs2 x0 x1 x2 (y 0) (y 1)) 768 inb_S256x1024_S256x64_0_768 _ fun r d cc hcc => ?_
    exact (h12_acc x0 x1 x2 _ _ r d).trans (newAcc_of xs0 xs2 x0 x1 x2 12 d cc 768 rfl hcc r _ _ (ld_col xs0 12 12 rfl _ r 0) (ld_blk xs2 768 cc d hcc _ r))
  · refine blkPiece (fun y : S256x1024.Idx => newAcc xs0 xs2 x0 x1 x2 (y 0) (y 1)) 704 inb_S256x1024_S256x64_0_704 _ fun r d cc hcc => ?_
    exact (h11_acc x0 x1 x2 _ _ r d).trans (newAcc_of xs0 xs2 x0 x1 x2 11 d cc 704 rfl hcc r _ _ (ld_col xs0 11 11 rfl _ r 0) (ld_blk xs2 704 cc d hcc _ r))
  · refine blkPiece (fun y : S256x1024.Idx => newAcc xs0 xs2 x0 x1 x2 (y 0) (y 1)) 640 inb_S256x1024_S256x64_0_640 _ fun r d cc hcc => ?_
    exact (h10_acc x0 x1 x2 _ _ r d).trans (newAcc_of xs0 xs2 x0 x1 x2 10 d cc 640 rfl hcc r _ _ (ld_col xs0 10 10 rfl _ r 0) (ld_blk xs2 640 cc d hcc _ r))
  · refine blkPiece (fun y : S256x1024.Idx => newAcc xs0 xs2 x0 x1 x2 (y 0) (y 1)) 576 inb_S256x1024_S256x64_0_576 _ fun r d cc hcc => ?_
    exact (h09_acc x0 x1 x2 _ _ r d).trans (newAcc_of xs0 xs2 x0 x1 x2 9 d cc 576 rfl hcc r _ _ (ld_col xs0 9 9 rfl _ r 0) (ld_blk xs2 576 cc d hcc _ r))
  · refine blkPiece (fun y : S256x1024.Idx => newAcc xs0 xs2 x0 x1 x2 (y 0) (y 1)) 512 inb_S256x1024_S256x64_0_512 _ fun r d cc hcc => ?_
    exact (h08_acc x0 x1 x2 _ _ r d).trans (newAcc_of xs0 xs2 x0 x1 x2 8 d cc 512 rfl hcc r _ _ (ld_col xs0 8 8 rfl _ r 0) (ld_blk xs2 512 cc d hcc _ r))
  · refine blkPiece (fun y : S256x1024.Idx => newAcc xs0 xs2 x0 x1 x2 (y 0) (y 1)) 448 inb_S256x1024_S256x64_0_448 _ fun r d cc hcc => ?_
    exact (h07_acc x0 x1 x2 _ _ r d).trans (newAcc_of xs0 xs2 x0 x1 x2 7 d cc 448 rfl hcc r _ _ (ld_col xs0 7 7 rfl _ r 0) (ld_blk xs2 448 cc d hcc _ r))
  · refine blkPiece (fun y : S256x1024.Idx => newAcc xs0 xs2 x0 x1 x2 (y 0) (y 1)) 384 inb_S256x1024_S256x64_0_384 _ fun r d cc hcc => ?_
    exact (h06_acc x0 x1 x2 _ _ r d).trans (newAcc_of xs0 xs2 x0 x1 x2 6 d cc 384 rfl hcc r _ _ (ld_col xs0 6 6 rfl _ r 0) (ld_blk xs2 384 cc d hcc _ r))
  · refine blkPiece (fun y : S256x1024.Idx => newAcc xs0 xs2 x0 x1 x2 (y 0) (y 1)) 320 inb_S256x1024_S256x64_0_320 _ fun r d cc hcc => ?_
    exact (h05_acc x0 x1 x2 _ _ r d).trans (newAcc_of xs0 xs2 x0 x1 x2 5 d cc 320 rfl hcc r _ _ (ld_col xs0 5 5 rfl _ r 0) (ld_blk xs2 320 cc d hcc _ r))
  · refine blkPiece (fun y : S256x1024.Idx => newAcc xs0 xs2 x0 x1 x2 (y 0) (y 1)) 256 inb_S256x1024_S256x64_0_256 _ fun r d cc hcc => ?_
    exact (h04_acc x0 x1 x2 _ _ r d).trans (newAcc_of xs0 xs2 x0 x1 x2 4 d cc 256 rfl hcc r _ _ (ld_col xs0 4 4 rfl _ r 0) (ld_blk xs2 256 cc d hcc _ r))
  · refine blkPiece (fun y : S256x1024.Idx => newAcc xs0 xs2 x0 x1 x2 (y 0) (y 1)) 192 inb_S256x1024_S256x64_0_192 _ fun r d cc hcc => ?_
    exact (h03_acc x0 x1 x2 _ _ r d).trans (newAcc_of xs0 xs2 x0 x1 x2 3 d cc 192 rfl hcc r _ _ (ld_col xs0 3 3 rfl _ r 0) (ld_blk xs2 192 cc d hcc _ r))
  · refine blkPiece (fun y : S256x1024.Idx => newAcc xs0 xs2 x0 x1 x2 (y 0) (y 1)) 128 inb_S256x1024_S256x64_0_128 _ fun r d cc hcc => ?_
    exact (h02_acc x0 x1 x2 _ _ r d).trans (newAcc_of xs0 xs2 x0 x1 x2 2 d cc 128 rfl hcc r _ _ (ld_col xs0 2 2 rfl _ r 0) (ld_blk xs2 128 cc d hcc _ r))
  · refine blkPiece (fun y : S256x1024.Idx => newAcc xs0 xs2 x0 x1 x2 (y 0) (y 1)) 64 inb_S256x1024_S256x64_0_64 _ fun r d cc hcc => ?_
    exact (h01_acc x0 x1 x2 _ _ r d).trans (newAcc_of xs0 xs2 x0 x1 x2 1 d cc 64 rfl hcc r _ _ (ld_col xs0 1 1 rfl _ r 0) (ld_blk xs2 64 cc d hcc _ r))
  · refine blkPiece (fun y : S256x1024.Idx => newAcc xs0 xs2 x0 x1 x2 (y 0) (y 1)) 0 inb_S256x1024_S256x64_0_0 _ fun r d cc hcc => ?_
    exact (h00_acc x0 x1 x2 _ _ r d).trans (newAcc_of xs0 xs2 x0 x1 x2 0 d cc 0 rfl hcc r _ _ (ld_col xs0 0 0 rfl _ r 0) (ld_blk xs2 0 cc d hcc _ r))

end Cert.KernelIdeal.AttnPieces

end
-- ==== Proof.AttnPieces.lean ====
/-
  The carried state after a first and after a middle key tile, as one step of the streaming recurrence.

  At a first tile the three carried buffers hold the step applied to the start state (maxima −∞, sums 0) with the
  point's query block and key and value tiles; at a middle tile the step applied to the state before the point.
  Both are read off the pieces the body's run stored (modules `A` and `B`), entry by entry, and stated here for
  the point's blocks as the region finds them and an arbitrary state before the point.
-/
import proofs.«161242_j13649406066792_2_alg».proof.Proof.AttnPieces.A
import proofs.«161242_j13649406066792_2_alg».proof.Proof.AttnPieces.B
import proofs.«161242_j13649406066792_2_alg».proof.Proof.AttnFold

set_option maxRecDepth 16384

noncomputable section

namespace Cert.KernelIdeal.AttnPieces

open Idealize.ShloMosaic Idealize.ShloMosaic.ValueIdx Idealize.ShloMosaic.Tactic Idealize.ShloMosaic.TcCoe Idealize.SL.Sem
open Cert.KernelIdeal Cert.KernelIdeal.Gen Cert.KernelIdeal.Hand Cert.KernelIdeal.AttnPayload Cert.Spec Cert.AttnStep

section Region
variable (V : (c : Dev nD) → (b : Ref sig .tc) → Buf (Elt Ideal) ((c : Thread nD τ).loc b)) (c : Dev nD)

set_option maxHeartbeats 2000000 in
/-- After a first key tile the carried state is the step from the start state. -/
theorem first (t : Fin cfg3.N) (h0 : t.val % 4 = 0) (h1 : ¬t.val % 4 = 3) :
    (⟨(stA V c t h0 h1).1, (stA V c t h0 h1).2.1, (stA V c t h0 h1).2.2⟩ : Cert.AttnFold.State)
      = Cert.AttnFold.step (iblk3 V c 0 t) (iblk3 V c 1 t) (iblk3 V c 2 t) Cert.AttnFold.start := by
  have e0 : (stA V c t h0 h1).1 = (Cert.AttnFold.step (iblk3 V c 0 t) (iblk3 V c 1 t) (iblk3 V c 2 t) Cert.AttnFold.start).m :=
    funext fun i => by
      obtain ⟨r, h, rfl⟩ : ∃ (r : Fin 256) (h : Fin 16), i = ix2 r h := ⟨i 0, i 1, eq_ix2 i⟩
      exact sout_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) r h
  have e1 : (stA V c t h0 h1).2.1 = (Cert.AttnFold.step (iblk3 V c 0 t) (iblk3 V c 1 t) (iblk3 V c 2 t) Cert.AttnFold.start).l :=
    funext fun i => by
      obtain ⟨r, h, rfl⟩ : ∃ (r : Fin 256) (h : Fin 16), i = ix2 r h := ⟨i 0, i 1, eq_ix2 i⟩
      exact sout_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) r h
  have e2 : (stA V c t h0 h1).2.2 = (Cert.AttnFold.step (iblk3 V c 0 t) (iblk3 V c 1 t) (iblk3 V c 2 t) Cert.AttnFold.start).acc :=
    funext fun i => by
      obtain ⟨r, cc, rfl⟩ : ∃ (r : Fin 256) (cc : Fin 1024), i = ix2 r cc := ⟨i 0, i 1, eq_ix2 i⟩
      exact sout_A_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) r cc
  exact congr (congr (congrArg Cert.AttnFold.State.mk e0) e1) e2

set_option maxHeartbeats 2000000 in
/-- After a middle key tile the carried state is the step from the state before the point. -/
theorem middle (t : Fin cfg3.N) (h0 : ¬t.val % 4 = 0) (h1 : ¬t.val % 4 = 3) (s : St3 (F := Ideal)) :
    (⟨(stB V c t h0 h1 s).1, (stB V c t h0 h1 s).2.1, (stB V c t h0 h1 s).2.2⟩ : Cert.AttnFold.State)
      = Cert.AttnFold.step (iblk3 V c 0 t) (iblk3 V c 1 t) (iblk3 V c 2 t) ⟨s.1, s.2.1, s.2.2⟩ := by
  have e0 : (stB V c t h0 h1 s).1 = (Cert.AttnFold.step (iblk3 V c 0 t) (iblk3 V c 1 t) (iblk3 V c 2 t) ⟨s.1, s.2.1, s.2.2⟩).m :=
    funext fun i => by
      obtain ⟨r, h, rfl⟩ : ∃ (r : Fin 256) (h : Fin 16), i = ix2 r h := ⟨i 0, i 1, eq_ix2 i⟩
      exact sout_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2 r h
  have e1 : (stB V c t h0 h1 s).2.1 = (Cert.AttnFold.step (iblk3 V c 0 t) (iblk3 V c 1 t) (iblk3 V c 2 t) ⟨s.1, s.2.1, s.2.2⟩).l :=
    funext fun i => by
      obtain ⟨r, h, rfl⟩ : ∃ (r : Fin 256) (h : Fin 16), i = ix2 r h := ⟨i 0, i 1, eq_ix2 i⟩
      exact sout_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2 r h
  have e2 : (stB V c t h0 h1 s).2.2 = (Cert.AttnFold.step (iblk3 V c 0 t) (iblk3 V c 1 t) (iblk3 V c 2 t) ⟨s.1, s.2.1, s.2.2⟩).acc :=
    funext fun i => by
      obtain ⟨r, cc, rfl⟩ : ∃ (r : Fin 256) (cc : Fin 1024), i = ix2 r cc := ⟨i 0, i 1, eq_ix2 i⟩
      exact sout_B_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s.1 s.2.1 s.2.2 r cc
  exact congr (congr (congrArg Cert.AttnFold.State.mk e0) e1) e2

end Region

end Cert.KernelIdeal.AttnPieces

end
-- ==== Proof.AttnOutC.Stream.lean ====
/-
  A last key tile, the streaming part: what the sixteen streaming stores of the point leave in the buffer of
  partition sums and in the buffer of weighted sums, before the closing branch reads them.  As at a middle tile,
  each buffer's sixteen pieces are the one-head step over what the body loaded, so the pieces read back are the
  step's new partition sum at every row and head and its new weighted sum at every row and model column.
-/
import proofs.«161242_j13649406066792_2_alg».proof.Proof.AttnPieces.Loads

set_option maxRecDepth 16384

noncomputable section

namespace Cert.KernelIdeal.AttnOutC

open Idealize.ShloMosaic Idealize.ShloMosaic.ValueIdx Idealize.ShloMosaic.Tactic Idealize.SL.Sem
open Cert.KernelIdeal Cert.KernelIdeal.Gen Cert.KernelIdeal.Hand Cert.KernelIdeal.AttnPayload Cert.KernelIdeal.AttnPieces
open Cert.Spec Cert.AttnStep

/-- The sixteen stored columns of partition sums, read back: the new sum at every row and head. -/
theorem streamL_C (c : Dev nD) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole)
    (x0 : Vec Ideal S1x256x1024 .f32) (x1 x2 : Vec Ideal S1x512x1024 .f32) (xs0 xs1 : Vec Ideal S256x16 .f32) (xs2 : Vec Ideal S256x1024 .f32) (r : Fin 256) (h : Fin 16) :
    (View.canon (kernelRun3_C.sl.HS1_16 (F := Ideal) c arg3 harg3 arg4 harg4 arg9 harg9 arg10 harg10 x0 x1 xs0 xs1) (ix2 r h) : EReal) = newL xs0 xs1 x0 x1 r h := by
  refine View.canon_apply_of_pieces (fun y : S256x16.Idx => newL xs0 xs1 x0 x1 (y 0) (y 1)) _ ?_ (ix2 r h)
    (View.cover_of_tiledL (kernelRun3_C.sl.HS1_16 (F := Ideal) c arg3 harg3 arg4 harg4 arg9 harg9 arg10 harg10 x0 x1 xs0 xs1) S256x1.size (by sl_kernel_rfl) (ix2 r h))
  sl_unfold_words
  simp only [View.readAt_eq_ld, harg3.read_unread, harg4.read_unread, harg9.read_unread, harg10.read_unread,
    View.ld_unit_zero (S := S1x256x1024) hz3, View.ld_unit_zero (S := S1x512x1024) hz3]
  intro p hp
  simp only [List.mem_cons, List.not_mem_nil, or_false] at hp
  rcases hp with rfl | rfl | rfl | rfl | rfl | rfl | rfl | rfl | rfl | rfl | rfl | rfl | rfl | rfl | rfl | rfl
  · refine colPiece (fun y : S256x16.Idx => newL xs0 xs1 x0 x1 (y 0) (y 1)) 15 15 rfl inb_S256x16_S256x1_0_15 _ fun r => ?_
    exact (h15_l x0 x1 _ _ r).trans (newL_of xs0 xs1 x0 x1 15 r _ _ (ld_col xs0 15 15 rfl _ r 0) (ld_col xs1 15 15 rfl _ r 0))
  · refine colPiece (fun y : S256x16.Idx => newL xs0 xs1 x0 x1 (y 0) (y 1)) 14 14 rfl inb_S256x16_S256x1_0_14 _ fun r => ?_
    exact (h14_l x0 x1 _ _ r).trans (newL_of xs0 xs1 x0 x1 14 r _ _ (ld_col xs0 14 14 rfl _ r 0) (ld_col xs1 14 14 rfl _ r 0))
  · refine colPiece (fun y : S256x16.Idx => newL xs0 xs1 x0 x1 (y 0) (y 1)) 13 13 rfl inb_S256x16_S256x1_0_13 _ fun r => ?_
    exact (h13_l x0 x1 _ _ r).trans (newL_of xs0 xs1 x0 x1 13 r _ _ (ld_col xs0 13 13 rfl _ r 0) (ld_col xs1 13 13 rfl _ r 0))
  · refine colPiece (fun y : S256x16.Idx => newL xs0 xs1 x0 x1 (y 0) (y 1)) 12 12 rfl inb_S256x16_S256x1_0_12 _ fun r => ?_
    exact (h12_l x0 x1 _ _ r).trans (newL_of xs0 xs1 x0 x1 12 r _ _ (ld_col xs0 12 12 rfl _ r 0) (ld_col xs1 12 12 rfl _ r 0))
  · refine colPiece (fun y : S256x16.Idx => newL xs0 xs1 x0 x1 (y 0) (y 1)) 11 11 rfl inb_S256x16_S256x1_0_11 _ fun r => ?_
    exact (h11_l x0 x1 _ _ r).trans (newL_of xs0 xs1 x0 x1 11 r _ _ (ld_col xs0 11 11 rfl _ r 0) (ld_col xs1 11 11 rfl _ r 0))
  · refine colPiece (fun y : S256x16.Idx => newL xs0 xs1 x0 x1 (y 0) (y 1)) 10 10 rfl inb_S256x16_S256x1_0_10 _ fun r => ?_
    exact (h10_l x0 x1 _ _ r).trans (newL_of xs0 xs1 x0 x1 10 r _ _ (ld_col xs0 10 10 rfl _ r 0) (ld_col xs1 10 10 rfl _ r 0))
  · refine colPiece (fun y : S256x16.Idx => newL xs0 xs1 x0 x1 (y 0) (y 1)) 9 9 rfl inb_S256x16_S256x1_0_9 _ fun r => ?_
    exact (h09_l x0 x1 _ _ r).trans (newL_of xs0 xs1 x0 x1 9 r _ _ (ld_col xs0 9 9 rfl _ r 0) (ld_col xs1 9 9 rfl _ r 0))
  · refine colPiece (fun y : S256x16.Idx => newL xs0 xs1 x0 x1 (y 0) (y 1)) 8 8 rfl inb_S256x16_S256x1_0_8 _ fun r => ?_
    exact (h08_l x0 x1 _ _ r).trans (newL_of xs0 xs1 x0 x1 8 r _ _ (ld_col xs0 8 8 rfl _ r 0) (ld_col xs1 8 8 rfl _ r 0))
  · refine colPiece (fun y : S256x16.Idx => newL xs0 xs1 x0 x1 (y 0) (y 1)) 7 7 rfl inb_S256x16_S256x1_0_7 _ fun r => ?_
    exact (h07_l x0 x1 _ _ r).trans (newL_of xs0 xs1 x0 x1 7 r _ _ (ld_col xs0 7 7 rfl _ r 0) (ld_col xs1 7 7 rfl _ r 0))
  · refine colPiece (fun y : S256x16.Idx => newL xs0 xs1 x0 x1 (y 0) (y 1)) 6 6 rfl inb_S256x16_S256x1_0_6 _ fun r => ?_
    exact (h06_l x0 x1 _ _ r).trans (newL_of xs0 xs1 x0 x1 6 r _ _ (ld_col xs0 6 6 rfl _ r 0) (ld_col xs1 6 6 rfl _ r 0))
  · refine colPiece (fun y : S256x16.Idx => newL xs0 xs1 x0 x1 (y 0) (y 1)) 5 5 rfl inb_S256x16_S256x1_0_5 _ fun r => ?_
    exact (h05_l x0 x1 _ _ r).trans (newL_of xs0 xs1 x0 x1 5 r _ _ (ld_col xs0 5 5 rfl _ r 0) (ld_col xs1 5 5 rfl _ r 0))
  · refine colPiece (fun y : S256x16.Idx => newL xs0 xs1 x0 x1 (y 0) (y 1)) 4 4 rfl inb_S256x16_S256x1_0_4 _ fun r => ?_
    exact (h04_l x0 x1 _ _ r).trans (newL_of xs0 xs1 x0 x1 4 r _ _ (ld_col xs0 4 4 rfl _ r 0) (ld_col xs1 4 4 rfl _ r 0))
  · refine colPiece (fun y : S256x16.Idx => newL xs0 xs1 x0 x1 (y 0) (y 1)) 3 3 rfl inb_S256x16_S256x1_0_3 _ fun r => ?_
    exact (h03_l x0 x1 _ _ r).trans (newL_of xs0 xs1 x0 x1 3 r _ _ (ld_col xs0 3 3 rfl _ r 0) (ld_col xs1 3 3 rfl _ r 0))
  · refine colPiece (fun y : S256x16.Idx => newL xs0 xs1 x0 x1 (y 0) (y 1)) 2 2 rfl inb_S256x16_S256x1_0_2 _ fun r => ?_
    exact (h02_l x0 x1 _ _ r).trans (newL_of xs0 xs1 x0 x1 2 r _ _ (ld_col xs0 2 2 rfl _ r 0) (ld_col xs1 2 2 rfl _ r 0))
  · refine colPiece (fun y : S256x16.Idx => newL xs0 xs1 x0 x1 (y 0) (y 1)) 1 1 rfl inb_S256x16_S256x1_0_1 _ fun r => ?_
    exact (h01_l x0 x1 _ _ r).trans (newL_of xs0 xs1 x0 x1 1 r _ _ (ld_col xs0 1 1 rfl _ r 0) (ld_col xs1 1 1 rfl _ r 0))
  · refine colPiece (fun y : S256x16.Idx => newL xs0 xs1 x0 x1 (y 0) (y 1)) 0 0 rfl inb_S256x16_S256x1_0_0 _ fun r => ?_
    exact (h00_l x0 x1 _ _ r).trans (newL_of xs0 xs1 x0 x1 0 r _ _ (ld_col xs0 0 0 rfl _ r 0) (ld_col xs1 0 0 rfl _ r 0))

/-- The sixteen stored blocks of weighted sums, read back: the new weighted sum at every row and model column. -/
theorem streamAcc_C (c : Dev nD) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole)
    (x0 : Vec Ideal S1x256x1024 .f32) (x1 x2 : Vec Ideal S1x512x1024 .f32) (xs0 xs1 : Vec Ideal S256x16 .f32) (xs2 : Vec Ideal S256x1024 .f32) (r : Fin 256) (cc : Fin 1024) :
    (View.canon (kernelRun3_C.sl.HS2_16 (F := Ideal) c arg3 harg3 arg4 harg4 arg5 harg5 arg9 harg9 arg11 harg11 x0 x1 x2 xs0 xs2) (ix2 r cc) : EReal) = newAcc xs0 xs2 x0 x1 x2 r cc := by
  refine View.canon_apply_of_pieces (fun y : S256x1024.Idx => newAcc xs0 xs2 x0 x1 x2 (y 0) (y 1)) _ ?_ (ix2 r cc)
    (View.cover_of_tiledL (kernelRun3_C.sl.HS2_16 (F := Ideal) c arg3 harg3 arg4 harg4 arg5 harg5 arg9 harg9 arg11 harg11 x0 x1 x2 xs0 xs2) S256x64.size (by sl_kernel_rfl) (ix2 r cc))
  sl_unfold_words
  simp only [View.readAt_eq_ld, harg3.read_unread, harg4.read_unread, harg5.read_unread, harg9.read_unread, harg11.read_unread,
    View.ld_unit_zero (S := S1x256x1024) hz3, View.ld_unit_zero (S := S1x512x1024) hz3]
  intro p hp
  simp only [List.mem_cons, List.not_mem_nil, or_false] at hp
  rcases hp with rfl | rfl | rfl | rfl | rfl | rfl | rfl | rfl | rfl | rfl | rfl | rfl | rfl | rfl | rfl | rfl
  · refine blkPiece (fun y : S256x1024.Idx => newAcc xs0 xs2 x0 x1 x2 (y 0) (y 1)) 960 inb_S256x1024_S256x64_0_960 _ fun r d cc hcc => ?_
    exact (h15_acc x0 x1 x2 _ _ r d).trans (newAcc_of xs0 xs2 x0 x1 x2 15 d cc 960 rfl hcc r _ _ (ld_col xs0 15 15 rfl _ r 0) (ld_blk xs2 960 cc d hcc _ r))
  · refine blkPiece (fun y : S256x1024.Idx => newAcc xs0 xs2 x0 x1 x2 (y 0) (y 1)) 896 inb_S256x1024_S256x64_0_896 _ fun r d cc hcc => ?_
    exact (h14_acc x0 x1 x2 _ _ r d).trans (newAcc_of xs0 xs2 x0 x1 x2 14 d cc 896 rfl hcc r _ _ (ld_col xs0 14 14 rfl _ r 0) (ld_blk xs2 896 cc d hcc _ r))
  · refine blkPiece (fun y : S256x1024.Idx => newAcc xs0 xs2 x0 x1 x2 (y 0) (y 1)) 832 inb_S256x1024_S256x64_0_832 _ fun r d cc hcc => ?_
    exact (h13_acc x0 x1 x2 _ _ r d).trans (newAcc_of xs0 xs2 x0 x1 x2 13 d cc 832 rfl hcc r _ _ (ld_col xs0 13 13 rfl _ r 0) (ld_blk xs2 832 cc d hcc _ r))
  · refine blkPiece (fun y : S256x1024.Idx => newAcc xs0 xs2 x0 x1 x2 (y 0) (y 1)) 768 inb_S256x1024_S256x64_0_768 _ fun r d cc hcc => ?_
    exact (h12_acc x0 x1 x2 _ _ r d).trans (newAcc_of xs0 xs2 x0 x1 x2 12 d cc 768 rfl hcc r _ _ (ld_col xs0 12 12 rfl _ r 0) (ld_blk xs2 768 cc d hcc _ r))
  · refine blkPiece (fun y : S256x1024.Idx => newAcc xs0 xs2 x0 x1 x2 (y 0) (y 1)) 704 inb_S256x1024_S256x64_0_704 _ fun r d cc hcc => ?_
    exact (h11_acc x0 x1 x2 _ _ r d).trans (newAcc_of xs0 xs2 x0 x1 x2 11 d cc 704 rfl hcc r _ _ (ld_col xs0 11 11 rfl _ r 0) (ld_blk xs2 704 cc d hcc _ r))
  · refine blkPiece (fun y : S256x1024.Idx => newAcc xs0 xs2 x0 x1 x2 (y 0) (y 1)) 640 inb_S256x1024_S256x64_0_640 _ fun r d cc hcc => ?_
    exact (h10_acc x0 x1 x2 _ _ r d).trans (newAcc_of xs0 xs2 x0 x1 x2 10 d cc 640 rfl hcc r _ _ (ld_col xs0 10 10 rfl _ r 0) (ld_blk xs2 640 cc d hcc _ r))
  · refine blkPiece (fun y : S256x1024.Idx => newAcc xs0 xs2 x0 x1 x2 (y 0) (y 1)) 576 inb_S256x1024_S256x64_0_576 _ fun r d cc hcc => ?_
    exact (h09_acc x0 x1 x2 _ _ r d).trans (newAcc_of xs0 xs2 x0 x1 x2 9 d cc 576 rfl hcc r _ _ (ld_col xs0 9 9 rfl _ r 0) (ld_blk xs2 576 cc d hcc _ r))
  · refine blkPiece (fun y : S256x1024.Idx => newAcc xs0 xs2 x0 x1 x2 (y 0) (y 1)) 512 inb_S256x1024_S256x64_0_512 _ fun r d cc hcc => ?_
    exact (h08_acc x0 x1 x2 _ _ r d).trans (newAcc_of xs0 xs2 x0 x1 x2 8 d cc 512 rfl hcc r _ _ (ld_col xs0 8 8 rfl _ r 0) (ld_blk xs2 512 cc d hcc _ r))
  · refine blkPiece (fun y : S256x1024.Idx => newAcc xs0 xs2 x0 x1 x2 (y 0) (y 1)) 448 inb_S256x1024_S256x64_0_448 _ fun r d cc hcc => ?_
    exact (h07_acc x0 x1 x2 _ _ r d).trans (newAcc_of xs0 xs2 x0 x1 x2 7 d cc 448 rfl hcc r _ _ (ld_col xs0 7 7 rfl _ r 0) (ld_blk xs2 448 cc d hcc _ r))
  · refine blkPiece (fun y : S256x1024.Idx => newAcc xs0 xs2 x0 x1 x2 (y 0) (y 1)) 384 inb_S256x1024_S256x64_0_384 _ fun r d cc hcc => ?_
    exact (h06_acc x0 x1 x2 _ _ r d).trans (newAcc_of xs0 xs2 x0 x1 x2 6 d cc 384 rfl hcc r _ _ (ld_col xs0 6 6 rfl _ r 0) (ld_blk xs2 384 cc d hcc _ r))
  · refine blkPiece (fun y : S256x1024.Idx => newAcc xs0 xs2 x0 x1 x2 (y 0) (y 1)) 320 inb_S256x1024_S256x64_0_320 _ fun r d cc hcc => ?_
    exact (h05_acc x0 x1 x2 _ _ r d).trans (newAcc_of xs0 xs2 x0 x1 x2 5 d cc 320 rfl hcc r _ _ (ld_col xs0 5 5 rfl _ r 0) (ld_blk xs2 320 cc d hcc _ r))
  · refine blkPiece (fun y : S256x1024.Idx => newAcc xs0 xs2 x0 x1 x2 (y 0) (y 1)) 256 inb_S256x1024_S256x64_0_256 _ fun r d cc hcc => ?_
    exact (h04_acc x0 x1 x2 _ _ r d).trans (newAcc_of xs0 xs2 x0 x1 x2 4 d cc 256 rfl hcc r _ _ (ld_col xs0 4 4 rfl _ r 0) (ld_blk xs2 256 cc d hcc _ r))
  · refine blkPiece (fun y : S256x1024.Idx => newAcc xs0 xs2 x0 x1 x2 (y 0) (y 1)) 192 inb_S256x1024_S256x64_0_192 _ fun r d cc hcc => ?_
    exact (h03_acc x0 x1 x2 _ _ r d).trans (newAcc_of xs0 xs2 x0 x1 x2 3 d cc 192 rfl hcc r _ _ (ld_col xs0 3 3 rfl _ r 0) (ld_blk xs2 192 cc d hcc _ r))
  · refine blkPiece (fun y : S256x1024.Idx => newAcc xs0 xs2 x0 x1 x2 (y 0) (y 1)) 128 inb_S256x1024_S256x64_0_128 _ fun r d cc hcc => ?_
    exact (h02_acc x0 x1 x2 _ _ r d).trans (newAcc_of xs0 xs2 x0 x1 x2 2 d cc 128 rfl hcc r _ _ (ld_col xs0 2 2 rfl _ r 0) (ld_blk xs2 128 cc d hcc _ r))
  · refine blkPiece (fun y : S256x1024.Idx => newAcc xs0 xs2 x0 x1 x2 (y 0) (y 1)) 64 inb_S256x1024_S256x64_0_64 _ fun r d cc hcc => ?_
    exact (h01_acc x0 x1 x2 _ _ r d).trans (newAcc_of xs0 xs2 x0 x1 x2 1 d cc 64 rfl hcc r _ _ (ld_col xs0 1 1 rfl _ r 0) (ld_blk xs2 64 cc d hcc _ r))
  · refine blkPiece (fun y : S256x1024.Idx => newAcc xs0 xs2 x0 x1 x2 (y 0) (y 1)) 0 inb_S256x1024_S256x64_0_0 _ fun r d cc hcc => ?_
    exact (h00_acc x0 x1 x2 _ _ r d).trans (newAcc_of xs0 xs2 x0 x1 x2 0 d cc 0 rfl hcc r _ _ (ld_col xs0 0 0 rfl _ r 0) (ld_blk xs2 0 cc d hcc _ r))

end Cert.KernelIdeal.AttnOutC

end
-- ==== Proof.AttnOutC.lean ====
/-
  The last key tile's output block, read off the run: the point stores ONE whole piece, the output projection of the
  weighted-sum scratch loaded whole after the sixteen streaming stores and the sixteen division stores.  The sixteen
  division stores, taken in order, turn the streamed weighted sums into the quotients by the partition sums head by
  head: after the first n of them the scratch holds the quotient on the columns of heads 0 … n − 1 and the streamed
  sums elsewhere, and each one loads exactly its head's still undivided columns.  So the loaded array is the streamed
  weighted sums with every column divided by its head's streamed partition sum, and the stored block is the step's
  output for the state after the tile.
-/
import proofs.«161242_j13649406066792_2_alg».proof.Proof.AttnFrame.State
import proofs.«161242_j13649406066792_2_alg».proof.Proof.AttnOutC.Stream
import proofs.«161242_j13649406066792_2_alg».proof.Proof.AttnEnds
import proofs.«161242_j13649406066792_2_alg».proof.Proof.AttnFold
import Idealize.ShloMosaic.Lib.Pipeline.Value
import Idealize.ShloMosaic.Lib.Tactic

set_option maxRecDepth 16384

noncomputable section

namespace Cert.KernelIdeal.AttnOutC

open Cert.KernelIdeal Cert.KernelIdeal.Gen Cert.KernelIdeal.Hand Cert.KernelIdeal.AttnEnds
open Idealize.ShloMosaic Idealize.ShloMosaic.TcCoe Idealize.ShloMosaic.Tactic Idealize.ShloMosaic.ValueIdx
open Idealize.SL.Sem Cert.Spec Cert.AttnStep

/-! ## Column blocks of the weighted-sum scratch -/

/-- Row r, column c lies in the block of 64 columns from o on exactly when o ≤ c < o + 64. -/
theorem mem_cols (o : ℕ) (inb : ∀ a, (![0, o] : Fin 2 → ℕ) a + S256x64.size a ≤ S256x1024.size a) (r : Fin 256)
    (c : Fin 1024) :
    ix2 r c ∈ (Rect.unit (s := S256x1024) ![0, o] S256x64.size inb).set ↔ o ≤ c.val ∧ c.val < o + 64 := by
  rw [Rect.mem_set_unit]
  constructor
  · intro h
    exact h 1
  · intro h a
    match a with
    | ⟨0, _⟩ => exact ⟨Nat.zero_le _, by show r.val < 0 + 256; omega⟩
    | ⟨1, _⟩ => exact h

/-- The block's own index (r, d) sits at row r, column o + d. -/
theorem emb_cols (o : ℕ) (inb : ∀ a, (![0, o] : Fin 2 → ℕ) a + S256x64.size a ≤ S256x1024.size a) (r : Fin 256)
    (d : Fin 64) (c : Fin 1024) (hc : c.val = o + d.val) :
    (Rect.unit (s := S256x1024) ![0, o] S256x64.size inb).emb (ix2 r d) = ix2 r c :=
  funext fun a => Fin.ext (by
    match a with
    | ⟨0, _⟩ => show 0 + 1 * r.val = r.val; omega
    | ⟨1, _⟩ => show o + 1 * d.val = c.val; omega)

/-- The weighted sums with the columns of the first n heads already divided by their partition sums. -/
def mixed (l : ML.Idx → EReal) (acc : AC.Idx → EReal) (n : ℕ) : AC.Idx → EReal :=
  fun i => if (i 1).val < 64 * n then divided l acc i else acc i

theorem mixed_zero (l : ML.Idx → EReal) (acc : AC.Idx → EReal) (r : Fin 256) (c : Fin 1024) :
    mixed l acc 0 (ix2 r c) = acc (ix2 r c) := if_neg (by show ¬c.val < 64 * 0; omega)

theorem mixed_all (l : ML.Idx → EReal) (acc : AC.Idx → EReal) (r : Fin 256) (c : Fin 1024) :
    mixed l acc 16 (ix2 r c) = divided l acc (ix2 r c) := if_pos (by show c.val < 64 * 16; omega)

/-- ONE DIVISION STORE: on a scratch that holds the quotients on the first h heads' columns, the store of head h's
    loaded columns times the reciprocal of head h's partition sum leaves the quotients on the first h + 1 heads'. -/
theorem step_div (l : ML.Idx → EReal) (acc : AC.Idx → EReal) (v : View sig .tc .vmem S256x1024 .f32)
    (L : List (View.Piece (Elt Ideal) S256x1024 .f32)) (h : Fin 16) (o : ℕ) (ho : o = h.val * 64)
    (inb : ∀ a, (![0, o] : Fin 2 → ℕ) a + S256x64.size a ≤ S256x1024.size a)
    (w : (Rect.unit (s := S256x1024) ![0, o] S256x64.size inb).shape.Idx → Elt Ideal .f32)
    (hL : ∀ (r : Fin 256) (c : Fin 1024), (View.canon L (ix2 r c) : EReal) = mixed l acc h.val (ix2 r c))
    (hw : ∀ (r : Fin 256) (d : Fin 64), (w (ix2 r d) : EReal)
      = v.readCov L (Rect.unit (s := S256x1024) ![0, o] S256x64.size inb).toLoadRect (ix2 r d) * Ideal.div 1 (l (ix2 r h)))
    (r : Fin 256) (c : Fin 1024) :
    (View.canon (⟨Rect.unit (s := S256x1024) ![0, o] S256x64.size inb, w⟩ :: L) (ix2 r c) : EReal)
      = mixed l acc (h.val + 1) (ix2 r c) := by
  by_cases hc : o ≤ c.val ∧ c.val < o + 64
  · have hd : c.val - o < 64 := by omega
    have he := emb_cols o inb r ⟨c.val - o, hd⟩ c (by show c.val = o + (c.val - o); omega)
    have h1 := View.canon_cons_emb (Val := Elt Ideal) (Rect.unit (s := S256x1024) ![0, o] S256x64.size inb) w L
      (ix2 r ⟨c.val - o, hd⟩)
    rw [he] at h1
    have h2 : (v.readCov L (Rect.unit (s := S256x1024) ![0, o] S256x64.size inb).toLoadRect (ix2 r ⟨c.val - o, hd⟩) : EReal)
        = View.canon L (ix2 r c) := by
      rw [View.readCov_eq_canon']
      exact congrArg (View.canon L) he
    have hh : headOf c = h := Fin.ext (by show c.val / 64 = h.val; omega)
    rw [h1, hw, h2, hL]
    show (if c.val < 64 * h.val then divided l acc (ix2 r c) else acc (ix2 r c)) * _
      = if c.val < 64 * (h.val + 1) then divided l acc (ix2 r c) else acc (ix2 r c)
    rw [if_neg (by omega), if_pos (by omega), divided_apply, hh]
  · have hm : ix2 r c ∉ (Rect.unit (s := S256x1024) ![0, o] S256x64.size inb).set := fun hm =>
      hc ((mem_cols o inb r c).mp hm)
    have h1 : View.canon ((⟨Rect.unit (s := S256x1024) ![0, o] S256x64.size inb, w⟩ : View.Piece (Elt Ideal) S256x1024 .f32) :: L)
        (ix2 r c) = View.canon L (ix2 r c) :=
      View.canon_cons_of_not_mem (⟨Rect.unit (s := S256x1024) ![0, o] S256x64.size inb, w⟩ : View.Piece (Elt Ideal) S256x1024 .f32) L hm
    rw [h1, hL]
    show (if c.val < 64 * h.val then divided l acc (ix2 r c) else acc (ix2 r c))
      = if c.val < 64 * (h.val + 1) then divided l acc (ix2 r c) else acc (ix2 r c)
    by_cases hlt : c.val < 64 * h.val
    · rw [if_pos hlt, if_pos (by omega)]
    · rw [if_neg hlt, if_neg (by omega)]

/-! ## The last tile's store -/

theorem hz2 : (![0, 0] : Fin 2 → ℕ) = fun _ => 0 := funext fun a => by fin_cases a <;> rfl

theorem hz3 : (![0, 0, 0] : Fin 3 → ℕ) = fun _ => 0 := funext fun a => by fin_cases a <;> rfl

/-- THE LAST TILE'S OUTPUT, from the streaming part of the same point: given that the sixteen streaming stores leave
    the new partition sums and the new weighted sums in the two scratch buffers (hS1, hS2: the stores' pieces read
    back), the block the point stores is the step's output for the state after the tile. -/
theorem out3_C_5_apply_of (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec Ideal S1x256x1024 .f32) (x1 x2 : Vec Ideal S1x512x1024 .f32) (x3 : Vec Ideal S1024x1024 .bf16) (x4 : Vec Ideal S1x1024 .f32) (xs0 xs1 : Vec Ideal S256x16 .f32) (xs2 : Vec Ideal S256x1024 .f32)
    (hS1 : ∀ (r : Fin 256) (h : Fin 16), (View.canon (kernelRun3_C.sl.HS1_16 (F := Ideal) c arg3 harg3 arg4 harg4 arg9 harg9 arg10 harg10 x0 x1 xs0 xs1) (ix2 r h) : EReal)
      = newL xs0 xs1 x0 x1 r h)
    (hS2 : ∀ (r : Fin 256) (cc : Fin 1024), (View.canon (kernelRun3_C.sl.HS2_16 (F := Ideal) c arg3 harg3 arg4 harg4 arg5 harg5 arg9 harg9 arg11 harg11 x0 x1 x2 xs0 xs2) (ix2 r cc) : EReal)
      = newAcc xs0 xs2 x0 x1 x2 r cc)
    (r : Fin 256) (e : Fin 1024) :
    (out3_C_5 (F := Ideal) c i arg3 harg3 arg4 harg4 arg5 harg5 arg6 harg6 arg7 harg7 arg8 harg8 arg9 harg9 arg10 harg10 arg11 harg11 hc0 hc1 x0 x1 x2 x3 x4 xs0 xs1 xs2 (ix3 (0 : Fin 1) r e) : EReal)
      = outBlk (fun i => newL xs0 xs1 x0 x1 (i 0) (i 1)) (fun i => newAcc xs0 xs2 x0 x1 x2 (i 0) (i 1)) x3 x4 r e := by
  -- the partition sums the closing branch loads are the streamed ones
  have hv575 : (kernelRun3_C.sl.v575 (F := Ideal) c arg3 harg3 arg4 harg4 arg9 harg9 arg10 harg10 x0 x1 xs0 xs1) = View.canon (kernelRun3_C.sl.HS1_16 (F := Ideal) c arg3 harg3 arg4 harg4 arg9 harg9 arg10 harg10 x0 x1 xs0 xs1) :=
    (View.readCov_eq_canon' _ _ _).trans (View.ld_unit_zero (S := S256x16) hz2 _ _)
  have hlv : ((kernelRun3_C.sl.v575 (F := Ideal) c arg3 harg3 arg4 harg4 arg9 harg9 arg10 harg10 x0 x1 xs0 xs1) : ML.Idx → EReal) = (fun i => newL xs0 xs1 x0 x1 (i 0) (i 1)) := by
    funext i
    obtain ⟨r', h', rfl⟩ : ∃ (r' : Fin 256) (h' : Fin 16), i = ix2 r' h' := ⟨i 0, i 1, eq_ix2 i⟩
    rw [hv575]
    exact hS1 r' h'
  -- the sixteen division stores, in order
  have h0 : ∀ (r : Fin 256) (cc : Fin 1024), (View.canon (kernelRun3_C.sl.HS2_16 (F := Ideal) c arg3 harg3 arg4 harg4 arg5 harg5 arg9 harg9 arg11 harg11 x0 x1 x2 xs0 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 0 (ix2 r cc) := fun r cc => (hS2 r cc).trans (mixed_zero (kernelRun3_C.sl.v575 (F := Ideal) c arg3 harg3 arg4 harg4 arg9 harg9 arg10 harg10 x0 x1 xs0 xs1) (fun i => newAcc xs0 xs2 x0 x1 x2 (i 0) (i 1)) r cc).symm
  have h1 : ∀ (r : Fin 256) (cc : Fin 1024), (View.canon (kernelRun3_C.sl.HS2_17 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 1 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_16 (F := Ideal) c arg3 harg3 arg4 harg4 arg5 harg5 arg9 harg9 arg11 harg11 x0 x1 x2 xs0 xs2) 0 0 rfl _ _ h0
      (fun r d => pay6_apply _ _ r d) r cc
  have h2 : ∀ (r : Fin 256) (cc : Fin 1024), (View.canon (kernelRun3_C.sl.HS2_18 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 2 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_17 (F := Ideal) c arg3 harg3 arg4 harg4 arg5 harg5 arg9 harg9 arg10 harg10 arg11 harg11 x0 x1 x2 xs0 xs1 xs2) 1 64 rfl _ _ h1
      (fun r d => pay7_apply _ _ r d) r cc
  have h3 : ∀ (r : Fin 256) (cc : Fin 1024), (View.canon (kernelRun3_C.sl.HS2_19 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 3 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_18 (F := Ideal) c arg3 harg3 arg4 harg4 arg5 harg5 arg9 harg9 arg10 harg10 arg11 harg11 x0 x1 x2 xs0 xs1 xs2) 2 128 rfl _ _ h2
      (fun r d => pay8_apply _ _ r d) r cc
  have h4 : ∀ (r : Fin 256) (cc : Fin 1024), (View.canon (kernelRun3_C.sl.HS2_20 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 4 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_19 (F := Ideal) c arg3 harg3 arg4 harg4 arg5 harg5 arg9 harg9 arg10 harg10 arg11 harg11 x0 x1 x2 xs0 xs1 xs2) 3 192 rfl _ _ h3
      (fun r d => pay9_apply _ _ r d) r cc
  have h5 : ∀ (r : Fin 256) (cc : Fin 1024), (View.canon (kernelRun3_C.sl.HS2_21 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 5 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_20 (F := Ideal) c arg3 harg3 arg4 harg4 arg5 harg5 arg9 harg9 arg10 harg10 arg11 harg11 x0 x1 x2 xs0 xs1 xs2) 4 256 rfl _ _ h4
      (fun r d => (congrFun (pay11_eq _) _).trans (pay10_apply _ _ r d)) r cc
  have h6 : ∀ (r : Fin 256) (cc : Fin 1024), (View.canon (kernelRun3_C.sl.HS2_22 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 6 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_21 (F := Ideal) c arg3 harg3 arg4 harg4 arg5 harg5 arg9 harg9 arg10 harg10 arg11 harg11 x0 x1 x2 xs0 xs1 xs2) 5 320 rfl _ _ h5
      (fun r d => (pay12_apply _ _ r d).trans (congrArg (_ * ·) (pay5_apply _ r 5))) r cc
  have h7 : ∀ (r : Fin 256) (cc : Fin 1024), (View.canon (kernelRun3_C.sl.HS2_23 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 7 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_22 (F := Ideal) c arg3 harg3 arg4 harg4 arg5 harg5 arg9 harg9 arg10 harg10 arg11 harg11 x0 x1 x2 xs0 xs1 xs2) 6 384 rfl _ _ h6
      (fun r d => (pay13_apply _ _ r d).trans (congrArg (_ * ·) (pay5_apply _ r 6))) r cc
  have h8 : ∀ (r : Fin 256) (cc : Fin 1024), (View.canon (kernelRun3_C.sl.HS2_24 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 8 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_23 (F := Ideal) c arg3 harg3 arg4 harg4 arg5 harg5 arg9 harg9 arg10 harg10 arg11 harg11 x0 x1 x2 xs0 xs1 xs2) 7 448 rfl _ _ h7
      (fun r d => (pay14_apply _ _ r d).trans (congrArg (_ * ·) (pay5_apply _ r 7))) r cc
  have h9 : ∀ (r : Fin 256) (cc : Fin 1024), (View.canon (kernelRun3_C.sl.HS2_25 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 9 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_24 (F := Ideal) c arg3 harg3 arg4 harg4 arg5 harg5 arg9 harg9 arg10 harg10 arg11 harg11 x0 x1 x2 xs0 xs1 xs2) 8 512 rfl _ _ h8
      (fun r d => (pay15_apply _ _ r d).trans (congrArg (_ * ·) (pay5_apply _ r 8))) r cc
  have h10 : ∀ (r : Fin 256) (cc : Fin 1024), (View.canon (kernelRun3_C.sl.HS2_26 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 10 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_25 (F := Ideal) c arg3 harg3 arg4 harg4 arg5 harg5 arg9 harg9 arg10 harg10 arg11 harg11 x0 x1 x2 xs0 xs1 xs2) 9 576 rfl _ _ h9
      (fun r d => (congrFun (pay17_eq _) _).trans ((pay16_apply _ _ r d).trans (congrArg (_ * ·) (pay5_apply _ r 9)))) r cc
  have h11 : ∀ (r : Fin 256) (cc : Fin 1024), (View.canon (kernelRun3_C.sl.HS2_27 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 11 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_26 (F := Ideal) c arg3 harg3 arg4 harg4 arg5 harg5 arg9 harg9 arg10 harg10 arg11 harg11 x0 x1 x2 xs0 xs1 xs2) 10 640 rfl _ _ h10
      (fun r d => (pay18_apply _ _ r d).trans (congrArg (_ * ·) (pay5_apply _ r 10))) r cc
  have h12 : ∀ (r : Fin 256) (cc : Fin 1024), (View.canon (kernelRun3_C.sl.HS2_28 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 12 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_27 (F := Ideal) c arg3 harg3 arg4 harg4 arg5 harg5 arg9 harg9 arg10 harg10 arg11 harg11 x0 x1 x2 xs0 xs1 xs2) 11 704 rfl _ _ h11
      (fun r d => (pay19_apply _ _ r d).trans (congrArg (_ * ·) (pay5_apply _ r 11))) r cc
  have h13 : ∀ (r : Fin 256) (cc : Fin 1024), (View.canon (kernelRun3_C.sl.HS2_29 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 13 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_28 (F := Ideal) c arg3 harg3 arg4 harg4 arg5 harg5 arg9 harg9 arg10 harg10 arg11 harg11 x0 x1 x2 xs0 xs1 xs2) 12 768 rfl _ _ h12
      (fun r d => (pay20_apply _ _ r d).trans (congrArg (_ * ·) (pay5_apply _ r 12))) r cc
  have h14 : ∀ (r : Fin 256) (cc : Fin 1024), (View.canon (kernelRun3_C.sl.HS2_30 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 14 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_29 (F := Ideal) c arg3 harg3 arg4 harg4 arg5 harg5 arg9 harg9 arg10 harg10 arg11 harg11 x0 x1 x2 xs0 xs1 xs2) 13 832 rfl _ _ h13
      (fun r d => (pay21_apply _ _ r d).trans (congrArg (_ * ·) (pay5_apply _ r 13))) r cc
  have h15 : ∀ (r : Fin 256) (cc : Fin 1024), (View.canon (kernelRun3_C.sl.HS2_31 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 15 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_30 (F := Ideal) c arg3 harg3 arg4 harg4 arg5 harg5 arg9 harg9 arg10 harg10 arg11 harg11 x0 x1 x2 xs0 xs1 xs2) 14 896 rfl _ _ h14
      (fun r d => (congrFun (pay2_eq _) _).trans ((pay22_apply _ _ r d).trans (congrArg (_ * ·) (pay5_apply _ r 14)))) r cc
  have h16 : ∀ (r : Fin 256) (cc : Fin 1024), (View.canon (kernelRun3_C.sl.HS2_32 (F := Ideal) c arg3 harg3 arg4 harg4 arg5 harg5 arg9 harg9 arg10 harg10 arg11 harg11 x0 x1 x2 xs0 xs1 xs2) (ix2 r cc) : EReal)
      = mixed (kernelRun3_C.sl.v575 (F := Ideal) c arg3 harg3 arg4 harg4 arg9 harg9 arg10 harg10 x0 x1 xs0 xs1) (fun i => newAcc xs0 xs2 x0 x1 x2 (i 0) (i 1)) 16 (ix2 r cc) := fun r cc =>
    step_div (kernelRun3_C.sl.v575 (F := Ideal) c arg3 harg3 arg4 harg4 arg9 harg9 arg10 harg10 x0 x1 xs0 xs1) (fun i => newAcc xs0 xs2 x0 x1 x2 (i 0) (i 1)) arg11.view (kernelRun3_C.sl.HS2_31 (F := Ideal) c arg3 harg3 arg4 harg4 arg5 harg5 arg9 harg9 arg10 harg10 arg11 harg11 x0 x1 x2 xs0 xs1 xs2) 15 960 rfl _ _ h15
      (fun r d => (pay3_apply _ _ r d).trans (congrArg (_ * ·) (pay5_apply _ r 15))) r cc
  -- the weighted sums loaded whole after them
  have hv690 : (kernelRun3_C.sl.v690 (F := Ideal) c arg3 harg3 arg4 harg4 arg5 harg5 arg9 harg9 arg10 harg10 arg11 harg11 x0 x1 x2 xs0 xs1 xs2) = View.canon (kernelRun3_C.sl.HS2_32 (F := Ideal) c arg3 harg3 arg4 harg4 arg5 harg5 arg9 harg9 arg10 harg10 arg11 harg11 x0 x1 x2 xs0 xs1 xs2) :=
    (View.readCov_eq_canon' _ _ _).trans (View.ld_unit_zero (S := S256x1024) hz2 _ _)
  have hacc : ∀ (r : Fin 256) (cc : Fin 1024), ((kernelRun3_C.sl.v690 (F := Ideal) c arg3 harg3 arg4 harg4 arg5 harg5 arg9 harg9 arg10 harg10 arg11 harg11 x0 x1 x2 xs0 xs1 xs2) (ix2 r cc) : EReal)
      = (fun i => newAcc xs0 xs2 x0 x1 x2 (i 0) (i 1)) (ix2 r cc) * Ideal.div 1 ((kernelRun3_C.sl.v575 (F := Ideal) c arg3 harg3 arg4 harg4 arg9 harg9 arg10 harg10 x0 x1 xs0 xs1) (ix2 r (headOf cc))) := fun r cc => by
    rw [hv690]
    exact (h16 r cc).trans (mixed_all (kernelRun3_C.sl.v575 (F := Ideal) c arg3 harg3 arg4 harg4 arg9 harg9 arg10 harg10 x0 x1 xs0 xs1) (fun i => newAcc xs0 xs2 x0 x1 x2 (i 0) (i 1)) r cc)
  -- the one whole piece of the output block
  unfold out3_C_5
  rw [View.read_writes_eq_canon _ _ _ (cover3_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun3_C
  dsimp only
  rw [View.canon_unit_zero (S := S1x256x1024) hz3]
  simp only [View.readAt_eq_ld, harg6.read_unread, harg7.read_unread, View.ld_unit_zero (S := S1024x1024) hz2,
    View.ld_unit_zero (S := S1x1024) hz2]
  refine (pay4_outBlk (kernelRun3_C.sl.v575 (F := Ideal) c arg3 harg3 arg4 harg4 arg9 harg9 arg10 harg10 x0 x1 xs0 xs1) (fun i => newAcc xs0 xs2 x0 x1 x2 (i 0) (i 1)) _ x3 x4 hacc r e).trans ?_
  exact congrArg (fun l : ML.Idx → EReal => outBlk l (fun i => newAcc xs0 xs2 x0 x1 x2 (i 0) (i 1)) x3 x4 r e) hlv

/-- THE LAST TILE'S OUTPUT: the block a last-tile point stores, from the five input blocks and the state before the
    point, is the step's output for the state after the tile. -/
theorem out3_C_5_apply (c : Dev nD) (i : grid3.Coords) (arg3 : Memref sig .tc .vmem S1x256x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole) (arg9 : Memref sig .tc .vmem S256x16 .f32) (harg9 : arg9.IsWhole) (arg10 : Memref sig .tc .vmem S256x16 .f32) (harg10 : arg10.IsWhole) (arg11 : Memref sig .tc .vmem S256x1024 .f32) (harg11 : arg11.IsWhole) (hc0 : ¬cond3_0 i) (hc1 : cond3_1 i)
    (x0 : Vec Ideal S1x256x1024 .f32) (x1 x2 : Vec Ideal S1x512x1024 .f32) (x3 : Vec Ideal S1024x1024 .bf16) (x4 : Vec Ideal S1x1024 .f32) (xs0 xs1 : Vec Ideal S256x16 .f32) (xs2 : Vec Ideal S256x1024 .f32) (r : Fin 256) (e : Fin 1024) :
    (out3_C_5 (F := Ideal) c i arg3 harg3 arg4 harg4 arg5 harg5 arg6 harg6 arg7 harg7 arg8 harg8 arg9 harg9 arg10 harg10 arg11 harg11 hc0 hc1 x0 x1 x2 x3 x4 xs0 xs1 xs2 (ix3 (0 : Fin 1) r e) : EReal)
      = outBlk (fun i => newL xs0 xs1 x0 x1 (i 0) (i 1)) (fun i => newAcc xs0 xs2 x0 x1 x2 (i 0) (i 1)) x3 x4 r e :=
  out3_C_5_apply_of c i arg3 harg3 arg4 harg4 arg5 harg5 arg6 harg6 arg7 harg7 arg8 harg8 arg9 harg9 arg10 harg10 arg11 harg11 hc0 hc1 x0 x1 x2 x3 x4 xs0 xs1 xs2
    (streamL_C c arg3 harg3 arg4 harg4 arg5 harg5 arg9 harg9 arg10 harg10 arg11 harg11 x0 x1 x2 xs0 xs1 xs2)
    (streamAcc_C c arg3 harg3 arg4 harg4 arg5 harg5 arg9 harg9 arg10 harg10 arg11 harg11 x0 x1 x2 xs0 xs1 xs2) r e

/-- The same over the region's terms: what the last-tile point t writes out, from the state s before it, is the
    output block of the online-softmax state after the point's tile. -/
theorem outC_apply (V : (c : Dev nD) → (b : Ref sig .tc) → Buf (Elt Ideal) ((c : Thread nD τ).loc b)) (c : Dev nD)
    (t : Fin cfg3.N) (h0 : ¬t.val % 4 = 0) (h1 : t.val % 4 = 3) (s : St3 (F := Ideal)) (r : Fin 256) (e : Fin 1024) :
    (outC V c t h0 h1 s (ix3 (0 : Fin 1) r e) : EReal)
      = outBlk
          (Cert.AttnFold.step (iblk3 V c 0 t) (iblk3 V c 1 t) (iblk3 V c 2 t) ⟨s.1, s.2.1, s.2.2⟩).l
          (Cert.AttnFold.step (iblk3 V c 0 t) (iblk3 V c 1 t) (iblk3 V c 2 t) ⟨s.1, s.2.1, s.2.2⟩).acc
          (iblk3 V c 3 t) (iblk3 V c 4 t) r e := by
  unfold outC
  exact out3_C_5_apply c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) s.1 s.2.1 s.2.2 r e

end Cert.KernelIdeal.AttnOutC

end
-- ==== Proof.AttnValue.lean ====
/-
  The attention call's result array, on the extended reals.

  The carried state after point (b, qi, ki), ki < 3, is the online-softmax state after the first ki + 1 key tiles of
  query block qi of batch b: a first tile starts from (−∞, 0, 0), a middle tile continues from the state the point
  before left, and the point before has the same batch and query block.  At a last tile the point writes out, from
  the state after three tiles, the output block of the state after four, which is the specification's attention
  output at the block's rows when the three projected arrays are real.  The last-tile points' blocks cover the
  output array, and the other points write nothing back.

  The three facts about a single grid point — what a first tile, a middle tile and a last tile compute from the
  point's blocks and the state before — enter as one record of hypotheses (`PointFacts`), each at an arbitrary
  state; the last theorem supplies them from the modules that prove them.
-/
import proofs.«161242_j13649406066792_2_alg».proof.Proof.AttnFrame
import proofs.«161242_j13649406066792_2_alg».proof.Proof.AttnValue.Blocks
import proofs.«161242_j13649406066792_2_alg».proof.Proof.AttnPieces
import proofs.«161242_j13649406066792_2_alg».proof.Proof.AttnOutC

noncomputable section

namespace Cert.KernelIdeal.AttnValue

open Cert.KernelIdeal Cert.KernelIdeal.Gen Idealize.ShloMosaic Idealize.ShloMosaic.TcCoe Idealize.SL.Sem
open Idealize.ShloMosaic.Pipeline (Dat)
open Idealize.ShloMosaic.ValueIdx

/-- The carried scratch contents (maxima, partition sums, weighted sums) as the online-softmax state. -/
def toState (s : Hand.St3 (F := Ideal)) : Cert.AttnFold.State := ⟨s.1, s.2.1, s.2.2⟩

section Region

variable (V : (c : Dev nD) → (b : Ref sig .tc) → Buf (Elt Ideal) ((c : Thread nD τ).loc b)) (c : Dev nD)

/-- What one grid point computes, at an arbitrary state before it: a first key tile applies the tile to the start
    state, a middle tile to the state before, and a last tile writes out the output block of the state after it. -/
structure PointFacts : Prop where
  first : ∀ (t : Fin cfg3.N) (h0 : t.val % 4 = 0) (h1 : ¬t.val % 4 = 3),
    toState (Hand.stA V c t h0 h1)
      = Cert.AttnFold.step (Hand.iblk3 V c 0 t) (Hand.iblk3 V c 1 t) (Hand.iblk3 V c 2 t) Cert.AttnFold.start
  middle : ∀ (t : Fin cfg3.N) (h0 : ¬t.val % 4 = 0) (h1 : ¬t.val % 4 = 3) (s : Hand.St3 (F := Ideal)),
    toState (Hand.stB V c t h0 h1 s)
      = Cert.AttnFold.step (Hand.iblk3 V c 0 t) (Hand.iblk3 V c 1 t) (Hand.iblk3 V c 2 t) (toState s)
  last : ∀ (t : Fin cfg3.N) (h0 : ¬t.val % 4 = 0) (h1 : t.val % 4 = 3) (s : Hand.St3 (F := Ideal)) (r : Fin 256) (e : Fin 1024),
    Hand.outC V c t h0 h1 s (ix3 0 r e)
      = Cert.AttnStep.outBlk
          (Cert.AttnFold.step (Hand.iblk3 V c 0 t) (Hand.iblk3 V c 1 t) (Hand.iblk3 V c 2 t) (toState s)).l
          (Cert.AttnFold.step (Hand.iblk3 V c 0 t) (Hand.iblk3 V c 1 t) (Hand.iblk3 V c 2 t) (toState s)).acc
          (Hand.iblk3 V c 3 t) (Hand.iblk3 V c 4 t) r e

/-! ## The point's blocks are the blocks of the arrays the region finds -/

theorem iblk_q (t : Fin cfg3.N) : Hand.iblk3 V c 0 t = Cert.AttnFold.qb (V c main_v13) (bOf t) (qOf t) := by
  unfold Hand.iblk3; exact qblk_eq (V c main_v13) t
theorem iblk_k (t : Fin cfg3.N) : Hand.iblk3 V c 1 t = Cert.AttnFold.kb (V c main_v15) (bOf t) (kOf t) := by
  unfold Hand.iblk3; exact kblk_eq (V c main_v15) t
theorem iblk_v (t : Fin cfg3.N) : Hand.iblk3 V c 2 t = Cert.AttnFold.kb (V c main_v17) (bOf t) (kOf t) := by
  unfold Hand.iblk3; exact vblk_eq (V c main_v17) t
theorem iblk_w (t : Fin cfg3.N) : Hand.iblk3 V c 3 t = V c main_v7 := by
  unfold Hand.iblk3; exact wblk_eq (V c main_v7) t
theorem iblk_b (t : Fin cfg3.N) : Hand.iblk3 V c 4 t = V c main_v11 := by
  unfold Hand.iblk3; exact bblk_eq (V c main_v11) t

/-! ## The state, point by point -/

/-- After a point that is no last tile the carried state is the online-softmax state after the point's key tile and
    the ones before it, for the point's batch and query block. -/
theorem state_eq (pf : PointFacts V c) (n : ℕ) : ∀ t : Fin cfg3.N, t.val = n → ¬t.val % 4 = 3 →
    toState (Hand.stAfter3 V c t.val t.isLt)
      = Cert.AttnFold.after (V c main_v13) (V c main_v15) (V c main_v17) (bOf t) (qOf t) ((kOf t).val + 1) := by
  induction n using Nat.strong_induction_on with
  | _ n ih =>
    intro t htn h3
    rw [Cert.AttnFold.after_succ]
    by_cases h0 : t.val % 4 = 0
    · rw [Hand.stAfter3_A V c t h0 h3, pf.first t h0 h3, iblk_q, iblk_k, iblk_v]
      have hk0 : (kOf t).val = 0 := h0
      rw [hk0]
      rfl
    · have hN := N64
      have hlt := t.isLt
      rw [Hand.stAfter3_B V c t h0 h3, pf.middle t h0 h3, iblk_q, iblk_k, iblk_v]
      have ih' := ih (t.val - 1) (by omega) ⟨t.val - 1, by omega⟩ rfl (by show ¬(t.val - 1) % 4 = 3; omega)
      have eb : bOf ⟨t.val - 1, by omega⟩ = bOf t := Fin.ext (by show (t.val - 1) / 32 = t.val / 32; omega)
      have eq : qOf ⟨t.val - 1, by omega⟩ = qOf t := Fin.ext (by show (t.val - 1) / 4 % 8 = t.val / 4 % 8; omega)
      have ek : (kOf ⟨t.val - 1, by omega⟩).val + 1 = (kOf t).val := by show (t.val - 1) % 4 + 1 = t.val % 4; omega
      rw [eb, eq, ek] at ih'
      exact congrArg _ ih'

/-! ## What a last-tile point writes back -/

/-- What a last-tile point leaves in the output block, from the state the point before left, is the point's block of
    the specification's attention output. -/
theorem outC_block (pf : PointFacts V c) (hq : Cert.Spec.IsReal (V c main_v13)) (hk : Cert.Spec.IsReal (V c main_v15))
    (hv : Cert.Spec.IsReal (V c main_v17)) (t : Fin cfg3.N) (h0 : ¬t.val % 4 = 0) (h1 : t.val % 4 = 3) :
    (cfg3.win 5).cut (grid3.coords t)
        (Hand.outC V c t h0 h1 (Hand.stAfter3 V c (t.val - 1) (Nat.lt_of_le_of_lt (Nat.sub_le _ _) t.isLt)))
      = ((cfg3.win 5).blk t).view.read (Elt Ideal)
          (Cert.Spec.attnOut (V c main_v13) (V c main_v15) (V c main_v17) (V c main_v7) (V c main_v11)) := by
  have hN := N64
  have hlt := t.isLt
  funext j
  obtain ⟨z, r, e, rfl⟩ : ∃ (z : Fin 1) (r : Fin 256) (e : Fin 1024), j = ix3 z r e := ⟨j 0, j 1, j 2, eq_ix3 j⟩
  obtain rfl : z = 0 := Subsingleton.elim _ _
  rw [oblk_read]
  refine (pf.last t h0 h1 _ r e).trans ?_
  have hs := state_eq V c pf (t.val - 1) ⟨t.val - 1, by omega⟩ rfl (by show ¬(t.val - 1) % 4 = 3; omega)
  have eb : bOf ⟨t.val - 1, by omega⟩ = bOf t := Fin.ext (by show (t.val - 1) / 32 = t.val / 32; omega)
  have eq : qOf ⟨t.val - 1, by omega⟩ = qOf t := Fin.ext (by show (t.val - 1) / 4 % 8 = t.val / 4 % 8; omega)
  have ek : (kOf ⟨t.val - 1, by omega⟩).val + 1 = (kOf t).val := by show (t.val - 1) % 4 + 1 = t.val % 4; omega
  rw [eb, eq, ek] at hs
  have e4 : (kOf t).val + 1 = 4 := by show t.val % 4 + 1 = 4; omega
  rw [iblk_q, iblk_k, iblk_v, iblk_w, iblk_b]
  have hstep := (Cert.AttnFold.after_succ (V c main_v13) (V c main_v15) (V c main_v17) (bOf t) (qOf t) (kOf t)).symm
  rw [e4] at hstep
  show Cert.AttnStep.outBlk
      (Cert.AttnFold.step _ _ _ (toState (Hand.stAfter3 V c (t.val - 1) _))).l
      (Cert.AttnFold.step _ _ _ (toState (Hand.stAfter3 V c (t.val - 1) _))).acc _ _ r e = _
  rw [hs, hstep]
  exact Cert.AttnFold.out_eq (V c main_v13) (V c main_v15) (V c main_v17) hq hk hv (bOf t) (qOf t) (V c main_v7)
    (V c main_v11) r e

/-- The block a last-tile point writes back is its block of the specification's attention output. -/
theorem flushed3_eq (pf : PointFacts V c) (hq : Cert.Spec.IsReal (V c main_v13)) (hk : Cert.Spec.IsReal (V c main_v15))
    (hv : Cert.Spec.IsReal (V c main_v17)) (t : Fin cfg3.N) (hf : (cfg3.win 5).flush t = true) :
    (Hand.dat3 (F := Ideal) V c).flushed 5 t
      = ((cfg3.win 5).blk t).view.read (Elt Ideal)
          (Cert.Spec.attnOut (V c main_v13) (V c main_v15) (V c main_v17) (V c main_v7) (V c main_v11)) := by
  have h1 : t.val % 4 = 3 := (flush3_5 t).mp hf
  have h0 : ¬t.val % 4 = 0 := by omega
  show (cfg3.win 5).cut (grid3.coords t) ((Hand.dat3 (F := Ideal) V c).after 5 t) = _
  rw [Hand.after3_5_C V c t h0 h1]
  exact outC_block V c pf hq hk hv t h0 h1

/-! ## The result array -/

/-- After the last point the output array holds the specification's attention output of the five arrays the region
    finds, given the three facts about a single point. -/
theorem arrAt3_of (pf : PointFacts V c) (hq : Cert.Spec.IsReal (V c main_v13)) (hk : Cert.Spec.IsReal (V c main_v15))
    (hv : Cert.Spec.IsReal (V c main_v17)) :
    (Hand.dat3 (F := Ideal) V c).arrAt 5 cfg3.N
      = Cert.Spec.attnOut (V c main_v13) (V c main_v15) (V c main_v17) (V c main_v7) (V c main_v11) :=
  (Hand.dat3 (F := Ideal) V c).arrAt_eq_of_cover 5
    (Cert.Spec.attnOut (V c main_v13) (V c main_v15) (V c main_v17) (V c main_v7) (V c main_v11))
    (fun t hf => flushed3_eq V c pf hq hk hv t hf) covered3

/-- After the last point the output array holds the specification's attention output of the five arrays the region
    finds, when the three projected arrays are real. -/
theorem arrAt3 (hq : Cert.Spec.IsReal (V c main_v13)) (hk : Cert.Spec.IsReal (V c main_v15))
    (hv : Cert.Spec.IsReal (V c main_v17)) :
    (Hand.dat3 (F := Ideal) V c).arrAt 5 cfg3.N
      = Cert.Spec.attnOut (V c main_v13) (V c main_v15) (V c main_v17) (V c main_v7) (V c main_v11) :=
  arrAt3_of V c
    ⟨Cert.KernelIdeal.AttnPieces.first V c, Cert.KernelIdeal.AttnPieces.middle V c,
      fun t h0 h1 s r e => Cert.KernelIdeal.AttnOutC.outC_apply V c t h0 h1 s r e⟩ hq hk hv

end Region

end Cert.KernelIdeal.AttnValue

end
-- ==== Proof.Finite.lean ====
/-
  The precondition "every float input is finite", decoded.

  The printed predicate takes, for each of the eleven argument arrays, the conjunction over all entries of
  `|x| < +∞` — the absolute value `max x (−x)` compared with the word of +∞ — and joins the eleven results by
  `and`.  When the result is 1, every one of the eleven conjunctions is 1, hence every comparison is 1 at every
  index.  On the extended reals `max x (−x) < ⊤` excludes exactly `x = ⊤` and `x = ⊥` (for both, the maximum is
  `⊤`), so each entry is a real number.
-/
import proofs.«161242_j13649406066792_2_alg».proof.Pre_finite_inputs
import proofs.«161242_j13649406066792_2_alg».proof.Proof.Gen.Pre_finite_inputs
import proofs.«161242_j13649406066792_2_alg».proof.Proof.Spec
import Idealize.ShloMosaic.Lib.ReduceAll
import Idealize.ShloMosaic.PureOps.Ideal

namespace Cert.Finite

open Idealize.ShloMosaic Idealize.ShloMosaic.ValueIdx

/-- The f32 word with all exponent bits set and no fraction bit denotes +∞. -/
theorem word_top : Ideal.ofBits .f32 0x7F800000#32 = (⊤ : EReal) := by
  simp [Ideal.ofBits, Ideal.ieee]

/-- An extended real whose absolute value `max x (−x)` is below ⊤ is a real number: at `⊤` and at `⊥` the
    maximum is `⊤`. -/
theorem real_of_abs_lt_top (x : EReal) (h : max x (-x) < ⊤) : ∃ r : ℝ, x = r := by
  induction x using EReal.rec with
  | bot => simp at h
  | coe r => exact ⟨r, rfl⟩
  | top => simp at h

/-- The element fact as the predicate prints it: the comparison `|x| < +∞` answering 1. -/
theorem real_of_cmp (x : EReal)
    (h : Ideal.cmp .olt (max x (-x)) (Ideal.ofBits .f32 0x7F800000#32) = 1#1) : ∃ r : ℝ, x = r := by
  rw [word_top] at h
  refine real_of_abs_lt_top x ?_
  by_contra hn
  simp [Ideal.cmp, hn] at h

/-- The result of a reduction over all axes has one index. -/
instance : Subsingleton Cert.Pre_finite_inputs.S_.Idx := ⟨fun a b => funext fun d => d.elim0⟩

/-- `jnp.all(|x| < +∞)` answering 1 says every entry of `x` is a real number, whatever the array's shape. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    Cert.Spec.IsReal x := by
  intro i
  exact real_of_cmp (x i) (Host.reduce_andi_all _ _ hr hu ix0 h i)

open Cert.Pre_finite_inputs in
/-- The precondition at the ideal instance: when the printed predicate answers 1, each of the eleven argument arrays
    has only real entries.  The predicate's value is a left-nested conjunction of eleven `jnp.all` results; each
    conjunct is read back by `isReal_of_all` at the argument's own shape. -/
theorem isReal_of_pre (a0 a1 a2 : FVec Ideal S2x2048x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 : FVec Ideal S1024 .f32) (a9 : FVec Ideal S1024x1024 .f32)
    (a10 : FVec Ideal S1024 .f32)
    (h : Cert.Pre_finite_inputs.fn (F := Ideal) a0 a1 a2 a3 a4 a5 a6 a7 a8 a9 a10 = fun _ => 1#1) :
    Cert.Spec.IsReal a0 ∧ Cert.Spec.IsReal a1 ∧ Cert.Spec.IsReal a2 ∧ Cert.Spec.IsReal a3 ∧ Cert.Spec.IsReal a4 ∧
    Cert.Spec.IsReal a5 ∧ Cert.Spec.IsReal a6 ∧ Cert.Spec.IsReal a7 ∧ Cert.Spec.IsReal a8 ∧ Cert.Spec.IsReal a9 ∧
    Cert.Spec.IsReal a10 := by
  have e := congrFun h ix0
  dsimp only [Cert.Pre_finite_inputs.fn, fn_part1, fn_part2, fn_part3, andi] at e
  simp only [IntOp.andi_eq_one] at e
  obtain ⟨⟨⟨⟨⟨⟨⟨⟨⟨⟨h0, h1⟩, h2⟩, h3⟩, h4⟩, h5⟩, h6⟩, h7⟩, h8⟩, h9⟩, h10⟩ := e
  exact ⟨isReal_of_all a0 _ _ _ h0, isReal_of_all a1 _ _ _ h1, isReal_of_all a2 _ _ _ h2,
    isReal_of_all a3 _ _ _ h3, isReal_of_all a4 _ _ _ h4, isReal_of_all a5 _ _ _ h5, isReal_of_all a6 _ _ _ h6,
    isReal_of_all a7 _ _ _ h7, isReal_of_all a8 _ _ _ h8, isReal_of_all a9 _ _ _ h9, isReal_of_all a10 _ _ _ h10⟩

end Cert.Finite
-- ==== Proof.Reals.lean ====
/-
  Realness is closed under the specification's linear layers.

  An array of extended reals "is real" when each of its entries is the image of a real number.  A finite sum of
  real numbers is a real number, a product of two real numbers is a real number, hence each entry of a linear
  layer `X · Wᵀ + b` of real arrays — a sum of 1024 products plus one bias entry — is a real number.
-/
import proofs.«161242_j13649406066792_2_alg».proof.Proof.Spec

namespace Cert.Reals

open Idealize.ShloMosaic Idealize.ShloMosaic.ValueIdx

/-- A finite sum of real numbers, taken in the extended reals, is a real number: the coercion commutes with
    each partial sum, by induction over the finite index set. -/
theorem isReal_sum {κ : Type*} [Fintype κ] (f : κ → EReal) (hf : ∀ k, ∃ r : ℝ, f k = r) :
    ∃ r : ℝ, ∑ k, f k = r := by
  classical
  choose g hg using hf
  have key : ∀ s : Finset κ, ∑ k ∈ s, f k = ((∑ k ∈ s, g k : ℝ) : EReal) := by
    intro s
    induction s using Finset.induction_on with
    | empty => simp
    | insert a s ha ih => rw [Finset.sum_insert ha, Finset.sum_insert ha, ih, hg a, EReal.coe_add]
  exact ⟨∑ k, g k, key Finset.univ⟩

/-- A product of two real numbers is a real number. -/
theorem isReal_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of two real numbers is a real number. -/
theorem isReal_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- The linear layer `X · Wᵀ + b` of real activations, real weights and a real bias is real. -/
theorem isReal_proj {X : Cert.Spec.SX.Idx → EReal} {W : Cert.Spec.SW.Idx → EReal} {b : Cert.Spec.SB.Idx → EReal}
    (hX : Cert.Spec.IsReal X) (hW : Cert.Spec.IsReal W) (hb : Cert.Spec.IsReal b) :
    Cert.Spec.IsReal (Cert.Spec.proj X W b) := by
  intro i
  exact isReal_add (isReal_sum _ fun d => isReal_mul (hX _) (hW _)) (hb _)

/-- The same layer in the flattened layout (rows 4096, weights transposed, bias a 1 × 1024 row) is real. -/
theorem isReal_linear {x : Cert.Spec.SF.Idx → EReal} {wT : Cert.Spec.SW.Idx → EReal} {b2 : Cert.Spec.SR.Idx → EReal}
    (hx : Cert.Spec.IsReal x) (hw : Cert.Spec.IsReal wT) (hb : Cert.Spec.IsReal b2) :
    Cert.Spec.IsReal (Cert.Spec.linear x wT b2) := by
  intro i
  exact isReal_add (isReal_sum _ fun d => isReal_mul (hx _) (hw _)) (hb _)

end Cert.Reals
-- ==== Proof.RefValue.lean ====
/-
  The reference program computes the specification's function.

  The reference is read one operation at a time: each linear layer is the specification's `proj`; the reshape into
  sixteen heads of width sixty-four followed by the exchange of the sequence and head axes reads entry (b, h, s, d) of
  a projected array at model column h · 64 + d; the scaled dot product of a query row with a key row inside a head
  is `score`; the maximum over the keys, taken from −∞, is `rowMax`; the exponential of a score measured from it is
  `expo`, its sum over the keys the softmax denominator and the quotient `prob`; the weighted sum of the value rows
  is `heads`; exchanging the axes back and merging them lays the heads side by side (`merged`); the last linear
  layer gives `G`.  Nothing here needs the entries to be finite: both sides are the same expression on the
  extended reals once the indices are identified.
-/
import proofs.«161242_j13649406066792_2_alg».proof.Proof.Gen.ReferenceIdeal.Run
import proofs.«161242_j13649406066792_2_alg».proof.Proof.Gen.ReferenceIdeal.Read
import proofs.«161242_j13649406066792_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The argument arrays' types as the reference's operations take them. -/
abbrev AX : Type := (⟨S2x2048x1024, .f32⟩ : BufTy).Contents (Elt Ideal)
abbrev AW : Type := (⟨S1024x1024, .f32⟩ : BufTy).Contents (Elt Ideal)
abbrev AB : Type := (⟨S1024, .f32⟩ : BufTy).Contents (Elt Ideal)

/-! ## The linear layers

The contraction of a linear layer at (b, s, e) runs over X (b, s, k) and W (e, k); the bias is read at e. -/

theorem lin_lidx_q (i : S2x2048x1024.Idx) (k : Fin 1024) : lidx_main_v0 i k = (ix3 (i 0) (i 1) k : Cert.Spec.SX.Idx) :=
  funext fun a => Fin.ext (by match a with | ⟨0, _⟩ => rfl | ⟨1, _⟩ => rfl | ⟨2, _⟩ => rfl)
theorem lin_ridx_q (i : S2x2048x1024.Idx) (k : Fin 1024) : ridx_main_v0 i k = (ix2 (i 2) k : Cert.Spec.SW.Idx) :=
  funext fun a => Fin.ext (by match a with | ⟨0, _⟩ => rfl | ⟨1, _⟩ => rfl)
theorem lin_bidx_q (i : S2x2048x1024.Idx) : idx_main_v1 (idx_main_v2 i) = (ix1 (i 2) : Cert.Spec.SB.Idx) :=
  funext fun a => Fin.ext (by match a with | ⟨0, _⟩ => rfl)

/-- The query projection is the specification's linear layer. -/
theorem lin_q (x : AX) (w : AW) (b : AB) : val_main_v3 (F := Ideal) x w b = Cert.Spec.proj x w b := by
  funext i
  rw [val_main_v3_apply, val_main_v0_apply, val_main_v2_apply, val_main_v1_apply]
  simp only [lin_lidx_q, lin_ridx_q, lin_bidx_q, Ideal.addf_def]
  rfl

theorem lin_lidx_k (i : S2x2048x1024.Idx) (k : Fin 1024) : lidx_main_v6 i k = (ix3 (i 0) (i 1) k : Cert.Spec.SX.Idx) :=
  funext fun a => Fin.ext (by match a with | ⟨0, _⟩ => rfl | ⟨1, _⟩ => rfl | ⟨2, _⟩ => rfl)
theorem lin_ridx_k (i : S2x2048x1024.Idx) (k : Fin 1024) : ridx_main_v6 i k = (ix2 (i 2) k : Cert.Spec.SW.Idx) :=
  funext fun a => Fin.ext (by match a with | ⟨0, _⟩ => rfl | ⟨1, _⟩ => rfl)
theorem lin_bidx_k (i : S2x2048x1024.Idx) : idx_main_v7 (idx_main_v8 i) = (ix1 (i 2) : Cert.Spec.SB.Idx) :=
  funext fun a => Fin.ext (by match a with | ⟨0, _⟩ => rfl)

/-- The key projection is the specification's linear layer. -/
theorem lin_k (x : AX) (w : AW) (b : AB) : val_main_v9 (F := Ideal) x w b = Cert.Spec.proj x w b := by
  funext i
  rw [val_main_v9_apply, val_main_v6_apply, val_main_v8_apply, val_main_v7_apply]
  simp only [lin_lidx_k, lin_ridx_k, lin_bidx_k, Ideal.addf_def]
  rfl

theorem lin_lidx_v (i : S2x2048x1024.Idx) (k : Fin 1024) : lidx_main_v12 i k = (ix3 (i 0) (i 1) k : Cert.Spec.SX.Idx) :=
  funext fun a => Fin.ext (by match a with | ⟨0, _⟩ => rfl | ⟨1, _⟩ => rfl | ⟨2, _⟩ => rfl)
theorem lin_ridx_v (i : S2x2048x1024.Idx) (k : Fin 1024) : ridx_main_v12 i k = (ix2 (i 2) k : Cert.Spec.SW.Idx) :=
  funext fun a => Fin.ext (by match a with | ⟨0, _⟩ => rfl | ⟨1, _⟩ => rfl)
theorem lin_bidx_v (i : S2x2048x1024.Idx) : idx_main_v13 (idx_main_v14 i) = (ix1 (i 2) : Cert.Spec.SB.Idx) :=
  funext fun a => Fin.ext (by match a with | ⟨0, _⟩ => rfl)

/-- The value projection is the specification's linear layer. -/
theorem lin_v (x : AX) (w : AW) (b : AB) : val_main_v15 (F := Ideal) x w b = Cert.Spec.proj x w b := by
  funext i
  rw [val_main_v15_apply, val_main_v12_apply, val_main_v14_apply, val_main_v13_apply]
  simp only [lin_lidx_v, lin_ridx_v, lin_bidx_v, Ideal.addf_def]
  rfl

/-! ## Into heads -/

/-- Splitting the 1024 columns into sixteen heads and exchanging the sequence and head axes: entry (b, h, s, d) is
    read at flat position ((b · 2048 + s) · 16 + h) · 64 + d, that is at (b, s, h · 64 + d). -/
theorem head_idx_q (b : Fin 2) (h : Fin 16) (s : Fin 2048) (d : Fin 64) :
    idx_main_v4 (idx_main_v5 (ix4 b h s d : S2x16x2048x64.Idx)) = (ix3 b s (Cert.Spec.col h d) : Cert.Spec.SX.Idx) := by
  have hb := b.isLt; have hh := h.isLt; have hs := s.isLt; have hd := d.isLt
  refine funext fun a => Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The query heads: entry (b, h, s, d) is the projected array at (b, s, h · 64 + d). -/
theorem head_q (x : AX) (w : AW) (bb : AB) (b : Fin 2) (h : Fin 16) (s : Fin 2048) (d : Fin 64) :
    val_main_v5 (F := Ideal) x w bb (ix4 b h s d) = Cert.Spec.proj x w bb (ix3 b s (Cert.Spec.col h d)) := by
  rw [val_main_v5_apply, val_main_v4_apply, head_idx_q, lin_q]

/-- Splitting the 1024 columns into sixteen heads and exchanging the sequence and head axes: entry (b, h, s, d) is
    read at flat position ((b · 2048 + s) · 16 + h) · 64 + d, that is at (b, s, h · 64 + d). -/
theorem head_idx_k (b : Fin 2) (h : Fin 16) (s : Fin 2048) (d : Fin 64) :
    idx_main_v10 (idx_main_v11 (ix4 b h s d : S2x16x2048x64.Idx)) = (ix3 b s (Cert.Spec.col h d) : Cert.Spec.SX.Idx) := by
  have hb := b.isLt; have hh := h.isLt; have hs := s.isLt; have hd := d.isLt
  refine funext fun a => Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The key heads: entry (b, h, s, d) is the projected array at (b, s, h · 64 + d). -/
theorem head_k (x : AX) (w : AW) (bb : AB) (b : Fin 2) (h : Fin 16) (s : Fin 2048) (d : Fin 64) :
    val_main_v11 (F := Ideal) x w bb (ix4 b h s d) = Cert.Spec.proj x w bb (ix3 b s (Cert.Spec.col h d)) := by
  rw [val_main_v11_apply, val_main_v10_apply, head_idx_k, lin_k]

/-- Splitting the 1024 columns into sixteen heads and exchanging the sequence and head axes: entry (b, h, s, d) is
    read at flat position ((b · 2048 + s) · 16 + h) · 64 + d, that is at (b, s, h · 64 + d). -/
theorem head_idx_v (b : Fin 2) (h : Fin 16) (s : Fin 2048) (d : Fin 64) :
    idx_main_v16 (idx_main_v17 (ix4 b h s d : S2x16x2048x64.Idx)) = (ix3 b s (Cert.Spec.col h d) : Cert.Spec.SX.Idx) := by
  have hb := b.isLt; have hh := h.isLt; have hs := s.isLt; have hd := d.isLt
  refine funext fun a => Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The value heads: entry (b, h, s, d) is the projected array at (b, s, h · 64 + d). -/
theorem head_v (x : AX) (w : AW) (bb : AB) (b : Fin 2) (h : Fin 16) (s : Fin 2048) (d : Fin 64) :
    val_main_v17 (F := Ideal) x w bb (ix4 b h s d) = Cert.Spec.proj x w bb (ix3 b s (Cert.Spec.col h d)) := by
  rw [val_main_v17_apply, val_main_v16_apply, head_idx_v, lin_v]

/-! ## Scores and softmax -/

section Softmax

variable (x0 x1 : AX) (x3 : AW) (x4 : AB) (x5 : AW) (x6 : AB)

/-- The score (b, h, i, j) contracts query row i and key row j of head h over the head's sixty-four positions. -/
theorem score_lidx (b : Fin 2) (h : Fin 16) (i j : Fin 2048) (k : Fin 64) :
    lidx_main_v18 (ix4 b h i j : S2x16x2048x2048.Idx) k = (ix4 b h i k : S2x16x2048x64.Idx) :=
  funext fun a => Fin.ext (by match a with | ⟨0, _⟩ => rfl | ⟨1, _⟩ => rfl | ⟨2, _⟩ => rfl | ⟨3, _⟩ => rfl)
theorem score_ridx (b : Fin 2) (h : Fin 16) (i j : Fin 2048) (k : Fin 64) :
    ridx_main_v18 (ix4 b h i j : S2x16x2048x2048.Idx) k = (ix4 b h j k : S2x16x2048x64.Idx) :=
  funext fun a => Fin.ext (by match a with | ⟨0, _⟩ => rfl | ⟨1, _⟩ => rfl | ⟨2, _⟩ => rfl | ⟨3, _⟩ => rfl)

/-- The scaled scores are the specification's. -/
theorem score_eq (b : Fin 2) (h : Fin 16) (i j : Fin 2048) :
    val_main_v21 (F := Ideal) x0 x1 x3 x4 x5 x6 (ix4 b h i j)
      = Cert.Spec.score (Cert.Spec.proj x0 x3 x4) (Cert.Spec.proj x1 x5 x6) b h i j := by
  rw [val_main_v21_apply, val_main_v18_apply, val_main_v20_apply, val_main_v19_apply, val_main_cst_apply]
  simp only [score_lidx, score_ridx, head_q, head_k, Ideal.hostDivf_def, Ideal.hostUnary_sqrt_def, Ideal.ofBits_def]
  rfl

/-- The word of −∞. -/
theorem neg_inf_word : Ideal.ofBits .f32 0xFF800000#32 = (⊥ : EReal) := by simp [Ideal.ofBits, Ideal.ieee]

/-- The index over (b, h, i) with key j inserted on the reduced axis. -/
theorem lift_idx (hr : S2x16x2048x2048.Reduces [3] S2x16x2048) (b : Fin 2) (h : Fin 16) (i : Fin 2048) (j : Fin 2048) :
    hr.lift (ix3 b h i : S2x16x2048.Idx) j = (ix4 b h i j : S2x16x2048x2048.Idx) :=
  funext fun a => Fin.ext (by match a with | ⟨0, _⟩ => rfl | ⟨1, _⟩ => rfl | ⟨2, _⟩ => rfl | ⟨3, _⟩ => rfl)

/-- The reduction with a maximum body over the key axis, from the −∞ word: the fold of `max` over the keys. -/
theorem reduce_max_eq (b : Fin 2) (h : Fin 16) (i : Fin 2048) :
    val_main_v22 (F := Ideal) x0 x1 x3 x4 x5 x6 (ix3 b h i)
      = (Finset.univ : Finset (Fin 2048)).fold max ⊥
          fun j => Cert.Spec.score (Cert.Spec.proj x0 x3 x4) (Cert.Spec.proj x1 x5 x6) b h i j := by
  have hs := score_eq x0 x1 x3 x4 x5 x6 b h
  unfold val_main_v22
  generalize val_main_v21 (F := Ideal) x0 x1 x3 x4 x5 x6 = y at hs ⊢
  have hr : S2x16x2048x2048.Reduces [3] S2x16x2048 := by decide
  refine (Host.reduce_eq_fold_single (FloatOps.maximumf (F := Ideal) (φ := .f32)) y _ _ hr h_S_ (ix3 b h i)).trans ?_
  rw [val_main_cst_0_apply, Ideal.ofBits_def, neg_inf_word]
  show (Finset.univ : Finset (Fin 2048)).fold max ⊥ (fun j : Fin 2048 => y (hr.lift (ix3 b h i) j)) = _
  exact Finset.fold_congr fun j _ => (congrArg y (lift_idx hr b h i j)).trans (hs i j)

/-- The maximum of that with −∞ again, as the reference writes it, is the specification's row maximum. -/
theorem rowmax_eq (b : Fin 2) (h : Fin 16) (i : Fin 2048) :
    val_main_v24 (F := Ideal) x0 x1 x3 x4 x5 x6 (ix3 b h i)
      = Cert.Spec.rowMax (Cert.Spec.proj x0 x3 x4) (Cert.Spec.proj x1 x5 x6) b h i := by
  rw [val_main_v24_apply, val_main_v23_apply, val_main_cst_1_apply, reduce_max_eq, Ideal.ofBits_def, neg_inf_word,
    Ideal.maximumf_def]
  rfl

/-- A row statistic (b, h, i) kept as a unit column and broadcast along the keys is read at (b, h, i). -/
theorem row_idx_max (b : Fin 2) (h : Fin 16) (i j : Fin 2048) :
    idx_main_v25 (idx_main_v26 (ix4 b h i j : S2x16x2048x2048.Idx)) = (ix3 b h i : S2x16x2048.Idx) :=
  funext fun a => Fin.ext (by match a with | ⟨0, _⟩ => rfl | ⟨1, _⟩ => rfl | ⟨2, _⟩ => rfl)
theorem row_idx_sum (b : Fin 2) (h : Fin 16) (i j : Fin 2048) :
    idx_main_v30 (idx_main_v31 (ix4 b h i j : S2x16x2048x2048.Idx)) = (ix3 b h i : S2x16x2048.Idx) :=
  funext fun a => Fin.ext (by match a with | ⟨0, _⟩ => rfl | ⟨1, _⟩ => rfl | ⟨2, _⟩ => rfl)

/-- The exponentials of the scores measured from the row maximum. -/
theorem expo_eq (b : Fin 2) (h : Fin 16) (i j : Fin 2048) :
    val_main_v28 (F := Ideal) x0 x1 x3 x4 x5 x6 (ix4 b h i j)
      = Cert.Spec.expo (Cert.Spec.proj x0 x3 x4) (Cert.Spec.proj x1 x5 x6) b h i j := by
  rw [val_main_v28_apply, val_main_v27_apply, val_main_v26_apply, val_main_v25_apply, row_idx_max, rowmax_eq, score_eq,
    Ideal.hostUnary_exp_def, Ideal.subf_def]
  rfl

/-- The sum over the keys starts from the zero word: it is the plain sum of the exponentials. -/
theorem den_idx (b : Fin 2) (h : Fin 16) (i : Fin 2048) (j : Fin 2048) :
    idx_main_v29 (ix3 b h i : S2x16x2048.Idx) j = (ix4 b h i j : S2x16x2048x2048.Idx) :=
  funext fun a => Fin.ext (by match a with | ⟨0, _⟩ => rfl | ⟨1, _⟩ => rfl | ⟨2, _⟩ => rfl | ⟨3, _⟩ => rfl)
theorem den_eq (b : Fin 2) (h : Fin 16) (i : Fin 2048) :
    val_main_v29 (F := Ideal) x0 x1 x3 x4 x5 x6 (ix3 b h i)
      = ∑ j : Fin 2048, Cert.Spec.expo (Cert.Spec.proj x0 x3 x4) (Cert.Spec.proj x1 x5 x6) b h i j := by
  rw [val_main_v29_apply, val_main_cst_2_apply, Ideal.ofBits_def, Ideal.ofBits_zero_f32, zero_add]
  simp only [den_idx, expo_eq]

/-- The softmax weights. -/
theorem prob_eq (b : Fin 2) (h : Fin 16) (i j : Fin 2048) :
    val_main_v32 (F := Ideal) x0 x1 x3 x4 x5 x6 (ix4 b h i j)
      = Cert.Spec.prob (Cert.Spec.proj x0 x3 x4) (Cert.Spec.proj x1 x5 x6) b h i j := by
  rw [val_main_v32_apply, val_main_v31_apply, val_main_v30_apply, row_idx_sum, den_eq, expo_eq, Ideal.hostDivf_def]
  rfl

end Softmax

/-! ## The weighted sum of the values, the heads merged back, the output layer -/

section Attention

variable (x0 x1 x2 : AX) (x3 : AW) (x4 : AB) (x5 : AW) (x6 : AB) (x7 : AW) (x8 : AB)

/-- Entry (b, h, i, d) of the attention output contracts the weights (b, h, i, j) with the values (b, h, j, d). -/
theorem att_lidx (b : Fin 2) (h : Fin 16) (i : Fin 2048) (d : Fin 64) (j : Fin 2048) :
    lidx_main_v33 (ix4 b h i d : S2x16x2048x64.Idx) j = (ix4 b h i j : S2x16x2048x2048.Idx) :=
  funext fun a => Fin.ext (by match a with | ⟨0, _⟩ => rfl | ⟨1, _⟩ => rfl | ⟨2, _⟩ => rfl | ⟨3, _⟩ => rfl)
theorem att_ridx (b : Fin 2) (h : Fin 16) (i : Fin 2048) (d : Fin 64) (j : Fin 2048) :
    ridx_main_v33 (ix4 b h i d : S2x16x2048x64.Idx) j = (ix4 b h j d : S2x16x2048x64.Idx) :=
  funext fun a => Fin.ext (by match a with | ⟨0, _⟩ => rfl | ⟨1, _⟩ => rfl | ⟨2, _⟩ => rfl | ⟨3, _⟩ => rfl)

/-- The softmax-weighted sum of the value rows. -/
theorem heads_eq (b : Fin 2) (h : Fin 16) (i : Fin 2048) (d : Fin 64) :
    val_main_v33 (F := Ideal) x0 x1 x2 x3 x4 x5 x6 x7 x8 (ix4 b h i d)
      = Cert.Spec.heads (Cert.Spec.proj x0 x3 x4) (Cert.Spec.proj x1 x5 x6) (Cert.Spec.proj x2 x7 x8) b h i d := by
  rw [val_main_v33_apply]
  simp only [att_lidx, att_ridx, prob_eq, head_v]
  rfl

/-- Exchanging the axes back and merging heads and positions: entry (b, s, c) sits at flat position
    (b · 2048 + s) · 1024 + c, that is at head c / 64, position c % 64 of row s. -/
theorem merge_idx (i : S2x2048x1024.Idx) :
    idx_main_v34 (idx_main_v35 i)
      = (ix4 (i 0) (Cert.Spec.headOf (i 2)) (i 1) (Cert.Spec.posOf (i 2)) : S2x16x2048x64.Idx) := by
  have h0 : (i 0).val < 2 := (i 0).isLt; have h1 : (i 1).val < 2048 := (i 1).isLt; have h2 : (i 2).val < 1024 := (i 2).isLt
  refine funext fun a => Fin.ext ?_
  match a with
  | ⟨0, _⟩ => show (((i 0).val * 2048 + (i 1).val) * 1024 + (i 2).val) / 2097152 = (i 0).val; omega
  | ⟨1, _⟩ => show (((i 0).val * 2048 + (i 1).val) * 1024 + (i 2).val) / 64 % 16 = (i 2).val / 64; omega
  | ⟨2, _⟩ => show (((i 0).val * 2048 + (i 1).val) * 1024 + (i 2).val) / 1024 % 2048 = (i 1).val; omega
  | ⟨3, _⟩ => show (((i 0).val * 2048 + (i 1).val) * 1024 + (i 2).val) % 64 = (i 2).val % 64; omega

/-- The heads side by side. -/
theorem merged_eq :
    val_main_v35 (F := Ideal) x0 x1 x2 x3 x4 x5 x6 x7 x8
      = Cert.Spec.merged (Cert.Spec.proj x0 x3 x4) (Cert.Spec.proj x1 x5 x6) (Cert.Spec.proj x2 x7 x8) := by
  funext i
  rw [val_main_v35_apply, val_main_v34_apply, merge_idx]
  exact heads_eq x0 x1 x2 x3 x4 x5 x6 x7 x8 (i 0) (Cert.Spec.headOf (i 2)) (i 1) (Cert.Spec.posOf (i 2))

theorem out_lidx (i : S2x2048x1024.Idx) (k : Fin 1024) : lidx_main_v36 i k = (ix3 (i 0) (i 1) k : Cert.Spec.SX.Idx) :=
  funext fun a => Fin.ext (by match a with | ⟨0, _⟩ => rfl | ⟨1, _⟩ => rfl | ⟨2, _⟩ => rfl)
theorem out_ridx (i : S2x2048x1024.Idx) (k : Fin 1024) : ridx_main_v36 i k = (ix2 (i 2) k : Cert.Spec.SW.Idx) :=
  funext fun a => Fin.ext (by match a with | ⟨0, _⟩ => rfl | ⟨1, _⟩ => rfl)
theorem out_bidx (i : S2x2048x1024.Idx) : idx_main_v37 (idx_main_v38 i) = (ix1 (i 2) : Cert.Spec.SB.Idx) :=
  funext fun a => Fin.ext (by match a with | ⟨0, _⟩ => rfl)

/-- The output layer applied to the merged heads: the reference's last value is the specification's function of the
    eleven arguments. -/
theorem out_eq (x9 : AW) (x10 : AB) :
    val_main_v39 (F := Ideal) x0 x1 x2 x3 x4 x5 x6 x7 x8 x9 x10 = Cert.Spec.G x0 x1 x2 x3 x4 x5 x6 x7 x8 x9 x10 := by
  funext i
  rw [val_main_v39_apply, val_main_v36_apply, val_main_v38_apply, val_main_v37_apply, merged_eq]
  simp only [out_lidx, out_ridx, out_bidx, Ideal.addf_def]
  rfl

end Attention

/-! ## The run's result -/

open Idealize.ShloMosaic.TcCoe Idealize.SL.Sem in
/-- The result buffer's term in the reference's run is the specification's function of the argument buffers. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v39 (F := Ideal) m c
      = Cert.Spec.G (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3))
          (m ((c.tc : Thread _ _).loc Cert.ReferenceIdeal.main_arg4)) (m ((c.tc : Thread _ _).loc Cert.ReferenceIdeal.main_arg5))
          (m ((c.tc : Thread _ _).loc Cert.ReferenceIdeal.main_arg6)) (m ((c.tc : Thread _ _).loc Cert.ReferenceIdeal.main_arg7))
          (m ((c.tc : Thread _ _).loc Cert.ReferenceIdeal.main_arg8)) (m ((c.tc : Thread _ _).loc Cert.ReferenceIdeal.main_arg9))
          (m ((c.tc : Thread _ _).loc Cert.ReferenceIdeal.main_arg10)) :=
  (val_main_v39_eq (F := Ideal) m c).trans (out_eq _ _ _ _ _ _ _ _ _ _ _)

end Cert.ReferenceIdeal.RefValue

end
-- ==== Proof.Final.lean ====
/-
  The equality of the results. For finite inputs every entry of the eleven arguments is a real number, so the three
  projections are real arrays; the kernel program's run ends with the result buffer at the attention call's output
  array, which for real projections is the specification `Spec.attnOut` of them, and through the host operations
  around the calls that is `Spec.G` of the arguments; the reference's run ends at `Spec.G` of its own arguments,
  which agree with the kernel's.
-/
import proofs.«161242_j13649406066792_2_alg».proof.Defs
import proofs.«161242_j13649406066792_2_alg».proof.Proof.Gen.KernelIdeal
import proofs.«161242_j13649406066792_2_alg».proof.Proof.Gen.ReferenceIdeal
import proofs.«161242_j13649406066792_2_alg».proof.Proof.Gen.Pre_finite_inputs
import proofs.«161242_j13649406066792_2_alg».proof.Proof.Gen.ReferenceIdeal.Run
import proofs.«161242_j13649406066792_2_alg».proof.Proof.RunAll
import proofs.«161242_j13649406066792_2_alg».proof.Proof.RunFrame
import proofs.«161242_j13649406066792_2_alg».proof.Proof.HostGlue
import proofs.«161242_j13649406066792_2_alg».proof.Proof.LinValue
import proofs.«161242_j13649406066792_2_alg».proof.Proof.AttnValue
import proofs.«161242_j13649406066792_2_alg».proof.Proof.Finite
import proofs.«161242_j13649406066792_2_alg».proof.Proof.Reals
import proofs.«161242_j13649406066792_2_alg».proof.Proof.RefValue

noncomputable section

namespace Cert.Proof.Final

open Idealize.ShloMosaic Idealize.ShloMosaic.TcCoe Idealize.SL.Sem
open Cert.KernelIdeal Cert.KernelIdeal.Run
open Cert.KernelIdeal.Gen hiding V0 V1 V2 V3 V4 V5 V6 V7 V8

/-- Under the precondition the kernel program's result buffer ends at the specification of the arguments. -/
theorem result_G (m : (ℓ : Loc nD τ sig) → Buf (Elt Ideal) ℓ)
    (hpre : Cert.Pre_KernelIdeal (hPre_finite_inputs := Cert.Pre_finite_inputs.Gen.facts) m) (c : Dev nD) :
    W8 m c (Proc.devRef .tc main_v18)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  obtain ⟨r0, r1, r2, r3, r4, r5, r6, r7, r8, _, _⟩ := Cert.Finite.isReal_of_pre _ _ _ _ _ _ _ _ _ _ _ (hpre c)
  have h0 := (W2_arr m c 3).trans (Cert.KernelIdeal.HandValue.arrAt0 (V1 m) c)
  have h1 := (W4_arr m c 3).trans (Cert.KernelIdeal.HandValue.arrAt1 (V3 m) c)
  have h2 := (W6_arr m c 3).trans (Cert.KernelIdeal.HandValue.arrAt2 (V5 m) c)
  have hq : Cert.Spec.IsReal (V7 m c main_v13) := by
    rw [Cert.KernelIdeal.Glue.q_eq m c h0]; exact Cert.Reals.isReal_proj r0 r3 r4
  have hk : Cert.Spec.IsReal (V7 m c main_v15) := by
    rw [Cert.KernelIdeal.Glue.k_eq m c h1]; exact Cert.Reals.isReal_proj r1 r5 r6
  have hv : Cert.Spec.IsReal (V7 m c main_v17) := by
    rw [Cert.KernelIdeal.Glue.v_eq m c h2]; exact Cert.Reals.isReal_proj r2 r7 r8
  have h3 := (W8_arr m c 5).trans (Cert.KernelIdeal.AttnValue.arrAt3 (V7 m) c hq hk hv)
  exact Cert.KernelIdeal.Glue.result_eq m c h0 h1 h2 h3

/-- For finite inputs the idealized kernel and the idealized reference, from memories agreeing on the arguments, end
    with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W8 m c (Proc.devRef .tc main_v18), ?_, ?_⟩
  · refine (θ_run Cert.KernelIdeal.defs _ _).mono (fun r h c => ?_) (run_all m ρ)
    have hb : ∀ b : Ref sig .tc, ¬ (Proc.devRef .tc b : DevRef τ sig).isScoped →
        r.2.mem ((c.tc : Thread nD τ).loc b) = W8 m c (Proc.devRef .tc b) := fun b hs =>
      h c _ (Finset.mem_filter.mpr ⟨StableHlo.devRef_mem_tcRefs b, hs⟩)
    exact ⟨hb main_v18 (by decide),
      (hb main_arg0 (by decide)).trans (W8_arg m c main_arg0 (by decide)),
      (hb main_arg1 (by decide)).trans (W8_arg m c main_arg1 (by decide)),
      (hb main_arg2 (by decide)).trans (W8_arg m c main_arg2 (by decide)),
      (hb main_arg3 (by decide)).trans (W8_arg m c main_arg3 (by decide)),
      (hb main_arg4 (by decide)).trans (W8_arg m c main_arg4 (by decide)),
      (hb main_arg5 (by decide)).trans (W8_arg m c main_arg5 (by decide)),
      (hb main_arg6 (by decide)).trans (W8_arg m c main_arg6 (by decide)),
      (hb main_arg7 (by decide)).trans (W8_arg m c main_arg7 (by decide)),
      (hb main_arg8 (by decide)).trans (W8_arg m c main_arg8 (by decide)),
      (hb main_arg9 (by decide)).trans (W8_arg m c main_arg9 (by decide)),
      (hb main_arg10 (by decide)).trans (W8_arg m c main_arg10 (by decide))⟩
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact (result_G m hpre c).symm

end Cert.Proof.Final

end
-- ==== Proof.lean ====
/-
  Multi-head attention over f32[2, 2048, 1024] with 16 heads of width 64: the kernel projects Q, K and V by three
  blocked matrix products with bias, then streams the keys in tiles of 512 per block of 256 queries, keeping per head a
  running maximum, a partition sum and a weighted sum of the values, and at the last tile divides, multiplies by the
  output weights and adds the output bias; the reference forms all scores, takes the two-pass softmax and multiplies.

  At the ideal instance the two agree for finite inputs: the kernel's scale, the exact eighth, is the reference's
  quotient by the square root of 64, and the streamed quotient is the two-pass softmax-weighted sum because the sums
  measured from one real reference point are those from another times a positive factor; both need the scores and
  values to be real numbers, which the precondition gives.

  The three frames: each kernel program's run (four stretches of host operations, four kernel regions) ends with every
  unscoped buffer at the contents followed through the eight items, and no item writes an argument; the reference's
  run read back says where its arguments end.  The idealization rewrote nothing.  The equality of the results is
  `Final.algebraic`.
-/
import proofs.«161242_j13649406066792_2_alg».proof.Defs
import proofs.«161242_j13649406066792_2_alg».proof.Proof.Gen.Kernel
import proofs.«161242_j13649406066792_2_alg».proof.Proof.Gen.KernelIdeal
import proofs.«161242_j13649406066792_2_alg».proof.Proof.Gen.ReferenceIdeal
import proofs.«161242_j13649406066792_2_alg».proof.Proof.Gen.Pre_finite_inputs
import proofs.«161242_j13649406066792_2_alg».proof.Proof.BitsRunFrame
import proofs.«161242_j13649406066792_2_alg».proof.Proof.RunFrame
import proofs.«161242_j13649406066792_2_alg».proof.Proof.RefFrame
import proofs.«161242_j13649406066792_2_alg».proof.Proof.Final
import Idealize.ShloMosaic.Adequacy
import Idealize.ShloMosaic.Init

noncomputable section

namespace Cert.Proof

open Idealize.ShloMosaic Idealize.SL.Sem

/-- The word-level kernel terminates, faults nowhere and leaves its arguments as launched. -/
theorem frame_p : Cert.frame_Kernel (hKernel := Cert.Kernel.Gen.facts) (hPre_finite_inputs := Cert.Pre_finite_inputs.Gen.facts) :=
  fun m ρ _ => Cert.Kernel.Run.frame m ρ

/-- The idealized kernel terminates, faults nowhere and leaves its arguments as launched. -/
theorem frame_pi : Cert.frame_KernelIdeal (hKernelIdeal := Cert.KernelIdeal.Gen.facts) (hPre_finite_inputs := Cert.Pre_finite_inputs.Gen.facts) :=
  fun m ρ _ => Cert.KernelIdeal.Run.frame m ρ

theorem claim : Cert.Claim :=
  ⟨Cert.Kernel.Gen.facts, Cert.KernelIdeal.Gen.facts, Cert.ReferenceIdeal.Gen.facts, Cert.Pre_finite_inputs.Gen.facts,
    frame_p, frame_pi, Cert.Proof.RefFrame.frame_ri, trivial, Cert.Proof.Final.algebraic⟩

end Cert.Proof

end
